-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S512x128 : Shape := ⟨2, ![512, 128]⟩
abbrev S512 : Shape := ⟨1, ![512]⟩
abbrev S4x512x512 : Shape := ⟨3, ![4, 512, 512]⟩
abbrev S4x512 : Shape := ⟨2, ![4, 512]⟩
abbrev S128x512 : Shape := ⟨2, ![128, 512]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S4x512x512 : S_.BroadcastsInDim S4x512x512 (![] : Fin 0 → Fin S4x512x512.rank)
  reducesTo_S4x512x512_S_d0_1_2 : S4x512x512.ReducesTo [0, 1, 2] S_
  bcast_S_S4x512 : S_.BroadcastsInDim S4x512 (![] : Fin 0 → Fin S4x512.rank)
  reducesTo_S4x512_S_d0_1 : S4x512.ReducesTo [0, 1] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S4x512x512 .f32) (main_arg5 : FVec F S4x512 .f32) (main_arg6 : FVec F S128x512 .f32) (main_arg7 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S4x512x512 .f32 := Host.absf main_arg4
  let main_cst_6 : FVec F S_ .f32 := constant S_ .f32 0x7F800000#32
  let main_v20 : FVec F S4x512x512 .f32 := broadcastInDim S4x512x512 ![] bcast_S_S4x512x512 main_cst_6
  let main_v21 : IVec S4x512x512 1 := cmpf .olt main_v19 main_v20
  let main_c_7 : IVec S_ 1 := constantI S_ 1 1#1
  let main_v22 : IVec S_ 1 := (fun x v => Host.reduce IntOp.andi x v reducesTo_S4x512x512_S_d0_1_2 h_S_) main_v21 main_c_7
  let main_v23 : IVec S_ 1 := andi main_v18 main_v22
  let main_v24 : FVec F S4x512 .f32 := Host.absf main_arg5
  let main_cst_8 : FVec F S_ .f32 := constant S_ .f32 0x7F800000#32
  let main_v25 : FVec F S4x512 .f32 := broadcastInDim S4x512 ![] bcast_S_S4x512 main_cst_8
  let main_v26 : IVec S4x512 1 := cmpf .olt main_v24 main_v25
  let main_c_9 : IVec S_ 1 := constantI S_ 1 1#1
  let main_v27 : IVec S_ 1 := (fun x v => Host.reduce IntOp.andi x v reducesTo_S4x512_S_d0_1 h_S_) main_v26 main_c_9
  let main_v28 : IVec S_ 1 := andi main_v23 main_v27
  let main_v29 : FVec F S128x512 .f32 := Host.absf main_arg6
  let main_cst_10 : FVec F S_ .f32 := constant S_ .f32 0x7F800000#32
  let main_v30 : FVec F S128x512 .f32 := broadcastInDim S128x512 ![] bcast_S_S128x512 main_cst_10
  let main_v31 : IVec S128x512 1 := cmpf .olt main_v29 main_v30
  let main_c_11 : IVec S_ 1 := constantI S_ 1 1#1
  let main_v32 : IVec S_ 1 := (fun x v => Host.reduce IntOp.andi x v reducesTo_S128x512_S_d0_1 h_S_) main_v31 main_c_11
  let main_v33 : IVec S_ 1 := andi main_v28 main_v32
  fn_part2 (F := F) main_arg7 main_v33

def fn {F : FTy → Type} [FloatOps F] (main_arg0 : FVec F S4096x128 .f32) (main_arg1 : FVec F S4096x128 .f32) (main_arg2 : FVec F S512x128 .f32) (main_arg3 : FVec F S512 .f32) (main_arg4 : FVec F S4x512x512 .f32) (main_arg5 : FVec F S4x512 .f32) (main_arg6 : FVec F S128x512 .f32) (main_arg7 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S4096x128 : Shape := ⟨2, ![4096, 128]⟩
abbrev S512x128 : Shape := ⟨2, ![512, 128]⟩
abbrev S512 : Shape := ⟨1, ![512]⟩
abbrev S4x512x512 : Shape := ⟨3, ![4, 512, 512]⟩
abbrev S4x512 : Shape := ⟨2, ![4, 512]⟩
abbrev S128x512 : Shape := ⟨2, ![128, 512]⟩
abbrev S128 : Shape := ⟨1, ![128]⟩
abbrev S1024x128 : Shape := ⟨2, ![1024, 128]⟩
abbrev S1024x512 : Shape := ⟨2, ![1024, 512]⟩
abbrev S1x512 : Shape := ⟨2, ![1, 512]⟩
abbrev S1x512x512 : Shape := ⟨3, ![1, 512, 512]⟩
abbrev S512x512 : Shape := ⟨2, ![512, 512]⟩
abbrev S1x128 : Shape := ⟨2, ![1, 128]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S16x1x4096 : Shape := ⟨3, ![16, 1, 4096]⟩
abbrev S256x1 : Shape := ⟨2, ![256, 1]⟩
abbrev S1x1x4096 : Shape := ⟨3, ![1, 1, 4096]⟩
abbrev S256x128 : Shape := ⟨2, ![256, 128]⟩
abbrev S256x4096 : Shape := ⟨2, ![256, 4096]⟩
abbrev S128x4096 : Shape := ⟨2, ![128, 4096]⟩
abbrev S256 : Shape := ⟨1, ![256]⟩
abbrev S16x4096 : Shape := ⟨2, ![16, 4096]⟩
abbrev S16x1x1 : Shape := ⟨3, ![16, 1, 1]⟩
abbrev S1x1x1 : Shape := ⟨3, ![1, 1, 1]⟩
abbrev S1x256x128 : Shape := ⟨3, ![1, 256, 128]⟩
abbrev S1 : Shape := ⟨1, ![1]⟩

abbrev nBuf : Space → Nat
  | .hbm => 53
  | .vmem => 44
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S512x128, .f32⟩
  | .hbm, ⟨3, _⟩ => ⟨S512, .f32⟩
  | .hbm, ⟨4, _⟩ => ⟨S4x512x512, .f32⟩
  | .hbm, ⟨5, _⟩ => ⟨S4x512, .f32⟩
  | .hbm, ⟨6, _⟩ => ⟨S128x512, .f32⟩
  | .hbm, ⟨7, _⟩ => ⟨S128, .f32⟩
  | .hbm, ⟨8, _⟩ => ⟨S4096x128, .f32⟩
  | .hbm, ⟨9, _⟩ => ⟨S4096x128, .f32⟩
  | .hbm, ⟨10, _⟩ => ⟨S_, .f32⟩
  | .hbm, ⟨11, _⟩ => ⟨S4096, .f32⟩
  | .hbm, ⟨12, _⟩ => ⟨S4096x128, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S1x4096, .f32⟩
  | .hbm, ⟨17, _⟩ => ⟨S1x4096, .f32⟩
  | .hbm, ⟨18, _⟩ => ⟨S4096x1, .f32⟩
  | .hbm, ⟨19, _⟩ => ⟨S4096x1, .f32⟩
  | .hbm, ⟨20, _⟩ => ⟨S16x1x4096, .f32⟩
  | .hbm, ⟨21, _⟩ => ⟨S16x1x4096, .f32⟩
  | .hbm, ⟨22, _⟩ => ⟨S16x1x4096, .f32⟩
  | .hbm, ⟨23, _⟩ => ⟨S16x1x4096, .f32⟩
  | .hbm, ⟨24, _⟩ => ⟨S16x4096, .f32⟩
  | .hbm, ⟨25, _⟩ => ⟨S16x4096, .f32⟩
  | .hbm, ⟨26, _⟩ => ⟨S_, .f32⟩
  | .hbm, ⟨27, _⟩ => ⟨S4096, .f32⟩
  | .hbm, ⟨28, _⟩ => ⟨S1x4096, .f32⟩
  | .hbm, ⟨29, _⟩ => ⟨S16x4096, .f32⟩
  | .hbm, ⟨30, _⟩ => ⟨S16x4096, .f32⟩
  | .hbm, ⟨31, _⟩ => ⟨S16x4096, .f32⟩
  | .hbm, ⟨32, _⟩ => ⟨S16x4096, .f32⟩
  | .hbm, ⟨33, _⟩ => ⟨S_, .f32⟩
  | .hbm, ⟨34, _⟩ => ⟨S4096, .f32⟩
  | .hbm, ⟨35, _⟩ => ⟨S1x4096, .f32⟩
  | .hbm, ⟨36, _⟩ => ⟨S16x4096, .f32⟩
  | .hbm, ⟨37, _⟩ => ⟨S16x4096, .f32⟩
  | .hbm, ⟨38, _⟩ => ⟨S_, .f32⟩
  | .hbm, ⟨39, _⟩ => ⟨S4096, .f32⟩
  | .hbm, ⟨40, _⟩ => ⟨S1x4096, .f32⟩
  | .hbm, ⟨41, _⟩ => ⟨S16x4096, .f32⟩
  | .hbm, ⟨42, _⟩ => ⟨S16x4096, .f32⟩
  | .hbm, ⟨43, _⟩ => ⟨S16x4096, .f32⟩
  | .hbm, ⟨44, _⟩ => ⟨S16x4096, .f32⟩
  | .hbm, ⟨45, _⟩ => ⟨S_, .f32⟩
  | .hbm, ⟨46, _⟩ => ⟨S4096, .f32⟩
  | .hbm, ⟨47, _⟩ => ⟨S1x4096, .f32⟩
  | .hbm, ⟨48, _⟩ => ⟨S16x1x1, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S512x128, .f32⟩
  | .local _ .vmem, ⟨3, _⟩ => ⟨S512, .f32⟩
  | .local _ .vmem, ⟨4, _⟩ => ⟨S4x512x512, .f32⟩
  | .local _ .vmem, ⟨5, _⟩ => ⟨S4x512, .f32⟩
  | .local _ .vmem, ⟨6, _⟩ => ⟨S128x512, .f32⟩
  | .local _ .vmem, ⟨7, _⟩ => ⟨S128, .f32⟩
  | .local _ .vmem, ⟨8, _⟩ => ⟨S1024x128, .f32⟩
  | .local _ .vmem, ⟨9, _⟩ => ⟨S1024x128, .f32⟩
  | .local _ .vmem, ⟨10, _⟩ => ⟨S4096x128, .f32⟩
  | .local _ .vmem, ⟨11, _⟩ => ⟨S4096x128, .f32⟩
  | .local _ .vmem, ⟨12, _⟩ => ⟨S256x1, .f32⟩
  | .local _ .vmem, ⟨13, _⟩ => ⟨S256x1, .f32⟩
  | .local _ .vmem, ⟨14, _⟩ => ⟨S1x4096, .f32⟩
  | .local _ .vmem, ⟨15, _⟩ => ⟨S1x4096, .f32⟩
  | .local _ .vmem, ⟨16, _⟩ => ⟨S256x1, .f32⟩
  | .local _ .vmem, ⟨17, _⟩ => ⟨S256x1, .f32⟩
  | .local _ .vmem, ⟨18, _⟩ => ⟨S256x1, .f32⟩
  | .local _ .vmem, ⟨19, _⟩ => ⟨S256x1, .f32⟩
  | .local _ .vmem, ⟨20, _⟩ => ⟨S1x1x4096, .f32⟩
  | .local _ .vmem, ⟨21, _⟩ => ⟨S1x1x4096, .f32⟩
  | .local _ .vmem, ⟨22, _⟩ => ⟨S1x1x4096, .f32⟩
  | .local _ .vmem, ⟨23, _⟩ => ⟨S1x1x4096, .f32⟩
  | .local _ .vmem, ⟨24, _⟩ => ⟨S1x1x4096, .f32⟩
  | .local _ .vmem, ⟨25, _⟩ => ⟨S1x1x4096, .f32⟩
  | .local _ .vmem, ⟨26, _⟩ => ⟨S1x1x4096, .f32⟩
  | .local _ .vmem, ⟨27, _⟩ => ⟨S1x1x4096, .f32⟩
  | .local _ .vmem, ⟨28, _⟩ => ⟨S4096x128, .f32⟩
  | .local _ .vmem, ⟨29, _⟩ => ⟨S4096x128, .f32⟩
  | .local _ .vmem, ⟨30, _⟩ => ⟨S256x1, .f32⟩
  | .local _ .vmem, ⟨31, _⟩ => ⟨S256x1, .f32⟩
  | .local _ .vmem, ⟨32, _⟩ => ⟨S1x4096, .f32⟩
  | .local _ .vmem, ⟨33, _⟩ => ⟨S1x4096, .f32⟩
  | .local _ .vmem, ⟨34, _⟩ => ⟨S256x1, .f32⟩
  | .local _ .vmem, ⟨35, _⟩ => ⟨S256x1, .f32⟩
  | .local _ .vmem, ⟨36, _⟩ => ⟨S256x1, .f32⟩
  | .local _ .vmem, ⟨37, _⟩ => ⟨S256x1, .f32⟩
  | .local _ .vmem, ⟨38, _⟩ => ⟨S1x4096, .f32⟩
  | .local _ .vmem, ⟨39, _⟩ => ⟨S1x4096, .f32⟩
  | .local _ .vmem, ⟨40, _⟩ => ⟨S1x4096, .f32⟩
  | .local _ .vmem, ⟨41, _⟩ => ⟨S1x4096, .f32⟩
  | .local _ .vmem, ⟨42, _⟩ => ⟨S1x1x1, .f32⟩
  | .local _ .vmem, ⟨43, _⟩ => ⟨S1x1x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev main_v8_5 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg10_0 : Ref sig .tc := ⟨.vmem, 41, rfl⟩
abbrev cc2_stg11_0 : Ref sig .tc := ⟨.vmem, 42, rfl⟩
abbrev cc2_stg11_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26
abbrev cc1_sem10_1 : DmaSem sig := 27
abbrev cc2_sem0_0 : DmaSem sig := 28
abbrev cc2_sem1_0 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem5_1 : DmaSem sig := 35
abbrev cc2_sem6_0 : DmaSem sig := 36
abbrev cc2_sem6_1 : DmaSem sig := 37
abbrev cc2_sem7_0 : DmaSem sig := 38
abbrev cc2_sem8_0 : DmaSem sig := 39
abbrev cc2_sem9_0 : DmaSem sig := 40
abbrev cc2_sem10_0 : DmaSem sig := 41
abbrev cc2_sem11_0 : DmaSem sig := 42
abbrev cc2_sem11_1 : DmaSem sig := 43

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def k1_mult1 (i : grid1.Coords) : BitVec 32 :=
  let arg0 : BitVec 32 := BitVec.ofNat 32 (i 0).val
  let c256_i32 : BitVec 32 := 256#32
  let v0 : BitVec 32 := Scalar.muli arg0 c256_i32
  v0
def k1_off1 (i : grid1.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v5 : Index := Scalar.indexCast v1
  let c0_3 : Index := 0#32
  ![v5.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S4096x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x4096 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1x4096 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x1x4096 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![16], ![false]⟩

def k2_mult1 (i : grid2.Coords) : BitVec 32 :=
  let arg0 : BitVec 32 := BitVec.ofNat 32 (i 0).val
  let c256_i32 : BitVec 32 := 256#32
  let v0 : BitVec 32 := Scalar.muli arg0 c256_i32
  v0
def k2_off1 (i : grid2.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v5 : Index := Scalar.indexCast v1
  let c0_3 : Index := 0#32
  ![v5.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S4096x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S4096x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x4096 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x4096 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x4096 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x4096 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x4096 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S1x1x1 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  inb_S1024x128_S1024x128_0_0 : ∀ a, (![0, 0] : Fin 2 → Nat) a + S1024x128.size a ≤ S1024x128.size a
  h_S1024x128 : 0 < S1024x128.numel
  inb_S512x128_S512x128_0_0 : ∀ a, (![0, 0] : Fin 2 → Nat) a + S512x128.size a ≤ S512x128.size a
  h_S512x128 : 0 < S512x128.numel
  transposes_S512x128_p1_0_S128x512 : S512x128.Transposes [1, 0] S128x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  transposes_S512x512_p1_0_S512x512 : S512x512.Transposes [1, 0] S512x512
  inb_S4x512_S1x512_0_0 : ∀ a, (![0, 0] : Fin 2 → Nat) a + S1x512.size a ≤ S4x512.size a
  h_S1x512 : 0 < S1x512.numel
  shapeCasts_S1x512_S512 : S1x512.ShapeCasts S512
  inb_S4x512x512_S1x512x512_1_0_0 : ∀ a, (![1, 0, 0] : Fin 3 → Nat) a + S1x512x512.size a ≤ S4x512x512.size a
  inb_S4x512_S1x512_1_0 : ∀ a, (![1, 0] : Fin 2 → Nat) a + S1x512.size a ≤ S4x512.size a
  inb_S4x512x512_S1x512x512_2_0_0 : ∀ a, (![2, 0, 0] : Fin 3 → Nat) a + S1x512x512.size a ≤ S4x512x512.size a
  inb_S4x512_S1x512_2_0 : ∀ a, (![2, 0] : Fin 2 → Nat) a + S1x512.size a ≤ S4x512.size a
  inb_S4x512x512_S1x512x512_3_0_0 : ∀ a, (![3, 0, 0] : Fin 3 → Nat) a + S1x512x512.size a ≤ S4x512x512.size a
  inb_S4x512_S1x512_3_0 : ∀ a, (![3, 0] : Fin 2 → Nat) a + S1x512.size a ≤ S4x512.size a
  inb_S128x512_S128x512_0_0 : ∀ a, (![0, 0] : Fin 2 → Nat) a + S128x512.size a ≤ S128x512.size a
  h_S128x512 : 0 < S128x512.numel
  transposes_S128x512_p1_0_S512x128 : S128x512.Transposes [1, 0] S512x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  reducesTo_S4096x128_S4096_d1 : S4096x128.ReducesTo [1] S4096
  h_S_ : 0 < S_.numel
  shapeCasts_S4096_S4096x1 : S4096.ShapeCasts S4096x1
  shapeCasts_S4096_S1x4096 : S4096.ShapeCasts S1x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  h_S256x128 : 0 < S256x128.numel
  shapeCasts_S256x128_S256x128 : S256x128.ShapeCasts S256x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S256x1_S256x4096 : S256x1.Broadcasts S256x4096
  broadcasts_S1x4096_S256x4096 : S1x4096.Broadcasts S256x4096
  transposes_S4096x128_p1_0_S128x4096 : S4096x128.Transposes [1, 0] S128x4096
  iota_S256x4096_d0_w32 : S256x4096.Iotas .tc 32 [0]
  iota_S256x4096_d1_w32 : S256x4096.Iotas .tc 32 [1]
  reduces_S256x4096_S256 : S256x4096.Reduces [1] S256
  shapeCasts_S256_S256x1 : S256.ShapeCasts S256x1
  reduces_S256x4096_S4096 : S256x4096.Reduces [0] S4096
  shapeCasts_S1x4096_S1x1x4096 : S1x4096.ShapeCasts S1x1x4096
  inb_S1x1x4096_S1x1x4096_0_0_0 : ∀ a, (![0, 0, 0] : Fin 3 → Nat) a + S1x1x4096.size a ≤ S1x1x4096.size a
  h_S1x1x4096 : 0 < S1x1x4096.numel
  shapeCasts_S16x1x4096_S16x4096 : S16x1x4096.ShapeCasts S16x4096
  reducesTo_S16x4096_S4096_d0 : S16x4096.ReducesTo [0] S4096
  bcast_S4096_S1x4096_1 : S4096.BroadcastsInDim S1x4096 (![1] : Fin 1 → Fin S1x4096.rank)
  bcast_S1x4096_S16x4096_0_1 : S1x4096.BroadcastsInDim S16x4096 (![0, 1] : Fin 2 → Fin S16x4096.rank)
  shapeCasts_S256x128_S1x256x128 : S256x128.ShapeCasts S1x256x128
  reduces_S1x256x128_S1 : S1x256x128.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  reducesTo_S16x1x1_S_d0_1_2 : S16x1x1.ReducesTo [0, 1, 2] S_
  dot_S1024x128_S128x512_S1024x512_1_0_0_1_n_n_wf : DotDims.WF S1024x128 S128x512 S1024x512 [1] [0] [0] [1] [] []
  dot_S1024x512_S512x512_S1024x512_1_0_0_1_n_n_wf : DotDims.WF S1024x512 S512x512 S1024x512 [1] [0] [0] [1] [] []
  dot_S1024x512_S512x128_S1024x128_1_0_0_1_n_n_wf : DotDims.WF S1024x512 S512x128 S1024x128 [1] [0] [0] [1] [] []
  dot_S256x128_S128x4096_S256x4096_1_0_0_1_n_n_wf : DotDims.WF S256x128 S128x4096 S256x4096 [1] [0] [0] [1] [] []
  dot_S256x4096_S4096x128_S256x128_1_0_0_1_n_n_wf : DotDims.WF S256x4096 S4096x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .f32 = 32 ∨ (Rect.block (s := S4096x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x512x512.size a ≤ S4x512x512.size a
  hwx0_3 : ∀ i : grid0.Coords, EltTy.bits .f32 = 32 ∨ (Rect.block (s := S4x512x512) S4x512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x512.size a ≤ S4x512.size a
  hwx0_4 : ∀ i : grid0.Coords, EltTy.bits .f32 = 32 ∨ (Rect.block (s := S4x512) S4x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .f32 = 32 ∨ (Rect.block (s := S128x512) S128x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S4096x128.size a
  hwx0_7 : ∀ i : grid0.Coords, EltTy.bits .f32 = 32 ∨ (Rect.block (s := S4096x128) S1024x128.size (cc0_transform_7 i) (hinb0_7 i)).WholeWords (EltTy.packing .f32)
  hrank1 : 0 < grid1.rank
  k1_mult1_dvd : ∀ i : grid1.Coords, 256 ∣ (k1_mult1 i).toNat
  k1_off1_inb : ∀ i : grid1.Coords, ∀ a, (k1_off1 i) a + S256x128.size a ≤ S4096x128.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S4096x128.size a
  hwx1_0 : ∀ i : grid1.Coords, EltTy.bits .f32 = 32 ∨ (Rect.block (s := S4096x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .f32 = 32 ∨ (Rect.block (s := S4096x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S4096x1.size a
  hwx1_2 : ∀ i : grid1.Coords, EltTy.bits .f32 = 32 ∨ (Rect.block (s := S4096x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S4096x1.size a
  hwx1_5 : ∀ i : grid1.Coords, EltTy.bits .f32 = 32 ∨ (Rect.block (s := S4096x1) S256x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x1.size a ≤ S4096x1.size a
  hwx1_6 : ∀ i : grid1.Coords, EltTy.bits .f32 = 32 ∨ (Rect.block (s := S4096x1) S256x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x4096.size a ≤ S16x1x4096.size a
  hwx1_7 : ∀ i : grid1.Coords, EltTy.bits .f32 = 32 ∨ (Rect.block (s := S16x1x4096) S1x1x4096.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x4096.size a ≤ S16x1x4096.size a
  hwx1_8 : ∀ i : grid1.Coords, EltTy.bits .f32 = 32 ∨ (Rect.block (s := S16x1x4096) S1x1x4096.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1x4096.size a ≤ S16x1x4096.size a
  hwx1_9 : ∀ i : grid1.Coords, EltTy.bits .f32 = 32 ∨ (Rect.block (s := S16x1x4096) S1x1x4096.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x1x4096.size a ≤ S16x1x4096.size a
  hwx1_10 : ∀ i : grid1.Coords, EltTy.bits .f32 = 32 ∨ (Rect.block (s := S16x1x4096) S1x1x4096.size (cc1_transform_10 i) (hinb1_10 i)).WholeWords (EltTy.packing .f32)
  hrank2 : 0 < grid2.rank
  k2_mult1_dvd : ∀ i : grid2.Coords, 256 ∣ (k2_mult1 i).toNat
  k2_off1_inb : ∀ i : grid2.Coords, ∀ a, (k2_off1 i) a + S256x128.size a ≤ S4096x128.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S4096x128.size a
  hwx2_0 : ∀ i : grid2.Coords, EltTy.bits .f32 = 32 ∨ (Rect.block (s := S4096x128) S4096x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S4096x128.size a
  hwx2_1 : ∀ i : grid2.Coords, EltTy.bits .f32 = 32 ∨ (Rect.block (s := S4096x128) S4096x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1.size a ≤ S4096x1.size a
  hwx2_2 : ∀ i : grid2.Coords, EltTy.bits .f32 = 32 ∨ (Rect.block (s := S4096x1) S256x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x4096.size a ≤ S1x4096.size a
  hwx2_3 : ∀ i : grid2.Coords, EltTy.bits .f32 = 32 ∨ (Rect.block (s := S1x4096) S1x4096.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x4096.size a ≤ S1x4096.size a
  hwx2_4 : ∀ i : grid2.Coords, EltTy.bits .f32 = 32 ∨ (Rect.block (s := S1x4096) S1x4096.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x1.size a ≤ S4096x1.size a
  hwx2_5 : ∀ i : grid2.Coords, EltTy.bits .f32 = 32 ∨ (Rect.block (s := S4096x1) S256x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x1.size a ≤ S4096x1.size a
  hwx2_6 : ∀ i : grid2.Coords, EltTy.bits .f32 = 32 ∨ (Rect.block (s := S4096x1) S256x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x4096.size a ≤ S1x4096.size a
  hwx2_7 : ∀ i : grid2.Coords, EltTy.bits .f32 = 32 ∨ (Rect.block (s := S1x4096) S1x4096.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x4096.size a ≤ S1x4096.size a
  hwx2_8 : ∀ i : grid2.Coords, EltTy.bits .f32 = 32 ∨ (Rect.block (s := S1x4096) S1x4096.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x4096.size a ≤ S1x4096.size a
  hwx2_9 : ∀ i : grid2.Coords, EltTy.bits .f32 = 32 ∨ (Rect.block (s := S1x4096) S1x4096.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x4096.size a ≤ S1x4096.size a
  hwx2_10 : ∀ i : grid2.Coords, EltTy.bits .f32 = 32 ∨ (Rect.block (s := S1x4096) S1x4096.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S1x1x1.size a ≤ S16x1x1.size a
  hwx2_11 : ∀ i : grid2.Coords, EltTy.bits .f32 = 32 ∨ (Rect.block (s := S16x1x1) S1x1x1.size (cc2_transform_11 i) (hinb2_11 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_arg1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4x512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S4x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0) S4096x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8_0) S256x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v8_1) S256x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v8_2) S1x1x4096.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v8_3) S1x1x4096.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v8_4) S1x1x4096.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v8_5) S1x1x4096.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v0) S4096x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S4096x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S256x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x4096.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S1x4096.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8_0) S256x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v8_1) S256x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v12) S1x4096.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v18) S1x4096.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v22) S1x4096.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v28) S1x4096.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v29) S1x1x1.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S4096x128 : Shape := ⟨2, ![4096, 128]⟩
abbrev S512x128 : Shape := ⟨2, ![512, 128]⟩
abbrev S512 : Shape := ⟨1, ![512]⟩
abbrev S4x512x512 : Shape := ⟨3, ![4, 512, 512]⟩
abbrev S4x512 : Shape := ⟨2, ![4, 512]⟩
abbrev S128x512 : Shape := ⟨2, ![128, 512]⟩
abbrev S128 : Shape := ⟨1, ![128]⟩
abbrev S4096x512 : Shape := ⟨2, ![4096, 512]⟩
abbrev S1x512 : Shape := ⟨2, ![1, 512]⟩
abbrev S1x512x512 : Shape := ⟨3, ![1, 512, 512]⟩
abbrev S512x512 : Shape := ⟨2, ![512, 512]⟩
abbrev S_ : Shape := ⟨0, ![]⟩
abbrev S1x128 : Shape := ⟨2, ![1, 128]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S128x4096 : Shape := ⟨2, ![128, 4096]⟩
abbrev S4096x8192 : Shape := ⟨2, ![4096, 8192]⟩
abbrev S8192 : Shape := ⟨1, ![8192]⟩
abbrev S1x8192 : Shape := ⟨2, ![1, 8192]⟩

abbrev nBuf : Space → Nat
  | .hbm => 213
  | .vmem => 0
  | .smem => 0
  | _ => 0

abbrev hbmTy0_0 (i : Nat) : BufTy := match i % 128 with
  | 0 => ⟨S4096x128, .f32⟩
  | 1 => ⟨S4096x128, .f32⟩
  | 2 => ⟨S512x128, .f32⟩
  | 3 => ⟨S512, .f32⟩
  | 4 => ⟨S4x512x512, .f32⟩
  | 5 => ⟨S4x512, .f32⟩
  | 6 => ⟨S128x512, .f32⟩
  | 7 => ⟨S128, .f32⟩
  | 8 => ⟨S128x512, .f32⟩
  | 9 => ⟨S4096x512, .f32⟩
  | 10 => ⟨S1x512, .f32⟩
  | 11 => ⟨S4096x512, .f32⟩
  | 12 => ⟨S4096x512, .f32⟩
  | 13 => ⟨S1x512x512, .f32⟩
  | 14 => ⟨S512x512, .f32⟩
  | 15 => ⟨S512x512, .f32⟩
  | 16 => ⟨S4096x512, .f32⟩
  | 17 => ⟨S1x512, .f32⟩
  | 18 => ⟨S512, .f32⟩
  | 19 => ⟨S1x512, .f32⟩
  | 20 => ⟨S4096x512, .f32⟩
  | 21 => ⟨S4096x512, .f32⟩
  | 22 => ⟨S_, .f32⟩
  | 23 => ⟨S4096x512, .f32⟩
  | 24 => ⟨S4096x512, .f32⟩
  | 25 => ⟨S4096x512, .f32⟩
  | 26 => ⟨S1x512x512, .f32⟩
  | 27 => ⟨S512x512, .f32⟩
  | 28 => ⟨S512x512, .f32⟩
  | 29 => ⟨S4096x512, .f32⟩
  | 30 => ⟨S1x512, .f32⟩
  | 31 => ⟨S512, .f32⟩
  | 32 => ⟨S1x512, .f32⟩
  | 33 => ⟨S4096x512, .f32⟩
  | 34 => ⟨S4096x512, .f32⟩
  | 35 => ⟨S_, .f32⟩
  | 36 => ⟨S4096x512, .f32⟩
  | 37 => ⟨S4096x512, .f32⟩
  | 38 => ⟨S4096x512, .f32⟩
  | 39 => ⟨S1x512x512, .f32⟩
  | 40 => ⟨S512x512, .f32⟩
  | 41 => ⟨S512x512, .f32⟩
  | 42 => ⟨S4096x512, .f32⟩
  | 43 => ⟨S1x512, .f32⟩
  | 44 => ⟨S512, .f32⟩
  | 45 => ⟨S1x512, .f32⟩
  | 46 => ⟨S4096x512, .f32⟩
  | 47 => ⟨S4096x512, .f32⟩
  | 48 => ⟨S_, .f32⟩
  | 49 => ⟨S4096x512, .f32⟩
  | 50 => ⟨S4096x512, .f32⟩
  | 51 => ⟨S4096x512, .f32⟩
  | 52 => ⟨S1x512x512, .f32⟩
  | 53 => ⟨S512x512, .f32⟩
  | 54 => ⟨S512x512, .f32⟩
  | 55 => ⟨S4096x512, .f32⟩
  | 56 => ⟨S1x512, .f32⟩
  | 57 => ⟨S512, .f32⟩
  | 58 => ⟨S1x512, .f32⟩
  | 59 => ⟨S4096x512, .f32⟩
  | 60 => ⟨S4096x512, .f32⟩
  | 61 => ⟨S_, .f32⟩
  | 62 => ⟨S4096x512, .f32⟩
  | 63 => ⟨S4096x512, .f32⟩
  | 64 => ⟨S4096x512, .f32⟩
  | 65 => ⟨S512x128, .f32⟩
  | 66 => ⟨S4096x128, .f32⟩
  | 67 => ⟨S1x128, .f32⟩
  | 68 => ⟨S4096x128, .f32⟩
  | 69 => ⟨S4096x128, .f32⟩
  | 70 => ⟨S4096x128, .f32⟩
  | 71 => ⟨S_, .f32⟩
  | 72 => ⟨S4096, .f32⟩
  | 73 => ⟨S4096x1, .f32⟩
  | 74 => ⟨S4096x128, .f32⟩
  | 75 => ⟨S_, .f32⟩
  | 76 => ⟨S4096, .f32⟩
  | 77 => ⟨S1x4096, .f32⟩
  | 78 => ⟨S4096x4096, .f32⟩
  | 79 => ⟨S4096x4096, .f32⟩
  | 80 => ⟨S4096x4096, .f32⟩
  | 81 => ⟨S128x4096, .f32⟩
  | 82 => ⟨S4096x4096, .f32⟩
  | 83 => ⟨S_, .f32⟩
  | 84 => ⟨S4096x4096, .f32⟩
  | 85 => ⟨S4096x4096, .f32⟩
  | 86 => ⟨S4096x4096, .f32⟩
  | 87 => ⟨S_, .f32⟩
  | 88 => ⟨S4096x4096, .f32⟩
  | 89 => ⟨S4096x4096, .f32⟩
  | 90 => ⟨S_, .f32⟩
  | 91 => ⟨S4096x4096, .f32⟩
  | 92 => ⟨S4096x4096, .i1⟩
  | 93 => ⟨S_, .f32⟩
  | 94 => ⟨S_, .f32⟩
  | 95 => ⟨S4096x4096, .f32⟩
  | 96 => ⟨S4096x4096, .f32⟩
  | 97 => ⟨S_, .f32⟩
  | 98 => ⟨S4096x4096, .f32⟩
  | 99 => ⟨S4096x4096, .i1⟩
  | 100 => ⟨S4096x4096, .f32⟩
  | 101 => ⟨S_, .f32⟩
  | 102 => ⟨S_, .f32⟩
  | 103 => ⟨S4096x4096, .f32⟩
  | 104 => ⟨S4096x4096, .f32⟩
  | 105 => ⟨S4096x128, .f32⟩
  | 106 => ⟨S_, .f32⟩
  | 107 => ⟨S4096, .f32⟩
  | 108 => ⟨S4096x1, .f32⟩
  | 109 => ⟨S4096x128, .f32⟩
  | 110 => ⟨S_, .f32⟩
  | 111 => ⟨S4096, .f32⟩
  | 112 => ⟨S1x4096, .f32⟩
  | 113 => ⟨S4096x4096, .f32⟩
  | 114 => ⟨S4096x4096, .f32⟩
  | 115 => ⟨S4096x4096, .f32⟩
  | 116 => ⟨S128x4096, .f32⟩
  | 117 => ⟨S4096x4096, .f32⟩
  | 118 => ⟨S_, .f32⟩
  | 119 => ⟨S4096x4096, .f32⟩
  | 120 => ⟨S4096x4096, .f32⟩
  | 121 => ⟨S4096x4096, .f32⟩
  | 122 => ⟨S_, .f32⟩
  | 123 => ⟨S4096x4096, .f32⟩
  | 124 => ⟨S4096x4096, .f32⟩
  | 125 => ⟨S_, .f32⟩
  | 126 => ⟨S4096x4096, .f32⟩
  | 127 => ⟨S4096x4096, .i1⟩
  | _ => ⟨S4096x128, .f32⟩

abbrev hbmTy0_1 (i : Nat) : BufTy := match i % 128 with
  | 0 => ⟨S_, .f32⟩
  | 1 => ⟨S_, .f32⟩
  | 2 => ⟨S4096x4096, .f32⟩
  | 3 => ⟨S4096x4096, .f32⟩
  | 4 => ⟨S_, .f32⟩
  | 5 => ⟨S4096x4096, .f32⟩
  | 6 => ⟨S4096x4096, .i1⟩
  | 7 => ⟨S4096x4096, .f32⟩
  | 8 => ⟨S_, .f32⟩
  | 9 => ⟨S_, .f32⟩
  | 10 => ⟨S4096x4096, .f32⟩
  | 11 => ⟨S4096x4096, .f32⟩
  | 12 => ⟨S4096x4096, .i32⟩
  | 13 => ⟨S4096x4096, .i32⟩
  | 14 => ⟨S_, .i32⟩
  | 15 => ⟨S4096x4096, .i32⟩
  | 16 => ⟨S4096x4096, .i32⟩
  | 17 => ⟨S4096x4096, .i1⟩
  | 18 => ⟨S4096x4096, .f32⟩
  | 19 => ⟨S_, .f32⟩
  | 20 => ⟨S4096x4096, .f32⟩
  | 21 => ⟨S4096x4096, .f32⟩
  | 22 => ⟨S4096x4096, .f32⟩
  | 23 => ⟨S4096x4096, .f32⟩
  | 24 => ⟨S_, .f32⟩
  | 25 => ⟨S4096x4096, .f32⟩
  | 26 => ⟨S4096x4096, .f32⟩
  | 27 => ⟨S4096x4096, .f32⟩
  | 28 => ⟨S_, .f32⟩
  | 29 => ⟨S4096x4096, .f32⟩
  | 30 => ⟨S4096x4096, .f32⟩
  | 31 => ⟨S4096x8192, .f32⟩
  | 32 => ⟨S_, .f32⟩
  | 33 => ⟨S4096, .f32⟩
  | 34 => ⟨S_, .f32⟩
  | 35 => ⟨S4096, .f32⟩
  | 36 => ⟨S4096, .f32⟩
  | 37 => ⟨S4096x1, .f32⟩
  | 38 => ⟨S4096x8192, .f32⟩
  | 39 => ⟨S4096x8192, .f32⟩
  | 40 => ⟨S4096x8192, .f32⟩
  | 41 => ⟨S_, .f32⟩
  | 42 => ⟨S4096, .f32⟩
  | 43 => ⟨S4096x1, .f32⟩
  | 44 => ⟨S4096x8192, .f32⟩
  | 45 => ⟨S4096x8192, .f32⟩
  | 46 => ⟨S_, .f32⟩
  | 47 => ⟨S8192, .f32⟩
  | 48 => ⟨S_, .f32⟩
  | 49 => ⟨S8192, .f32⟩
  | 50 => ⟨S8192, .f32⟩
  | 51 => ⟨S1x8192, .f32⟩
  | 52 => ⟨S4096x8192, .f32⟩
  | 53 => ⟨S4096x8192, .f32⟩
  | 54 => ⟨S4096x8192, .f32⟩
  | 55 => ⟨S_, .f32⟩
  | 56 => ⟨S8192, .f32⟩
  | 57 => ⟨S1x8192, .f32⟩
  | 58 => ⟨S4096x8192, .f32⟩
  | 59 => ⟨S4096x8192, .f32⟩
  | 60 => ⟨S4096x8192, .f32⟩
  | 61 => ⟨S4096x8192, .f32⟩
  | 62 => ⟨S4096x4096, .f32⟩
  | 63 => ⟨S4096x4096, .f32⟩
  | 64 => ⟨S_, .f32⟩
  | 65 => ⟨S4096, .f32⟩
  | 66 => ⟨S4096x1, .f32⟩
  | 67 => ⟨S_, .f32⟩
  | 68 => ⟨S4096, .f32⟩
  | 69 => ⟨S4096x1, .f32⟩
  | 70 => ⟨S4096x4096, .f32⟩
  | 71 => ⟨S4096x4096, .f32⟩
  | 72 => ⟨S4096x1, .f32⟩
  | 73 => ⟨S4096x4096, .f32⟩
  | 74 => ⟨S4096x4096, .f32⟩
  | 75 => ⟨S4096x128, .f32⟩
  | 76 => ⟨S4096x128, .f32⟩
  | 77 => ⟨S4096x128, .f32⟩
  | 78 => ⟨S4096x128, .f32⟩
  | 79 => ⟨S4096x128, .f32⟩
  | 80 => ⟨S4096x128, .f32⟩
  | 81 => ⟨S_, .f32⟩
  | 82 => ⟨S_, .f32⟩
  | 83 => ⟨S_, .f32⟩
  | 84 => ⟨S_, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call1_cst : Ref sig .tc := ⟨.hbm, 35, rfl⟩
abbrev main_call1_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call2_cst : Ref sig .tc := ⟨.hbm, 48, rfl⟩
abbrev main_call2_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_call3_cst : Ref sig .tc := ⟨.hbm, 61, rfl⟩
abbrev main_call3_v0 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_0 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_1 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_2 : Ref sig .tc := ⟨.hbm, 87, rfl⟩
abbrev main_v68 : Ref sig .tc := ⟨.hbm, 88, rfl⟩
abbrev main_v69 : Ref sig .tc := ⟨.hbm, 89, rfl⟩
abbrev main_cst_3 : Ref sig .tc := ⟨.hbm, 90, rfl⟩
abbrev main_v70 : Ref sig .tc := ⟨.hbm, 91, rfl⟩
abbrev main_v71 : Ref sig .tc := ⟨.hbm, 92, rfl⟩
abbrev main_cst_4 : Ref sig .tc := ⟨.hbm, 93, rfl⟩
abbrev main_call4_v0 : Ref sig .tc := ⟨.hbm, 94, rfl⟩
abbrev main_call4_v1 : Ref sig .tc := ⟨.hbm, 95, rfl⟩
abbrev main_v72 : Ref sig .tc := ⟨.hbm, 96, rfl⟩
abbrev main_cst_5 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_6 : Ref sig .tc := ⟨.hbm, 101, rfl⟩
abbrev main_call5_v0 : Ref sig .tc := ⟨.hbm, 102, rfl⟩
abbrev main_call5_v1 : Ref sig .tc := ⟨.hbm, 103, rfl⟩
abbrev main_v76 : Ref sig .tc := ⟨.hbm, 104, rfl⟩
abbrev main_v77 : Ref sig .tc := ⟨.hbm, 105, rfl⟩
abbrev main_cst_7 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_8 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_9 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_10 : Ref sig .tc := ⟨.hbm, 122, rfl⟩
abbrev main_v91 : Ref sig .tc := ⟨.hbm, 123, rfl⟩
abbrev main_v92 : Ref sig .tc := ⟨.hbm, 124, rfl⟩
abbrev main_cst_11 : Ref sig .tc := ⟨.hbm, 125, rfl⟩
abbrev main_v93 : Ref sig .tc := ⟨.hbm, 126, rfl⟩
abbrev main_v94 : Ref sig .tc := ⟨.hbm, 127, rfl⟩
abbrev main_cst_12 : Ref sig .tc := ⟨.hbm, 128, rfl⟩
abbrev main_call6_v0 : Ref sig .tc := ⟨.hbm, 129, rfl⟩
abbrev main_call6_v1 : Ref sig .tc := ⟨.hbm, 130, rfl⟩
abbrev main_v95 : Ref sig .tc := ⟨.hbm, 131, rfl⟩
abbrev main_cst_13 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_14 : Ref sig .tc := ⟨.hbm, 136, rfl⟩
abbrev main_call7_v0 : Ref sig .tc := ⟨.hbm, 137, rfl⟩
abbrev main_call7_v1 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_c : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_15 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_16 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_17 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_18 : Ref sig .tc := ⟨.hbm, 160, rfl⟩
abbrev main_v116 : Ref sig .tc := ⟨.hbm, 161, rfl⟩
abbrev main_cst_19 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_20 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_21 : Ref sig .tc := ⟨.hbm, 174, rfl⟩
abbrev main_v127 : Ref sig .tc := ⟨.hbm, 175, rfl⟩
abbrev main_cst_22 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_23 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_cst_24 : Ref sig .tc := ⟨.hbm, 192, rfl⟩
abbrev main_v142 : Ref sig .tc := ⟨.hbm, 193, rfl⟩
abbrev main_v143 : Ref sig .tc := ⟨.hbm, 194, rfl⟩
abbrev main_cst_25 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_cst_26 : Ref sig .tc := ⟨.hbm, 209, rfl⟩
abbrev main_v157 : Ref sig .tc := ⟨.hbm, 210, rfl⟩
abbrev main_cst_27 : Ref sig .tc := ⟨.hbm, 211, rfl⟩
abbrev main_v158 : Ref sig .tc := ⟨.hbm, 212, rfl⟩

abbrev nD : Nat := 1
abbrev τ : Topo := Topo.v7x

variable {F : FTy → Type} [FloatOps F]

class Facts₀ : Prop where
  transposes_S512x128_S128x512_1_0 : S512x128.Transposes [1, 0] S128x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  slices_S4x512x512_S1x512x512_0_0_0 : S4x512x512.Slices ![0, 0, 0] S1x512x512
  shapeCasts_S1x512x512_S512x512 : S1x512x512.ShapeCasts S512x512
  transposes_S512x512_S512x512_1_0 : S512x512.Transposes [1, 0] S512x512
  slices_S4x512_S1x512_0_0 : S4x512.Slices ![0, 0] S1x512
  shapeCasts_S1x512_S512 : S1x512.ShapeCasts S512
  bcast_S_S4096x512 : S_.BroadcastsInDim S4096x512 (![] : Fin 0 → Fin S4096x512.rank)
  slices_S4x512x512_S1x512x512_1_0_0 : S4x512x512.Slices ![1, 0, 0] S1x512x512
  slices_S4x512_S1x512_1_0 : S4x512.Slices ![1, 0] S1x512
  slices_S4x512x512_S1x512x512_2_0_0 : S4x512x512.Slices ![2, 0, 0] S1x512x512
  slices_S4x512_S1x512_2_0 : S4x512.Slices ![2, 0] S1x512
  slices_S4x512x512_S1x512x512_3_0_0 : S4x512x512.Slices ![3, 0, 0] S1x512x512
  slices_S4x512_S1x512_3_0 : S4x512.Slices ![3, 0] S1x512
  transposes_S128x512_S512x128_1_0 : S128x512.Transposes [1, 0] S512x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x128_S128x4096_1_0 : S4096x128.Transposes [1, 0] S128x4096
  bcast_S_S4096x4096 : S_.BroadcastsInDim S4096x4096 (![] : Fin 0 → Fin S4096x4096.rank)
  concatenates_S4096x4096_S4096x4096_S4096x8192_d1 : Shape.Concatenates [S4096x4096, S4096x4096] S4096x8192 1
  reducesTo_S4096x8192_S4096_d1 : S4096x8192.ReducesTo [1] S4096
  bcast_S_S4096 : S_.BroadcastsInDim S4096 (![] : Fin 0 → Fin S4096.rank)
  bcast_S4096x1_S4096x8192_0_1 : S4096x1.BroadcastsInDim S4096x8192 (![0, 1] : Fin 2 → Fin S4096x8192.rank)
  reducesTo_S4096x8192_S8192_d0 : S4096x8192.ReducesTo [0] S8192
  bcast_S_S8192 : S_.BroadcastsInDim S8192 (![] : Fin 0 → Fin S8192.rank)
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x4096_0_0 : S4096x8192.Slices ![0, 0] S4096x4096
  slices_S4096x8192_S4096x4096_0_4096 : S4096x8192.Slices ![0, 4096] S4096x4096
  reducesTo_S4096x4096_S4096_d1 : S4096x4096.ReducesTo [1] S4096
  reducesTo_S4096x128_S_d0_1 : S4096x128.ReducesTo [0, 1] S_
  dot_S4096x128_S128x512_S4096x512_1_0_0_1_n_n_wf : DotDims.WF S4096x128 S128x512 S4096x512 [1] [0] [0] [1] [] []
  dot_S4096x512_S512x512_S4096x512_1_0_0_1_n_n_wf : DotDims.WF S4096x512 S512x512 S4096x512 [1] [0] [0] [1] [] []
  dot_S4096x512_S512x128_S4096x128_1_0_0_1_n_n_wf : DotDims.WF S4096x512 S512x128 S4096x128 [1] [0] [0] [1] [] []
  dot_S4096x128_S128x4096_S4096x4096_1_0_0_1_n_n_wf : DotDims.WF S4096x128 S128x4096 S4096x4096 [1] [0] [0] [1] [] []
  dot_S4096x4096_S4096x128_S4096x128_1_0_0_1_n_n_wf : DotDims.WF S4096x4096 S4096x128 S4096x128 [1] [0] [0] [1] [] []

variable [Facts₀]

def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.KernelRun.lean ====
/-
  The idealized kernel's run with its result named. The program is three kernel regions among four stretches of
  host operations; its generated frame follows the buffer contents from the launch memory through every segment
  boundary (W0, W1, …, W6) and ends with every unscoped buffer at W6. Read at the result buffer instead of only at
  the arguments, the same run says that the scalar the program returns is W6's value there: the last stretch of
  host operations (the sum of the sixteen partial losses, divided by 4096·128) applied to what region 2 wrote back.
-/
import proofs.«125113_j88270167868072_2_alg».proof.Proof.Gen.KernelIdeal.Frame

set_option maxRecDepth 16384

noncomputable section

namespace Cert.KernelIdeal.Drift

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents `W6` at the result, and the argument arrays are as launched. -/
theorem run : θ_run defs (onTc (τ := τ) (main (F := F))) ⟨m, fun _ => 0, ρ⟩ (fun r => ∀ c : Dev nD,
      r.2.mem ((c.tc : Thread nD τ).loc main_v31) = W6 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v31 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Drift

end
-- ==== Proof.RefFold.lean ====
/-
  The reference's result is its last stage: the fold of the 205 host operations over the launch contents, read at the
  result buffer, is the composition of the operations' functions, stage by stage, applied to the eight argument arrays.
-/
import proofs.«125113_j88270167868072_2_alg».proof.Proof.RefRead

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 82000000 in
/-- The fold of the operations over the launch contents, read at the result buffer, is the last stage. -/
theorem val_main_v158_eq (m : (ℓ : Loc nD τ sig) → Buf (Elt F) ℓ) (c : Dev nD) :
    Cert.ReferenceIdeal.ValueP.res_main_v158 m c = val_main_v158 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.ValueP.res_main_v158
  after_results_simp <;> rfl

end Cert.ReferenceIdeal.ReadP

end
-- ==== Proof.DriftSpec.lean ====
/-
  The drifting-field loss, stated once on the extended reals at coordinates, in the two arrangements the two
  programs compute it in.

  Points: `x p` (generated) and `y j` (positives) are rows of 128 coordinates, 4096 of each. From the squared
  distances ‖x p‖² + ‖y j‖² − 2 x p · y j, clipped at 0, come the distances `dpos p j` (to the positives) and
  `dneg p j` (among the generated points, the diagonal pushed away by 10⁶), and the scores
  `apos = −dpos / 0.2`, `aneg = −dneg / 0.2`. A row of scores is the 8192 entries `apos p ·`, `aneg p ·`; a column is
  the 4096 entries `apos · j` (or `aneg · j`). The weight of an entry is the geometric mean of its softmax along
  its row and its softmax along its column.

  * The whole-array arrangement (`softPosR`, `softNegR`, `lossR`) takes both softmaxes literally:
    `√(exp(a − rmax)/rsum · exp(a − cmax)/csum)`, and the loss as the mean of `(x − (x + V))²`.
  * The tiled arrangement (`softPosK`, `softNegK`, `lossK`) cuts the 4096 rows into 16 tiles of 256, takes each
    column's maximum and exponential sum per tile, merges them (`cmax = max over tiles`,
    `csum = Σ_tiles lsum · exp(lmax − cmax)`), fuses the geometric mean into one exponential
    `exp(a − ½(rmax + cmax)) · rsum^{-1/2} · csum^{-1/2}`, and sums `V²` tile by tile.

  On real inputs the two are equal; this file only states them.
-/
import Idealize.ShloMosaic.PureOps.Ideal

noncomputable section

namespace Cert.DriftSpec

open Idealize.ShloMosaic
open scoped BigOperators

/-- The float literals of both programs, as the extended reals their words denote. -/
abbrev cTwo : EReal := Ideal.ofBits .f32 0x40000000#32
abbrev cFifth : EReal := Ideal.ofBits .f32 0x3E4CCCCD#32
abbrev cBig : EReal := Ideal.ofBits .f32 0x49742400#32
abbrev cHalf : EReal := Ideal.ofBits .f32 0x3F000000#32
abbrev cCount : EReal := Ideal.ofBits .f32 0x49000000#32

/-- The maximum of a finite family, folded from `-∞`. -/
def supF {n : ℕ} (f : Fin n → EReal) : EReal := (Finset.univ : Finset (Fin n)).fold max ⊥ f

/-- Row `r` of tile `t`: the tiles are 16 runs of 256 consecutive rows. -/
def row (t : Fin 16) (r : Fin 256) : Fin 4096 := ⟨256 * t.val + r.val, by omega⟩

section Scores

variable (x y : Fin 4096 → Fin 128 → EReal)

/-- The squared norm of row `p`. -/
def nrm (u : Fin 4096 → Fin 128 → EReal) (p : Fin 4096) : EReal := ∑ q : Fin 128, u p q * u p q

/-- The inner product of row `p` of `u` with row `j` of `v`. -/
def dot (u v : Fin 4096 → Fin 128 → EReal) (p j : Fin 4096) : EReal := ∑ q : Fin 128, u p q * v j q

/-- The squared distance, clipped at zero. -/
def d2 (u v : Fin 4096 → Fin 128 → EReal) (p j : Fin 4096) : EReal :=
  max (nrm u p + nrm v j - cTwo * dot u v p j) 0

/-- The square root that is `0` at `0` (and below). -/
def dist (z : EReal) : EReal := if 0 < z then Ideal.sqrt z else 0

def dpos (p j : Fin 4096) : EReal := dist (d2 x y p j)
def dnegRaw (p j : Fin 4096) : EReal := dist (d2 x x p j)
def dneg (p j : Fin 4096) : EReal := if p = j then dnegRaw x p j + cBig else dnegRaw x p j

def apos (p j : Fin 4096) : EReal := Ideal.div (-(dpos x y p j)) cFifth
def aneg (p j : Fin 4096) : EReal := Ideal.div (-(dneg x p j)) cFifth

/-- A row's maximum and exponential sum, over its 8192 scores. -/
def rmax (p : Fin 4096) : EReal := max (supF (apos x y p)) (supF (aneg x p))
def rsum (p : Fin 4096) : EReal :=
  (∑ j : Fin 4096, Ideal.exp (apos x y p j - rmax x y p)) + ∑ j : Fin 4096, Ideal.exp (aneg x p j - rmax x y p)

/-- A column's maximum and exponential sum over all 4096 rows, for any score array. -/
def cmax (a : Fin 4096 → Fin 4096 → EReal) (j : Fin 4096) : EReal := supF fun p => a p j
def csum (a : Fin 4096 → Fin 4096 → EReal) (j : Fin 4096) : EReal := ∑ p : Fin 4096, Ideal.exp (a p j - cmax a j)

/-- The same per tile, and merged over the tiles. -/
def lmax (a : Fin 4096 → Fin 4096 → EReal) (t : Fin 16) (j : Fin 4096) : EReal := supF fun r => a (row t r) j
def lsum (a : Fin 4096 → Fin 4096 → EReal) (t : Fin 16) (j : Fin 4096) : EReal :=
  ∑ r : Fin 256, Ideal.exp (a (row t r) j - lmax a t j)
def cmaxK (a : Fin 4096 → Fin 4096 → EReal) (j : Fin 4096) : EReal := supF fun t => lmax a t j
def csumK (a : Fin 4096 → Fin 4096 → EReal) (j : Fin 4096) : EReal :=
  ∑ t : Fin 16, lsum a t j * Ideal.exp (lmax a t j - cmaxK a j)

/-- The weight of an entry, whole-array arrangement: the square root of row softmax times column softmax. -/
def softR (a : Fin 4096 → Fin 4096 → EReal) (p j : Fin 4096) : EReal :=
  Ideal.sqrt (Ideal.div (Ideal.exp (a p j - rmax x y p)) (rsum x y p)
    * Ideal.div (Ideal.exp (a p j - cmax a j)) (csum a j))

/-- The weight of an entry, tiled arrangement: one exponential and two reciprocal square roots. -/
def softK (a : Fin 4096 → Fin 4096 → EReal) (p j : Fin 4096) : EReal :=
  Ideal.exp (a p j - cHalf * (rmax x y p + cmaxK a j)) * Ideal.rsqrt (rsum x y p) * Ideal.rsqrt (csumK a j)

/-- The drifting field from the two weight arrays: positives pull with weight `sp · Σ sn`, generated points push
    with weight `sn · (Σ sp · Σ sn)`. -/
def field (sp sn : Fin 4096 → Fin 4096 → EReal) (p : Fin 4096) (q : Fin 128) : EReal :=
  (∑ j : Fin 4096, (sp p j * ∑ k : Fin 4096, sn p k) * y j q)
    - ∑ j : Fin 4096, (sn p j * ((∑ k : Fin 4096, sp p k) * ∑ k : Fin 4096, sn p k)) * x j q

def fieldR : Fin 4096 → Fin 128 → EReal := field x y (softR x y (apos x y)) (softR x y (aneg x))
def fieldK : Fin 4096 → Fin 128 → EReal := field x y (softK x y (apos x y)) (softK x y (aneg x))

/-- The loss, whole-array arrangement: the mean of `(x − (x + V))²`. -/
def lossR : EReal :=
  Ideal.div (∑ p : Fin 4096, ∑ q : Fin 128,
    (x p q - (x p q + fieldR x y p q)) * (x p q - (x p q + fieldR x y p q))) cCount

/-- The loss, tiled arrangement: the sum over the tiles of each tile's sum of `V²`, over the count. -/
def lossK : EReal :=
  Ideal.div (∑ t : Fin 16, ∑ r : Fin 256, ∑ q : Fin 128, fieldK x y (row t r) q * fieldK x y (row t r) q) cCount

end Scores

end Cert.DriftSpec

end
-- ==== Proof.RefTailA.lean ====
/-
  The reference's tail, first part: from the generated points (kept as one opaque array) and the positives to the
  two arrays of scores, read at coordinates, and their concatenation along the rows.

  Each lemma reads one or a few consecutive operations of the reference at explicit coordinates and states the result
  in the words of the specification: squared norms, inner products, clipped squared distances, the zero-safe square
  root, the diagonal pushed away by the large constant, the negation and division by the temperature.
-/
import proofs.«125113_j88270167868072_2_alg».proof.Proof.RefRead
import proofs.«125113_j88270167868072_2_alg».proof.Proof.DriftSpec

noncomputable section

namespace Cert.ReferenceIdeal.RefTail

open Cert.ReferenceIdeal Cert.ReferenceIdeal.Gen Cert.ReferenceIdeal.ReadP Idealize.ShloMosaic Idealize.ShloMosaic.StableHlo
open Idealize.ShloMosaic.ValueIdx (ix0 ix1 ix2)
open Cert.DriftSpec
open scoped BigOperators

/-- Two indices of rank two with the same coordinates are equal. -/
local macro "idx2" : tactic => `(tactic| (funext a; match a with | ⟨0, _⟩ => rfl | ⟨1, _⟩ => rfl))
/-- The same at rank one. -/
local macro "idx1" : tactic => `(tactic| (funext a; match a with | ⟨0, _⟩ => rfl))

variable (x0 x1 : (⟨S4096x128, .f32⟩ : BufTy).Contents (Elt Ideal)) (x2 : (⟨S512x128, .f32⟩ : BufTy).Contents (Elt Ideal))
  (x3 : (⟨S512, .f32⟩ : BufTy).Contents (Elt Ideal)) (x4 : (⟨S4x512x512, .f32⟩ : BufTy).Contents (Elt Ideal))
  (x5 : (⟨S4x512, .f32⟩ : BufTy).Contents (Elt Ideal)) (x6 : (⟨S128x512, .f32⟩ : BufTy).Contents (Elt Ideal))
  (x7 : (⟨S128, .f32⟩ : BufTy).Contents (Elt Ideal))

/-- The generated points at coordinates (the stage before the tail, never opened). -/
abbrev X : Fin 4096 → Fin 128 → EReal := fun p q => val_main_v53 (F := Ideal) x1 x2 x3 x4 x5 x6 x7 (ix2 p q)
/-- The positives at coordinates. -/
abbrev Y : Fin 4096 → Fin 128 → EReal := fun p q => x0 (ix2 p q)

/-! ### Pure facts used by the layers -/

/-- The two `where`s around the square root: the root where the argument is positive, zero elsewhere. -/
theorem where_dist (z c : EReal) :
    Scalar.select (Ideal.cmp .ogt z 0) (Ideal.sqrt (Scalar.select (Ideal.cmp .ogt z 0) z c)) 0 = DriftSpec.dist z := by
  unfold DriftSpec.dist
  by_cases h : 0 < z
  · have e : Ideal.cmp .ogt z 0 = 1#1 := by simp [Ideal.cmp, h]
    rw [e, ValueIdx.select_one, ValueIdx.select_one, if_pos h]
  · have e : Ideal.cmp .ogt z 0 = 0#1 := by simp [Ideal.cmp, h]
    rw [e, ValueIdx.select_zero, if_neg h]

/-- The identity matrix's entry: the comparison of the two iotas, converted, is `1` on the diagonal and `0` off it. -/
theorem eye_word (p j : Fin 4096) :
    FloatOps.uitofp (F := Ideal) .f32 (IntOp.cmpi .eq (IntOp.addi (BitVec.ofNat 32 p.val) 0#32) (BitVec.ofNat 32 j.val))
      = if p = j then (1 : EReal) else 0 := by
  have h0 : IntOp.addi (BitVec.ofNat 32 p.val) 0#32 = BitVec.ofNat 32 p.val := by
    unfold IntOp.addi; exact BitVec.add_zero _
  rw [h0]
  by_cases h : p = j
  · subst h
    rw [if_pos rfl, (IntOp.cmpi_eq).2 rfl]
    show (((1#1 : BitVec 1).toNat : ℝ) : EReal) = 1
    simp
  · rw [if_neg h]
    have hne : IntOp.cmpi .eq (BitVec.ofNat 32 p.val) (BitVec.ofNat 32 j.val) ≠ 1#1 := fun e => h (by
      have hv := congrArg BitVec.toNat (IntOp.cmpi_eq.1 e)
      simp only [BitVec.toNat_ofNat] at hv
      have hp := p.isLt; have hj := j.isLt
      exact Fin.ext (by omega))
    have hz : IntOp.cmpi .eq (BitVec.ofNat 32 p.val) (BitVec.ofNat 32 j.val) = 0#1 := by
      rcases BitVec.eq_zero_or_eq_one (IntOp.cmpi .eq (BitVec.ofNat 32 p.val) (BitVec.ofNat 32 j.val)) with e | e
      · exact e
      · exact absurd e hne
    rw [hz]
    show (((0#1 : BitVec 1).toNat : ℝ) : EReal) = 0
    simp

/-- The word the program prints for `-∞`. -/
theorem ofBits_neg_inf : Ideal.ofBits .f32 0xFF800000#32 = (⊥ : EReal) := by simp [Ideal.ofBits, Ideal.ieee]

/-- The squared norms of the generated rows, first copy. -/
theorem s55 (p : Fin 4096) : val_main_v55 (F := Ideal) x1 x2 x3 x4 x5 x6 x7 (ix1 p) = nrm (X x1 x2 x3 x4 x5 x6 x7) p := by
  rw [val_main_v55_apply, val_main_cst_apply, Ideal.ofBits_def, Ideal.ofBits_zero_f32, zero_add]
  refine Finset.sum_congr rfl fun k _ => ?_
  rw [val_main_v54_apply, Ideal.mulf_def, show idx_main_v55 (ix1 p) k = ix2 p k from by idx2]

/-- The squared norms of the positives. -/
theorem s58 (j : Fin 4096) : val_main_v58 (F := Ideal) x0 (ix1 j) = nrm (Y x0) j := by
  rw [val_main_v58_apply, val_main_cst_0_apply, Ideal.ofBits_def, Ideal.ofBits_zero_f32, zero_add]
  refine Finset.sum_congr rfl fun k _ => ?_
  rw [val_main_v57_apply, Ideal.mulf_def, show idx_main_v58 (ix1 j) k = ix2 j k from by idx2]

/-- The inner products of generated rows with positives. -/
theorem s64 (p j : Fin 4096) : val_main_v64 (F := Ideal) x0 x1 x2 x3 x4 x5 x6 x7 (ix2 p j) = dot (X x1 x2 x3 x4 x5 x6 x7) (Y x0) p j := by
  rw [val_main_v64_apply]
  refine Finset.sum_congr rfl fun k _ => ?_
  rw [val_main_v63_apply, show lidx_main_v64 (ix2 p j) k = ix2 p k from by idx2,
    show idx_main_v63 (ridx_main_v64 (ix2 p j) k) = ix2 j k from by idx2]

/-- The sum of the two squared norms, broadcast to the square array. -/
theorem s62 (p j : Fin 4096) : val_main_v62 (F := Ideal) x0 x1 x2 x3 x4 x5 x6 x7 (ix2 p j) = nrm (X x1 x2 x3 x4 x5 x6 x7) p + nrm (Y x0) j := by
  rw [val_main_v62_apply, Ideal.addf_def, val_main_v60_apply, val_main_v56_apply, val_main_v61_apply, val_main_v59_apply,
    show idx_main_v56 (idx_main_v60 (ix2 p j)) = ix1 p from by idx1,
    show idx_main_v59 (idx_main_v61 (ix2 p j)) = ix1 j from by idx1, s55, s58]

/-- The clipped squared distance to the positives. -/
theorem s69 (p j : Fin 4096) : val_main_v69 (F := Ideal) x0 x1 x2 x3 x4 x5 x6 x7 (ix2 p j) = d2 (X x1 x2 x3 x4 x5 x6 x7) (Y x0) p j := by
  rw [val_main_v69_apply, val_main_v67_apply, val_main_v66_apply, val_main_v65_apply, val_main_cst_1_apply, val_main_v68_apply,
    val_main_cst_2_apply, s62, s64]
  simp only [Ideal.maximumf_def, Ideal.subf_def, Ideal.mulf_def, Ideal.ofBits_def, Ideal.ofBits_zero_f32]
  rfl

/-- The distance to the positives. -/
theorem s76 (p j : Fin 4096) : val_main_v76 (F := Ideal) x0 x1 x2 x3 x4 x5 x6 x7 (ix2 p j) = dpos (X x1 x2 x3 x4 x5 x6 x7) (Y x0) p j := by
  rw [val_main_v76_apply, val_main_v74_apply, val_main_v75_apply, val_main_v72_apply, val_main_v71_apply, val_main_v73_apply,
    val_main_v70_apply, val_main_call5_v1_apply, val_main_call4_v1_apply, val_main_call5_v0_apply, val_main_call4_v0_apply,
    val_main_cst_3_apply, val_main_cst_4_apply, val_main_cst_5_apply, val_main_cst_6_apply, s69]
  simp only [Ideal.cmpf_def, Ideal.hostUnary_sqrt_def, Ideal.ofBits_def, Ideal.ofBits_zero_f32]
  exact where_dist _ _

/-- The scores against the positives. -/
theorem s111 (p j : Fin 4096) : val_main_v111 (F := Ideal) x0 x1 x2 x3 x4 x5 x6 x7 (ix2 p j) = apos (X x1 x2 x3 x4 x5 x6 x7) (Y x0) p j := by
  rw [val_main_v111_apply, val_main_v109_apply, val_main_v110_apply, val_main_cst_16_apply, s76]
  simp only [Ideal.hostDivf_def, Ideal.hostNegf_def, Ideal.negf_def, Ideal.ofBits_def]
  rfl

/-- The squared norms of the generated rows, second and third copies. -/
theorem s78 (p : Fin 4096) : val_main_v78 (F := Ideal) x1 x2 x3 x4 x5 x6 x7 (ix1 p) = nrm (X x1 x2 x3 x4 x5 x6 x7) p := by
  rw [val_main_v78_apply, val_main_cst_7_apply, Ideal.ofBits_def, Ideal.ofBits_zero_f32, zero_add]
  refine Finset.sum_congr rfl fun k _ => ?_
  rw [val_main_v77_apply, Ideal.mulf_def, show idx_main_v78 (ix1 p) k = ix2 p k from by idx2]

theorem s81 (j : Fin 4096) : val_main_v81 (F := Ideal) x1 x2 x3 x4 x5 x6 x7 (ix1 j) = nrm (X x1 x2 x3 x4 x5 x6 x7) j := by
  rw [val_main_v81_apply, val_main_cst_8_apply, Ideal.ofBits_def, Ideal.ofBits_zero_f32, zero_add]
  refine Finset.sum_congr rfl fun k _ => ?_
  rw [val_main_v80_apply, Ideal.mulf_def, show idx_main_v81 (ix1 j) k = ix2 j k from by idx2]

/-- The inner products among the generated rows. -/
theorem s87 (p j : Fin 4096) : val_main_v87 (F := Ideal) x1 x2 x3 x4 x5 x6 x7 (ix2 p j) = dot (X x1 x2 x3 x4 x5 x6 x7) (X x1 x2 x3 x4 x5 x6 x7) p j := by
  rw [val_main_v87_apply]
  refine Finset.sum_congr rfl fun k _ => ?_
  rw [val_main_v86_apply, show lidx_main_v87 (ix2 p j) k = ix2 p k from by idx2,
    show idx_main_v86 (ridx_main_v87 (ix2 p j) k) = ix2 j k from by idx2]

theorem s85 (p j : Fin 4096) : val_main_v85 (F := Ideal) x1 x2 x3 x4 x5 x6 x7 (ix2 p j) = nrm (X x1 x2 x3 x4 x5 x6 x7) p + nrm (X x1 x2 x3 x4 x5 x6 x7) j := by
  rw [val_main_v85_apply, Ideal.addf_def, val_main_v83_apply, val_main_v79_apply, val_main_v84_apply, val_main_v82_apply,
    show idx_main_v79 (idx_main_v83 (ix2 p j)) = ix1 p from by idx1,
    show idx_main_v82 (idx_main_v84 (ix2 p j)) = ix1 j from by idx1, s78, s81]

/-- The clipped squared distance among the generated points. -/
theorem s92 (p j : Fin 4096) : val_main_v92 (F := Ideal) x1 x2 x3 x4 x5 x6 x7 (ix2 p j) = d2 (X x1 x2 x3 x4 x5 x6 x7) (X x1 x2 x3 x4 x5 x6 x7) p j := by
  rw [val_main_v92_apply, val_main_v90_apply, val_main_v89_apply, val_main_v88_apply, val_main_cst_9_apply, val_main_v91_apply,
    val_main_cst_10_apply, s85, s87]
  simp only [Ideal.maximumf_def, Ideal.subf_def, Ideal.mulf_def, Ideal.ofBits_def, Ideal.ofBits_zero_f32]
  rfl

/-- The distance among the generated points, before the diagonal is pushed away. -/
theorem s99 (p j : Fin 4096) : val_main_v99 (F := Ideal) x1 x2 x3 x4 x5 x6 x7 (ix2 p j) = dnegRaw (X x1 x2 x3 x4 x5 x6 x7) p j := by
  rw [val_main_v99_apply, val_main_v97_apply, val_main_v98_apply, val_main_v95_apply, val_main_v94_apply, val_main_v96_apply,
    val_main_v93_apply, val_main_call7_v1_apply, val_main_call6_v1_apply, val_main_call7_v0_apply, val_main_call6_v0_apply,
    val_main_cst_11_apply, val_main_cst_12_apply, val_main_cst_13_apply, val_main_cst_14_apply, s92]
  simp only [Ideal.cmpf_def, Ideal.hostUnary_sqrt_def, Ideal.ofBits_def, Ideal.ofBits_zero_f32]
  exact where_dist _ _

/-- The identity matrix times the large constant: the constant on the diagonal, zero off it. -/
theorem s107 (p j : Fin 4096) : val_main_v107 (F := Ideal) (ix2 p j) = if p = j then cBig else 0 := by
  rw [val_main_v107_apply, val_main_v105_apply, val_main_v104_apply, val_main_v103_apply, val_main_v100_apply, val_main_v101_apply,
    val_main_v102_apply, val_main_c_apply, val_main_v106_apply, val_main_cst_15_apply]
  show FloatOps.mulf (FloatOps.uitofp (F := Ideal) .f32 (IntOp.cmpi .eq (IntOp.addi (BitVec.ofNat 32 p.val) 0#32) (BitVec.ofNat 32 j.val)))
    (FloatOps.ofBits (F := Ideal) .f32 0x49742400#32) = _
  rw [eye_word, Ideal.mulf_def, Ideal.ofBits_def]
  by_cases h : p = j
  · rw [if_pos h, if_pos h, one_mul]
  · rw [if_neg h, if_neg h, zero_mul]

/-- The distance among the generated points with the diagonal pushed away. -/
theorem s108 (p j : Fin 4096) : val_main_v108 (F := Ideal) x1 x2 x3 x4 x5 x6 x7 (ix2 p j) = dneg (X x1 x2 x3 x4 x5 x6 x7) p j := by
  rw [val_main_v108_apply, Ideal.addf_def, s99, s107]
  unfold dneg
  by_cases h : p = j
  · rw [if_pos h, if_pos h]
  · rw [if_neg h, if_neg h, add_zero]

/-- The scores among the generated points. -/
theorem s114 (p j : Fin 4096) : val_main_v114 (F := Ideal) x1 x2 x3 x4 x5 x6 x7 (ix2 p j) = aneg (X x1 x2 x3 x4 x5 x6 x7) p j := by
  rw [val_main_v114_apply, val_main_v112_apply, val_main_v113_apply, val_main_cst_17_apply, s108]
  simp only [Ideal.hostDivf_def, Ideal.hostNegf_def, Ideal.negf_def, Ideal.ofBits_def]
  rfl

/-- The two halves of a row of 8192 scores. -/
abbrev colL (k : Fin 4096) : Fin 8192 := ⟨k.val, by omega⟩
abbrev colR (k : Fin 4096) : Fin 8192 := ⟨4096 + k.val, by omega⟩

/-- The concatenated scores: the left half is the scores against the positives. -/
theorem s115L (p k : Fin 4096) : val_main_v115 (F := Ideal) x0 x1 x2 x3 x4 x5 x6 x7 (ix2 p (colL k)) = apos (X x1 x2 x3 x4 x5 x6 x7) (Y x0) p k := by
  unfold val_main_v115
  refine (concatenate_pair_apply_left _ _ _ concatenates_S4096x4096_S4096x4096_S4096x8192_d1 (ix2 p (colL k)) rfl (ix2 p k)
    (fun b => by match b with | ⟨0, _⟩ => rfl | ⟨1, _⟩ => rfl)).trans ?_
  exact s111 x0 x1 x2 x3 x4 x5 x6 x7 p k

/-- The right half is the scores among the generated points. -/
theorem s115R (p k : Fin 4096) : val_main_v115 (F := Ideal) x0 x1 x2 x3 x4 x5 x6 x7 (ix2 p (colR k)) = aneg (X x1 x2 x3 x4 x5 x6 x7) p k := by
  unfold val_main_v115
  refine (concatenate_pair_apply_right _ _ _ concatenates_S4096x4096_S4096x4096_S4096x8192_d1 (ix2 p (colR k)) rfl rfl (ix2 p k)
    (fun b hb => by match b, hb with | ⟨0, _⟩, _ => rfl | ⟨1, _⟩, hb => exact absurd rfl hb)
    (by show k.val + 4096 = 4096 + k.val; omega)).trans ?_
  exact s114 x1 x2 x3 x4 x5 x6 x7 p k

end Cert.ReferenceIdeal.RefTail

end
-- ==== Proof.RefTail.lean ====
/-
  The reference's tail, second part: from the concatenated scores to the loss.

  The row statistics (each row's maximum and exponential sum over its 8192 scores, split into the two halves), the
  column statistics (each column's maximum and exponential sum over the 4096 rows), the weights as the root of the
  product of the two softmaxes, their row sums, the drifting field as two products with the points, and the mean of
  the squared difference between the generated points and their targets: the whole-array loss of the specification.
-/
import proofs.«125113_j88270167868072_2_alg».proof.Proof.RefTailA

noncomputable section

namespace Cert.ReferenceIdeal.RefTail

open Cert.ReferenceIdeal Cert.ReferenceIdeal.Gen Cert.ReferenceIdeal.ReadP Idealize.ShloMosaic Idealize.ShloMosaic.StableHlo
open Idealize.ShloMosaic.ValueIdx (ix0 ix1 ix2)
open Cert.DriftSpec
open scoped BigOperators

/-- Two indices of rank two with the same coordinates are equal. -/
local macro "idx2" : tactic => `(tactic| (funext a; match a with | ⟨0, _⟩ => rfl | ⟨1, _⟩ => rfl))
/-- The same at rank one. -/
local macro "idx1" : tactic => `(tactic| (funext a; match a with | ⟨0, _⟩ => rfl))

variable (x0 x1 : (⟨S4096x128, .f32⟩ : BufTy).Contents (Elt Ideal)) (x2 : (⟨S512x128, .f32⟩ : BufTy).Contents (Elt Ideal))
  (x3 : (⟨S512, .f32⟩ : BufTy).Contents (Elt Ideal)) (x4 : (⟨S4x512x512, .f32⟩ : BufTy).Contents (Elt Ideal))
  (x5 : (⟨S4x512, .f32⟩ : BufTy).Contents (Elt Ideal)) (x6 : (⟨S128x512, .f32⟩ : BufTy).Contents (Elt Ideal))
  (x7 : (⟨S128, .f32⟩ : BufTy).Contents (Elt Ideal))

/-! ### Pure facts: a row of 8192 splits into its two halves -/

/-- A maximum over a row of 8192 is the larger of the maxima over its two halves. -/
theorem fold_max_split (f : Fin 8192 → EReal) :
    (Finset.univ : Finset (Fin 8192)).fold max ⊥ f
      = max (supF fun k : Fin 4096 => f (colL k)) (supF fun k : Fin 4096 => f (colR k)) := by
  refine eq_of_forall_ge_iff fun c => ?_
  unfold supF
  rw [Finset.fold_max_le, max_le_iff, Finset.fold_max_le, Finset.fold_max_le]
  constructor
  · rintro ⟨_, h⟩
    exact ⟨⟨bot_le, fun k _ => h _ (Finset.mem_univ _)⟩, ⟨bot_le, fun k _ => h _ (Finset.mem_univ _)⟩⟩
  · rintro ⟨⟨_, hl⟩, ⟨_, hr⟩⟩
    refine ⟨bot_le, fun x _ => ?_⟩
    by_cases hx : x.val < 4096
    · have e : x = colL ⟨x.val, hx⟩ := Fin.ext rfl
      rw [e]; exact hl _ (Finset.mem_univ _)
    · have hx' := x.isLt
      have e : x = colR ⟨x.val - 4096, by omega⟩ := Fin.ext (by show x.val = 4096 + (x.val - 4096); omega)
      rw [e]; exact hr _ (Finset.mem_univ _)

/-- A sum over a row of 8192 is the sum of the sums over its two halves. -/
theorem sum_split (f : Fin 8192 → EReal) :
    ∑ k : Fin 8192, f k = (∑ k : Fin 4096, f (colL k)) + ∑ k : Fin 4096, f (colR k) :=
  @Fin.sum_univ_add EReal _ 4096 4096 f

/-- The host's maximum along a row of the [4096, 8192] array, from `-∞`. -/
theorem reduce_max_row (x : (⟨S4096x8192, .f32⟩ : BufTy).Contents (Elt Ideal)) (init : (⟨S_, .f32⟩ : BufTy).Contents (Elt Ideal)) (hinit : init (Shape.Idx.first h_S_) = (⊥ : EReal)) (p : Fin 4096) :
    Host.reduce (FloatOps.maximumf (F := Ideal) (φ := .f32)) x init reducesTo_S4096x8192_S4096_d1 h_S_ (ix1 p)
      = max (supF fun k : Fin 4096 => x (ix2 p (colL k))) (supF fun k : Fin 4096 => x (ix2 p (colR k))) := by
  rw [Host.reduce_eq_fold_single _ x init reducesTo_S4096x8192_S4096_d1 (by decide) h_S_, hinit]
  have hf : (x ∘ (by decide : S4096x8192.Reduces [1] S4096).lift (ix1 p)) = fun k : Fin 8192 => x (ix2 p k) :=
    funext fun k => congrArg x (by idx2)
  refine (congrArg (fun f => Finset.fold max (⊥ : EReal) f (Finset.univ : Finset (Fin 8192))) hf).trans ?_
  exact fold_max_split fun k => x (ix2 p k)

/-- The host's maximum along a column of the [4096, 8192] array, from `-∞`. -/
theorem reduce_max_col (x : (⟨S4096x8192, .f32⟩ : BufTy).Contents (Elt Ideal)) (init : (⟨S_, .f32⟩ : BufTy).Contents (Elt Ideal)) (hinit : init (Shape.Idx.first h_S_) = (⊥ : EReal)) (c : Fin 8192) :
    Host.reduce (FloatOps.maximumf (F := Ideal) (φ := .f32)) x init reducesTo_S4096x8192_S8192_d0 h_S_ (ix1 c)
      = supF fun r : Fin 4096 => x (ix2 r c) := by
  rw [Host.reduce_eq_fold_single _ x init reducesTo_S4096x8192_S8192_d0 (by decide) h_S_, hinit]
  have hf : (x ∘ (by decide : S4096x8192.Reduces [0] S8192).lift (ix1 c)) = fun r : Fin 4096 => x (ix2 r c) :=
    funext fun r => congrArg x (by idx2)
  exact congrArg (fun f => Finset.fold max (⊥ : EReal) f (Finset.univ : Finset (Fin 4096))) hf

/-! ### The row statistics -/

/-- The maximum of a row's 8192 scores. -/
theorem s116 (p : Fin 4096) : val_main_v116 (F := Ideal) x0 x1 x2 x3 x4 x5 x6 x7 (ix1 p) = rmax (X x1 x2 x3 x4 x5 x6 x7) (Y x0) p := by
  unfold val_main_v116
  rw [reduce_max_row _ _ (by rw [val_main_cst_18_apply]; exact ofBits_neg_inf) p]
  exact congrArg₂ max (congrArg supF (funext fun k => s115L x0 x1 x2 x3 x4 x5 x6 x7 p k)) (congrArg supF (funext fun k => s115R x0 x1 x2 x3 x4 x5 x6 x7 p k))

theorem s118 (p : Fin 4096) : val_main_v118 (F := Ideal) x0 x1 x2 x3 x4 x5 x6 x7 (ix1 p) = rmax (X x1 x2 x3 x4 x5 x6 x7) (Y x0) p := by
  rw [val_main_v118_apply, val_main_v117_apply, val_main_cst_19_apply, s116, Ideal.maximumf_def, Ideal.ofBits_def, ofBits_neg_inf,
    max_bot_left]

theorem s120 (p : Fin 4096) (c : Fin 8192) : val_main_v120 (F := Ideal) x0 x1 x2 x3 x4 x5 x6 x7 (ix2 p c) = rmax (X x1 x2 x3 x4 x5 x6 x7) (Y x0) p := by
  rw [val_main_v120_apply, val_main_v119_apply, show idx_main_v119 (idx_main_v120 (ix2 p c)) = ix1 p from by idx1, s118]

/-- A row's exponentials, as a function of the entry's score. -/
theorem s122 (p : Fin 4096) (c : Fin 8192) : val_main_v122 (F := Ideal) x0 x1 x2 x3 x4 x5 x6 x7 (ix2 p c)
    = Ideal.exp (val_main_v115 (F := Ideal) x0 x1 x2 x3 x4 x5 x6 x7 (ix2 p c) - rmax (X x1 x2 x3 x4 x5 x6 x7) (Y x0) p) := by
  rw [val_main_v122_apply, val_main_v121_apply, s120, Ideal.hostUnary_exp_def, Ideal.subf_def]

/-- The sum of a row's exponentials. -/
theorem s123 (p : Fin 4096) : val_main_v123 (F := Ideal) x0 x1 x2 x3 x4 x5 x6 x7 (ix1 p) = rsum (X x1 x2 x3 x4 x5 x6 x7) (Y x0) p := by
  rw [val_main_v123_apply, val_main_cst_20_apply, Ideal.ofBits_def, Ideal.ofBits_zero_f32, zero_add]
  refine (Finset.sum_congr rfl fun k _ => congrArg _ (show idx_main_v123 (ix1 p) k = ix2 p k from by idx2)).trans ?_
  refine (sum_split fun k => val_main_v122 (F := Ideal) x0 x1 x2 x3 x4 x5 x6 x7 (ix2 p k)).trans ?_
  unfold rsum
  refine congrArg₂ (· + ·) (Finset.sum_congr rfl fun k _ => ?_) (Finset.sum_congr rfl fun k _ => ?_)
  · rw [s122, s115L]
  · rw [s122, s115R]

/-- The softmax along the row, as a function of the entry's score. -/
theorem s126 (p : Fin 4096) (c : Fin 8192) : val_main_v126 (F := Ideal) x0 x1 x2 x3 x4 x5 x6 x7 (ix2 p c)
    = Ideal.div (Ideal.exp (val_main_v115 (F := Ideal) x0 x1 x2 x3 x4 x5 x6 x7 (ix2 p c) - rmax (X x1 x2 x3 x4 x5 x6 x7) (Y x0) p)) (rsum (X x1 x2 x3 x4 x5 x6 x7) (Y x0) p) := by
  rw [val_main_v126_apply, s122, val_main_v125_apply, val_main_v124_apply,
    show idx_main_v124 (idx_main_v125 (ix2 p c)) = ix1 p from by idx1, s123, Ideal.hostDivf_def]

/-! ### The column statistics -/

/-- The maximum of a column's 4096 scores. -/
theorem s129 (c : Fin 8192) : val_main_v129 (F := Ideal) x0 x1 x2 x3 x4 x5 x6 x7 (ix1 c)
    = supF fun r : Fin 4096 => val_main_v115 (F := Ideal) x0 x1 x2 x3 x4 x5 x6 x7 (ix2 r c) := by
  rw [val_main_v129_apply, val_main_v128_apply, val_main_cst_22_apply, Ideal.maximumf_def, Ideal.ofBits_def, ofBits_neg_inf, max_bot_left]
  unfold val_main_v127
  exact reduce_max_col _ _ (by rw [val_main_cst_21_apply]; exact ofBits_neg_inf) c

theorem s131 (p : Fin 4096) (c : Fin 8192) : val_main_v131 (F := Ideal) x0 x1 x2 x3 x4 x5 x6 x7 (ix2 p c)
    = supF fun r : Fin 4096 => val_main_v115 (F := Ideal) x0 x1 x2 x3 x4 x5 x6 x7 (ix2 r c) := by
  rw [val_main_v131_apply, val_main_v130_apply, show idx_main_v130 (idx_main_v131 (ix2 p c)) = ix1 c from by idx1, s129]

theorem s133 (p : Fin 4096) (c : Fin 8192) : val_main_v133 (F := Ideal) x0 x1 x2 x3 x4 x5 x6 x7 (ix2 p c)
    = Ideal.exp (val_main_v115 (F := Ideal) x0 x1 x2 x3 x4 x5 x6 x7 (ix2 p c) - supF fun r : Fin 4096 => val_main_v115 (F := Ideal) x0 x1 x2 x3 x4 x5 x6 x7 (ix2 r c)) := by
  rw [val_main_v133_apply, val_main_v132_apply, s131, Ideal.hostUnary_exp_def, Ideal.subf_def]

/-- The sum of a column's exponentials. -/
theorem s134 (c : Fin 8192) : val_main_v134 (F := Ideal) x0 x1 x2 x3 x4 x5 x6 x7 (ix1 c)
    = ∑ r : Fin 4096, Ideal.exp (val_main_v115 (F := Ideal) x0 x1 x2 x3 x4 x5 x6 x7 (ix2 r c)
        - supF fun r : Fin 4096 => val_main_v115 (F := Ideal) x0 x1 x2 x3 x4 x5 x6 x7 (ix2 r c)) := by
  rw [val_main_v134_apply, val_main_cst_23_apply, Ideal.ofBits_def, Ideal.ofBits_zero_f32, zero_add]
  refine Finset.sum_congr rfl fun r _ => ?_
  rw [show idx_main_v134 (ix1 c) r = ix2 r c from by idx2, s133]

/-- The softmax along the column, as a function of the column's scores. -/
theorem s137 (p : Fin 4096) (c : Fin 8192) : val_main_v137 (F := Ideal) x0 x1 x2 x3 x4 x5 x6 x7 (ix2 p c)
    = Ideal.div (Ideal.exp (val_main_v115 (F := Ideal) x0 x1 x2 x3 x4 x5 x6 x7 (ix2 p c) - supF fun r : Fin 4096 => val_main_v115 (F := Ideal) x0 x1 x2 x3 x4 x5 x6 x7 (ix2 r c)))
        (∑ r : Fin 4096, Ideal.exp (val_main_v115 (F := Ideal) x0 x1 x2 x3 x4 x5 x6 x7 (ix2 r c)
          - supF fun r : Fin 4096 => val_main_v115 (F := Ideal) x0 x1 x2 x3 x4 x5 x6 x7 (ix2 r c))) := by
  rw [val_main_v137_apply, s133, val_main_v136_apply, val_main_v135_apply,
    show idx_main_v135 (idx_main_v136 (ix2 p c)) = ix1 c from by idx1, s134, Ideal.hostDivf_def]

/-! ### The weights -/

/-- The weight of an entry of either half: the root of its row softmax times its column softmax. -/
theorem s139 (col : Fin 4096 → Fin 8192) (a : Fin 4096 → Fin 4096 → EReal)
    (h : ∀ p k, val_main_v115 (F := Ideal) x0 x1 x2 x3 x4 x5 x6 x7 (ix2 p (col k)) = a p k) (p k : Fin 4096) :
    val_main_v139 (F := Ideal) x0 x1 x2 x3 x4 x5 x6 x7 (ix2 p (col k)) = softR (X x1 x2 x3 x4 x5 x6 x7) (Y x0) a p k := by
  rw [val_main_v139_apply, val_main_v138_apply, s126, s137, Ideal.hostUnary_sqrt_def, Ideal.mulf_def]
  unfold softR csum cmax
  simp only [h]

theorem s140 (p k : Fin 4096) : val_main_v140 (F := Ideal) x0 x1 x2 x3 x4 x5 x6 x7 (ix2 p k) = softR (X x1 x2 x3 x4 x5 x6 x7) (Y x0) (apos (X x1 x2 x3 x4 x5 x6 x7) (Y x0)) p k := by
  rw [val_main_v140_apply, show idx_main_v140 (ix2 p k) = ix2 p (colL k) from by idx2]
  exact s139 x0 x1 x2 x3 x4 x5 x6 x7 colL _ (s115L x0 x1 x2 x3 x4 x5 x6 x7) p k

theorem s141 (p k : Fin 4096) : val_main_v141 (F := Ideal) x0 x1 x2 x3 x4 x5 x6 x7 (ix2 p k) = softR (X x1 x2 x3 x4 x5 x6 x7) (Y x0) (aneg (X x1 x2 x3 x4 x5 x6 x7)) p k := by
  rw [val_main_v141_apply, show idx_main_v141 (ix2 p k) = ix2 p (colR k) from by idx2]
  exact s139 x0 x1 x2 x3 x4 x5 x6 x7 colR _ (s115R x0 x1 x2 x3 x4 x5 x6 x7) p k

/-! ### The row sums of the weights, the field and the loss -/

theorem s142 (p : Fin 4096) : val_main_v142 (F := Ideal) x0 x1 x2 x3 x4 x5 x6 x7 (ix1 p) = ∑ k : Fin 4096, (softR (X x1 x2 x3 x4 x5 x6 x7) (Y x0) (apos (X x1 x2 x3 x4 x5 x6 x7) (Y x0))) p k := by
  rw [val_main_v142_apply, val_main_cst_24_apply, Ideal.ofBits_def, Ideal.ofBits_zero_f32, zero_add]
  refine Finset.sum_congr rfl fun k _ => ?_
  rw [show idx_main_v142 (ix1 p) k = ix2 p k from by idx2, s140]

theorem s144 (p : Fin 4096) : val_main_v144 (F := Ideal) x0 x1 x2 x3 x4 x5 x6 x7 (ix1 p) = ∑ k : Fin 4096, (softR (X x1 x2 x3 x4 x5 x6 x7) (Y x0) (aneg (X x1 x2 x3 x4 x5 x6 x7))) p k := by
  rw [val_main_v144_apply, val_main_cst_25_apply, Ideal.ofBits_def, Ideal.ofBits_zero_f32, zero_add]
  refine Finset.sum_congr rfl fun k _ => ?_
  rw [show idx_main_v144 (ix1 p) k = ix2 p k from by idx2, s141]

/-- The weights of the positives. -/
theorem s147 (p j : Fin 4096) : val_main_v147 (F := Ideal) x0 x1 x2 x3 x4 x5 x6 x7 (ix2 p j) = (softR (X x1 x2 x3 x4 x5 x6 x7) (Y x0) (apos (X x1 x2 x3 x4 x5 x6 x7) (Y x0))) p j * ∑ k : Fin 4096, (softR (X x1 x2 x3 x4 x5 x6 x7) (Y x0) (aneg (X x1 x2 x3 x4 x5 x6 x7))) p k := by
  rw [val_main_v147_apply, s140, val_main_v146_apply, val_main_v145_apply,
    show idx_main_v145 (idx_main_v146 (ix2 p j)) = ix1 p from by idx1, s144, Ideal.mulf_def]

/-- The weights of the generated points. -/
theorem s150 (p j : Fin 4096) : val_main_v150 (F := Ideal) x0 x1 x2 x3 x4 x5 x6 x7 (ix2 p j)
    = (softR (X x1 x2 x3 x4 x5 x6 x7) (Y x0) (aneg (X x1 x2 x3 x4 x5 x6 x7))) p j * ((∑ k : Fin 4096, (softR (X x1 x2 x3 x4 x5 x6 x7) (Y x0) (apos (X x1 x2 x3 x4 x5 x6 x7) (Y x0))) p k) * ∑ k : Fin 4096, (softR (X x1 x2 x3 x4 x5 x6 x7) (Y x0) (aneg (X x1 x2 x3 x4 x5 x6 x7))) p k) := by
  rw [val_main_v150_apply, s141, val_main_v149_apply, val_main_v148_apply, val_main_v143_apply, val_main_v145_apply,
    show idx_main_v143 (idx_main_v149 (ix2 p j)) = ix1 p from by idx1,
    show idx_main_v145 (idx_main_v149 (ix2 p j)) = ix1 p from by idx1, s142, s144, Ideal.mulf_def, Ideal.mulf_def]

/-- The drifting field. -/
theorem s153 (p : Fin 4096) (q : Fin 128) : val_main_v153 (F := Ideal) x0 x1 x2 x3 x4 x5 x6 x7 (ix2 p q) = fieldR (X x1 x2 x3 x4 x5 x6 x7) (Y x0) p q := by
  rw [val_main_v153_apply, Ideal.subf_def, val_main_v151_apply, val_main_v152_apply]
  unfold fieldR field
  refine congrArg₂ (· - ·) (Finset.sum_congr rfl fun k _ => ?_) (Finset.sum_congr rfl fun k _ => ?_)
  · rw [show lidx_main_v151 (ix2 p q) k = ix2 p k from by idx2, show ridx_main_v151 (ix2 p q) k = ix2 k q from by idx2, s147]
  · rw [show lidx_main_v152 (ix2 p q) k = ix2 p k from by idx2, show ridx_main_v152 (ix2 p q) k = ix2 k q from by idx2, s150]

/-- The squared difference between a generated point and its target. -/
theorem s156 (p : Fin 4096) (q : Fin 128) : val_main_v156 (F := Ideal) x0 x1 x2 x3 x4 x5 x6 x7 (ix2 p q)
    = ((X x1 x2 x3 x4 x5 x6 x7) p q - ((X x1 x2 x3 x4 x5 x6 x7) p q + fieldR (X x1 x2 x3 x4 x5 x6 x7) (Y x0) p q)) * ((X x1 x2 x3 x4 x5 x6 x7) p q - ((X x1 x2 x3 x4 x5 x6 x7) p q + fieldR (X x1 x2 x3 x4 x5 x6 x7) (Y x0) p q)) := by
  rw [val_main_v156_apply, val_main_v155_apply, val_main_v154_apply, s153, Ideal.mulf_def, Ideal.subf_def, Ideal.addf_def]

/-- The loss. -/
theorem s158 (i : S_.Idx) : val_main_v158 (F := Ideal) x0 x1 x2 x3 x4 x5 x6 x7 i = lossR (X x1 x2 x3 x4 x5 x6 x7) (Y x0) := by
  rw [val_main_v158_apply, val_main_v157_apply, val_main_cst_26_apply, val_main_cst_27_apply, Ideal.ofBits_def, Ideal.ofBits_def,
    Ideal.ofBits_zero_f32, zero_add, Ideal.hostDivf_def, ValueIdx.sum_idx2]
  unfold lossR
  refine congrArg (fun s => Ideal.div s cCount) (Finset.sum_congr rfl fun p _ => Finset.sum_congr rfl fun q _ => ?_)
  exact s156 x0 x1 x2 x3 x4 x5 x6 x7 p q

/-- The reference's result is the whole-array loss of the generated points and the positives. -/
theorem val_main_v158_eq_lossR (i : S_.Idx) :
    Cert.ReferenceIdeal.ReadP.val_main_v158 (F := Ideal) x0 x1 x2 x3 x4 x5 x6 x7 i
      = Cert.DriftSpec.lossR
          (fun p q => Cert.ReferenceIdeal.ReadP.val_main_v53 (F := Ideal) x1 x2 x3 x4 x5 x6 x7 (ValueIdx.ix2 p q))
          (fun p q => x0 (ValueIdx.ix2 p q)) :=
  s158 x0 x1 x2 x3 x4 x5 x6 x7 i

end Cert.ReferenceIdeal.RefTail

end
-- ==== Proof.LibRowsLayer.lean ====
/-
  The mathematics of a two-layer mean-aggregating graph network, on the extended reals.

  A dense layer on the rows of two arrays: entry (r, c) of `layer a x Wl Wr b` is
      max( Σ_q a(r,q)·Wl(q,c) + Σ_q x(r,q)·Wr(q,c) + b(c), 0 ),
  and a linear head: entry (r, c) of `head h W b` is Σ_q h(r,q)·W(q,c) + b(c).
  Both depend on row r of their row operands only, so a block of consecutive rows of the result
  is the same function of the same block of rows of the operands (`layer_rows`, `head_rows`).
-/
import Idealize.ShloMosaic.PureOps.Ideal
import Idealize.ShloMosaic.Lib.ValueIdx

noncomputable section

namespace Cert.Sage

open Idealize.ShloMosaic Idealize.ShloMosaic.ValueIdx
open scoped BigOperators

/-- A rank-2 array of extended reals. -/
abbrev Arr2 (n k : Nat) : Type := (⟨2, ![n, k]⟩ : Shape).Idx → EReal
/-- A rank-1 array of extended reals. -/
abbrev Arr1 (c : Nat) : Type := (⟨1, ![c]⟩ : Shape).Idx → EReal

variable {n N k c : Nat}

/-- The float zero both programs clip at. -/
def zeroF : EReal := Ideal.ofBits .f32 0x00000000#32

/-- The row coordinate of an index, as a number below the row extent. -/
abbrev rowOf {n c : Nat} (i : (⟨2, ![n, c]⟩ : Shape).Idx) : Fin n := ⟨(i 0).val, idx2_lt0 i⟩
/-- The column coordinate of an index, as a number below the column extent. -/
abbrev colOf {n c : Nat} (i : (⟨2, ![n, c]⟩ : Shape).Idx) : Fin c := ⟨(i 1).val, idx2_lt1 i⟩

/-- Rows against columns: entry (r, c) is Σ_q a(r,q)·W(q,c). -/
def rowsMul (a : Arr2 n k) (W : Arr2 k c) : Arr2 n c :=
  fun i => ∑ q : Fin k, a (ix2 (rowOf i) q) * W (ix2 q (colOf i))

/-- A row vector added to every row. -/
def addRow (v : Arr2 n c) (b : Arr1 c) : Arr2 n c := fun i => v i + b (ix1 (colOf i))

/-- One layer: the aggregated rows through `Wl`, the rows themselves through `Wr`, the bias, clipped below at zero. -/
def layer (a x : Arr2 n k) (Wl Wr : Arr2 k c) (b : Arr1 c) : Arr2 n c :=
  fun i => max (rowsMul a Wl i + rowsMul x Wr i + b (ix1 (colOf i))) zeroF

/-- A linear head. -/
def head (h : Arr2 n k) (W : Arr2 k c) (b : Arr1 c) : Arr2 n c :=
  fun i => rowsMul h W i + b (ix1 (colOf i))

/-- `rowsMul` at row `r` reads row `r` of its row operand only. -/
theorem rowsMul_rows (A : Arr2 N k) (a : Arr2 n k) (W : Arr2 k c) (I : (⟨2, ![N, c]⟩ : Shape).Idx)
    (i : (⟨2, ![n, c]⟩ : Shape).Idx) (hc : (I 1).val = (i 1).val)
    (ha : ∀ q : Fin k, A (ix2 (rowOf I) q) = a (ix2 (rowOf i) q)) :
    rowsMul A W I = rowsMul a W i := by
  unfold rowsMul
  refine Finset.sum_congr rfl fun q _ => ?_
  rw [ha q]
  have : colOf I = colOf i := Fin.ext hc
  rw [this]

/-- A block of rows of a layer is the layer of the blocks of rows. -/
theorem layer_rows (A X : Arr2 N k) (a x : Arr2 n k) (Wl Wr : Arr2 k c) (b : Arr1 c)
    (I : (⟨2, ![N, c]⟩ : Shape).Idx) (i : (⟨2, ![n, c]⟩ : Shape).Idx) (hc : (I 1).val = (i 1).val)
    (ha : ∀ q : Fin k, A (ix2 (rowOf I) q) = a (ix2 (rowOf i) q))
    (hx : ∀ q : Fin k, X (ix2 (rowOf I) q) = x (ix2 (rowOf i) q)) :
    layer A X Wl Wr b I = layer a x Wl Wr b i := by
  unfold layer
  rw [rowsMul_rows A a Wl I i hc ha, rowsMul_rows X x Wr I i hc hx]
  have : colOf I = colOf i := Fin.ext hc
  rw [this]

/-- A block of rows of a head is the head of the block of rows. -/
theorem head_rows (H : Arr2 N k) (h : Arr2 n k) (W : Arr2 k c) (b : Arr1 c)
    (I : (⟨2, ![N, c]⟩ : Shape).Idx) (i : (⟨2, ![n, c]⟩ : Shape).Idx) (hc : (I 1).val = (i 1).val)
    (hh : ∀ q : Fin k, H (ix2 (rowOf I) q) = h (ix2 (rowOf i) q)) :
    head H W b I = head h W b i := by
  unfold head
  rw [rowsMul_rows H h W I i hc hh]
  have : colOf I = colOf i := Fin.ext hc
  rw [this]

end Cert.Sage

end
-- ==== Proof.GenSpec.lean ====
/-
  The generator network on extended reals at coordinates: a linear layer from 128 to 512 coordinates, four residual
  blocks h ↦ h + max(h·Wᵀ + b, 0) of width 512, and a linear head back to 128 coordinates. Every entry of the output
  depends on ONE row of the input only, so a block of consecutive rows of the output is the network applied to the
  block of rows of the input (`gen_rows`): this is what lets a row-tiled computation and the whole-array one be compared.
-/
import proofs.«125113_j88270167868072_2_alg».proof.Proof.LibRowsLayer

noncomputable section

namespace Cert.DriftGen

open Idealize.ShloMosaic Idealize.ShloMosaic.ValueIdx Cert.Sage
open scoped BigOperators

variable {n N k c : Nat}

/-- A rank-3 array of extended reals. -/
abbrev Arr3 (a b d : Nat) : Type := (⟨3, ![a, b, d]⟩ : Shape).Idx → EReal

/-- The transposed matrix. -/
def tr (W : Arr2 c k) : Arr2 k c := fun i => W (ix2 (colOf i) (rowOf i))

/-- Matrix `l` of a stack of matrices. -/
def slab {a b d : Nat} (l : Fin a) (W : Arr3 a b d) : Arr2 b d := fun i => W (ix3 l (rowOf i) (colOf i))

/-- Row `l` of a matrix, as a vector. -/
def vrow {a b : Nat} (l : Fin a) (B : Arr2 a b) : Arr1 b := fun i => B (ix2 l ⟨(i 0).val, (i 0).isLt⟩)

/-- One residual block: h + max(h·W + b, 0). -/
def resid (h : Arr2 n k) (W : Arr2 k k) (b : Arr1 k) : Arr2 n k :=
  fun i => h i + max (rowsMul h W i + b (ix1 (colOf i))) zeroF

/-- The generator network. -/
def gen (eps : Arr2 n 128) (Win : Arr2 512 128) (bin : Arr1 512) (Wblk : Arr3 4 512 512) (bblk : Arr2 4 512)
    (Wout : Arr2 128 512) (bout : Arr1 128) : Arr2 n 128 :=
  head
    (resid (resid (resid (resid (head eps (tr Win) bin)
      (tr (slab 0 Wblk)) (vrow 0 bblk)) (tr (slab 1 Wblk)) (vrow 1 bblk)) (tr (slab 2 Wblk)) (vrow 2 bblk))
      (tr (slab 3 Wblk)) (vrow 3 bblk))
    (tr Wout) bout

end Cert.DriftGen

end
-- ==== Proof.LibGraphRows.lean ====
/-
  Row-wise pieces of a degree-normalised graph convolution, on the extended reals, beside the rows-against-columns
  product `rowsMul`:

    scaleRows h w   : entry (e, f) is h(e, f) · w(e, 0)            — every row of `h` scaled by that row's weight;
    addRowOf v b    : entry (r, c) is v(r, c) + b(0, c)            — one row vector added to every row;
    addRowClip v b  : entry (r, c) is max (v(r, c) + b(0, c)) 0    — the same, clipped below at the float zero.

  Each depends on row r of its row operand(s) only, so a block of consecutive rows of the result is the same
  function of the same block of rows (`scaleRows_rows`, `addRowOf_rows`, `addRowClip_rows`).
-/
import proofs.«125113_j88270167868072_2_alg».proof.Proof.LibRowsLayer

noncomputable section

namespace Cert.Sage

open Idealize.ShloMosaic Idealize.ShloMosaic.ValueIdx

variable {n N k c : Nat}

/-- Every row scaled by its own weight: entry (e, f) is h(e, f) · w(e, 0). -/
def scaleRows (h : Arr2 n c) (w : Arr2 n 1) : Arr2 n c :=
  fun i => h i * w (ix2 (rowOf i) (0 : Fin 1))

/-- A row vector, kept as a one-row array, added to every row. -/
def addRowOf (v : Arr2 n c) (b : Arr2 1 c) : Arr2 n c :=
  fun i => v i + b (ix2 (0 : Fin 1) (colOf i))

/-- The same, clipped below at the float zero. -/
def addRowClip (v : Arr2 n c) (b : Arr2 1 c) : Arr2 n c :=
  fun i => max (v i + b (ix2 (0 : Fin 1) (colOf i))) zeroF

/-- A block of rows of `scaleRows` is `scaleRows` of the blocks of rows. -/
theorem scaleRows_rows (H : Arr2 N c) (W : Arr2 N 1) (h : Arr2 n c) (w : Arr2 n 1)
    (I : (⟨2, ![N, c]⟩ : Shape).Idx) (i : (⟨2, ![n, c]⟩ : Shape).Idx)
    (hh : H I = h i) (hw : W (ix2 (rowOf I) (0 : Fin 1)) = w (ix2 (rowOf i) (0 : Fin 1))) :
    scaleRows H W I = scaleRows h w i := by
  unfold scaleRows; rw [hh, hw]

/-- A block of rows of `addRowOf` is `addRowOf` of the block of rows. -/
theorem addRowOf_rows (V : Arr2 N c) (v : Arr2 n c) (b : Arr2 1 c)
    (I : (⟨2, ![N, c]⟩ : Shape).Idx) (i : (⟨2, ![n, c]⟩ : Shape).Idx) (hc : (I 1).val = (i 1).val)
    (hv : V I = v i) : addRowOf V b I = addRowOf v b i := by
  unfold addRowOf
  have : colOf I = colOf i := Fin.ext hc
  rw [hv, this]

/-- A block of rows of `addRowClip` is `addRowClip` of the block of rows. -/
theorem addRowClip_rows (V : Arr2 N c) (v : Arr2 n c) (b : Arr2 1 c)
    (I : (⟨2, ![N, c]⟩ : Shape).Idx) (i : (⟨2, ![n, c]⟩ : Shape).Idx) (hc : (I 1).val = (i 1).val)
    (hv : V I = v i) : addRowClip V b I = addRowClip v b i := by
  unfold addRowClip
  have : colOf I = colOf i := Fin.ext hc
  rw [hv, this]

end Cert.Sage

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.LibGraphHost.lean ====
/-
  The row-wise pieces of a graph convolution against the forms a host program writes them in, at the ideal values.

    a host `dot_general` contracting the second axis of [n, k] with the first of [k, c]      is `rowsMul`;
    rows times a weight vector broadcast first to a column and then along the rows             is `scaleRows` of the
                                                                                                 vector recast as a column;
    rows plus a bias vector broadcast first to one row and then down the rows                  is `addRowOf` of the
                                                                                                 vector recast as one row;
    the same clipped below at a broadcast float zero                                           is `addRowClip`.
-/
import proofs.«125113_j88270167868072_2_alg».proof.Proof.LibGraphRows
import proofs.«125113_j88270167868072_2_alg».proof.Proof.LibKeepdims
import Idealize.ShloMosaic.Lib.Pipeline.Value
import Idealize.ShloMosaic.Lib.ValueLayout
import Idealize.ShloMosaic.PureOps.Ideal.Laws

noncomputable section

namespace Cert.Sage

open Idealize.ShloMosaic Idealize.ShloMosaic.ValueIdx
open scoped BigOperators

/-- The host's matrix product, at entry (p, q), is the row–column sum. -/
theorem dotGeneral_rows {n k c : Nat} {φ₁ φ₂ : FTy}
    (D : DotDims ⟨2, ![n, k]⟩ ⟨2, ![k, c]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (q ⟨0, by omega⟩).val)
    (r1 : ∀ (i : (⟨2, ![n, c]⟩ : Shape).Idx) (q : D.contr.Idx), (D.rhsIdx i q 1).val = (i 1).val)
    (prec : Option ContractPrecision) (a : FVec Ideal ⟨2, ![n, k]⟩ φ₁) (W : FVec Ideal ⟨2, ![k, c]⟩ φ₂) :
    Host.dotGeneral (F := Ideal) D prec a W = rowsMul (n := n) (k := k) (c := c) a W := by
  funext i
  obtain ⟨p, q, rfl⟩ : ∃ (p : Fin n) (q : Fin c), i = ix2 p q := ⟨i 0, i 1, eq_ix2 i⟩
  show FloatOps.dotGeneral D prec .single a W (ix2 p q) = _
  rw [Ideal.dotGeneral_apply, ← Equiv.sum_comp (contrEquiv1 D k hr hs).symm]
  unfold rowsMul
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 j q := funext fun ax => Fin.ext (by
    match ax with
    | ⟨0, _⟩ => exact (r0 _ _).trans hk
    | ⟨1, _⟩ => exact r1 _ _)
  rw [el, er]
  rfl

/-- A vector broadcast to a column and then along the rows reads, at (e, f), the vector at e. -/
theorem bcast_col_rows_apply {n c : Nat} {α : Type} (v : (⟨1, ![n]⟩ : Shape).Idx → α)
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2)) (e : Fin n) (f : Fin c) :
    broadcastInDim ⟨2, ![n, c]⟩ ![0, 1] h2 (broadcastInDim ⟨2, ![n, 1]⟩ ![0] h1 v) (ix2 e f) = v (ix1 e) := by
  refine (broadcastInDim_apply _ h2 _ (ix2 e f) (ix2 e (0 : Fin 1)) fun ax => ?_).trans
    (broadcastInDim_apply _ h1 v (ix2 e (0 : Fin 1)) (ix1 e) fun ax => ?_)
  · match ax with
    | ⟨0, _⟩ =>
      show e.val = if n = 1 then 0 else e.val
      split
      · have := e.isLt; omega
      · rfl
    | ⟨1, _⟩ => rfl
  · match ax with
    | ⟨0, _⟩ =>
      show e.val = if n = 1 then 0 else e.val
      split
      · have := e.isLt; omega
      · rfl

/-- A vector broadcast to one row and then down the rows reads, at (r, q), the vector at q. -/
theorem bcast_row_rows_apply {n c : Nat} {α : Type} (b : (⟨1, ![c]⟩ : Shape).Idx → α)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (r : Fin n) (q : Fin c) :
    broadcastInDim ⟨2, ![n, c]⟩ ![0, 1] h2 (broadcastInDim ⟨2, ![1, c]⟩ ![1] h1 b) (ix2 r q) = b (ix1 q) := by
  refine (broadcastInDim_apply _ h2 _ (ix2 r q) (ix2 (0 : Fin 1) q) fun ax => ?_).trans
    (broadcastInDim_apply _ h1 b (ix2 (0 : Fin 1) q) (ix1 q) fun ax => ?_)
  · match ax with
    | ⟨0, _⟩ => rfl
    | ⟨1, _⟩ =>
      show q.val = if c = 1 then 0 else q.val
      split
      · have := q.isLt; omega
      · rfl
  · match ax with
    | ⟨0, _⟩ =>
      show q.val = if c = 1 then 0 else q.val
      split
      · have := q.isLt; omega
      · rfl

/-- Rows times the doubly broadcast weight vector: `scaleRows` of the vector recast as a column. -/
theorem scaleRows_col {n c : Nat} (H : FVec Ideal ⟨2, ![n, c]⟩ .f32) (v : FVec Ideal ⟨1, ![n]⟩ .f32)
    (hc : (⟨1, ![n]⟩ : Shape).ShapeCasts ⟨2, ![n, 1]⟩)
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2)) :
    scaleRows (n := n) (c := c) H (shapeCast ⟨2, ![n, 1]⟩ v hc)
      = mulf H (broadcastInDim ⟨2, ![n, c]⟩ ![0, 1] h2 (broadcastInDim ⟨2, ![n, 1]⟩ ![0] h1 v)) := by
  funext i
  obtain ⟨e, f, rfl⟩ : ∃ (e : Fin n) (f : Fin c), i = ix2 e f := ⟨i 0, i 1, eq_ix2 i⟩
  rw [mulf_apply, bcast_col_rows_apply v h1 h2 e f]
  unfold scaleRows
  have : rowOf (ix2 e f) = e := Fin.ext rfl
  rw [this, Cert.LibKeepdims.shapeCast_a_a1_apply v hc e (0 : Fin 1)]

/-- Rows plus the doubly broadcast bias vector: `addRowOf` of the vector recast as one row. -/
theorem addRowOf_row {n c : Nat} (A : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) :
    addRowOf (n := n) (c := c) A (shapeCast ⟨2, ![1, c]⟩ b hc)
      = addf A (broadcastInDim ⟨2, ![n, c]⟩ ![0, 1] h2 (broadcastInDim ⟨2, ![1, c]⟩ ![1] h1 b)) := by
  funext i
  obtain ⟨r, q, rfl⟩ : ∃ (r : Fin n) (q : Fin c), i = ix2 r q := ⟨i 0, i 1, eq_ix2 i⟩
  rw [addf_apply, bcast_row_rows_apply b h1 h2 r q]
  unfold addRowOf
  have : colOf (ix2 r q) = q := Fin.ext rfl
  rw [this, shapeCast_a_1a_apply b hc (0 : Fin 1) q]

/-- The same clipped below at a broadcast float zero: `addRowClip`. -/
theorem addRowClip_row {n c : Nat} (A : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2))
    (h0 : (⟨0, ![]⟩ : Shape).BroadcastsInDim ⟨2, ![n, c]⟩ (![] : Fin 0 → Fin 2)) :
    addRowClip (n := n) (c := c) A (shapeCast ⟨2, ![1, c]⟩ b hc)
      = maximumf (addf A (broadcastInDim ⟨2, ![n, c]⟩ ![0, 1] h2 (broadcastInDim ⟨2, ![1, c]⟩ ![1] h1 b)))
          (broadcastInDim ⟨2, ![n, c]⟩ ![] h0 (constant (F := Ideal) ⟨0, ![]⟩ .f32 0x00000000#32)) := by
  funext i
  obtain ⟨r, q, rfl⟩ : ∃ (r : Fin n) (q : Fin c), i = ix2 r q := ⟨i 0, i 1, eq_ix2 i⟩
  rw [maximumf_apply, addf_apply, bcast_row_rows_apply b h1 h2 r q,
    broadcastInDim_apply _ h0 _ (ix2 r q) ix0 (fun ax => ax.elim0)]
  unfold addRowClip
  have : colOf (ix2 r q) = q := Fin.ext rfl
  rw [this, shapeCast_a_1a_apply b hc (0 : Fin 1) q]
  rfl

end Cert.Sage

end
-- ==== Proof.GenRef.lean ====
/-
  The reference's generator network — its first 54 operations, on the whole 4096-row input — read as one function.

  The operations come in six layers. The first adds a bias row to the product of the input with a transposed
  weight matrix; each of the next four takes matrix l of the weight stack (a slice recast as a matrix and
  transposed) and row l of the bias matrix (a slice recast as a vector and repeated down the rows), and adds to
  its input the product plus bias clipped below at the float zero; the last is a linear head. Each product is
  the rows-against-columns sum, each recast slice is the stack's matrix or the bias matrix's row read at
  coordinates, so the chain is the generator network of the specification.
-/
import proofs.«125113_j88270167868072_2_alg».proof.Proof.GenSpec
import proofs.«125113_j88270167868072_2_alg».proof.Proof.LibGraphHost
import proofs.«125113_j88270167868072_2_alg».proof.Proof.RefRead

noncomputable section

namespace Cert.ReferenceIdeal.GenRef

open Idealize.ShloMosaic Idealize.ShloMosaic.ValueIdx Cert.Sage Cert.DriftGen
open Cert.ReferenceIdeal Cert.ReferenceIdeal.Gen Cert.ReferenceIdeal.ReadP
open scoped BigOperators

/-- A transposed matrix is `tr`. -/
theorem transpose_eq_tr {a b : Nat} (x : FVec Ideal ⟨2, ![a, b]⟩ .f32)
    (h : (⟨2, ![a, b]⟩ : Shape).Transposes [1, 0] ⟨2, ![b, a]⟩) :
    transpose ⟨2, ![b, a]⟩ [1, 0] x h = tr (c := a) (k := b) x := by
  funext j
  obtain ⟨p, q, rfl⟩ : ∃ (p : Fin b) (q : Fin a), j = ix2 p q := ⟨j 0, j 1, eq_ix2 j⟩
  rw [transpose_ix2_apply]
  rfl

/-! ## The first layer -/

/-- The input times the transposed first weight matrix, plus the bias row. -/
theorem v4_eq (x1 : (⟨S4096x128, .f32⟩ : BufTy).Contents (Elt Ideal)) (x2 : (⟨S512x128, .f32⟩ : BufTy).Contents (Elt Ideal)) (x3 : (⟨S512, .f32⟩ : BufTy).Contents (Elt Ideal)) :
    val_main_v4 (F := Ideal) x1 x2 x3 = head (n := 4096) (k := 128) (c := 512) x1 (tr (c := 512) (k := 128) x2) x3 := by
  funext i
  obtain ⟨p, q, rfl⟩ : ∃ (p : Fin 4096) (q : Fin 512), i = ix2 p q := ⟨i 0, i 1, eq_ix2 i⟩
  have ed : val_main_v1 (F := Ideal) x1 x2 = rowsMul (n := 4096) (k := 128) (c := 512) x1 (tr (c := 512) (k := 128) x2) := by
    unfold val_main_v1 val_main_v0
    rw [transpose_eq_tr]
    exact dotGeneral_rows (φ₁ := .f32) (φ₂ := .f32) dot_S4096x128_S128x512_S4096x512_1_0_0_1_n_n rfl rfl lhs_main_v1_0 lhs_main_v1_1 rhs_main_v1_0 rhs_main_v1_1 none _ _
  have eb : val_main_v3 (F := Ideal) x3 (ix2 p q) = x3 (ix1 q) := by
    rw [val_main_v3_apply, val_main_v2_apply]
    exact congrArg x3 (funext fun d => Fin.ext (by match d with | ⟨0, _⟩ => rfl))
  show val_main_v1 (F := Ideal) x1 x2 (ix2 p q) + val_main_v3 (F := Ideal) x3 (ix2 p q) = _
  rw [ed, eb]
  rfl

/-! ## The four residual blocks -/

/-- Matrix 0 of the stack, recast and transposed. -/
theorem w0_eq (x4 : (⟨S4x512x512, .f32⟩ : BufTy).Contents (Elt Ideal)) :
    val_main_v7 (F := Ideal) x4 = tr (c := 512) (k := 512) (slab (0 : Fin 4) x4) := by
  funext j
  obtain ⟨a, b, rfl⟩ : ∃ (a : Fin 512) (b : Fin 512), j = ix2 a b := ⟨j 0, j 1, eq_ix2 j⟩
  rw [val_main_v7_apply, val_main_v6_apply, val_main_v5_apply]
  show x4 _ = x4 _
  refine congrArg x4 (funext fun d => Fin.ext ?_)
  have ha := a.isLt
  have hb := b.isLt
  match d with
  | ⟨0, _⟩ => rfl
  | ⟨1, _⟩ => show (b.val * 512 + a.val) / 512 % 512 = b.val; omega
  | ⟨2, _⟩ => show (b.val * 512 + a.val) % 512 = a.val; omega

/-- Row 0 of the bias matrix, recast and repeated down the rows. -/
theorem b0_apply (x5 : (⟨S4x512, .f32⟩ : BufTy).Contents (Elt Ideal)) (p : Fin 4096) (q : Fin 512) :
    val_main_v12 (F := Ideal) x5 (ix2 p q) = vrow (0 : Fin 4) x5 (ix1 q) := by
  rw [val_main_v12_apply, val_main_v11_apply, val_main_v10_apply, val_main_v9_apply]
  show x5 _ = x5 _
  refine congrArg x5 (funext fun d => Fin.ext ?_)
  have hq := q.isLt
  match d with
  | ⟨0, _⟩ => rfl
  | ⟨1, _⟩ => show q.val % 512 = q.val; omega

/-- The clip's float zero, repeated over the array. -/
theorem z0_apply (p : Fin 4096) (q : Fin 512) : val_main_call0_v0 (F := Ideal) (ix2 p q) = zeroF := by
  rw [val_main_call0_v0_apply, val_main_call0_cst_apply]
  rfl

/-- Residual block 0. -/
theorem v15_eq (x1 : (⟨S4096x128, .f32⟩ : BufTy).Contents (Elt Ideal)) (x2 : (⟨S512x128, .f32⟩ : BufTy).Contents (Elt Ideal)) (x3 : (⟨S512, .f32⟩ : BufTy).Contents (Elt Ideal)) (x4 : (⟨S4x512x512, .f32⟩ : BufTy).Contents (Elt Ideal)) (x5 : (⟨S4x512, .f32⟩ : BufTy).Contents (Elt Ideal)) :
    val_main_v15 (F := Ideal) x1 x2 x3 x4 x5
      = resid (n := 4096) (k := 512) (val_main_v4 (F := Ideal) x1 x2 x3) (tr (c := 512) (k := 512) (slab (0 : Fin 4) x4)) (vrow (0 : Fin 4) x5) := by
  funext i
  obtain ⟨p, q, rfl⟩ : ∃ (p : Fin 4096) (q : Fin 512), i = ix2 p q := ⟨i 0, i 1, eq_ix2 i⟩
  have ed : val_main_v8 (F := Ideal) x1 x2 x3 x4
      = rowsMul (n := 4096) (k := 512) (c := 512) (val_main_v4 (F := Ideal) x1 x2 x3) (tr (c := 512) (k := 512) (slab (0 : Fin 4) x4)) := by
    unfold val_main_v8
    rw [w0_eq]
    exact dotGeneral_rows (φ₁ := .f32) (φ₂ := .f32) dot_S4096x512_S512x512_S4096x512_1_0_0_1_n_n rfl rfl lhs_main_v8_0 lhs_main_v8_1 rhs_main_v8_0 rhs_main_v8_1 none _ _
  show (val_main_v4 (F := Ideal) x1 x2 x3) (ix2 p q) + max (val_main_v8 (F := Ideal) x1 x2 x3 x4 (ix2 p q) + val_main_v12 (F := Ideal) x5 (ix2 p q)) (val_main_call0_v0 (F := Ideal) (ix2 p q)) = _
  rw [ed, b0_apply, z0_apply]
  rfl

/-- Matrix 1 of the stack, recast and transposed. -/
theorem w1_eq (x4 : (⟨S4x512x512, .f32⟩ : BufTy).Contents (Elt Ideal)) :
    val_main_v18 (F := Ideal) x4 = tr (c := 512) (k := 512) (slab (1 : Fin 4) x4) := by
  funext j
  obtain ⟨a, b, rfl⟩ : ∃ (a : Fin 512) (b : Fin 512), j = ix2 a b := ⟨j 0, j 1, eq_ix2 j⟩
  rw [val_main_v18_apply, val_main_v17_apply, val_main_v16_apply]
  show x4 _ = x4 _
  refine congrArg x4 (funext fun d => Fin.ext ?_)
  have ha := a.isLt
  have hb := b.isLt
  match d with
  | ⟨0, _⟩ => rfl
  | ⟨1, _⟩ => show (b.val * 512 + a.val) / 512 % 512 = b.val; omega
  | ⟨2, _⟩ => show (b.val * 512 + a.val) % 512 = a.val; omega

/-- Row 1 of the bias matrix, recast and repeated down the rows. -/
theorem b1_apply (x5 : (⟨S4x512, .f32⟩ : BufTy).Contents (Elt Ideal)) (p : Fin 4096) (q : Fin 512) :
    val_main_v23 (F := Ideal) x5 (ix2 p q) = vrow (1 : Fin 4) x5 (ix1 q) := by
  rw [val_main_v23_apply, val_main_v22_apply, val_main_v21_apply, val_main_v20_apply]
  show x5 _ = x5 _
  refine congrArg x5 (funext fun d => Fin.ext ?_)
  have hq := q.isLt
  match d with
  | ⟨0, _⟩ => rfl
  | ⟨1, _⟩ => show q.val % 512 = q.val; omega

/-- The clip's float zero, repeated over the array. -/
theorem z1_apply (p : Fin 4096) (q : Fin 512) : val_main_call1_v0 (F := Ideal) (ix2 p q) = zeroF := by
  rw [val_main_call1_v0_apply, val_main_call1_cst_apply]
  rfl

/-- Residual block 1. -/
theorem v26_eq (x1 : (⟨S4096x128, .f32⟩ : BufTy).Contents (Elt Ideal)) (x2 : (⟨S512x128, .f32⟩ : BufTy).Contents (Elt Ideal)) (x3 : (⟨S512, .f32⟩ : BufTy).Contents (Elt Ideal)) (x4 : (⟨S4x512x512, .f32⟩ : BufTy).Contents (Elt Ideal)) (x5 : (⟨S4x512, .f32⟩ : BufTy).Contents (Elt Ideal)) :
    val_main_v26 (F := Ideal) x1 x2 x3 x4 x5
      = resid (n := 4096) (k := 512) (val_main_v15 (F := Ideal) x1 x2 x3 x4 x5) (tr (c := 512) (k := 512) (slab (1 : Fin 4) x4)) (vrow (1 : Fin 4) x5) := by
  funext i
  obtain ⟨p, q, rfl⟩ : ∃ (p : Fin 4096) (q : Fin 512), i = ix2 p q := ⟨i 0, i 1, eq_ix2 i⟩
  have ed : val_main_v19 (F := Ideal) x1 x2 x3 x4 x5
      = rowsMul (n := 4096) (k := 512) (c := 512) (val_main_v15 (F := Ideal) x1 x2 x3 x4 x5) (tr (c := 512) (k := 512) (slab (1 : Fin 4) x4)) := by
    unfold val_main_v19
    rw [w1_eq]
    exact dotGeneral_rows (φ₁ := .f32) (φ₂ := .f32) dot_S4096x512_S512x512_S4096x512_1_0_0_1_n_n rfl rfl lhs_main_v19_0 lhs_main_v19_1 rhs_main_v19_0 rhs_main_v19_1 none _ _
  show (val_main_v15 (F := Ideal) x1 x2 x3 x4 x5) (ix2 p q) + max (val_main_v19 (F := Ideal) x1 x2 x3 x4 x5 (ix2 p q) + val_main_v23 (F := Ideal) x5 (ix2 p q)) (val_main_call1_v0 (F := Ideal) (ix2 p q)) = _
  rw [ed, b1_apply, z1_apply]
  rfl

/-- Matrix 2 of the stack, recast and transposed. -/
theorem w2_eq (x4 : (⟨S4x512x512, .f32⟩ : BufTy).Contents (Elt Ideal)) :
    val_main_v29 (F := Ideal) x4 = tr (c := 512) (k := 512) (slab (2 : Fin 4) x4) := by
  funext j
  obtain ⟨a, b, rfl⟩ : ∃ (a : Fin 512) (b : Fin 512), j = ix2 a b := ⟨j 0, j 1, eq_ix2 j⟩
  rw [val_main_v29_apply, val_main_v28_apply, val_main_v27_apply]
  show x4 _ = x4 _
  refine congrArg x4 (funext fun d => Fin.ext ?_)
  have ha := a.isLt
  have hb := b.isLt
  match d with
  | ⟨0, _⟩ => rfl
  | ⟨1, _⟩ => show (b.val * 512 + a.val) / 512 % 512 = b.val; omega
  | ⟨2, _⟩ => show (b.val * 512 + a.val) % 512 = a.val; omega

/-- Row 2 of the bias matrix, recast and repeated down the rows. -/
theorem b2_apply (x5 : (⟨S4x512, .f32⟩ : BufTy).Contents (Elt Ideal)) (p : Fin 4096) (q : Fin 512) :
    val_main_v34 (F := Ideal) x5 (ix2 p q) = vrow (2 : Fin 4) x5 (ix1 q) := by
  rw [val_main_v34_apply, val_main_v33_apply, val_main_v32_apply, val_main_v31_apply]
  show x5 _ = x5 _
  refine congrArg x5 (funext fun d => Fin.ext ?_)
  have hq := q.isLt
  match d with
  | ⟨0, _⟩ => rfl
  | ⟨1, _⟩ => show q.val % 512 = q.val; omega

/-- The clip's float zero, repeated over the array. -/
theorem z2_apply (p : Fin 4096) (q : Fin 512) : val_main_call2_v0 (F := Ideal) (ix2 p q) = zeroF := by
  rw [val_main_call2_v0_apply, val_main_call2_cst_apply]
  rfl

/-- Residual block 2. -/
theorem v37_eq (x1 : (⟨S4096x128, .f32⟩ : BufTy).Contents (Elt Ideal)) (x2 : (⟨S512x128, .f32⟩ : BufTy).Contents (Elt Ideal)) (x3 : (⟨S512, .f32⟩ : BufTy).Contents (Elt Ideal)) (x4 : (⟨S4x512x512, .f32⟩ : BufTy).Contents (Elt Ideal)) (x5 : (⟨S4x512, .f32⟩ : BufTy).Contents (Elt Ideal)) :
    val_main_v37 (F := Ideal) x1 x2 x3 x4 x5
      = resid (n := 4096) (k := 512) (val_main_v26 (F := Ideal) x1 x2 x3 x4 x5) (tr (c := 512) (k := 512) (slab (2 : Fin 4) x4)) (vrow (2 : Fin 4) x5) := by
  funext i
  obtain ⟨p, q, rfl⟩ : ∃ (p : Fin 4096) (q : Fin 512), i = ix2 p q := ⟨i 0, i 1, eq_ix2 i⟩
  have ed : val_main_v30 (F := Ideal) x1 x2 x3 x4 x5
      = rowsMul (n := 4096) (k := 512) (c := 512) (val_main_v26 (F := Ideal) x1 x2 x3 x4 x5) (tr (c := 512) (k := 512) (slab (2 : Fin 4) x4)) := by
    unfold val_main_v30
    rw [w2_eq]
    exact dotGeneral_rows (φ₁ := .f32) (φ₂ := .f32) dot_S4096x512_S512x512_S4096x512_1_0_0_1_n_n rfl rfl lhs_main_v30_0 lhs_main_v30_1 rhs_main_v30_0 rhs_main_v30_1 none _ _
  show (val_main_v26 (F := Ideal) x1 x2 x3 x4 x5) (ix2 p q) + max (val_main_v30 (F := Ideal) x1 x2 x3 x4 x5 (ix2 p q) + val_main_v34 (F := Ideal) x5 (ix2 p q)) (val_main_call2_v0 (F := Ideal) (ix2 p q)) = _
  rw [ed, b2_apply, z2_apply]
  rfl

/-- Matrix 3 of the stack, recast and transposed. -/
theorem w3_eq (x4 : (⟨S4x512x512, .f32⟩ : BufTy).Contents (Elt Ideal)) :
    val_main_v40 (F := Ideal) x4 = tr (c := 512) (k := 512) (slab (3 : Fin 4) x4) := by
  funext j
  obtain ⟨a, b, rfl⟩ : ∃ (a : Fin 512) (b : Fin 512), j = ix2 a b := ⟨j 0, j 1, eq_ix2 j⟩
  rw [val_main_v40_apply, val_main_v39_apply, val_main_v38_apply]
  show x4 _ = x4 _
  refine congrArg x4 (funext fun d => Fin.ext ?_)
  have ha := a.isLt
  have hb := b.isLt
  match d with
  | ⟨0, _⟩ => rfl
  | ⟨1, _⟩ => show (b.val * 512 + a.val) / 512 % 512 = b.val; omega
  | ⟨2, _⟩ => show (b.val * 512 + a.val) % 512 = a.val; omega

/-- Row 3 of the bias matrix, recast and repeated down the rows. -/
theorem b3_apply (x5 : (⟨S4x512, .f32⟩ : BufTy).Contents (Elt Ideal)) (p : Fin 4096) (q : Fin 512) :
    val_main_v45 (F := Ideal) x5 (ix2 p q) = vrow (3 : Fin 4) x5 (ix1 q) := by
  rw [val_main_v45_apply, val_main_v44_apply, val_main_v43_apply, val_main_v42_apply]
  show x5 _ = x5 _
  refine congrArg x5 (funext fun d => Fin.ext ?_)
  have hq := q.isLt
  match d with
  | ⟨0, _⟩ => rfl
  | ⟨1, _⟩ => show q.val % 512 = q.val; omega

/-- The clip's float zero, repeated over the array. -/
theorem z3_apply (p : Fin 4096) (q : Fin 512) : val_main_call3_v0 (F := Ideal) (ix2 p q) = zeroF := by
  rw [val_main_call3_v0_apply, val_main_call3_cst_apply]
  rfl

/-- Residual block 3. -/
theorem v48_eq (x1 : (⟨S4096x128, .f32⟩ : BufTy).Contents (Elt Ideal)) (x2 : (⟨S512x128, .f32⟩ : BufTy).Contents (Elt Ideal)) (x3 : (⟨S512, .f32⟩ : BufTy).Contents (Elt Ideal)) (x4 : (⟨S4x512x512, .f32⟩ : BufTy).Contents (Elt Ideal)) (x5 : (⟨S4x512, .f32⟩ : BufTy).Contents (Elt Ideal)) :
    val_main_v48 (F := Ideal) x1 x2 x3 x4 x5
      = resid (n := 4096) (k := 512) (val_main_v37 (F := Ideal) x1 x2 x3 x4 x5) (tr (c := 512) (k := 512) (slab (3 : Fin 4) x4)) (vrow (3 : Fin 4) x5) := by
  funext i
  obtain ⟨p, q, rfl⟩ : ∃ (p : Fin 4096) (q : Fin 512), i = ix2 p q := ⟨i 0, i 1, eq_ix2 i⟩
  have ed : val_main_v41 (F := Ideal) x1 x2 x3 x4 x5
      = rowsMul (n := 4096) (k := 512) (c := 512) (val_main_v37 (F := Ideal) x1 x2 x3 x4 x5) (tr (c := 512) (k := 512) (slab (3 : Fin 4) x4)) := by
    unfold val_main_v41
    rw [w3_eq]
    exact dotGeneral_rows (φ₁ := .f32) (φ₂ := .f32) dot_S4096x512_S512x512_S4096x512_1_0_0_1_n_n rfl rfl lhs_main_v41_0 lhs_main_v41_1 rhs_main_v41_0 rhs_main_v41_1 none _ _
  show (val_main_v37 (F := Ideal) x1 x2 x3 x4 x5) (ix2 p q) + max (val_main_v41 (F := Ideal) x1 x2 x3 x4 x5 (ix2 p q) + val_main_v45 (F := Ideal) x5 (ix2 p q)) (val_main_call3_v0 (F := Ideal) (ix2 p q)) = _
  rw [ed, b3_apply, z3_apply]
  rfl

/-! ## The head, and the whole network -/

/-- The last layer: the fourth block's output times the transposed head matrix, plus the bias row. -/
theorem v53_head (x1 : (⟨S4096x128, .f32⟩ : BufTy).Contents (Elt Ideal)) (x2 : (⟨S512x128, .f32⟩ : BufTy).Contents (Elt Ideal)) (x3 : (⟨S512, .f32⟩ : BufTy).Contents (Elt Ideal)) (x4 : (⟨S4x512x512, .f32⟩ : BufTy).Contents (Elt Ideal)) (x5 : (⟨S4x512, .f32⟩ : BufTy).Contents (Elt Ideal)) (x6 : (⟨S128x512, .f32⟩ : BufTy).Contents (Elt Ideal)) (x7 : (⟨S128, .f32⟩ : BufTy).Contents (Elt Ideal)) :
    val_main_v53 (F := Ideal) x1 x2 x3 x4 x5 x6 x7
      = head (n := 4096) (k := 512) (c := 128) (val_main_v48 (F := Ideal) x1 x2 x3 x4 x5) (tr (c := 128) (k := 512) x6) x7 := by
  funext i
  obtain ⟨p, q, rfl⟩ : ∃ (p : Fin 4096) (q : Fin 128), i = ix2 p q := ⟨i 0, i 1, eq_ix2 i⟩
  have ed : val_main_v50 (F := Ideal) x1 x2 x3 x4 x5 x6
      = rowsMul (n := 4096) (k := 512) (c := 128) (val_main_v48 (F := Ideal) x1 x2 x3 x4 x5) (tr (c := 128) (k := 512) x6) := by
    unfold val_main_v50 val_main_v49
    rw [transpose_eq_tr]
    exact dotGeneral_rows (φ₁ := .f32) (φ₂ := .f32) dot_S4096x512_S512x128_S4096x128_1_0_0_1_n_n rfl rfl lhs_main_v50_0 lhs_main_v50_1 rhs_main_v50_0 rhs_main_v50_1 none _ _
  have eb : val_main_v52 (F := Ideal) x7 (ix2 p q) = x7 (ix1 q) := by
    rw [val_main_v52_apply, val_main_v51_apply]
    exact congrArg x7 (funext fun d => Fin.ext (by match d with | ⟨0, _⟩ => rfl))
  show val_main_v50 (F := Ideal) x1 x2 x3 x4 x5 x6 (ix2 p q) + val_main_v52 (F := Ideal) x7 (ix2 p q) = _
  rw [ed, eb]
  rfl

/-- THE REFERENCE'S GENERATOR STAGES are the generator network of its argument arrays. -/
theorem v53_gen (x1 : (⟨S4096x128, .f32⟩ : BufTy).Contents (Elt Ideal)) (x2 : (⟨S512x128, .f32⟩ : BufTy).Contents (Elt Ideal)) (x3 : (⟨S512, .f32⟩ : BufTy).Contents (Elt Ideal)) (x4 : (⟨S4x512x512, .f32⟩ : BufTy).Contents (Elt Ideal)) (x5 : (⟨S4x512, .f32⟩ : BufTy).Contents (Elt Ideal)) (x6 : (⟨S128x512, .f32⟩ : BufTy).Contents (Elt Ideal)) (x7 : (⟨S128, .f32⟩ : BufTy).Contents (Elt Ideal)) :
    val_main_v53 (F := Ideal) x1 x2 x3 x4 x5 x6 x7 = gen (n := 4096) x1 x2 x3 x4 x5 x6 x7 := by
  rw [v53_head, v48_eq, v37_eq, v26_eq, v15_eq, v4_eq]
  rfl

end Cert.ReferenceIdeal.GenRef

end
-- ==== Proof.KernelHost.lean ====
/-
  The buffer contents of the idealized kernel's run at the boundaries between its segments, read one buffer at a
  time. The run passes through: region 0 (the generator network, writing the generated points `x`), a stretch of
  host operations (the squared norms of the rows of `x` and of the positives, recast as a column and as rows),
  region 1 (per-tile softmax statistics), a second stretch (the per-tile column statistics merged over the tiles),
  region 2 (per-tile partial losses) and a last stretch (their sum over the count). Each lemma says what one
  buffer holds at one boundary in terms of the previous boundary.
-/
import proofs.«125113_j88270167868072_2_alg».proof.Proof.Gen.KernelIdeal.Frame

set_option maxRecDepth 16384

noncomputable section

namespace Cert.KernelIdeal.Drift

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## The last stretch: the result is the sum of region 2's sixteen partial losses over the count -/

theorem result_eq (c : Dev nD) :
    W6 m ρ c (Proc.devRef .tc main_v31)
      = Host.divf (Host.reduceAdd (W5 m ρ c (Proc.devRef .tc main_v29)) (constant S_ .f32 0x00000000#32) reducesTo_S16x1x1_S_d0_1_2 h_S_)
          (constant S_ .f32 0x49000000#32) := by
  show StableHlo.after hostOps3 (W5 m ρ c) (Proc.devRef .tc main_v31) = _
  after_results

/-- Region 2's output array is what its sixteen points wrote back. -/
theorem partials_eq (c : Dev nD) :
    W5 m ρ c (Proc.devRef .tc main_v29) = (dat2 (V4 m ρ) c).arrAt 11 cfg2.N := W5_arr m ρ c 11

/-! ## Region 0's output, the generated points, seen from the later boundaries -/

/-- The generated points as region 0 leaves them. -/
abbrev genArr (c : Dev nD) := (dat0 (V0 m ρ) c).arrAt 7 cfg0.N

theorem x_at_W1 (c : Dev nD) : W1 m ρ c (Proc.devRef .tc main_v0) = genArr m ρ c := W1_arr m ρ c 7

theorem x_at_W2 (c : Dev nD) : W2 m ρ c (Proc.devRef .tc main_v0) = genArr m ρ c :=
  (StableHlo.after_of_forall_not_mem (b := Proc.devRef .tc main_v0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (x_at_W1 m ρ c)

theorem x_at_W3 (c : Dev nD) : W3 m ρ c (Proc.devRef .tc main_v0) = genArr m ρ c :=
  ((W3_arr m ρ c 0).trans (((dat1 (V2 m ρ) c).arrAt_in 0 rfl _).trans (A_eq1 (V2 m ρ) c 0))).trans (x_at_W2 m ρ c)

theorem x_at_W4 (c : Dev nD) : W4 m ρ c (Proc.devRef .tc main_v0) = genArr m ρ c :=
  (StableHlo.after_of_forall_not_mem (b := Proc.devRef .tc main_v0) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (x_at_W3 m ρ c)

/-! ## The positives, the second argument of both later regions -/

theorem y_at_W1 (c : Dev nD) : W1 m ρ c (Proc.devRef .tc main_arg0) = m ((c : Thread nD τ).loc main_arg0) :=
  W1_of_ne m ρ c main_arg0 (by decide)

theorem y_at_W2 (c : Dev nD) : W2 m ρ c (Proc.devRef .tc main_arg0) = m ((c : Thread nD τ).loc main_arg0) :=
  (StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (y_at_W1 m ρ c)

theorem y_at_W3 (c : Dev nD) : W3 m ρ c (Proc.devRef .tc main_arg0) = m ((c : Thread nD τ).loc main_arg0) :=
  ((W3_arr m ρ c 1).trans (((dat1 (V2 m ρ) c).arrAt_in 1 rfl _).trans (A_eq1 (V2 m ρ) c 1))).trans (y_at_W2 m ρ c)

theorem y_at_W4 (c : Dev nD) : W4 m ρ c (Proc.devRef .tc main_arg0) = m ((c : Thread nD τ).loc main_arg0) :=
  (StableHlo.after_of_forall_not_mem (b := Proc.devRef .tc main_arg0) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (y_at_W3 m ρ c)

/-! ## The squared norms: the first stretch of host operations -/

/-- The squared norms of the rows of an array of points: the host's float sum, from zero, of the squares along a row. -/
abbrev sqNorms (a : (⟨S4096x128, .f32⟩ : BufTy).Contents (Elt F)) : (⟨S4096, .f32⟩ : BufTy).Contents (Elt F) :=
  Host.reduceAdd (mulf a a) (constant S_ .f32 0x00000000#32) reducesTo_S4096x128_S4096_d1 h_S_

theorem ncol_at_W2 (c : Dev nD) :
    W2 m ρ c (Proc.devRef .tc main_v5) = shapeCast S4096x1 (sqNorms (W1 m ρ c (Proc.devRef .tc main_v0))) shapeCasts_S4096_S4096x1 := by
  show StableHlo.after hostOps1 (W1 m ρ c) (Proc.devRef .tc main_v5) = _
  after_results
  rfl

theorem nxrow_at_W2 (c : Dev nD) :
    W2 m ρ c (Proc.devRef .tc main_v6) = shapeCast S1x4096 (sqNorms (W1 m ρ c (Proc.devRef .tc main_v0))) shapeCasts_S4096_S1x4096 := by
  show StableHlo.after hostOps1 (W1 m ρ c) (Proc.devRef .tc main_v6) = _
  after_results
  rfl

theorem nyrow_at_W2 (c : Dev nD) :
    W2 m ρ c (Proc.devRef .tc main_v7) = shapeCast S1x4096 (sqNorms (W1 m ρ c (Proc.devRef .tc main_arg0))) shapeCasts_S4096_S1x4096 := by
  show StableHlo.after hostOps1 (W1 m ρ c) (Proc.devRef .tc main_v7) = _
  after_results
  rfl

theorem ncol_at_W4 (c : Dev nD) : W4 m ρ c (Proc.devRef .tc main_v5) = W2 m ρ c (Proc.devRef .tc main_v5) :=
  (StableHlo.after_of_forall_not_mem (b := Proc.devRef .tc main_v5) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W3_arr m ρ c 2).trans (((dat1 (V2 m ρ) c).arrAt_in 2 rfl _).trans (A_eq1 (V2 m ρ) c 2)))

theorem nxrow_at_W4 (c : Dev nD) : W4 m ρ c (Proc.devRef .tc main_v6) = W2 m ρ c (Proc.devRef .tc main_v6) :=
  (StableHlo.after_of_forall_not_mem (b := Proc.devRef .tc main_v6) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W3_arr m ρ c 3).trans (((dat1 (V2 m ρ) c).arrAt_in 3 rfl _).trans (A_eq1 (V2 m ρ) c 3)))

theorem nyrow_at_W4 (c : Dev nD) : W4 m ρ c (Proc.devRef .tc main_v7) = W2 m ρ c (Proc.devRef .tc main_v7) :=
  (StableHlo.after_of_forall_not_mem (b := Proc.devRef .tc main_v7) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W3_arr m ρ c 4).trans (((dat1 (V2 m ρ) c).arrAt_in 4 rfl _).trans (A_eq1 (V2 m ρ) c 4)))

/-! ## Region 1's outputs at region 2's entry: the row statistics as written, the column statistics merged -/

theorem rowmax_at_W4 (c : Dev nD) : W4 m ρ c (Proc.devRef .tc main_v8_0) = (dat1 (V2 m ρ) c).arrAt 5 cfg1.N :=
  (StableHlo.after_of_forall_not_mem (b := Proc.devRef .tc main_v8_0) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arr m ρ c 5)

theorem rowsum_at_W4 (c : Dev nD) : W4 m ρ c (Proc.devRef .tc main_v8_1) = (dat1 (V2 m ρ) c).arrAt 6 cfg1.N :=
  (StableHlo.after_of_forall_not_mem (b := Proc.devRef .tc main_v8_1) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arr m ρ c 6)

/-- The merge of per-tile column maxima: the maximum over the tiles, recast as a row. -/
abbrev mergeMax (lm : (⟨S16x1x4096, .f32⟩ : BufTy).Contents (Elt F)) : (⟨S4096, .f32⟩ : BufTy).Contents (Elt F) :=
  Host.reduce FloatOps.maximumf (shapeCast S16x4096 lm shapeCasts_S16x1x4096_S16x4096) (constant S_ .f32 0xFF800000#32) reducesTo_S16x4096_S4096_d0 h_S_

/-- The merge of per-tile column exponential sums: each tile's sum rescaled by exp(its maximum − the merged maximum), summed over the tiles. -/
abbrev mergeSum (lm ls : (⟨S16x1x4096, .f32⟩ : BufTy).Contents (Elt F)) : (⟨S4096, .f32⟩ : BufTy).Contents (Elt F) :=
  Host.reduceAdd
    (mulf (shapeCast S16x4096 ls shapeCasts_S16x1x4096_S16x4096)
      (Host.exp (subf (shapeCast S16x4096 lm shapeCasts_S16x1x4096_S16x4096)
        (broadcastInDim S16x4096 ![0, 1] bcast_S1x4096_S16x4096_0_1 (broadcastInDim S1x4096 ![1] bcast_S4096_S1x4096_1 (mergeMax lm))))))
    (constant S_ .f32 0x00000000#32) reducesTo_S16x4096_S4096_d0 h_S_

theorem cmaxpos_at_W4 (c : Dev nD) :
    W4 m ρ c (Proc.devRef .tc main_v12) = broadcastInDim S1x4096 ![1] bcast_S4096_S1x4096_1 (mergeMax (W3 m ρ c (Proc.devRef .tc main_v8_2))) := by
  show StableHlo.after hostOps2 (W3 m ρ c) (Proc.devRef .tc main_v12) = _
  after_results
  rfl

theorem csumpos_at_W4 (c : Dev nD) :
    W4 m ρ c (Proc.devRef .tc main_v18) = broadcastInDim S1x4096 ![1] bcast_S4096_S1x4096_1
      (mergeSum (W3 m ρ c (Proc.devRef .tc main_v8_2)) (W3 m ρ c (Proc.devRef .tc main_v8_3))) := by
  show StableHlo.after hostOps2 (W3 m ρ c) (Proc.devRef .tc main_v18) = _
  after_results
  rfl

theorem cmaxneg_at_W4 (c : Dev nD) :
    W4 m ρ c (Proc.devRef .tc main_v22) = broadcastInDim S1x4096 ![1] bcast_S4096_S1x4096_1 (mergeMax (W3 m ρ c (Proc.devRef .tc main_v8_4))) := by
  show StableHlo.after hostOps2 (W3 m ρ c) (Proc.devRef .tc main_v22) = _
  after_results
  rfl

theorem csumneg_at_W4 (c : Dev nD) :
    W4 m ρ c (Proc.devRef .tc main_v28) = broadcastInDim S1x4096 ![1] bcast_S4096_S1x4096_1
      (mergeSum (W3 m ρ c (Proc.devRef .tc main_v8_4)) (W3 m ρ c (Proc.devRef .tc main_v8_5))) := by
  show StableHlo.after hostOps2 (W3 m ρ c) (Proc.devRef .tc main_v28) = _
  after_results
  rfl

theorem lstat_at_W3 (c : Dev nD) :
    W3 m ρ c (Proc.devRef .tc main_v8_2) = (dat1 (V2 m ρ) c).arrAt 7 cfg1.N
    ∧ W3 m ρ c (Proc.devRef .tc main_v8_3) = (dat1 (V2 m ρ) c).arrAt 8 cfg1.N
    ∧ W3 m ρ c (Proc.devRef .tc main_v8_4) = (dat1 (V2 m ρ) c).arrAt 9 cfg1.N
    ∧ W3 m ρ c (Proc.devRef .tc main_v8_5) = (dat1 (V2 m ρ) c).arrAt 10 cfg1.N :=
  ⟨W3_arr m ρ c 7, W3_arr m ρ c 8, W3_arr m ρ c 9, W3_arr m ρ c 10⟩

end Cert.KernelIdeal.Drift

end
-- ==== Proof.LibRowLanes.lean ====
/-
  Matrices `[a, b]` handled along their rows, read at coordinates, at the ideal values.

  * a sum over the last axis, at row `i`, is the sum over `k` of the entries `(i, k)`; a maximum over it is the fold
    of `max` over those entries from the accumulator's value;
  * a matrix product into a zero accumulator whose dimension numbers contract the LAST axis of both operands —
    rows against rows, `A · Bᵀ` — is at `(p, q)` the sum over `j` of `A (p, j) · B (q, j)`. The four coordinate facts
    of the dimension numbers are hypotheses (each record proves them by unfolding).
-/
import Idealize.ShloMosaic.Lib.ValueIdx
import Idealize.ShloMosaic.PureOps.Ideal.Laws

noncomputable section

namespace Cert.LibRowLanes

open Idealize.ShloMosaic Idealize.ShloMosaic.ValueIdx
open scoped BigOperators

/-- The index `i` of `[a]` with `k` inserted on the last axis of `[a, b]` is `(i, k)`. -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- A float sum over the last axis, read at row `i` on the extended reals: the sum of the entries `(i, k)`. -/
theorem sum_row_apply {a b : ℕ} (v : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (i : Fin a) :
    multiReduction .add [1] ⟨1, ![a]⟩ v acc h hφ hacc (ix1 i) = ∑ k : Fin b, v (ix2 i k) := by
  refine (Ideal.multiReduction_add_single v acc h hφ hacc (ix1 i)).trans ?_
  exact Finset.sum_congr rfl fun k _ => congrArg v (lift_row h i k)

/-- A float maximum over the last axis, read at row `i`: the fold of `max` over the entries `(i, k)` from the
    accumulator's value. -/
theorem max_row_apply {a b : ℕ} (v : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (i : Fin a) :
    multiReduction .maximumf [1] ⟨1, ![a]⟩ v acc h hφ hacc (ix1 i)
      = (Finset.univ : Finset (Fin b)).fold max (Ideal.ofBits .f32 acc) (fun k => v (ix2 i k)) := by
  refine (Ideal.multiReduction_maximumf_single v acc h hφ hacc (ix1 i)).trans ?_
  exact congrArg (Finset.univ.fold max (Ideal.ofBits .f32 acc)) (funext fun k => congrArg v (lift_row h i k))

/-- Rows against rows: the matrix product into zeros that contracts the last axis of both operands is, at entry
    `(p, q)`, the sum over the contraction position of `A (p, ·) · B (q, ·)`. -/
theorem matmul_zero_rows_rows {n k c : Nat} {φ₁ φ₂ : FTy}
    (D : DotDims ⟨2, ![n, k]⟩ ⟨2, ![c, k]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (i 1).val)
    (r1 : ∀ (i : (⟨2, ![n, c]⟩ : Shape).Idx) (q : D.contr.Idx), (D.rhsIdx i q 1).val = (q ⟨0, by omega⟩).val)
    (prec : Option ContractPrecision) (A : FVec Ideal ⟨2, ![n, k]⟩ φ₁) (B : FVec Ideal ⟨2, ![c, k]⟩ φ₂)
    (p : Fin n) (q : Fin c) :
    matmul D prec A B (constant ⟨2, ![n, c]⟩ .f32 0x00000000#32) (ix2 p q) = ∑ j : Fin k, A (ix2 p j) * B (ix2 q j) := by
  show FloatOps.matmul D prec A B (constant ⟨2, ![n, c]⟩ .f32 0x00000000#32) (ix2 p q) = _
  rw [Ideal.matmul_constant_zero_apply, ← Equiv.sum_comp (contrEquiv1 D k hr hs).symm]
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 q j := funext fun ax => Fin.ext (by
    match ax with
    | ⟨0, _⟩ => exact r0 _ _
    | ⟨1, _⟩ => exact (r1 _ _).trans hk)
  rw [el, er]

end Cert.LibRowLanes

end
-- ==== Proof.KernelGlue.lean ====
/-
  The host operations between the kernel's regions, read at coordinates on the extended reals: the squared norms as
  row sums of squares, the merge of the per-tile column statistics (the maximum over the sixteen tiles; the sum over
  the tiles of each tile's exponential sum rescaled by exp(its maximum − the merged maximum)), and the last sum of
  the sixteen partial losses. These are the glue between what each region writes and what the next one reads.
-/
import proofs.«125113_j88270167868072_2_alg».proof.Proof.KernelHost
import proofs.«125113_j88270167868072_2_alg».proof.Proof.DriftSpec
import proofs.«125113_j88270167868072_2_alg».proof.Proof.LibKeepdims
import proofs.«125113_j88270167868072_2_alg».proof.Proof.LibRowLanes
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.Drift

open Cert.KernelIdeal Cert.KernelIdeal.Gen Cert.DriftSpec
open Idealize.ShloMosaic Idealize.ShloMosaic.TcCoe Idealize.ShloMosaic.ValueIdx
open scoped BigOperators

/-! ## Index bookkeeping -/

/-- A column index `j` of `[n]` with the tile `t` put back on the leading axis of `[m, n]` is `(t, j)`. -/
theorem lift_col {m n : Nat} (h : (⟨2, ![m, n]⟩ : Shape).Reduces [0] (⟨1, ![n]⟩ : Shape)) (j : Fin n)
    (t : Fin ((⟨2, ![m, n]⟩ : Shape).size 0)) : h.lift (ix1 j) t = ix2 (⟨t.val, t.isLt⟩ : Fin m) j := by
  funext a; apply Fin.ext
  fin_cases a <;> rfl

/-- A `[m, 1, n]` array recast as `[m, n]` reads, at `(t, j)`, the operand at `(t, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A vector `[n]` laid as the row `[1, n]` by a broadcast reads, at `(0, j)`, the vector at `j`. -/
theorem broadcastInDim_row_apply {α : Type} {n : ℕ} (x : (⟨1, ![n]⟩ : Shape).Idx → α)
    (h : (⟨1, ![n]⟩ : Shape).BroadcastsInDim ⟨2, ![1, n]⟩ ![1]) (u : Fin 1) (j : Fin n) :
    broadcastInDim ⟨2, ![1, n]⟩ ![1] h x (ix2 u j) = x (ix1 j) := by
  refine broadcastInDim_apply ![1] h x (ix2 u j) (ix1 j) fun a => ?_
  match a with
  | ⟨0, _⟩ =>
    show j.val = if n = 1 then 0 else j.val
    split
    · have := j.isLt; omega
    · rfl

/-- A row `[1, b]` spread down `a` rows by a broadcast reads, at `(i, j)`, the row at `j`. -/
theorem broadcastInDim_rows_apply {α : Type} {a b : ℕ} (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply ![0, 1] h x (ix2 i j) (ix2 (0 : Fin 1) j) fun ax => ?_
  match ax with
  | ⟨0, _⟩ => rfl
  | ⟨1, _⟩ =>
    show j.val = if b = 1 then 0 else j.val
    split
    · have := j.isLt; omega
    · rfl

/-! ## The squared norms -/

/-- The host's squared norm of row `p`: zero plus the sum of the squares along the row. -/
theorem sqNorms_apply (a : FVec Ideal S4096x128 .f32) (p : Fin 4096) :
    sqNorms (F := Ideal) a (ix1 p) = ∑ q : Fin 128, a (ix2 p q) * a (ix2 p q) := by
  have h : S4096x128.Reduces [1] S4096 := by decide
  show Host.reduceAdd (mulf a a) (constant S_ .f32 0x00000000#32) reducesTo_S4096x128_S4096_d1 h_S_ (ix1 p) = _
  refine (Ideal.hostReduceAdd_single reducesTo_S4096x128_S4096_d1 h (mulf a a) _ (ix1 p)).trans ?_
  show Ideal.ofBits .f32 0x00000000#32 + _ = _
  rw [Ideal.ofBits_zero_f32, zero_add]
  refine Finset.sum_congr rfl fun q _ => ?_
  show a (h.lift (ix1 p) q) * a (h.lift (ix1 p) q) = _
  rw [Cert.LibRowLanes.lift_row h p q]

/-! ## The merged column statistics -/

/-- The merged column maximum at column `j`: the maximum over the sixteen tiles. -/
theorem mergeMax_apply (lm : FVec Ideal S16x1x4096 .f32) (j : Fin 4096) :
    mergeMax (F := Ideal) lm (ix1 j) = supF fun t : Fin 16 => lm (ix3 t (0 : Fin 1) j) := by
  have h : S16x4096.Reduces [0] S4096 := by decide
  show Host.reduce FloatOps.maximumf (shapeCast S16x4096 lm shapeCasts_S16x1x4096_S16x4096) (constant S_ .f32 0xFF800000#32)
    reducesTo_S16x4096_S4096_d0 h_S_ (ix1 j) = _
  rw [Host.reduce_eq_fold_single FloatOps.maximumf _ _ reducesTo_S16x4096_S4096_d0 h h_S_]
  have hb : (constant S_ .f32 0xFF800000#32 : FVec Ideal S_ .f32) (Shape.Idx.first h_S_) = (⊥ : EReal) := by
    show Ideal.ofBits .f32 0xFF800000#32 = ⊥; simp [Ideal.ofBits, Ideal.ieee]
  rw [hb]
  have hf : ((shapeCast S16x4096 lm shapeCasts_S16x1x4096_S16x4096) ∘ h.lift (ix1 j))
      = fun t : Fin 16 => lm (ix3 t (0 : Fin 1) j) := funext fun t => by
    show shapeCast S16x4096 lm shapeCasts_S16x1x4096_S16x4096 (h.lift (ix1 j) t) = _
    rw [lift_col h j t]
    exact shapeCast_a1b_ab_apply lm shapeCasts_S16x1x4096_S16x4096 _ j
  unfold supF
  exact congrArg (fun f => Finset.fold max (⊥ : EReal) f (Finset.univ : Finset (Fin 16))) hf

/-- The merged column exponential sum at column `j`: over the tiles, each tile's sum times exp(its maximum − the merged one). -/
theorem mergeSum_apply (lm ls : FVec Ideal S16x1x4096 .f32) (j : Fin 4096) :
    mergeSum (F := Ideal) lm ls (ix1 j)
      = ∑ t : Fin 16, ls (ix3 t (0 : Fin 1) j) * Ideal.exp (lm (ix3 t (0 : Fin 1) j) - mergeMax (F := Ideal) lm (ix1 j)) := by
  have h : S16x4096.Reduces [0] S4096 := by decide
  unfold mergeSum
  refine (Ideal.hostReduceAdd_single reducesTo_S16x4096_S4096_d0 h _ _ (ix1 j)).trans ?_
  show Ideal.ofBits .f32 0x00000000#32 + _ = _
  rw [Ideal.ofBits_zero_f32, zero_add]
  refine Finset.sum_congr rfl fun t _ => ?_
  rw [lift_col h j t]
  show shapeCast S16x4096 ls shapeCasts_S16x1x4096_S16x4096 (ix2 _ j)
      * Ideal.exp (shapeCast S16x4096 lm shapeCasts_S16x1x4096_S16x4096 (ix2 _ j)
          - broadcastInDim S16x4096 ![0, 1] bcast_S1x4096_S16x4096_0_1
              (broadcastInDim S1x4096 ![1] bcast_S4096_S1x4096_1 (mergeMax (F := Ideal) lm)) (ix2 _ j)) = _
  rw [shapeCast_a1b_ab_apply ls, shapeCast_a1b_ab_apply lm]
  have hbc : broadcastInDim S16x4096 ![0, 1] bcast_S1x4096_S16x4096_0_1
      (broadcastInDim S1x4096 ![1] bcast_S4096_S1x4096_1 (mergeMax (F := Ideal) lm)) (ix2 (⟨t.val, t.isLt⟩ : Fin 16) j)
      = mergeMax (F := Ideal) lm (ix1 j) := by
    exact (broadcastInDim_rows_apply _ bcast_S1x4096_S16x4096_0_1 _ j).trans
      (broadcastInDim_row_apply _ bcast_S4096_S1x4096_1 0 j)
  rw [hbc]
  rfl

end Cert.KernelIdeal.Drift

end
-- ==== Proof.DriftTile.lean ====
/-
  The tiled arrangement of the drifting-field loss, one pass at a time, with every array a pass READS as a parameter:
  the squared norms (a column `nc` for the tile's rows, rows `nxr`, `nyr` for all points), the row statistics
  (`rm`, `rs`) and the merged column statistics (`cmP`, `csP`, `cmN`, `csN`). Instantiated at the norms and
  statistics the passes before it computed, these are the functions of `DriftSpec`.
-/
import proofs.«125113_j88270167868072_2_alg».proof.Proof.DriftSpec

noncomputable section

namespace Cert.DriftTile

open Idealize.ShloMosaic Cert.DriftSpec
open scoped BigOperators

section
variable (x y : Fin 4096 → Fin 128 → EReal) (nc nxr nyr : Fin 4096 → EReal)

/-- The clipped squared distance from given squared norms `a`, `b` and a given inner product `dt`. -/
def d2G (a b dt : EReal) : EReal := max (a + b - cTwo * dt) 0

/-- The scores against the positives, and among the generated points, from given norm arrays. -/
def aposG (p j : Fin 4096) : EReal := Ideal.div (-(dist (d2G (nc p) (nyr j) (dot x y p j)))) cFifth
def dnegG (p j : Fin 4096) : EReal :=
  if p = j then dist (d2G (nc p) (nxr j) (dot x x p j)) + cBig else dist (d2G (nc p) (nxr j) (dot x x p j))
def anegG (p j : Fin 4096) : EReal := Ideal.div (-(dnegG x nc nxr p j)) cFifth
end

section
variable (aP aN : Fin 4096 → Fin 4096 → EReal)

/-- A row's maximum and exponential sum over its two score rows. -/
def rmaxT (p : Fin 4096) : EReal := max (supF (aP p)) (supF (aN p))
def rsumT (p : Fin 4096) : EReal :=
  (∑ j : Fin 4096, Ideal.exp (aP p j - rmaxT aP aN p)) + ∑ j : Fin 4096, Ideal.exp (aN p j - rmaxT aP aN p)
end

section
variable (x y : Fin 4096 → Fin 128 → EReal) (aP aN : Fin 4096 → Fin 4096 → EReal)
  (rm rs : Fin 4096 → EReal) (cmP csP cmN csN : Fin 4096 → EReal)

/-- The fused weight from given row and column statistics. -/
def softT (a : Fin 4096 → Fin 4096 → EReal) (cm cs : Fin 4096 → EReal) (p j : Fin 4096) : EReal :=
  Ideal.exp (a p j - cHalf * (rm p + cm j)) * Ideal.rsqrt (rs p) * Ideal.rsqrt (cs j)

/-- The drifting field of the tiled pass. -/
def fieldT : Fin 4096 → Fin 128 → EReal := field x y (softT rm rs aP cmP csP) (softT rm rs aN cmN csN)

/-- Tile `t`'s partial loss: the sum of the squared field over the tile's 256 rows and the 128 coordinates. -/
def partialT (t : Fin 16) : EReal :=
  ∑ r : Fin 256, ∑ q : Fin 128,
    fieldT x y aP aN rm rs cmP csP cmN csN (row t r) q * fieldT x y aP aN rm rs cmP csP cmN csN (row t r) q
end

end Cert.DriftTile

end
-- ==== Proof.GenRows.lean ====
/-
  Every entry of the generator network's output depends on ONE row of the input only. So a residual block, and the
  whole network, at a row of a large array equal the same function of any array that carries the same row: a block
  of consecutive rows of the output is the network applied to that block of rows of the input.
-/
import proofs.«125113_j88270167868072_2_alg».proof.Proof.GenSpec

noncomputable section

namespace Cert.DriftGen

open Idealize.ShloMosaic Idealize.ShloMosaic.ValueIdx Cert.Sage
open scoped BigOperators

variable {n N k c : Nat}

/-- Every rank-2 index is built from its row and its column. -/
theorem eq_row_col {a b : Nat} (i : (⟨2, ![a, b]⟩ : Shape).Idx) : i = ix2 (rowOf i) (colOf i) := by
  funext d; match d with | ⟨0, _⟩ => rfl | ⟨1, _⟩ => rfl

/-- A block of rows of a residual block is the residual block of the block of rows. -/
theorem resid_rows (H : Arr2 N k) (h : Arr2 n k) (W : Arr2 k k) (b : Arr1 k)
    (I : (⟨2, ![N, k]⟩ : Shape).Idx) (i : (⟨2, ![n, k]⟩ : Shape).Idx) (hc : (I 1).val = (i 1).val)
    (hh : ∀ q : Fin k, H (ix2 (rowOf I) q) = h (ix2 (rowOf i) q)) :
    resid H W b I = resid h W b i := by
  unfold resid
  rw [rowsMul_rows H h W I i hc hh]
  have hcol : colOf I = colOf i := Fin.ext hc
  have hI : H I = h i :=
    calc H I = H (ix2 (rowOf I) (colOf I)) := congrArg H (eq_row_col I)
      _ = h (ix2 (rowOf i) (colOf I)) := hh _
      _ = h (ix2 (rowOf i) (colOf i)) := by rw [hcol]
      _ = h i := congrArg h (eq_row_col i).symm
  rw [hI, hcol]

/-- The linear head at row `R` of one array and row `r` of another that carries the same row. -/
theorem head_row (H : Arr2 N k) (h : Arr2 n k) (W : Arr2 k c) (b : Arr1 c) (R : Fin N) (r : Fin n)
    (hh : ∀ q : Fin k, H (ix2 R q) = h (ix2 r q)) (q : Fin c) :
    head H W b (ix2 R q) = head h W b (ix2 r q) :=
  head_rows H h W b (ix2 R q) (ix2 r q) rfl hh

/-- The residual block at row `R` of one array and row `r` of another that carries the same row. -/
theorem resid_row (H : Arr2 N k) (h : Arr2 n k) (W : Arr2 k k) (b : Arr1 k) (R : Fin N) (r : Fin n)
    (hh : ∀ q : Fin k, H (ix2 R q) = h (ix2 r q)) (q : Fin k) :
    resid H W b (ix2 R q) = resid h W b (ix2 r q) :=
  resid_rows H h W b (ix2 R q) (ix2 r q) rfl hh

/-- A block of rows of the generator network's output is the network of the block of rows of its input. -/
theorem gen_rows (eps : Arr2 N 128) (e : Arr2 n 128) (Win : Arr2 512 128) (bin : Arr1 512) (Wblk : Arr3 4 512 512)
    (bblk : Arr2 4 512) (Wout : Arr2 128 512) (bout : Arr1 128)
    (I : (⟨2, ![N, 128]⟩ : Shape).Idx) (i : (⟨2, ![n, 128]⟩ : Shape).Idx) (hc : (I 1).val = (i 1).val)
    (he : ∀ q : Fin 128, eps (ix2 (rowOf I) q) = e (ix2 (rowOf i) q)) :
    gen eps Win bin Wblk bblk Wout bout I = gen e Win bin Wblk bblk Wout bout i := by
  unfold gen
  refine head_rows _ _ _ _ I i hc ?_
  refine resid_row _ _ _ _ _ _ ?_
  refine resid_row _ _ _ _ _ _ ?_
  refine resid_row _ _ _ _ _ _ ?_
  refine resid_row _ _ _ _ _ _ ?_
  exact head_row _ _ _ _ _ _ he

end Cert.DriftGen

end
-- ==== Proof.LibRowsDot.lean ====
/-
  A plain matrix product read as rows against columns.

  A `tpu.matmul` of an [n, k] array with a [k, c] array into a zero accumulator, whose dimension numbers
  contract the second axis of the left operand with the first of the right and keep the other two in
  order, is at entry (p, q) the sum over the contraction position of left(p, ·)·right(·, q): `rowsMul`.
  The four coordinate facts of the dimension numbers are hypotheses (each record proves them by unfolding).
-/
import proofs.«125113_j88270167868072_2_alg».proof.Proof.LibRowsLayer
import Idealize.ShloMosaic.PureOps.Ideal.Laws

noncomputable section

namespace Cert.Sage

open Idealize.ShloMosaic Idealize.ShloMosaic.ValueIdx
open scoped BigOperators

/-- The matrix product into zeros, at entry (p, q), is the row–column sum. -/
theorem matmul_zero_rows {n k c : Nat} {φ₁ φ₂ : FTy}
    (D : DotDims ⟨2, ![n, k]⟩ ⟨2, ![k, c]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (q ⟨0, by omega⟩).val)
    (r1 : ∀ (i : (⟨2, ![n, c]⟩ : Shape).Idx) (q : D.contr.Idx), (D.rhsIdx i q 1).val = (i 1).val)
    (prec : Option ContractPrecision) (a : FVec Ideal ⟨2, ![n, k]⟩ φ₁) (W : FVec Ideal ⟨2, ![k, c]⟩ φ₂)
    (p : Fin n) (q : Fin c) :
    matmul D prec a W (constant ⟨2, ![n, c]⟩ .f32 0x00000000#32) (ix2 p q) = rowsMul (n := n) (k := k) (c := c) a W (ix2 p q) := by
  show FloatOps.matmul D prec a W (constant ⟨2, ![n, c]⟩ .f32 0x00000000#32) (ix2 p q) = _
  rw [Ideal.matmul_constant_zero_apply, ← Equiv.sum_comp (contrEquiv1 D k hr hs).symm]
  unfold rowsMul
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 j q := funext fun ax => Fin.ext (by
    match ax with
    | ⟨0, _⟩ => exact (r0 _ _).trans hk
    | ⟨1, _⟩ => exact r1 _ _)
  rw [el, er]
  rfl

end Cert.Sage

end
-- ==== Proof.GenKernel.lean ====
/-
  Region 0 of the kernel — the generator network, one block of 1024 rows per grid point — read as a function.

  The body's arithmetic is a chain of six layers on the loaded blocks: a linear layer from 128 to 512 coordinates,
  four residual blocks h ↦ h + max(h·Wᵀ + b, 0) whose weights are the four matrices of a stack and whose biases are
  the four rows of a matrix, and a linear head back to 128 coordinates. Each product against a transposed matrix
  into a zero accumulator is the rows-against-columns sum, each bias is one vector added to every row, so the
  body's result on a block of rows is the generator network of that block. Every output entry depends on one input
  row only, so block t of the network of the whole array is the network of block t; the four blocks tile the
  4096 rows, so the output array after the region is the network of the whole input array.
-/
import proofs.«125113_j88270167868072_2_alg».proof.Proof.GenRows
import proofs.«125113_j88270167868072_2_alg».proof.Proof.LibRowsDot
import proofs.«125113_j88270167868072_2_alg».proof.Proof.LibKeepdims
import proofs.«125113_j88270167868072_2_alg».proof.Proof.Gen.KernelIdeal.Frame
import Idealize.ShloMosaic.Lib.Pipeline.Value
import Idealize.ShloMosaic.Lib.ValueLayout

noncomputable section

namespace Cert.KernelIdeal.Reg0

open Idealize.ShloMosaic Idealize.ShloMosaic.TcCoe Idealize.ShloMosaic.ValueIdx Cert.Sage Cert.DriftGen
open Idealize.ShloMosaic.Pipeline (Dat)
open Cert.KernelIdeal Cert.KernelIdeal.Gen
open scoped BigOperators

/-! ## The three matrix products, each a rows-against-columns sum -/

/-- [1024,128] × [128,512] into zeros. -/
theorem mm_in (a : FVec Ideal S1024x128 .f32) (W : FVec Ideal S128x512 .f32) (p : Fin 1024) (q : Fin 512) :
    matmul dot_S1024x128_S128x512_S1024x512_1_0_0_1_n_n none a W (constant S1024x512 .f32 0x00000000#32) (ix2 p q)
      = rowsMul (n := 1024) (k := 128) (c := 512) a W (ix2 p q) :=
  matmul_zero_rows dot_S1024x128_S128x512_S1024x512_1_0_0_1_n_n rfl rfl
    (fun i q => by
      unfold DotDims.lhsIdx
      rw [dif_neg (show ¬(0 : Fin S1024x128.rank) ∈ dot_S1024x128_S128x512_S1024x512_1_0_0_1_n_n.lhsBatch by decide),
        dif_pos (show (0 : Fin S1024x128.rank) ∈ dot_S1024x128_S128x512_S1024x512_1_0_0_1_n_n.lhsNonContracting by decide)]
      rfl)
    (fun i q => dot_S1024x128_S128x512_S1024x512_1_0_0_1_n_n.lhsIdx_val_of_single rfl i q)
    (fun i q => dot_S1024x128_S128x512_S1024x512_1_0_0_1_n_n.rhsIdx_val_of_single rfl i q)
    (fun i q => by
      unfold DotDims.rhsIdx
      rw [dif_neg (show ¬(1 : Fin S128x512.rank) ∈ dot_S1024x128_S128x512_S1024x512_1_0_0_1_n_n.rhsBatch by decide),
        dif_pos (show (1 : Fin S128x512.rank) ∈ dot_S1024x128_S128x512_S1024x512_1_0_0_1_n_n.rhsNonContracting by decide)]
      rfl)
    none a W p q

/-- [1024,512] × [512,512] into zeros. -/
theorem mm_res (a : FVec Ideal S1024x512 .f32) (W : FVec Ideal S512x512 .f32) (p : Fin 1024) (q : Fin 512) :
    matmul dot_S1024x512_S512x512_S1024x512_1_0_0_1_n_n none a W (constant S1024x512 .f32 0x00000000#32) (ix2 p q)
      = rowsMul (n := 1024) (k := 512) (c := 512) a W (ix2 p q) :=
  matmul_zero_rows dot_S1024x512_S512x512_S1024x512_1_0_0_1_n_n rfl rfl
    (fun i q => by
      unfold DotDims.lhsIdx
      rw [dif_neg (show ¬(0 : Fin S1024x512.rank) ∈ dot_S1024x512_S512x512_S1024x512_1_0_0_1_n_n.lhsBatch by decide),
        dif_pos (show (0 : Fin S1024x512.rank) ∈ dot_S1024x512_S512x512_S1024x512_1_0_0_1_n_n.lhsNonContracting by decide)]
      rfl)
    (fun i q => dot_S1024x512_S512x512_S1024x512_1_0_0_1_n_n.lhsIdx_val_of_single rfl i q)
    (fun i q => dot_S1024x512_S512x512_S1024x512_1_0_0_1_n_n.rhsIdx_val_of_single rfl i q)
    (fun i q => by
      unfold DotDims.rhsIdx
      rw [dif_neg (show ¬(1 : Fin S512x512.rank) ∈ dot_S1024x512_S512x512_S1024x512_1_0_0_1_n_n.rhsBatch by decide),
        dif_pos (show (1 : Fin S512x512.rank) ∈ dot_S1024x512_S512x512_S1024x512_1_0_0_1_n_n.rhsNonContracting by decide)]
      rfl)
    none a W p q

/-- [1024,512] × [512,128] into zeros. -/
theorem mm_out (a : FVec Ideal S1024x512 .f32) (W : FVec Ideal S512x128 .f32) (p : Fin 1024) (q : Fin 128) :
    matmul dot_S1024x512_S512x128_S1024x128_1_0_0_1_n_n none a W (constant S1024x128 .f32 0x00000000#32) (ix2 p q)
      = rowsMul (n := 1024) (k := 512) (c := 128) a W (ix2 p q) :=
  matmul_zero_rows dot_S1024x512_S512x128_S1024x128_1_0_0_1_n_n rfl rfl
    (fun i q => by
      unfold DotDims.lhsIdx
      rw [dif_neg (show ¬(0 : Fin S1024x512.rank) ∈ dot_S1024x512_S512x128_S1024x128_1_0_0_1_n_n.lhsBatch by decide),
        dif_pos (show (0 : Fin S1024x512.rank) ∈ dot_S1024x512_S512x128_S1024x128_1_0_0_1_n_n.lhsNonContracting by decide)]
      rfl)
    (fun i q => dot_S1024x512_S512x128_S1024x128_1_0_0_1_n_n.lhsIdx_val_of_single rfl i q)
    (fun i q => dot_S1024x512_S512x128_S1024x128_1_0_0_1_n_n.rhsIdx_val_of_single rfl i q)
    (fun i q => by
      unfold DotDims.rhsIdx
      rw [dif_neg (show ¬(1 : Fin S512x128.rank) ∈ dot_S1024x512_S512x128_S1024x128_1_0_0_1_n_n.rhsBatch by decide),
        dif_pos (show (1 : Fin S512x128.rank) ∈ dot_S1024x512_S512x128_S1024x128_1_0_0_1_n_n.rhsNonContracting by decide)]
      rfl)
    none a W p q

/-! ## Layout operations -/

/-- A transposed matrix is `tr`. -/
theorem transpose_eq_tr {a b : Nat} (x : FVec Ideal ⟨2, ![a, b]⟩ .f32)
    (h : (⟨2, ![a, b]⟩ : Shape).Transposes [1, 0] ⟨2, ![b, a]⟩) :
    transpose ⟨2, ![b, a]⟩ [1, 0] x h = tr (c := a) (k := b) x := by
  funext j
  obtain ⟨p, q, rfl⟩ : ∃ (p : Fin b) (q : Fin a), j = ix2 p q := ⟨j 0, j 1, eq_ix2 j⟩
  rw [transpose_ix2_apply]
  rfl

/-- A vector recast as one row and repeated down the rows reads, at (p, q), the vector at q. -/
theorem bias_apply {n c : Nat} (v : FVec Ideal ⟨1, ![c]⟩ .f32) (hc : (⟨1, ![c]⟩ : Shape).ShapeCasts ⟨2, ![1, c]⟩)
    (hb : (⟨2, ![1, c]⟩ : Shape).Broadcasts ⟨2, ![n, c]⟩) (p : Fin n) (q : Fin c) :
    broadcastTo ⟨2, ![n, c]⟩ (shapeCast ⟨2, ![1, c]⟩ v hc) hb (ix2 p q) = v (ix1 q) := by
  rw [broadcastTo_1b_ab_apply, shapeCast_a_1a_apply]

/-- The one matrix of a one-matrix stack. -/
def slab0 {b d : Nat} (w : FVec Ideal ⟨3, ![1, b, d]⟩ .f32) : Arr2 b d := fun i => w (ix3 (0 : Fin 1) (rowOf i) (colOf i))
/-- The one row of a one-row matrix. -/
def vrow0 {b : Nat} (v : FVec Ideal ⟨2, ![1, b]⟩ .f32) : Arr1 b := fun i => v (ix2 (0 : Fin 1) ⟨(i 0).val, (i 0).isLt⟩)

theorem shapeCast_eq_slab0 {b d : Nat} (w : FVec Ideal ⟨3, ![1, b, d]⟩ .f32)
    (h : (⟨3, ![1, b, d]⟩ : Shape).ShapeCasts ⟨2, ![b, d]⟩) : shapeCast ⟨2, ![b, d]⟩ w h = slab0 w := by
  funext j
  obtain ⟨p, q, rfl⟩ : ∃ (p : Fin b) (q : Fin d), j = ix2 p q := ⟨j 0, j 1, eq_ix2 j⟩
  rw [shapeCast_1ab_ab_apply]
  rfl

theorem shapeCast_eq_vrow0 {b : Nat} (v : FVec Ideal ⟨2, ![1, b]⟩ .f32)
    (h : (⟨2, ![1, b]⟩ : Shape).ShapeCasts ⟨1, ![b]⟩) : shapeCast ⟨1, ![b]⟩ v h = vrow0 v := by
  funext j
  obtain ⟨p, rfl⟩ : ∃ (p : Fin b), j = ix1 p := ⟨j 0, eq_ix1 j⟩
  rw [shapeCast_1a_a_apply]
  rfl

/-! ## The three kinds of layer, as the body computes them -/

/-- The first layer as computed. -/
def kIn (v0 : FVec Ideal S1024x128 .f32) (v1 : FVec Ideal S512x128 .f32) (v4 : FVec Ideal S512 .f32) : FVec Ideal S1024x512 .f32 :=
  addf (matmul dot_S1024x128_S128x512_S1024x512_1_0_0_1_n_n none v0 (transpose S128x512 [1, 0] v1 transposes_S512x128_p1_0_S128x512) (constant S1024x512 .f32 0x00000000#32))
    (broadcastTo S1024x512 (shapeCast S1x512 v4 shapeCasts_S512_S1x512) broadcasts_S1x512_S1024x512)

/-- A residual block as computed, from the loaded one-matrix stack and one-row matrix. -/
def kRes (h : FVec Ideal S1024x512 .f32) (w : FVec Ideal S1x512x512 .f32) (b : FVec Ideal S1x512 .f32) : FVec Ideal S1024x512 .f32 :=
  addf h (maximumf (addf (matmul dot_S1024x512_S512x512_S1024x512_1_0_0_1_n_n none h
        (transpose S512x512 [1, 0] (shapeCast S512x512 w shapeCasts_S1x512x512_S512x512) transposes_S512x512_p1_0_S512x512) (constant S1024x512 .f32 0x00000000#32))
      (broadcastTo S1024x512 (shapeCast S1x512 (shapeCast S512 b shapeCasts_S1x512_S512) shapeCasts_S512_S1x512) broadcasts_S1x512_S1024x512))
    (broadcast S1024x512 (Scalar.ofBits .f32 0x00000000#32)))

/-- The head as computed. -/
def kOut (h : FVec Ideal S1024x512 .f32) (w : FVec Ideal S128x512 .f32) (b : FVec Ideal S128 .f32) : FVec Ideal S1024x128 .f32 :=
  addf (matmul dot_S1024x512_S512x128_S1024x128_1_0_0_1_n_n none h (transpose S512x128 [1, 0] w transposes_S128x512_p1_0_S512x128) (constant S1024x128 .f32 0x00000000#32))
    (broadcastTo S1024x128 (shapeCast S1x128 b shapeCasts_S128_S1x128) broadcasts_S1x128_S1024x128)

theorem kIn_eq (v0 : FVec Ideal S1024x128 .f32) (v1 : FVec Ideal S512x128 .f32) (v4 : FVec Ideal S512 .f32) :
    kIn v0 v1 v4 = head (n := 1024) (k := 128) (c := 512) v0 (tr (c := 512) (k := 128) v1) v4 := by
  funext i
  obtain ⟨p, q, rfl⟩ : ∃ (p : Fin 1024) (q : Fin 512), i = ix2 p q := ⟨i 0, i 1, eq_ix2 i⟩
  unfold kIn
  rw [addf_apply, mm_in, bias_apply, transpose_eq_tr]
  rfl

theorem kRes_eq (h : FVec Ideal S1024x512 .f32) (w : FVec Ideal S1x512x512 .f32) (b : FVec Ideal S1x512 .f32) :
    kRes h w b = resid (n := 1024) (k := 512) h (tr (c := 512) (k := 512) (slab0 w)) (vrow0 b) := by
  funext i
  obtain ⟨p, q, rfl⟩ : ∃ (p : Fin 1024) (q : Fin 512), i = ix2 p q := ⟨i 0, i 1, eq_ix2 i⟩
  unfold kRes
  rw [addf_apply, maximumf_apply, addf_apply, mm_res, bias_apply, shapeCast_eq_slab0, shapeCast_eq_vrow0, transpose_eq_tr]
  rfl

theorem kOut_eq (h : FVec Ideal S1024x512 .f32) (w : FVec Ideal S128x512 .f32) (b : FVec Ideal S128 .f32) :
    kOut h w b = head (n := 1024) (k := 512) (c := 128) h (tr (c := 128) (k := 512) w) b := by
  funext i
  obtain ⟨p, q, rfl⟩ : ∃ (p : Fin 1024) (q : Fin 128), i = ix2 p q := ⟨i 0, i 1, eq_ix2 i⟩
  unfold kOut
  rw [addf_apply, mm_out, bias_apply, transpose_eq_tr]
  rfl

/-! ## The loaded slabs and rows of the stacked weights -/

/-- The matrix loaded through the rectangle at offset (o, 0, 0) of the stack is its matrix o. -/
theorem slab0_ld (o : Nat) (l : Fin 4) (hl : l.val = o) (x3 : Vec Ideal S4x512x512 .f32)
    (inb : ∀ a, (![o, 0, 0] : Fin 3 → Nat) a + S1x512x512.size a ≤ S4x512x512.size a) :
    slab0 (b := 512) (d := 512) (View.ld x3 (Rect.unit (s := S4x512x512) ![o, 0, 0] S1x512x512.size inb)) = slab l x3 := by
  funext i
  show x3 _ = x3 _
  refine congrArg x3 (funext fun a => Fin.ext ?_)
  match a with
  | ⟨0, _⟩ => show o + 1 * 0 = l.val; omega
  | ⟨1, _⟩ => show 0 + 1 * (i 0).val = (i 0).val; omega
  | ⟨2, _⟩ => show 0 + 1 * (i 1).val = (i 1).val; omega

/-- The row loaded through the rectangle at offset (o, 0) of the bias matrix is its row o. -/
theorem vrow0_ld (o : Nat) (l : Fin 4) (hl : l.val = o) (x4 : Vec Ideal S4x512 .f32)
    (inb : ∀ a, (![o, 0] : Fin 2 → Nat) a + S1x512.size a ≤ S4x512.size a) :
    vrow0 (b := 512) (View.ld x4 (Rect.unit (s := S4x512) ![o, 0] S1x512.size inb)) = vrow l x4 := by
  funext i
  show x4 _ = x4 _
  refine congrArg x4 (funext fun a => Fin.ext ?_)
  match a with
  | ⟨0, _⟩ => show o + 1 * 0 = l.val; omega
  | ⟨1, _⟩ => show 0 + 1 * (i 0).val = (i 0).val; omega

/-! ## The body's result on a block is the network of the block -/

theorem hz2 : (![0, 0] : Fin 2 → Nat) = fun _ => 0 := funext fun a => by fin_cases a <;> rfl
theorem hz1 : (![0] : Fin 1 → Nat) = fun _ => 0 := funext fun a => by fin_cases a; rfl

/-- What the body leaves in the output's buffer, from the input blocks: the generator network of the rows block. -/
theorem out_gen (x0 : Vec Ideal S1024x128 .f32) (x1 : Vec Ideal S512x128 .f32) (x2 : Vec Ideal S512 .f32)
    (x3 : Vec Ideal S4x512x512 .f32) (x4 : Vec Ideal S4x512 .f32) (x5 : Vec Ideal S128x512 .f32) (x6 : Vec Ideal S128 .f32) :
    out0_7 (F := Ideal) x0 x1 x2 x3 x4 x5 x6 = gen (n := 1024) x0 x1 x2 x3 x4 x5 x6 := by
  unfold out0_7
  rw [View.canon_unit_zero hz2]
  simp only [View.ld_unit_zero (S := S1024x128) hz2, View.ld_unit_zero (S := S512x128) hz2, View.ld_unit_zero (S := S512) hz1,
    View.ld_unit_zero (S := S128x512) hz2, View.ld_unit_zero (S := S128) hz1]
  show kOut (kRes (kRes (kRes (kRes (kIn x0 x1 x2) (View.ld x3 r0_3) (View.ld x4 r0_4)) (View.ld x3 r0_5) (View.ld x4 r0_6))
      (View.ld x3 r0_7) (View.ld x4 r0_8)) (View.ld x3 r0_9) (View.ld x4 r0_10)) x5 x6 = _
  rw [kIn_eq, kRes_eq, kRes_eq, kRes_eq, kRes_eq, kOut_eq,
    slab0_ld 0 0 rfl x3, vrow0_ld 0 0 rfl x4, slab0_ld 1 1 rfl x3, vrow0_ld 1 1 rfl x4,
    slab0_ld 2 2 rfl x3, vrow0_ld 2 2 rfl x4, slab0_ld 3 3 rfl x3, vrow0_ld 3 3 rfl x4]
  rfl

/-! ## From the blocks to the array -/

section Array

variable (V : (c : Dev nD) → (b : Ref sig .tc) → Buf (Elt Ideal) ((c : Thread nD τ).loc b))

/-- The printed index maps, decided over the grid: the row-tiled windows sit at block (t, 0), the others at block 0. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0 :=
  (by decide +kernel : ∀ t : Fin grid0.N, _)

/-- The weight windows' blocks are the whole arrays. -/
theorem iblk_w1 (c : Dev nD) (t : Fin cfg0.N) : iblk0 V c 1 t = V c main_arg2 := by
  obtain ⟨-, -, -, -, e0, e1, -⟩ := idx_facts t
  funext y
  unfold iblk0
  rw [View.read_apply]
  show V c main_arg2 _ = V c main_arg2 _
  refine congrArg (V c main_arg2) (funext fun a => Fin.ext ?_)
  match a with
  | ⟨0, _⟩ => show win0_1.index t (0 : Fin 2) * 512 + 1 * (y 0).val = (y 0).val; rw [e0]; omega
  | ⟨1, _⟩ => show win0_1.index t (1 : Fin 2) * 128 + 1 * (y 1).val = (y 1).val; rw [e1]; omega

theorem iblk_w2 (c : Dev nD) (t : Fin cfg0.N) : iblk0 V c 2 t = V c main_arg3 := by
  obtain ⟨-, -, -, -, -, -, e0, -⟩ := idx_facts t
  funext y
  unfold iblk0
  rw [View.read_apply]
  show V c main_arg3 _ = V c main_arg3 _
  refine congrArg (V c main_arg3) (funext fun a => Fin.ext ?_)
  match a with
  | ⟨0, _⟩ => show win0_2.index t (0 : Fin 1) * 512 + 1 * (y 0).val = (y 0).val; rw [e0]; omega

theorem iblk_w3 (c : Dev nD) (t : Fin cfg0.N) : iblk0 V c 3 t = V c main_arg4 := by
  obtain ⟨-, -, -, -, -, -, -, e0, e1, e2, -⟩ := idx_facts t
  funext y
  unfold iblk0
  rw [View.read_apply]
  show V c main_arg4 _ = V c main_arg4 _
  refine congrArg (V c main_arg4) (funext fun a => Fin.ext ?_)
  match a with
  | ⟨0, _⟩ => show win0_3.index t (0 : Fin 3) * 4 + 1 * (y 0).val = (y 0).val; rw [e0]; omega
  | ⟨1, _⟩ => show win0_3.index t (1 : Fin 3) * 512 + 1 * (y 1).val = (y 1).val; rw [e1]; omega
  | ⟨2, _⟩ => show win0_3.index t (2 : Fin 3) * 512 + 1 * (y 2).val = (y 2).val; rw [e2]; omega

theorem iblk_w4 (c : Dev nD) (t : Fin cfg0.N) : iblk0 V c 4 t = V c main_arg5 := by
  obtain ⟨-, -, -, -, -, -, -, -, -, -, e0, e1, -⟩ := idx_facts t
  funext y
  unfold iblk0
  rw [View.read_apply]
  show V c main_arg5 _ = V c main_arg5 _
  refine congrArg (V c main_arg5) (funext fun a => Fin.ext ?_)
  match a with
  | ⟨0, _⟩ => show win0_4.index t (0 : Fin 2) * 4 + 1 * (y 0).val = (y 0).val; rw [e0]; omega
  | ⟨1, _⟩ => show win0_4.index t (1 : Fin 2) * 512 + 1 * (y 1).val = (y 1).val; rw [e1]; omega

theorem iblk_w5 (c : Dev nD) (t : Fin cfg0.N) : iblk0 V c 5 t = V c main_arg6 := by
  obtain ⟨-, -, -, -, -, -, -, -, -, -, -, -, e0, e1, -⟩ := idx_facts t
  funext y
  unfold iblk0
  rw [View.read_apply]
  show V c main_arg6 _ = V c main_arg6 _
  refine congrArg (V c main_arg6) (funext fun a => Fin.ext ?_)
  match a with
  | ⟨0, _⟩ => show win0_5.index t (0 : Fin 2) * 128 + 1 * (y 0).val = (y 0).val; rw [e0]; omega
  | ⟨1, _⟩ => show win0_5.index t (1 : Fin 2) * 512 + 1 * (y 1).val = (y 1).val; rw [e1]; omega

theorem iblk_w6 (c : Dev nD) (t : Fin cfg0.N) : iblk0 V c 6 t = V c main_arg7 := by
  obtain ⟨-, -, -, -, -, -, -, -, -, -, -, -, -, -, e0⟩ := idx_facts t
  funext y
  unfold iblk0
  rw [View.read_apply]
  show V c main_arg7 _ = V c main_arg7 _
  refine congrArg (V c main_arg7) (funext fun a => Fin.ext ?_)
  match a with
  | ⟨0, _⟩ => show win0_6.index t (0 : Fin 1) * 128 + 1 * (y 0).val = (y 0).val; rw [e0]; omega

/-- The input rows' block at point t, at (r, q), is the array at row 1024·t + r. -/
theorem iblk_eps_apply (c : Dev nD) (t : Fin cfg0.N) (r : Fin 1024) (q : Fin 128) (I : S4096x128.Idx)
    (h0 : (I 0).val = t.val * 1024 + r.val) (h1 : (I 1).val = q.val) :
    (iblk0 V c 0 t : Vec Ideal S1024x128 .f32) (ix2 r q) = (V c main_arg1 : S4096x128.Idx → EReal) I := by
  obtain ⟨e0, e1, -⟩ := idx_facts t
  unfold iblk0
  rw [View.read_apply]
  show V c main_arg1 _ = V c main_arg1 _
  refine congrArg (V c main_arg1) (funext fun a => Fin.ext ?_)
  match a with
  | ⟨0, _⟩ => show win0_0.index t (0 : Fin 2) * 1024 + 1 * r.val = (I 0).val; rw [e0, h0]; omega
  | ⟨1, _⟩ => show win0_0.index t (1 : Fin 2) * 128 + 1 * q.val = (I 1).val; rw [e1, h1]; omega

/-- WHAT POINT t WRITES BACK is block t of the generator network of the whole input array. -/
theorem flushed_eq (c : Dev nD) (t : Fin cfg0.N) :
    (dat0 (F := Ideal) V c).flushed 7 t = ((cfg0.win 7).blk t).view.read (Elt Ideal)
      (gen (n := 4096) (V c main_arg1) (V c main_arg2) (V c main_arg3) (V c main_arg4) (V c main_arg5) (V c main_arg6) (V c main_arg7)) := by
  show (cfg0.win 7).cut (grid0.coords t) ((dat0 V c).after 7 t) = _
  rw [after0_7, out_gen, iblk_w1, iblk_w2, iblk_w3, iblk_w4, iblk_w5, iblk_w6]
  obtain ⟨-, -, e2, e3, -⟩ := idx_facts t
  funext j
  rw [View.read_apply]
  symm
  refine gen_rows (N := 4096) (n := 1024) _ _ _ _ _ _ _ _ (((cfg0.win 7).blk t).view.emb j) ((cfg0.win 7).xinj (grid0.coords t) j) ?_ ?_
  · show win0_7.index t (1 : Fin 2) * 128 + 1 * (j 1).val = (j 1).val
    rw [e3]; omega
  · intro q
    refine (iblk_eps_apply V c t _ q _ ?_ rfl).symm
    show win0_7.index t (0 : Fin 2) * 1024 + 1 * (j 0).val = t.val * 1024 + (j 0).val
    rw [e2]; omega

/-- An index of the array is in point t's block iff each coordinate is in the block's range on its axis. -/
theorem mem_blk (t : Fin cfg0.N) (i : S4096x128.Idx) :
    i ∈ ((cfg0.win 7).blk t).view.set ↔ ∀ a : Fin 2, win0_7.index t a * S1024x128.size a ≤ (i a).val ∧ (i a).val < win0_7.index t a * S1024x128.size a + S1024x128.size a := by
  show i ∈ ((View.whole main_v0).slice (win0_7.rect t)).set ↔ _
  rw [View.set_slice_whole, Rect.mem_set_unit]
  exact Iff.rfl

/-- Row r of the array is in the block of point r / 1024. -/
theorem cover (i : S4096x128.Idx) : ∃ t : Fin cfg0.N, (cfg0.win 7).flush t = true ∧ i ∈ ((cfg0.win 7).blk t).view.set := by
  have hi0 : (i 0).val < 4096 := (i 0).isLt
  have hi1 : (i 1).val < 128 := (i 1).isLt
  have hN : grid0.N = 4 := N_0
  have ht : (i 0).val / 1024 < cfg0.N := by show (i 0).val / 1024 < grid0.N; rw [hN]; omega
  obtain ⟨-, -, e2, e3, -⟩ := idx_facts ⟨(i 0).val / 1024, ht⟩
  refine ⟨⟨(i 0).val / 1024, ht⟩, flush0_7 _, ?_⟩
  rw [mem_blk]
  intro a
  match a with
  | ⟨0, _⟩ =>
    show win0_7.index ⟨(i 0).val / 1024, ht⟩ (0 : Fin 2) * 1024 ≤ (i 0).val ∧ (i 0).val < win0_7.index ⟨(i 0).val / 1024, ht⟩ (0 : Fin 2) * 1024 + 1024
    rw [e2]; show (i 0).val / 1024 * 1024 ≤ (i 0).val ∧ (i 0).val < (i 0).val / 1024 * 1024 + 1024; omega
  | ⟨1, _⟩ =>
    show win0_7.index ⟨(i 0).val / 1024, ht⟩ (1 : Fin 2) * 128 ≤ (i 1).val ∧ (i 1).val < win0_7.index ⟨(i 0).val / 1024, ht⟩ (1 : Fin 2) * 128 + 128
    rw [e3]; omega

/-- THE OUTPUT ARRAY after the region is the generator network of the arrays the region found. -/
theorem arr_gen (c : Dev nD) :
    (dat0 (F := Ideal) V c).arrAt 7 cfg0.N
      = gen (n := 4096) (V c main_arg1) (V c main_arg2) (V c main_arg3) (V c main_arg4) (V c main_arg5) (V c main_arg6) (V c main_arg7) :=
  (dat0 (F := Ideal) V c).arrAt_eq_of_cover 7 _ (fun t _ => flushed_eq V c t) cover

end Array

end Cert.KernelIdeal.Reg0

end
-- ==== Proof.Reg1Math.lean ====
/-
  The statistics pass on one tile of 256 rows, read at coordinates on the extended reals.

  From the blocks the pass loads — all of x, all of y, the tile's own rows of x, the tile's column of squared norms and
  the two rows of squared norms — it forms the squared distances ‖x p‖² + ‖u j‖² − 2 x p · u j, clips them at 0, takes the
  guarded square root, pushes the diagonal of the x-against-x distances away, and divides the negated distances by the
  temperature: the two score arrays of the tile, 256 by 4096 each. Here every stage is read at an entry (r, j): the
  inner products as sums over the 128 coordinates, the guarded root as the root that is 0 at 0, the diagonal test on
  32-bit words as the test `256·t + r = j` on row numbers. Then the four statistics are read: along a row of both score
  arrays (maximum, sum of exponentials against it) and down a column of each over the tile's rows (the same two), the
  latter through the reductions over the first axis. The results are the functions of `DriftTile` and `DriftSpec` at
  the tile's rows `row t r`.
-/
import proofs.«125113_j88270167868072_2_alg».proof.Proof.Gen.KernelIdeal.Skeleton
import proofs.«125113_j88270167868072_2_alg».proof.Proof.DriftTile
import proofs.«125113_j88270167868072_2_alg».proof.Proof.LibRowLanes
import proofs.«125113_j88270167868072_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.KernelIdeal.Reg1

open Cert.KernelIdeal Cert.KernelIdeal.Gen Cert.DriftSpec Cert.DriftTile Cert.LibRowLanes Cert.LibKeepdims

/-! ## Reductions over the first axis of a matrix -/

section Cols
variable {a b : ℕ}

/-- The index `j` of `[b]` with `r` inserted on the first axis of `[a, b]` is `(r, j)`. -/
theorem lift_col (h : (⟨2, ![a, b]⟩ : Shape).Reduces [0] ⟨1, ![b]⟩) (j : Fin b) (r : Fin a) :
    h.lift (ix1 j) r = ix2 r j :=
  funext fun ax => Fin.ext (by match ax with | ⟨0, _⟩ => rfl | ⟨1, _⟩ => rfl)

/-- A float sum over the first axis, read at column `j` on the extended reals: the sum of the entries `(r, j)`. -/
theorem sum_col_apply (v : FVec Ideal ⟨2, ![a, b]⟩ .f32) (acc : BitVec 32)
    (h : (⟨2, ![a, b]⟩ : Shape).Reduces [0] ⟨1, ![b]⟩) (hφ : FKind.Formats .f32) (hacc : acc = FKind.add.neutral .f32 hφ)
    (j : Fin b) :
    multiReduction .add [0] ⟨1, ![b]⟩ v acc h hφ hacc (ix1 j) = ∑ r : Fin a, v (ix2 r j) := by
  refine (Ideal.multiReduction_add_single v acc h hφ hacc (ix1 j)).trans ?_
  exact Finset.sum_congr rfl fun k _ => congrArg v (lift_col h j k)

/-- A float maximum over the first axis, read at column `j`: the fold of `max` over the entries `(r, j)` from the
    accumulator's value. -/
theorem max_col_apply (v : FVec Ideal ⟨2, ![a, b]⟩ .f32) (acc : BitVec 32)
    (h : (⟨2, ![a, b]⟩ : Shape).Reduces [0] ⟨1, ![b]⟩) (hφ : FKind.Formats .f32) (hacc : acc = FKind.maximumf.neutral .f32 hφ)
    (j : Fin b) :
    multiReduction .maximumf [0] ⟨1, ![b]⟩ v acc h hφ hacc (ix1 j)
      = (Finset.univ : Finset (Fin a)).fold max (Ideal.ofBits .f32 acc) (fun r => v (ix2 r j)) := by
  refine (Ideal.multiReduction_maximumf_single v acc h hφ hacc (ix1 j)).trans ?_
  exact congrArg (Finset.univ.fold max (Ideal.ofBits .f32 acc)) (funext fun k => congrArg v (lift_col h j k))

end Cols

/-- The word the maxima start from is `-∞`. -/
theorem ofBits_negInf : Ideal.ofBits .f32 0xFF800000#32 = (⊥ : EReal) := by simp [Ideal.ofBits, Ideal.ieee]

/-! ## The column statistics of a tile of scores -/

/-- The tile's column maxima of a tile of scores (the positive ones), as the row [1,4096]: at column `j` the maximum over the tile's 256 rows. -/
theorem pay1_apply (s : FVec Ideal S256x4096 .f32) (j : Fin 4096) :
    k1_pay1 s (ix2 (0 : Fin 1) j) = supF fun r : Fin 256 => s (ix2 r j) := by
  unfold k1_pay1
  refine (shapeCast_a_1a_apply _ _ (0 : Fin 1) j).trans ?_
  refine (max_col_apply s _ _ _ _ j).trans ?_
  rw [ofBits_negInf]; rfl

/-- The same maxima as stored, [1,1,4096]. -/
theorem pay3_apply (s : FVec Ideal S256x4096 .f32) (j : Fin 4096) :
    k1_pay3 s (ix3 (0 : Fin 1) (0 : Fin 1) j) = supF fun r : Fin 256 => s (ix2 r j) := by
  unfold k1_pay3
  exact (shapeCast_ab_1ab_apply _ _ (0 : Fin 1) (0 : Fin 1) j).trans (pay1_apply s j)

/-- The tile's column sums of exponentials of a tile of scores (the positive ones) against the column maxima, as stored. -/
theorem pay4_apply (s : FVec Ideal S256x4096 .f32) (j : Fin 4096) :
    k1_pay4 s (ix3 (0 : Fin 1) (0 : Fin 1) j)
      = ∑ r : Fin 256, Ideal.exp (s (ix2 r j) - supF fun r : Fin 256 => s (ix2 r j)) := by
  unfold k1_pay4
  refine (shapeCast_ab_1ab_apply _ _ (0 : Fin 1) (0 : Fin 1) j).trans ?_
  refine (shapeCast_a_1a_apply _ _ (0 : Fin 1) j).trans ?_
  refine (sum_col_apply _ _ _ _ _ j).trans ?_
  refine Finset.sum_congr rfl fun r _ => ?_
  refine congrArg (fun z => Ideal.exp (s (ix2 r j) - z)) ?_
  exact (broadcastTo_1b_ab_apply _ _ r j).trans (pay1_apply s j)

/-- The tile's column maxima of a tile of scores (the negative ones), as the row [1,4096]: at column `j` the maximum over the tile's 256 rows. -/
theorem pay2_apply (s : FVec Ideal S256x4096 .f32) (j : Fin 4096) :
    k1_pay2 s (ix2 (0 : Fin 1) j) = supF fun r : Fin 256 => s (ix2 r j) := by
  unfold k1_pay2
  refine (shapeCast_a_1a_apply _ _ (0 : Fin 1) j).trans ?_
  refine (max_col_apply s _ _ _ _ j).trans ?_
  rw [ofBits_negInf]; rfl

/-- The same maxima as stored, [1,1,4096]. -/
theorem pay5_apply (s : FVec Ideal S256x4096 .f32) (j : Fin 4096) :
    k1_pay5 s (ix3 (0 : Fin 1) (0 : Fin 1) j) = supF fun r : Fin 256 => s (ix2 r j) := by
  unfold k1_pay5
  exact (shapeCast_ab_1ab_apply _ _ (0 : Fin 1) (0 : Fin 1) j).trans (pay2_apply s j)

/-- The tile's column sums of exponentials of a tile of scores (the negative ones) against the column maxima, as stored. -/
theorem pay6_apply (s : FVec Ideal S256x4096 .f32) (j : Fin 4096) :
    k1_pay6 s (ix3 (0 : Fin 1) (0 : Fin 1) j)
      = ∑ r : Fin 256, Ideal.exp (s (ix2 r j) - supF fun r : Fin 256 => s (ix2 r j)) := by
  unfold k1_pay6
  refine (shapeCast_ab_1ab_apply _ _ (0 : Fin 1) (0 : Fin 1) j).trans ?_
  refine (shapeCast_a_1a_apply _ _ (0 : Fin 1) j).trans ?_
  refine (sum_col_apply _ _ _ _ _ j).trans ?_
  refine Finset.sum_congr rfl fun r _ => ?_
  refine congrArg (fun z => Ideal.exp (s (ix2 r j) - z)) ?_
  exact (broadcastTo_1b_ab_apply _ _ r j).trans (pay2_apply s j)

/-! ## The row statistics of a tile of scores -/

/-- The tile's row maxima over both score rows, as the column [256,1]. -/
theorem pay14_apply (w : BitVec 32) (v32 v35 v37 : FVec Ideal S256x4096 .f32) (c : Ideal .f32) (r : Fin 256) :
    k1_pay14 w v32 v35 v37 c (ix2 r (0 : Fin 1))
      = max (supF fun j : Fin 4096 => k1_pay12 v32 (ix2 r j)) (supF fun j : Fin 4096 => k1_pay13 w v35 v37 c (ix2 r j)) := by
  unfold k1_pay14
  refine (maximumf_apply _ _ _).trans ?_
  refine congrArg₂ max ?_ ?_
  · refine (shapeCast_a_a1_apply _ _ r (0 : Fin 1)).trans ?_
    refine (max_row_apply _ _ _ _ _ r).trans ?_
    rw [ofBits_negInf]; rfl
  · refine (shapeCast_a_a1_apply _ _ r (0 : Fin 1)).trans ?_
    refine (max_row_apply _ _ _ _ _ r).trans ?_
    rw [ofBits_negInf]; rfl

/-- The tile's row sums of exponentials against the row maxima, over both score rows. -/
theorem pay15_apply (w : BitVec 32) (v32 v35 v37 : FVec Ideal S256x4096 .f32) (c : Ideal .f32) (r : Fin 256) :
    k1_pay15 w v32 v35 v37 c (ix2 r (0 : Fin 1))
      = (∑ j : Fin 4096, Ideal.exp (k1_pay12 v32 (ix2 r j) - k1_pay14 w v32 v35 v37 c (ix2 r (0 : Fin 1))))
        + ∑ j : Fin 4096, Ideal.exp (k1_pay13 w v35 v37 c (ix2 r j) - k1_pay14 w v32 v35 v37 c (ix2 r (0 : Fin 1))) := by
  unfold k1_pay15
  refine (addf_apply _ _ _).trans ?_
  refine congrArg₂ (· + ·) ?_ ?_
  · refine (shapeCast_a_a1_apply _ _ r (0 : Fin 1)).trans ?_
    refine (sum_row_apply _ _ _ _ _ r).trans ?_
    refine Finset.sum_congr rfl fun j _ => ?_
    refine congrArg (fun z => Ideal.exp (k1_pay12 v32 (ix2 r j) - z)) ?_
    exact broadcastTo_a1_ab_apply _ _ r j
  · refine (shapeCast_a_a1_apply _ _ r (0 : Fin 1)).trans ?_
    refine (sum_row_apply _ _ _ _ _ r).trans ?_
    refine Finset.sum_congr rfl fun j _ => ?_
    refine congrArg (fun z => Ideal.exp (k1_pay13 w v35 v37 c (ix2 r j) - z)) ?_
    exact broadcastTo_a1_ab_apply _ _ r j

/-! ## The scores -/

/-- The body's guarded square root: the root where the argument is positive (taken of 1 elsewhere, and discarded), 0 elsewhere. -/
def rootClip (d : EReal) : EReal :=
  Scalar.select (Ideal.cmp .ogt d (Ideal.ofBits .f32 0x00000000#32))
    (Ideal.sqrt (Scalar.select (Ideal.cmp .ogt d (Ideal.ofBits .f32 0x00000000#32)) d (Ideal.ofBits .f32 0x3F800000#32)))
    (Ideal.ofBits .f32 0x00000000#32)

/-- It is the square root that is 0 at 0 and below. -/
theorem rootClip_eq (d : EReal) : rootClip d = DriftSpec.dist d := by
  unfold rootClip DriftSpec.dist
  rw [Ideal.ofBits_zero_f32]
  by_cases h : (0 : EReal) < d
  · have hc : Ideal.cmp .ogt d 0 = 1#1 := by unfold Ideal.cmp; simp [h]
    rw [hc, select_one, select_one, if_pos h]
  · have hc : Ideal.cmp .ogt d 0 = 0#1 := by unfold Ideal.cmp; simp [h]
    rw [hc, select_zero, if_neg h]

/-- A score from a distance: the negated distance over the temperature. -/
theorem pay12_apply (v32 : FVec Ideal S256x4096 .f32) (i : S256x4096.Idx) :
    k1_pay12 v32 i = Ideal.div (-(v32 i)) cFifth := by
  have e : k1_pay12 v32 i = Ideal.div (Ideal.ofBits .f32 0x00000000#32 - v32 i) (Ideal.ofBits .f32 0x3E4CCCCD#32) := rfl
  rw [e, Ideal.ofBits_zero_f32, zero_sub]

abbrev D1 : DotDims S256x128 S128x4096 S256x4096 := dot_S256x128_S128x4096_S256x4096_1_0_0_1_n_n

theorem D1_l0 (i : S256x4096.Idx) (q : D1.contr.Idx) : (D1.lhsIdx i q 0).val = (i 0).val := by
  unfold DotDims.lhsIdx
  rw [dif_neg (show ¬(0 : Fin S256x128.rank) ∈ D1.lhsBatch by decide), dif_pos (show (0 : Fin S256x128.rank) ∈ D1.lhsNonContracting by decide)]
  rfl
theorem D1_l1 (i : S256x4096.Idx) (q : D1.contr.Idx) : (D1.lhsIdx i q 1).val = (q ⟨0, by decide⟩).val :=
  D1.lhsIdx_val_of_single rfl i q
theorem D1_r0 (i : S256x4096.Idx) (q : D1.contr.Idx) : (D1.rhsIdx i q 0).val = (q ⟨0, by decide⟩).val :=
  D1.rhsIdx_val_of_single rfl i q
theorem D1_r1 (i : S256x4096.Idx) (q : D1.contr.Idx) : (D1.rhsIdx i q 1).val = (i 1).val := by
  unfold DotDims.rhsIdx
  rw [dif_neg (show ¬(1 : Fin S128x4096.rank) ∈ D1.rhsBatch by decide), dif_pos (show (1 : Fin S128x4096.rank) ∈ D1.rhsNonContracting by decide)]
  rfl

/-- The tile's rows against all rows of `u`: the product of the tile with the transposed matrix, into zeros, at
    entry `(r, j)` is the inner product of row `r` of the tile with row `j` of `u`. -/
theorem tile_dot (v6 : FVec Ideal S256x128 .f32) (u : FVec Ideal S4096x128 .f32) (r : Fin 256) (j : Fin 4096) :
    matmul D1 (some .fp32) v6 (transpose S128x4096 [1, 0] u transposes_S4096x128_p1_0_S128x4096)
        (constant S256x4096 .f32 0x00000000#32) (ix2 r j)
      = ∑ q : Fin 128, v6 (ix2 r q) * u (ix2 j q) := by
  show FloatOps.matmul D1 (some .fp32) v6 _ (constant S256x4096 .f32 0x00000000#32) (ix2 r j) = _
  rw [Ideal.matmul_constant_zero_apply, ← Equiv.sum_comp (contrEquiv1 D1 128 rfl rfl).symm]
  refine Finset.sum_congr rfl fun k _ => ?_
  have hk := contrEquiv1_symm_val D1 128 rfl rfl k
  have el : D1.lhsIdx (ix2 r j) ((contrEquiv1 D1 128 rfl rfl).symm k) = ix2 r k := funext fun ax => Fin.ext (by
    match ax with
    | ⟨0, _⟩ => exact D1_l0 _ _
    | ⟨1, _⟩ => exact (D1_l1 _ _).trans hk)
  have er : D1.rhsIdx (ix2 r j) ((contrEquiv1 D1 128 rfl rfl).symm k) = ix2 k j := funext fun ax => Fin.ext (by
    match ax with
    | ⟨0, _⟩ => exact (D1_r0 _ _).trans hk
    | ⟨1, _⟩ => exact D1_r1 _ _)
  rw [el, er]
  exact congrArg (v6 (ix2 r k) * ·) (transpose_ix2_apply u _ k j)

/-- The tile's column of squared norms spread over the columns. -/
theorem col_bcast (v8 : Vec Ideal S256x1 .f32) (r : Fin 256) (j : Fin 4096) :
    broadcastTo S256x4096 (k1_pay8 v8) broadcasts_S256x1_S256x4096 (ix2 r j) = v8 (ix2 r (0 : Fin 1)) := by
  refine (broadcastTo_a1_ab_apply _ _ r j).trans ?_
  unfold k1_pay8; rw [shapeCast_self]

/-- A row of squared norms spread over the tile's rows. -/
theorem row_bcast (v : Vec Ideal S1x4096 .f32) (r : Fin 256) (j : Fin 4096) :
    broadcastTo S256x4096 (shapeCast S1x4096 v shapeCasts_S1x4096_S1x4096) broadcasts_S1x4096_S256x4096 (ix2 r j)
      = v (ix2 (0 : Fin 1) j) := by
  refine (broadcastTo_1b_ab_apply _ _ r j).trans ?_
  rw [shapeCast_self]

/-- The distances of the tile's rows to the positives: from the squared norms and the inner products, clipped, rooted. -/
theorem pay9_apply (v4 : Vec Ideal S4096x128 .f32) (v6 : Vec Ideal S256x128 .f32) (v8 : Vec Ideal S256x1 .f32)
    (v12 : Vec Ideal S1x4096 .f32) (r : Fin 256) (j : Fin 4096) :
    k1_pay9 v4 v6 v8 v12 (ix2 r j)
      = DriftSpec.dist (d2G (v8 (ix2 r (0 : Fin 1))) (v12 (ix2 (0 : Fin 1) j)) (∑ q : Fin 128, v6 (ix2 r q) * v4 (ix2 j q))) := by
  have e : k1_pay9 v4 v6 v8 v12 (ix2 r j)
      = rootClip (max (broadcastTo S256x4096 (k1_pay8 v8) broadcasts_S256x1_S256x4096 (ix2 r j)
          + broadcastTo S256x4096 (shapeCast S1x4096 v12 shapeCasts_S1x4096_S1x4096) broadcasts_S1x4096_S256x4096 (ix2 r j)
          - Ideal.ofBits .f32 0x40000000#32
            * matmul D1 (some .fp32) (k1_pay7 v6) (transpose S128x4096 [1, 0] v4 transposes_S4096x128_p1_0_S128x4096)
                (constant S256x4096 .f32 0x00000000#32) (ix2 r j))
          (Ideal.ofBits .f32 0x00000000#32)) := rfl
  rw [e, col_bcast, row_bcast, tile_dot, rootClip_eq, Ideal.ofBits_zero_f32]
  unfold k1_pay7; rw [shapeCast_self]; rfl

/-- The sum of the two squared norms at `(r, j)`. -/
theorem pay10_apply (v8 : Vec Ideal S256x1 .f32) (v10 : Vec Ideal S1x4096 .f32) (r : Fin 256) (j : Fin 4096) :
    k1_pay10 v8 v10 (ix2 r j) = v8 (ix2 r (0 : Fin 1)) + v10 (ix2 (0 : Fin 1) j) := by
  unfold k1_pay10
  refine (addf_apply _ _ _).trans ?_
  rw [col_bcast, row_bcast]

/-- The inner products of the tile's rows with all generated rows. -/
theorem pay11_apply (v2 : Vec Ideal S4096x128 .f32) (v6 : Vec Ideal S256x128 .f32) (r : Fin 256) (j : Fin 4096) :
    k1_pay11 v2 v6 (ix2 r j) = ∑ q : Fin 128, v6 (ix2 r q) * v2 (ix2 j q) := by
  unfold k1_pay11
  refine (tile_dot _ _ r j).trans ?_
  unfold k1_pay7; rw [shapeCast_self, shapeCast_self]

/-! ## The diagonal -/

/-- Equality of 32-bit words as a word. -/
theorem cmpi_eq_ite (x y : BitVec 32) : IntOp.cmpi .eq x y = if x = y then 1#1 else 0#1 := by
  show BitVec.ofBool (x == y) = _
  by_cases h : x = y
  · rw [if_pos h, beq_iff_eq.mpr h]; rfl
  · rw [if_neg h, beq_eq_false_iff_ne.mpr h]; rfl

/-- The body's diagonal test compares 32-bit words, `256·t + r` against `j`; all three are far below 2³², so it is the
    test `row t r = j` on the row numbers. -/
theorem diag_word (t : Fin 16) (r : Fin 256) (j : Fin 4096) :
    IntOp.cmpi .eq (IntOp.addi (Scalar.muli (BitVec.ofNat 32 t.val) 256#32) (BitVec.ofNat 32 r.val)) (BitVec.ofNat 32 j.val)
      = if row t r = j then 1#1 else 0#1 := by
  have ht := t.isLt; have hr := r.isLt; have hj := j.isLt
  have hw : IntOp.addi (Scalar.muli (BitVec.ofNat 32 t.val) 256#32) (BitVec.ofNat 32 r.val)
      = BitVec.ofNat 32 (256 * t.val + r.val) := by
    show (BitVec.ofNat 32 t.val * 256#32 + BitVec.ofNat 32 r.val : BitVec 32) = _
    apply BitVec.eq_of_toNat_eq
    simp only [BitVec.toNat_add, BitVec.toNat_mul, BitVec.toNat_ofNat]
    omega
  rw [cmpi_eq_ite, hw]
  refine if_congr ⟨fun h => ?_, fun h => ?_⟩ rfl rfl
  · have h' := congrArg BitVec.toNat h
    simp only [BitVec.toNat_ofNat] at h'
    exact Fin.ext (by show 256 * t.val + r.val = j.val; omega)
  · rw [← h]; rfl

/-- The scores of the tile's rows among the generated points, from the sum of squared norms `v35`, the inner
    products `v37` and the literal `c`: clipped, rooted, the diagonal pushed away, negated over the temperature. -/
theorem pay13_apply (t : Fin 16) (v35 v37 : FVec Ideal S256x4096 .f32) (c : Ideal .f32) (r : Fin 256) (j : Fin 4096) :
    k1_pay13 (Scalar.muli (BitVec.ofNat 32 t.val) 256#32) v35 v37 c (ix2 r j)
      = Ideal.div (-(if row t r = j then DriftSpec.dist (max (v35 (ix2 r j) - c * v37 (ix2 r j)) 0) + cBig
                      else DriftSpec.dist (max (v35 (ix2 r j) - c * v37 (ix2 r j)) 0))) cFifth := by
  have e : k1_pay13 (Scalar.muli (BitVec.ofNat 32 t.val) 256#32) v35 v37 c (ix2 r j)
      = Ideal.div (Ideal.ofBits .f32 0x00000000#32
          - Scalar.select (IntOp.cmpi .eq (IntOp.addi (Scalar.muli (BitVec.ofNat 32 t.val) 256#32)
                (iota .tc S256x4096 32 [0] iota_S256x4096_d0_w32 (ix2 r j))) (iota .tc S256x4096 32 [1] iota_S256x4096_d1_w32 (ix2 r j)))
              (rootClip (max (v35 (ix2 r j) - c * v37 (ix2 r j)) (Ideal.ofBits .f32 0x00000000#32)) + Ideal.ofBits .f32 0x49742400#32)
              (rootClip (max (v35 (ix2 r j) - c * v37 (ix2 r j)) (Ideal.ofBits .f32 0x00000000#32))))
          (Ideal.ofBits .f32 0x3E4CCCCD#32) := rfl
  rw [e, iota_single_apply, iota_single_apply]
  have d := diag_word t r j
  rw [show ((ix2 r j : S256x4096.Idx) 0).val = r.val from rfl, show ((ix2 r j : S256x4096.Idx) 1).val = j.val from rfl, d,
    rootClip_eq, Ideal.ofBits_zero_f32, zero_sub]
  by_cases h : row t r = j
  · rw [if_pos h, if_pos h, select_one]
  · rw [if_neg h, if_neg h, select_zero]

/-! ## The tile's scores are the scores of the specification at the tile's rows -/

section Tile
variable (t : Fin 16) (X Y : Fin 4096 → Fin 128 → EReal) (NC NXR NYR : Fin 4096 → EReal)
variable (v2 v4 : Vec Ideal S4096x128 .f32) (v6 : Vec Ideal S256x128 .f32) (v8 : Vec Ideal S256x1 .f32)
  (v10 v12 : Vec Ideal S1x4096 .f32)

/-- Against the positives. -/
theorem sPos_apply (h4 : ∀ p q, v4 (ix2 p q) = Y p q) (h6 : ∀ r q, v6 (ix2 r q) = X (row t r) q)
    (h8 : ∀ r, v8 (ix2 r (0 : Fin 1)) = NC (row t r)) (h12 : ∀ j, v12 (ix2 (0 : Fin 1) j) = NYR j)
    (r : Fin 256) (j : Fin 4096) :
    k1_pay12 (k1_pay9 v4 v6 v8 v12) (ix2 r j) = aposG X Y NC NYR (row t r) j := by
  rw [pay12_apply, pay9_apply, h8, h12]
  unfold aposG dot
  simp only [h4, h6]

/-- Among the generated points. -/
theorem sNeg_apply (c : Ideal .f32) (hc : c = cTwo) (h2 : ∀ p q, v2 (ix2 p q) = X p q) (h6 : ∀ r q, v6 (ix2 r q) = X (row t r) q)
    (h8 : ∀ r, v8 (ix2 r (0 : Fin 1)) = NC (row t r)) (h10 : ∀ j, v10 (ix2 (0 : Fin 1) j) = NXR j)
    (r : Fin 256) (j : Fin 4096) :
    k1_pay13 (Scalar.muli (BitVec.ofNat 32 t.val) 256#32) (k1_pay10 v8 v10) (k1_pay11 v2 v6) c (ix2 r j)
      = anegG X NC NXR (row t r) j := by
  rw [pay13_apply, pay10_apply, pay11_apply, h8, h10, hc]
  unfold anegG dnegG d2G dot
  simp only [h2, h6]

end Tile

/-! ## The statistics of a tile whose scores are known -/

section Stats
variable (t : Fin 16) (aP aN : Fin 4096 → Fin 4096 → EReal)

theorem rowMax_tile (w : BitVec 32) (v32 v35 v37 : FVec Ideal S256x4096 .f32) (c : Ideal .f32)
    (hP : ∀ r j, k1_pay12 v32 (ix2 r j) = aP (row t r) j) (hN : ∀ r j, k1_pay13 w v35 v37 c (ix2 r j) = aN (row t r) j)
    (r : Fin 256) : k1_pay14 w v32 v35 v37 c (ix2 r (0 : Fin 1)) = rmaxT aP aN (row t r) := by
  rw [pay14_apply]
  exact congrArg₂ max (congrArg supF (funext fun j => hP r j)) (congrArg supF (funext fun j => hN r j))

theorem rowSum_tile (w : BitVec 32) (v32 v35 v37 : FVec Ideal S256x4096 .f32) (c : Ideal .f32)
    (hP : ∀ r j, k1_pay12 v32 (ix2 r j) = aP (row t r) j) (hN : ∀ r j, k1_pay13 w v35 v37 c (ix2 r j) = aN (row t r) j)
    (r : Fin 256) : k1_pay15 w v32 v35 v37 c (ix2 r (0 : Fin 1)) = rsumT aP aN (row t r) := by
  rw [pay15_apply, rowMax_tile t aP aN w v32 v35 v37 c hP hN r]
  exact congrArg₂ (· + ·) (Finset.sum_congr rfl fun j _ => by rw [hP]) (Finset.sum_congr rfl fun j _ => by rw [hN])

theorem colMax_tile (mx : FVec Ideal S256x4096 .f32 → FVec Ideal S1x1x4096 .f32)
    (hmx : ∀ s j, mx s (ix3 (0 : Fin 1) (0 : Fin 1) j) = supF fun r : Fin 256 => s (ix2 r j))
    (a : Fin 4096 → Fin 4096 → EReal) (s : FVec Ideal S256x4096 .f32) (hs : ∀ r j, s (ix2 r j) = a (row t r) j) (j : Fin 4096) :
    mx s (ix3 (0 : Fin 1) (0 : Fin 1) j) = lmax a t j :=
  (hmx s j).trans (congrArg supF (funext fun r => hs r j))

theorem colSum_tile (sm : FVec Ideal S256x4096 .f32 → FVec Ideal S1x1x4096 .f32)
    (hsm : ∀ s j, sm s (ix3 (0 : Fin 1) (0 : Fin 1) j) = ∑ r : Fin 256, Ideal.exp (s (ix2 r j) - supF fun r : Fin 256 => s (ix2 r j)))
    (a : Fin 4096 → Fin 4096 → EReal) (s : FVec Ideal S256x4096 .f32) (hs : ∀ r j, s (ix2 r j) = a (row t r) j) (j : Fin 4096) :
    sm s (ix3 (0 : Fin 1) (0 : Fin 1) j) = lsum a t j := by
  rw [hsm]
  have hm : (supF fun r : Fin 256 => s (ix2 r j)) = lmax a t j := congrArg supF (funext fun r => hs r j)
  rw [hm]
  exact Finset.sum_congr rfl fun r _ => by rw [hs]

end Stats

end Cert.KernelIdeal.Reg1
end
-- ==== Proof.Reg1.lean ====
/-
  The statistics pass as whole arrays: the row statistics.

  The pass runs over 16 tiles of 256 rows. At tile `t` it reads all of the generated points and of the positives, the
  tile's own rows of the generated points once more through a rectangle at row `256·t`, the tile's block of the column
  of squared norms and the two rows of squared norms, and writes six blocks: the tile's 256 row maxima and row sums,
  and the tile's column maxima and column sums of the two score arrays.

  Here: what each of the six buffers holds after the body, as a payload of the loaded blocks; the loaded blocks read
  off the arrays the pass finds, at coordinates (the block of tile `t` holds rows `row t r`); from these, the body's
  scores at `(r, j)` are the specification's scores of row `row t r` (`sPos_at`, `sNeg_at`); and the two row statistics,
  block by block, are the blocks of the whole arrays `p ↦ rmaxT … p` and `p ↦ rsumT … p`, whose 16 blocks cover the 4096
  rows (`rowMax`, `rowSum`).
-/
import proofs.«125113_j88270167868072_2_alg».proof.Proof.Gen.KernelIdeal.Frame
import proofs.«125113_j88270167868072_2_alg».proof.Proof.DriftTile
import proofs.«125113_j88270167868072_2_alg».proof.Proof.Reg1Math
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.Reg1

open Cert.KernelIdeal Cert.KernelIdeal.Gen Cert.DriftSpec Cert.DriftTile

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 256 rows of `x` that the body loads a second time, through the rectangle at its computed row offset. -/
abbrev tile (i : grid1.Coords) (x0 : Vec F S4096x128 .f32) : Vec F S256x128 .f32 :=
  View.ld x0 (Rect.unit (s := S4096x128) (k1_off1 i) S256x128.size (k1_off1_inb i))

/-- The first row of the tile as the 32-bit word the body computes: 256 times the grid coordinate. -/
abbrev word (i : grid1.Coords) : BitVec 32 := Scalar.muli (BitVec.ofNat 32 (i 0).val) 256#32

/-- The literal 2 of the squared-distance expansion. -/
abbrev two : F .f32 := FloatOps.ofBits .f32 0x40000000#32

/-- The scores of the tile's rows against the positives, and among the generated points, as the body computes them
    from the blocks it loads: `x0` all of x, `x1` all of y, `x2` the tile's squared norms, `x3`, `x4` the rows of
    squared norms of x and of y. -/
abbrev sPos (i : grid1.Coords) (x0 x1 : Vec F S4096x128 .f32) (x2 : Vec F S256x1 .f32) (x4 : Vec F S1x4096 .f32) :
    FVec F S256x4096 .f32 := k1_pay12 (k1_pay9 x1 (tile i x0) x2 x4)
abbrev sNeg (i : grid1.Coords) (x0 : Vec F S4096x128 .f32) (x2 : Vec F S256x1 .f32) (x3 : Vec F S1x4096 .f32) :
    FVec F S256x4096 .f32 := k1_pay13 (word i) (k1_pay10 x2 x3) (k1_pay11 x0 (tile i x0)) two

set_option maxHeartbeats 400000 in
/-- Output 5's buffer after the body: its one store, of the row maxima, as a payload of the loaded blocks. -/
theorem out5_eq (c : Dev nD) (i : grid1.Coords) (a1 : Memref sig .tc .vmem S4096x128 .f32) (h1 : a1.IsWhole) (a2 : Memref sig .tc .vmem S4096x128 .f32) (h2 : a2.IsWhole) (a3 : Memref sig .tc .vmem S256x1 .f32) (h3 : a3.IsWhole) (a4 : Memref sig .tc .vmem S1x4096 .f32) (h4 : a4.IsWhole) (a5 : Memref sig .tc .vmem S1x4096 .f32) (h5 : a5.IsWhole) (a6 : Memref sig .tc .vmem S256x1 .f32) (h6 : a6.IsWhole) (a7 : Memref sig .tc .vmem S256x1 .f32) (h7 : a7.IsWhole) (a8 : Memref sig .tc .vmem S1x1x4096 .f32) (h8 : a8.IsWhole) (a9 : Memref sig .tc .vmem S1x1x4096 .f32) (h9 : a9.IsWhole) (a10 : Memref sig .tc .vmem S1x1x4096 .f32) (h10 : a10.IsWhole) (a11 : Memref sig .tc .vmem S1x1x4096 .f32) (h11 : a11.IsWhole)
    (x0 : Vec F S4096x128 .f32) (x1 : Vec F S4096x128 .f32) (x2 : Vec F S256x1 .f32) (x3 : Vec F S1x4096 .f32) (x4 : Vec F S1x4096 .f32) :
    out1_A_5 c i a1 h1 a2 h2 a3 h3 a4 h4 a5 h5 a6 h6 a7 h7 a8 h8 a9 h9 a10 h10 a11 h11 x0 x1 x2 x3 x4 = k1_pay14 (word i) (k1_pay9 x1 (tile i x0) x2 x4) (k1_pay10 x2 x3) (k1_pay11 x0 (tile i x0)) two := by
  unfold out1_A_5
  rw [View.read_writes_eq_canon _ _ _ (cover1_A_5 c i a1 h1 a2 h2 a3 h3 a4 h4 a5 h5 a6 h6 a7 h7 a8 h8 a9 h9 a10 h10 a11 h11 x0 x1 x2 x3 x4)]
  unfold kernelRun1_A
  dsimp only
  sl_unfold_words
  rw [View.canon_unit_zero hz2]
  simp only [View.readAt_eq_ld, h1.read_unread, h2.read_unread, h3.read_unread, h4.read_unread, h5.read_unread,
    View.ld_unit_zero (S := S4096x128) hz2, View.ld_unit_zero (S := S256x1) hz2, View.ld_unit_zero (S := S1x4096) hz2]
  rfl

set_option maxHeartbeats 400000 in
/-- Output 6's buffer after the body: its one store, of the row sums, as a payload of the loaded blocks. -/
theorem out6_eq (c : Dev nD) (i : grid1.Coords) (a1 : Memref sig .tc .vmem S4096x128 .f32) (h1 : a1.IsWhole) (a2 : Memref sig .tc .vmem S4096x128 .f32) (h2 : a2.IsWhole) (a3 : Memref sig .tc .vmem S256x1 .f32) (h3 : a3.IsWhole) (a4 : Memref sig .tc .vmem S1x4096 .f32) (h4 : a4.IsWhole) (a5 : Memref sig .tc .vmem S1x4096 .f32) (h5 : a5.IsWhole) (a6 : Memref sig .tc .vmem S256x1 .f32) (h6 : a6.IsWhole) (a7 : Memref sig .tc .vmem S256x1 .f32) (h7 : a7.IsWhole) (a8 : Memref sig .tc .vmem S1x1x4096 .f32) (h8 : a8.IsWhole) (a9 : Memref sig .tc .vmem S1x1x4096 .f32) (h9 : a9.IsWhole) (a10 : Memref sig .tc .vmem S1x1x4096 .f32) (h10 : a10.IsWhole) (a11 : Memref sig .tc .vmem S1x1x4096 .f32) (h11 : a11.IsWhole)
    (x0 : Vec F S4096x128 .f32) (x1 : Vec F S4096x128 .f32) (x2 : Vec F S256x1 .f32) (x3 : Vec F S1x4096 .f32) (x4 : Vec F S1x4096 .f32) :
    out1_A_6 c i a1 h1 a2 h2 a3 h3 a4 h4 a5 h5 a6 h6 a7 h7 a8 h8 a9 h9 a10 h10 a11 h11 x0 x1 x2 x3 x4 = k1_pay15 (word i) (k1_pay9 x1 (tile i x0) x2 x4) (k1_pay10 x2 x3) (k1_pay11 x0 (tile i x0)) two := by
  unfold out1_A_6
  rw [View.read_writes_eq_canon _ _ _ (cover1_A_6 c i a1 h1 a2 h2 a3 h3 a4 h4 a5 h5 a6 h6 a7 h7 a8 h8 a9 h9 a10 h10 a11 h11 x0 x1 x2 x3 x4)]
  unfold kernelRun1_A
  dsimp only
  sl_unfold_words
  rw [View.canon_unit_zero hz2]
  simp only [View.readAt_eq_ld, h1.read_unread, h2.read_unread, h3.read_unread, h4.read_unread, h5.read_unread,
    View.ld_unit_zero (S := S4096x128) hz2, View.ld_unit_zero (S := S256x1) hz2, View.ld_unit_zero (S := S1x4096) hz2]
  rfl

set_option maxHeartbeats 400000 in
/-- Output 7's buffer after the body: its one store, of the column maxima of the positive scores, as a payload of the loaded blocks. -/
theorem out7_eq (c : Dev nD) (i : grid1.Coords) (a1 : Memref sig .tc .vmem S4096x128 .f32) (h1 : a1.IsWhole) (a2 : Memref sig .tc .vmem S4096x128 .f32) (h2 : a2.IsWhole) (a3 : Memref sig .tc .vmem S256x1 .f32) (h3 : a3.IsWhole) (a4 : Memref sig .tc .vmem S1x4096 .f32) (h4 : a4.IsWhole) (a5 : Memref sig .tc .vmem S1x4096 .f32) (h5 : a5.IsWhole) (a6 : Memref sig .tc .vmem S256x1 .f32) (h6 : a6.IsWhole) (a7 : Memref sig .tc .vmem S256x1 .f32) (h7 : a7.IsWhole) (a8 : Memref sig .tc .vmem S1x1x4096 .f32) (h8 : a8.IsWhole) (a9 : Memref sig .tc .vmem S1x1x4096 .f32) (h9 : a9.IsWhole) (a10 : Memref sig .tc .vmem S1x1x4096 .f32) (h10 : a10.IsWhole) (a11 : Memref sig .tc .vmem S1x1x4096 .f32) (h11 : a11.IsWhole)
    (x0 : Vec F S4096x128 .f32) (x1 : Vec F S4096x128 .f32) (x2 : Vec F S256x1 .f32) (x3 : Vec F S1x4096 .f32) (x4 : Vec F S1x4096 .f32) :
    out1_A_7 c i a1 h1 a2 h2 a3 h3 a4 h4 a5 h5 a6 h6 a7 h7 a8 h8 a9 h9 a10 h10 a11 h11 x0 x1 x2 x3 x4 = k1_pay3 (sPos i x0 x1 x2 x4) := by
  unfold out1_A_7
  rw [View.read_writes_eq_canon _ _ _ (cover1_A_7 c i a1 h1 a2 h2 a3 h3 a4 h4 a5 h5 a6 h6 a7 h7 a8 h8 a9 h9 a10 h10 a11 h11 x0 x1 x2 x3 x4)]
  unfold kernelRun1_A
  dsimp only
  sl_unfold_words
  rw [View.canon_unit_zero hz3]
  simp only [View.readAt_eq_ld, h1.read_unread, h2.read_unread, h3.read_unread, h4.read_unread, h5.read_unread,
    View.ld_unit_zero (S := S4096x128) hz2, View.ld_unit_zero (S := S256x1) hz2, View.ld_unit_zero (S := S1x4096) hz2]
  rfl

set_option maxHeartbeats 400000 in
/-- Output 8's buffer after the body: its one store, of the column sums of the positive scores, as a payload of the loaded blocks. -/
theorem out8_eq (c : Dev nD) (i : grid1.Coords) (a1 : Memref sig .tc .vmem S4096x128 .f32) (h1 : a1.IsWhole) (a2 : Memref sig .tc .vmem S4096x128 .f32) (h2 : a2.IsWhole) (a3 : Memref sig .tc .vmem S256x1 .f32) (h3 : a3.IsWhole) (a4 : Memref sig .tc .vmem S1x4096 .f32) (h4 : a4.IsWhole) (a5 : Memref sig .tc .vmem S1x4096 .f32) (h5 : a5.IsWhole) (a6 : Memref sig .tc .vmem S256x1 .f32) (h6 : a6.IsWhole) (a7 : Memref sig .tc .vmem S256x1 .f32) (h7 : a7.IsWhole) (a8 : Memref sig .tc .vmem S1x1x4096 .f32) (h8 : a8.IsWhole) (a9 : Memref sig .tc .vmem S1x1x4096 .f32) (h9 : a9.IsWhole) (a10 : Memref sig .tc .vmem S1x1x4096 .f32) (h10 : a10.IsWhole) (a11 : Memref sig .tc .vmem S1x1x4096 .f32) (h11 : a11.IsWhole)
    (x0 : Vec F S4096x128 .f32) (x1 : Vec F S4096x128 .f32) (x2 : Vec F S256x1 .f32) (x3 : Vec F S1x4096 .f32) (x4 : Vec F S1x4096 .f32) :
    out1_A_8 c i a1 h1 a2 h2 a3 h3 a4 h4 a5 h5 a6 h6 a7 h7 a8 h8 a9 h9 a10 h10 a11 h11 x0 x1 x2 x3 x4 = k1_pay4 (sPos i x0 x1 x2 x4) := by
  unfold out1_A_8
  rw [View.read_writes_eq_canon _ _ _ (cover1_A_8 c i a1 h1 a2 h2 a3 h3 a4 h4 a5 h5 a6 h6 a7 h7 a8 h8 a9 h9 a10 h10 a11 h11 x0 x1 x2 x3 x4)]
  unfold kernelRun1_A
  dsimp only
  sl_unfold_words
  rw [View.canon_unit_zero hz3]
  simp only [View.readAt_eq_ld, h1.read_unread, h2.read_unread, h3.read_unread, h4.read_unread, h5.read_unread,
    View.ld_unit_zero (S := S4096x128) hz2, View.ld_unit_zero (S := S256x1) hz2, View.ld_unit_zero (S := S1x4096) hz2]
  rfl

set_option maxHeartbeats 400000 in
/-- Output 9's buffer after the body: its one store, of the column maxima of the negative scores, as a payload of the loaded blocks. -/
theorem out9_eq (c : Dev nD) (i : grid1.Coords) (a1 : Memref sig .tc .vmem S4096x128 .f32) (h1 : a1.IsWhole) (a2 : Memref sig .tc .vmem S4096x128 .f32) (h2 : a2.IsWhole) (a3 : Memref sig .tc .vmem S256x1 .f32) (h3 : a3.IsWhole) (a4 : Memref sig .tc .vmem S1x4096 .f32) (h4 : a4.IsWhole) (a5 : Memref sig .tc .vmem S1x4096 .f32) (h5 : a5.IsWhole) (a6 : Memref sig .tc .vmem S256x1 .f32) (h6 : a6.IsWhole) (a7 : Memref sig .tc .vmem S256x1 .f32) (h7 : a7.IsWhole) (a8 : Memref sig .tc .vmem S1x1x4096 .f32) (h8 : a8.IsWhole) (a9 : Memref sig .tc .vmem S1x1x4096 .f32) (h9 : a9.IsWhole) (a10 : Memref sig .tc .vmem S1x1x4096 .f32) (h10 : a10.IsWhole) (a11 : Memref sig .tc .vmem S1x1x4096 .f32) (h11 : a11.IsWhole)
    (x0 : Vec F S4096x128 .f32) (x1 : Vec F S4096x128 .f32) (x2 : Vec F S256x1 .f32) (x3 : Vec F S1x4096 .f32) (x4 : Vec F S1x4096 .f32) :
    out1_A_9 c i a1 h1 a2 h2 a3 h3 a4 h4 a5 h5 a6 h6 a7 h7 a8 h8 a9 h9 a10 h10 a11 h11 x0 x1 x2 x3 x4 = k1_pay5 (sNeg i x0 x2 x3) := by
  unfold out1_A_9
  rw [View.read_writes_eq_canon _ _ _ (cover1_A_9 c i a1 h1 a2 h2 a3 h3 a4 h4 a5 h5 a6 h6 a7 h7 a8 h8 a9 h9 a10 h10 a11 h11 x0 x1 x2 x3 x4)]
  unfold kernelRun1_A
  dsimp only
  sl_unfold_words
  rw [View.canon_unit_zero hz3]
  simp only [View.readAt_eq_ld, h1.read_unread, h2.read_unread, h3.read_unread, h4.read_unread, h5.read_unread,
    View.ld_unit_zero (S := S4096x128) hz2, View.ld_unit_zero (S := S256x1) hz2, View.ld_unit_zero (S := S1x4096) hz2]
  rfl

set_option maxHeartbeats 400000 in
/-- Output 10's buffer after the body: its one store, of the column sums of the negative scores, as a payload of the loaded blocks. -/
theorem out10_eq (c : Dev nD) (i : grid1.Coords) (a1 : Memref sig .tc .vmem S4096x128 .f32) (h1 : a1.IsWhole) (a2 : Memref sig .tc .vmem S4096x128 .f32) (h2 : a2.IsWhole) (a3 : Memref sig .tc .vmem S256x1 .f32) (h3 : a3.IsWhole) (a4 : Memref sig .tc .vmem S1x4096 .f32) (h4 : a4.IsWhole) (a5 : Memref sig .tc .vmem S1x4096 .f32) (h5 : a5.IsWhole) (a6 : Memref sig .tc .vmem S256x1 .f32) (h6 : a6.IsWhole) (a7 : Memref sig .tc .vmem S256x1 .f32) (h7 : a7.IsWhole) (a8 : Memref sig .tc .vmem S1x1x4096 .f32) (h8 : a8.IsWhole) (a9 : Memref sig .tc .vmem S1x1x4096 .f32) (h9 : a9.IsWhole) (a10 : Memref sig .tc .vmem S1x1x4096 .f32) (h10 : a10.IsWhole) (a11 : Memref sig .tc .vmem S1x1x4096 .f32) (h11 : a11.IsWhole)
    (x0 : Vec F S4096x128 .f32) (x1 : Vec F S4096x128 .f32) (x2 : Vec F S256x1 .f32) (x3 : Vec F S1x4096 .f32) (x4 : Vec F S1x4096 .f32) :
    out1_A_10 c i a1 h1 a2 h2 a3 h3 a4 h4 a5 h5 a6 h6 a7 h7 a8 h8 a9 h9 a10 h10 a11 h11 x0 x1 x2 x3 x4 = k1_pay6 (sNeg i x0 x2 x3) := by
  unfold out1_A_10
  rw [View.read_writes_eq_canon _ _ _ (cover1_A_10 c i a1 h1 a2 h2 a3 h3 a4 h4 a5 h5 a6 h6 a7 h7 a8 h8 a9 h9 a10 h10 a11 h11 x0 x1 x2 x3 x4)]
  unfold kernelRun1_A
  dsimp only
  sl_unfold_words
  rw [View.canon_unit_zero hz3]
  simp only [View.readAt_eq_ld, h1.read_unread, h2.read_unread, h3.read_unread, h4.read_unread, h5.read_unread,
    View.ld_unit_zero (S := S4096x128) hz2, View.ld_unit_zero (S := S256x1) hz2, View.ld_unit_zero (S := S1x4096) hz2]
  rfl

/-! ## The pass at a grid point, read off the arrays it finds -/

section Point

variable (V : (c : Dev nD) → (b : Ref sig .tc) → Buf (Elt Ideal) ((c : Thread nD τ).loc b)) (c : Dev nD)
variable (X Y : Fin 4096 → Fin 128 → EReal) (NC NXR NYR : Fin 4096 → EReal)

/-- What the statistics pass reads, at coordinates: the generated points `X`, the positives `Y`, the squared norms of the
    generated points as a column `NC` and as a row `NXR`, those of the positives as a row `NYR`. -/
structure Reads : Prop where
  hX : ∀ p q, V c main_v0 (ix2 p q) = X p q
  hY : ∀ p q, V c main_arg0 (ix2 p q) = Y p q
  hNC : ∀ p, V c main_v5 (ix2 p (0 : Fin 1)) = NC p
  hNXR : ∀ j, V c main_v6 (ix2 (0 : Fin 1) j) = NXR j
  hNYR : ∀ j, V c main_v7 (ix2 (0 : Fin 1) j) = NYR j

/-- The reads, at the arrays themselves. -/
theorem reads_self : Reads V c (fun p q => V c main_v0 (ix2 p q)) (fun p q => V c main_arg0 (ix2 p q))
    (fun p => V c main_v5 (ix2 p (0 : Fin 1))) (fun j => V c main_v6 (ix2 (0 : Fin 1) j))
    (fun j => V c main_v7 (ix2 (0 : Fin 1) j)) := ⟨fun _ _ => rfl, fun _ _ => rfl, fun _ => rfl, fun _ => rfl, fun _ => rfl⟩

/-- The tile a grid point works on. -/
def tileOf (t : Fin cfg1.N) : Fin 16 := ⟨t.val, by have := t.isLt; have hN : cfg1.N = 16 := N_1; omega⟩

/-- The index maps over the grid: the matrices and the rows of norms are read whole at every point, the column of norms
    and the two row statistics move one block of 256 rows per point, and the grid coordinate is the point's number. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ (grid1.coords t 0).val = t.val :=
  (by decide +kernel : ∀ t : Fin grid1.N, _)

/-- The generated points are read whole at every point. -/
theorem blk0_apply (t : Fin cfg1.N) (p : Fin 4096) (q : Fin 128) :
    iblk1 V c 0 t (ix2 p q) = V c main_v0 (ix2 p q) := by
  obtain ⟨e00, e01, e10, e11, e20, e21, e30, e31, e40, e41, e50, e51, e60, e61, ec⟩ := idx_facts t
  show V c main_v0 (((cfg1.win 0).blk t).view.emb (ix2 p q)) = _
  refine congrArg (V c main_v0) (funext fun a => Fin.ext ?_)
  match a with
  | ⟨0, _⟩ => show win1_0.index t (0 : Fin 2) * 4096 + 1 * p.val = p.val; omega
  | ⟨1, _⟩ => show win1_0.index t (1 : Fin 2) * 128 + 1 * q.val = q.val; omega

/-- The positives are read whole at every point. -/
theorem blk1_apply (t : Fin cfg1.N) (p : Fin 4096) (q : Fin 128) :
    iblk1 V c 1 t (ix2 p q) = V c main_arg0 (ix2 p q) := by
  obtain ⟨e00, e01, e10, e11, e20, e21, e30, e31, e40, e41, e50, e51, e60, e61, ec⟩ := idx_facts t
  show V c main_arg0 (((cfg1.win 1).blk t).view.emb (ix2 p q)) = _
  refine congrArg (V c main_arg0) (funext fun a => Fin.ext ?_)
  match a with
  | ⟨0, _⟩ => show win1_1.index t (0 : Fin 2) * 4096 + 1 * p.val = p.val; omega
  | ⟨1, _⟩ => show win1_1.index t (1 : Fin 2) * 128 + 1 * q.val = q.val; omega

/-- The column of squared norms is read one tile at a time: entry `r` of point `t`'s block is entry `row t r` of the column. -/
theorem blk2_apply (t : Fin cfg1.N) (r : Fin 256) (u : Fin 1) :
    iblk1 V c 2 t (ix2 r u) = V c main_v5 (ix2 (row (tileOf t) r) u) := by
  obtain ⟨e00, e01, e10, e11, e20, e21, e30, e31, e40, e41, e50, e51, e60, e61, ec⟩ := idx_facts t
  show V c main_v5 (((cfg1.win 2).blk t).view.emb (ix2 r u)) = _
  refine congrArg (V c main_v5) (funext fun a => Fin.ext ?_)
  match a with
  | ⟨0, _⟩ => show win1_2.index t (0 : Fin 2) * 256 + 1 * r.val = 256 * t.val + r.val; omega
  | ⟨1, _⟩ => show win1_2.index t (1 : Fin 2) * 1 + 1 * u.val = u.val; omega

/-- The row of squared norms of the generated points is read whole at every point. -/
theorem blk3_apply (t : Fin cfg1.N) (u : Fin 1) (j : Fin 4096) :
    iblk1 V c 3 t (ix2 u j) = V c main_v6 (ix2 u j) := by
  obtain ⟨e00, e01, e10, e11, e20, e21, e30, e31, e40, e41, e50, e51, e60, e61, ec⟩ := idx_facts t
  show V c main_v6 (((cfg1.win 3).blk t).view.emb (ix2 u j)) = _
  refine congrArg (V c main_v6) (funext fun a => Fin.ext ?_)
  match a with
  | ⟨0, _⟩ => show win1_3.index t (0 : Fin 2) * 1 + 1 * u.val = u.val; omega
  | ⟨1, _⟩ => show win1_3.index t (1 : Fin 2) * 4096 + 1 * j.val = j.val; omega

/-- The row of squared norms of the positives is read whole at every point. -/
theorem blk4_apply (t : Fin cfg1.N) (u : Fin 1) (j : Fin 4096) :
    iblk1 V c 4 t (ix2 u j) = V c main_v7 (ix2 u j) := by
  obtain ⟨e00, e01, e10, e11, e20, e21, e30, e31, e40, e41, e50, e51, e60, e61, ec⟩ := idx_facts t
  show V c main_v7 (((cfg1.win 4).blk t).view.emb (ix2 u j)) = _
  refine congrArg (V c main_v7) (funext fun a => Fin.ext ?_)
  match a with
  | ⟨0, _⟩ => show win1_4.index t (0 : Fin 2) * 1 + 1 * u.val = u.val; omega
  | ⟨1, _⟩ => show win1_4.index t (1 : Fin 2) * 4096 + 1 * j.val = j.val; omega

/-- The row offset the body computes on 32-bit words is 256 times the point's number: nothing wraps below 2³². -/
theorem off_row (t : Fin cfg1.N) : k1_off1 (grid1.coords t) 0 = 256 * t.val := by
  obtain ⟨e00, e01, e10, e11, e20, e21, e30, e31, e40, e41, e50, e51, e60, e61, ec⟩ := idx_facts t
  have ht := t.isLt; have hN : cfg1.N = 16 := N_1
  show (BitVec.ofNat 32 (grid1.coords t 0).val * 256#32 : BitVec 32).toNat = _
  rw [ec]
  simp only [BitVec.toNat_mul, BitVec.toNat_ofNat]
  omega

/-- The second load of the generated points, through the rectangle at that offset, reads the tile's rows. -/
theorem tile_apply (t : Fin cfg1.N) (x0 : Vec Ideal S4096x128 .f32) (r : Fin 256) (q : Fin 128) :
    tile (grid1.coords t) x0 (ix2 r q) = x0 (ix2 (row (tileOf t) r) q) := by
  show x0 ((Rect.unit (s := S4096x128) (k1_off1 (grid1.coords t)) S256x128.size (k1_off1_inb (grid1.coords t))).idx (ix2 r q)) = _
  refine congrArg x0 (funext fun a => Fin.ext ?_)
  match a with
  | ⟨0, _⟩ => show k1_off1 (grid1.coords t) 0 + 1 * r.val = 256 * t.val + r.val; rw [off_row]; omega
  | ⟨1, _⟩ => show 0 + 1 * q.val = q.val; omega

variable {V c X Y NC NXR NYR}

/-- THE SHARED READING, positives: at point `t` the body's positive scores at `(r, j)` are the specification's score of
    row `row t r` against positive `j`. -/
theorem sPos_at (h : Reads V c X Y NC NXR NYR) (t : Fin cfg1.N) (r : Fin 256) (j : Fin 4096) :
    sPos (grid1.coords t) (iblk1 V c 0 t) (iblk1 V c 1 t) (iblk1 V c 2 t) (iblk1 V c 4 t) (ix2 r j)
      = aposG X Y NC NYR (row (tileOf t) r) j := by
  refine sPos_apply (tileOf t) X Y NC NYR (iblk1 V c 1 t) (tile (grid1.coords t) (iblk1 V c 0 t)) (iblk1 V c 2 t)
    (iblk1 V c 4 t) ?_ ?_ ?_ ?_ r j
  · intro p q; rw [blk1_apply]; exact h.hY p q
  · intro r q; rw [tile_apply, blk0_apply]; exact h.hX _ q
  · intro r; rw [blk2_apply]; exact h.hNC _
  · intro j; rw [blk4_apply]; exact h.hNYR j

/-- The word the diagonal test starts from is 256 times the tile's number. -/
theorem word_at (t : Fin cfg1.N) : word (grid1.coords t) = Scalar.muli (BitVec.ofNat 32 (tileOf t).val) 256#32 := by
  obtain ⟨e00, e01, e10, e11, e20, e21, e30, e31, e40, e41, e50, e51, e60, e61, ec⟩ := idx_facts t
  show Scalar.muli (BitVec.ofNat 32 (grid1.coords t 0).val) 256#32 = _
  rw [ec]; rfl

/-- THE SHARED READING, generated points: at point `t` the body's negative scores at `(r, j)` are the specification's
    score of row `row t r` against generated point `j`, the diagonal pushed away. -/
theorem sNeg_at (h : Reads V c X Y NC NXR NYR) (t : Fin cfg1.N) (r : Fin 256) (j : Fin 4096) :
    sNeg (grid1.coords t) (iblk1 V c 0 t) (iblk1 V c 2 t) (iblk1 V c 3 t) (ix2 r j)
      = anegG X NC NXR (row (tileOf t) r) j := by
  show k1_pay13 (word (grid1.coords t)) (k1_pay10 (iblk1 V c 2 t) (iblk1 V c 3 t))
    (k1_pay11 (iblk1 V c 0 t) (tile (grid1.coords t) (iblk1 V c 0 t))) two (ix2 r j) = _
  rw [word_at]
  refine sNeg_apply (tileOf t) X NC NXR (iblk1 V c 0 t) (tile (grid1.coords t) (iblk1 V c 0 t)) (iblk1 V c 2 t)
    (iblk1 V c 3 t) two rfl ?_ ?_ ?_ ?_ r j
  · intro p q; rw [blk0_apply]; exact h.hX p q
  · intro r q; rw [tile_apply, blk0_apply]; exact h.hX _ q
  · intro r; rw [blk2_apply]; exact h.hNC _
  · intro j; rw [blk3_apply]; exact h.hNXR j

/-! ## The two row statistics as whole arrays -/

set_option maxHeartbeats 400000 in
/-- Output 5's buffer after point `t`: at entry `r`, the maximum over both score rows of row `row t r`. -/
theorem out5_at (h : Reads V c X Y NC NXR NYR) (t : Fin cfg1.N) (r : Fin 256) :
    (outsAt1 V c t).1 (ix2 r (0 : Fin 1)) = rmaxT (aposG X Y NC NYR) (anegG X NC NXR) (row (tileOf t) r) := by
  show out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (iblk1 V c 0 t) (iblk1 V c 1 t) (iblk1 V c 2 t) (iblk1 V c 3 t) (iblk1 V c 4 t) (ix2 r (0 : Fin 1)) = _
  refine (congrFun (out5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (iblk1 V c 0 t) (iblk1 V c 1 t) (iblk1 V c 2 t) (iblk1 V c 3 t) (iblk1 V c 4 t)) (ix2 r (0 : Fin 1))).trans ?_
  exact rowMax_tile (tileOf t) (aposG X Y NC NYR) (anegG X NC NXR) (word (grid1.coords t))
    (k1_pay9 (iblk1 V c 1 t) (tile (grid1.coords t) (iblk1 V c 0 t)) (iblk1 V c 2 t) (iblk1 V c 4 t))
    (k1_pay10 (iblk1 V c 2 t) (iblk1 V c 3 t)) (k1_pay11 (iblk1 V c 0 t) (tile (grid1.coords t) (iblk1 V c 0 t))) two
    (sPos_at h t) (sNeg_at h t) r

set_option maxHeartbeats 400000 in
/-- What point `t` writes back to array 5 is block `t` of the whole array of the maximum over both score rowss. -/
theorem flushed5_eq (h : Reads V c X Y NC NXR NYR) (t : Fin cfg1.N) :
    (dat1 (F := Ideal) V c).flushed 5 t = ((cfg1.win 5).blk t).view.read (Elt Ideal)
      (fun i => rmaxT (aposG X Y NC NYR) (anegG X NC NXR) ⟨(i 0).val, (i 0).isLt⟩) := by
  obtain ⟨e00, e01, e10, e11, e20, e21, e30, e31, e40, e41, e50, e51, e60, e61, ec⟩ := idx_facts t
  show (cfg1.win 5).cut (grid1.coords t) ((dat1 (F := Ideal) V c).after 5 t) = _
  rw [after1_5]
  funext y
  obtain ⟨r, u, rfl⟩ : ∃ (r : Fin 256) (u : Fin 1), y = ix2 r u := ⟨y 0, y 1, eq_ix2 y⟩
  obtain rfl : u = 0 := Fin.fin_one_eq_zero u
  show (outsAt1 V c t).1 (ix2 r (0 : Fin 1))
    = rmaxT (aposG X Y NC NYR) (anegG X NC NXR) ⟨((((cfg1.win 5).blk t).view.emb (ix2 r (0 : Fin 1))) 0).val, _⟩
  rw [out5_at h t r]
  refine congrArg (rmaxT (aposG X Y NC NYR) (anegG X NC NXR)) (Fin.ext ?_)
  show 256 * t.val + r.val = win1_5.index t (0 : Fin 2) * 256 + 1 * r.val
  omega

/-- An index of array 5 is in point `t`'s block iff each coordinate is in the block's range on its axis. -/
theorem mem_blk5 (t : Fin cfg1.N) (i : S4096x1.Idx) :
    i ∈ ((cfg1.win 5).blk t).view.set ↔ ∀ a : Fin 2, win1_5.index t a * S256x1.size a ≤ (i a).val ∧ (i a).val < win1_5.index t a * S256x1.size a + S256x1.size a := by
  show i ∈ ((View.whole main_v8_0).slice (win1_5.rect t)).set ↔ _
  rw [View.set_slice_whole, Rect.mem_set_unit]
  exact Iff.rfl

/-- Every row of array 5 is in the block of the point that is its number over 256. -/
theorem cover5 (i : S4096x1.Idx) : ∃ t : Fin cfg1.N, (cfg1.win 5).flush t = true ∧ i ∈ ((cfg1.win 5).blk t).view.set := by
  have hi0 : (i 0).val < 4096 := (i 0).isLt
  have hi1 : (i 1).val < 1 := (i 1).isLt
  have hN : cfg1.N = 16 := N_1
  have ht : (i 0).val / 256 < cfg1.N := by omega
  obtain ⟨e00, e01, e10, e11, e20, e21, e30, e31, e40, e41, e50, e51, e60, e61, ec⟩ := idx_facts ⟨(i 0).val / 256, ht⟩
  refine ⟨⟨(i 0).val / 256, ht⟩, flush1_5 _, ?_⟩
  rw [mem_blk5]
  intro a
  match a with
  | ⟨0, _⟩ =>
    show win1_5.index ⟨(i 0).val / 256, ht⟩ (0 : Fin 2) * 256 ≤ (i 0).val ∧ (i 0).val < win1_5.index ⟨(i 0).val / 256, ht⟩ (0 : Fin 2) * 256 + 256
    have hv : (⟨(i 0).val / 256, ht⟩ : Fin cfg1.N).val = (i 0).val / 256 := rfl
    omega
  | ⟨1, _⟩ =>
    show win1_5.index ⟨(i 0).val / 256, ht⟩ (1 : Fin 2) * 1 ≤ (i 1).val ∧ (i 1).val < win1_5.index ⟨(i 0).val / 256, ht⟩ (1 : Fin 2) * 1 + 1
    omega

/-- THE ARRAY after the pass: the maximum over both score rows of every row. -/
theorem rowMax (h : Reads V c X Y NC NXR NYR) :
    (dat1 (F := Ideal) V c).arrAt 5 cfg1.N
      = fun i => rmaxT (aposG X Y NC NYR) (anegG X NC NXR) ⟨(i 0).val, (i 0).isLt⟩ :=
  (dat1 (F := Ideal) V c).arrAt_eq_of_cover 5 _ (fun t _ => flushed5_eq h t) cover5

set_option maxHeartbeats 400000 in
/-- Output 6's buffer after point `t`: at entry `r`, the sum of exponentials, against that maximum, over both score rows of row `row t r`. -/
theorem out6_at (h : Reads V c X Y NC NXR NYR) (t : Fin cfg1.N) (r : Fin 256) :
    (outsAt1 V c t).2.1 (ix2 r (0 : Fin 1)) = rsumT (aposG X Y NC NYR) (anegG X NC NXR) (row (tileOf t) r) := by
  show out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (iblk1 V c 0 t) (iblk1 V c 1 t) (iblk1 V c 2 t) (iblk1 V c 3 t) (iblk1 V c 4 t) (ix2 r (0 : Fin 1)) = _
  refine (congrFun (out6_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (iblk1 V c 0 t) (iblk1 V c 1 t) (iblk1 V c 2 t) (iblk1 V c 3 t) (iblk1 V c 4 t)) (ix2 r (0 : Fin 1))).trans ?_
  exact rowSum_tile (tileOf t) (aposG X Y NC NYR) (anegG X NC NXR) (word (grid1.coords t))
    (k1_pay9 (iblk1 V c 1 t) (tile (grid1.coords t) (iblk1 V c 0 t)) (iblk1 V c 2 t) (iblk1 V c 4 t))
    (k1_pay10 (iblk1 V c 2 t) (iblk1 V c 3 t)) (k1_pay11 (iblk1 V c 0 t) (tile (grid1.coords t) (iblk1 V c 0 t))) two
    (sPos_at h t) (sNeg_at h t) r

set_option maxHeartbeats 400000 in
/-- What point `t` writes back to array 6 is block `t` of the whole array of the sum of exponentials, against that maximum, over both score rowss. -/
theorem flushed6_eq (h : Reads V c X Y NC NXR NYR) (t : Fin cfg1.N) :
    (dat1 (F := Ideal) V c).flushed 6 t = ((cfg1.win 6).blk t).view.read (Elt Ideal)
      (fun i => rsumT (aposG X Y NC NYR) (anegG X NC NXR) ⟨(i 0).val, (i 0).isLt⟩) := by
  obtain ⟨e00, e01, e10, e11, e20, e21, e30, e31, e40, e41, e50, e51, e60, e61, ec⟩ := idx_facts t
  show (cfg1.win 6).cut (grid1.coords t) ((dat1 (F := Ideal) V c).after 6 t) = _
  rw [after1_6]
  funext y
  obtain ⟨r, u, rfl⟩ : ∃ (r : Fin 256) (u : Fin 1), y = ix2 r u := ⟨y 0, y 1, eq_ix2 y⟩
  obtain rfl : u = 0 := Fin.fin_one_eq_zero u
  show (outsAt1 V c t).2.1 (ix2 r (0 : Fin 1))
    = rsumT (aposG X Y NC NYR) (anegG X NC NXR) ⟨((((cfg1.win 6).blk t).view.emb (ix2 r (0 : Fin 1))) 0).val, _⟩
  rw [out6_at h t r]
  refine congrArg (rsumT (aposG X Y NC NYR) (anegG X NC NXR)) (Fin.ext ?_)
  show 256 * t.val + r.val = win1_6.index t (0 : Fin 2) * 256 + 1 * r.val
  omega

/-- An index of array 6 is in point `t`'s block iff each coordinate is in the block's range on its axis. -/
theorem mem_blk6 (t : Fin cfg1.N) (i : S4096x1.Idx) :
    i ∈ ((cfg1.win 6).blk t).view.set ↔ ∀ a : Fin 2, win1_6.index t a * S256x1.size a ≤ (i a).val ∧ (i a).val < win1_6.index t a * S256x1.size a + S256x1.size a := by
  show i ∈ ((View.whole main_v8_1).slice (win1_6.rect t)).set ↔ _
  rw [View.set_slice_whole, Rect.mem_set_unit]
  exact Iff.rfl

/-- Every row of array 6 is in the block of the point that is its number over 256. -/
theorem cover6 (i : S4096x1.Idx) : ∃ t : Fin cfg1.N, (cfg1.win 6).flush t = true ∧ i ∈ ((cfg1.win 6).blk t).view.set := by
  have hi0 : (i 0).val < 4096 := (i 0).isLt
  have hi1 : (i 1).val < 1 := (i 1).isLt
  have hN : cfg1.N = 16 := N_1
  have ht : (i 0).val / 256 < cfg1.N := by omega
  obtain ⟨e00, e01, e10, e11, e20, e21, e30, e31, e40, e41, e50, e51, e60, e61, ec⟩ := idx_facts ⟨(i 0).val / 256, ht⟩
  refine ⟨⟨(i 0).val / 256, ht⟩, flush1_6 _, ?_⟩
  rw [mem_blk6]
  intro a
  match a with
  | ⟨0, _⟩ =>
    show win1_6.index ⟨(i 0).val / 256, ht⟩ (0 : Fin 2) * 256 ≤ (i 0).val ∧ (i 0).val < win1_6.index ⟨(i 0).val / 256, ht⟩ (0 : Fin 2) * 256 + 256
    have hv : (⟨(i 0).val / 256, ht⟩ : Fin cfg1.N).val = (i 0).val / 256 := rfl
    omega
  | ⟨1, _⟩ =>
    show win1_6.index ⟨(i 0).val / 256, ht⟩ (1 : Fin 2) * 1 ≤ (i 1).val ∧ (i 1).val < win1_6.index ⟨(i 0).val / 256, ht⟩ (1 : Fin 2) * 1 + 1
    omega

/-- THE ARRAY after the pass: the sum of exponentials, against that maximum, over both score rows of every row. -/
theorem rowSum (h : Reads V c X Y NC NXR NYR) :
    (dat1 (F := Ideal) V c).arrAt 6 cfg1.N
      = fun i => rsumT (aposG X Y NC NYR) (anegG X NC NXR) ⟨(i 0).val, (i 0).isLt⟩ :=
  (dat1 (F := Ideal) V c).arrAt_eq_of_cover 6 _ (fun t _ => flushed6_eq h t) cover6

end Point

end Cert.KernelIdeal.Reg1
end
-- ==== Proof.Reg1ColFrame.lean ====
/-
  The four column-statistics arrays of the statistics pass, [16,1,4096] each, after the run, from what each grid point
  leaves in its block: point `t` writes the block [1,1,4096] at block index (t, 0, 0), that is row `t` of the array, and
  the 16 points' blocks cover the array. So if point `t` leaves `G t j` at column `j` of its block, the array ends
  holding `G` at (t, 0, j).
-/
import proofs.«125113_j88270167868072_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.Reg1

open Cert.KernelIdeal Cert.KernelIdeal.Gen

variable (V : (c : Dev nD) → (b : Ref sig .tc) → Buf (Elt Ideal) ((c : Thread nD τ).loc b)) (c : Dev nD)

/-- A function of (tile, column), as the array [16,1,4096] it is stored in. -/
def colArr (G : Fin 16 → Fin 4096 → EReal) : S16x1x4096.Idx → EReal :=
  fun i => G ⟨(i 0).val, (i 0).isLt⟩ ⟨(i 2).val, (i 2).isLt⟩

/-! ## Output window 7 -/

/-- The printed index map of output window 7, decided over the grid: block (t, 0, 0). -/
theorem col_idx7 : ∀ t : Fin cfg1.N, win1_7.index t (0 : Fin 3) = t.val ∧ win1_7.index t (1 : Fin 3) = 0
    ∧ win1_7.index t (2 : Fin 3) = 0 :=
  (by decide +kernel : ∀ t : Fin grid1.N, _)

/-- An index of the array is in point `t`'s block iff each coordinate is in the block's range on its axis. -/
theorem col_mem_blk7 (t : Fin cfg1.N) (i : S16x1x4096.Idx) :
    i ∈ ((cfg1.win 7).blk t).view.set ↔ ∀ a : Fin 3, win1_7.index t a * S1x1x4096.size a ≤ (i a).val
      ∧ (i a).val < win1_7.index t a * S1x1x4096.size a + S1x1x4096.size a := by
  show i ∈ ((View.whole main_v8_2).slice (win1_7.rect t)).set ↔ _
  rw [View.set_slice_whole, Rect.mem_set_unit]
  exact Iff.rfl

/-- Output window 7's array after the run, from what each point leaves in its block: the block of point `t` is
    row `t` of the array, and the 16 blocks cover it. -/
theorem col_arrAt7_of (G : Fin 16 → Fin 4096 → EReal)
    (hG : ∀ (t : Fin cfg1.N) (j : Fin 4096),
      (dat1 (F := Ideal) V c).after 7 t (ix3 (0 : Fin 1) (0 : Fin 1) j) = G ⟨t.val, N_1 ▸ t.isLt⟩ j) :
    (dat1 (F := Ideal) V c).arrAt 7 cfg1.N = colArr G := by
  refine (dat1 (F := Ideal) V c).arrAt_eq_of_cover 7 (colArr G) (fun t _ => ?_) (fun i => ?_)
  · show (cfg1.win 7).cut (grid1.coords t) ((dat1 (F := Ideal) V c).after 7 t) = _
    funext y
    show (dat1 (F := Ideal) V c).after 7 t ((cfg1.win 7).xinj (grid1.coords t) y)
      = colArr G (((cfg1.win 7).blk t).view.emb y)
    obtain ⟨e0, e1, e2⟩ := col_idx7 t
    have y0 : (y 0).val < 1 := (y 0).isLt
    have y1 : (y 1).val < 1 := (y 1).isLt
    have y2 : (y 2).val < 4096 := (y 2).isLt
    have hx : (cfg1.win 7).xinj (grid1.coords t) y = ix3 (0 : Fin 1) (0 : Fin 1) ⟨(y 2).val, y2⟩ := by
      funext a; apply Fin.ext
      match a with
      | ⟨0, _⟩ => show (y 0).val = 0; omega
      | ⟨1, _⟩ => show (y 1).val = 0; omega
      | ⟨2, _⟩ => rfl
    rw [hx, hG]
    unfold colArr
    congr 1
    · apply Fin.ext
      show t.val = win1_7.index t (0 : Fin 3) * 1 + 1 * (y 0).val
      omega
    · apply Fin.ext
      show (y 2).val = win1_7.index t (2 : Fin 3) * 4096 + 1 * (y 2).val
      omega
  · have i0 : (i 0).val < 16 := (i 0).isLt
    have i1 : (i 1).val < 1 := (i 1).isLt
    have i2 : (i 2).val < 4096 := (i 2).isLt
    have hN : (i 0).val < cfg1.N := by have := N_1; show (i 0).val < grid1.N; omega
    refine ⟨⟨(i 0).val, hN⟩, flush1_7 _, ?_⟩
    rw [col_mem_blk7]
    obtain ⟨e0', e1, e2⟩ := col_idx7 ⟨(i 0).val, hN⟩
    have e0 : win1_7.index ⟨(i 0).val, hN⟩ (0 : Fin 3) = (i 0).val := e0'
    intro a
    match a with
    | ⟨0, _⟩ =>
      show win1_7.index ⟨(i 0).val, hN⟩ (0 : Fin 3) * 1 ≤ (i 0).val
        ∧ (i 0).val < win1_7.index ⟨(i 0).val, hN⟩ (0 : Fin 3) * 1 + 1
      rw [e0]; omega
    | ⟨1, _⟩ =>
      show win1_7.index ⟨(i 0).val, hN⟩ (1 : Fin 3) * 1 ≤ (i 1).val
        ∧ (i 1).val < win1_7.index ⟨(i 0).val, hN⟩ (1 : Fin 3) * 1 + 1
      rw [e1]; omega
    | ⟨2, _⟩ =>
      show win1_7.index ⟨(i 0).val, hN⟩ (2 : Fin 3) * 4096 ≤ (i 2).val
        ∧ (i 2).val < win1_7.index ⟨(i 0).val, hN⟩ (2 : Fin 3) * 4096 + 4096
      rw [e2]; omega

/-! ## Output window 8 -/

/-- The printed index map of output window 8, decided over the grid: block (t, 0, 0). -/
theorem col_idx8 : ∀ t : Fin cfg1.N, win1_8.index t (0 : Fin 3) = t.val ∧ win1_8.index t (1 : Fin 3) = 0
    ∧ win1_8.index t (2 : Fin 3) = 0 :=
  (by decide +kernel : ∀ t : Fin grid1.N, _)

/-- An index of the array is in point `t`'s block iff each coordinate is in the block's range on its axis. -/
theorem col_mem_blk8 (t : Fin cfg1.N) (i : S16x1x4096.Idx) :
    i ∈ ((cfg1.win 8).blk t).view.set ↔ ∀ a : Fin 3, win1_8.index t a * S1x1x4096.size a ≤ (i a).val
      ∧ (i a).val < win1_8.index t a * S1x1x4096.size a + S1x1x4096.size a := by
  show i ∈ ((View.whole main_v8_3).slice (win1_8.rect t)).set ↔ _
  rw [View.set_slice_whole, Rect.mem_set_unit]
  exact Iff.rfl

/-- Output window 8's array after the run, from what each point leaves in its block: the block of point `t` is
    row `t` of the array, and the 16 blocks cover it. -/
theorem col_arrAt8_of (G : Fin 16 → Fin 4096 → EReal)
    (hG : ∀ (t : Fin cfg1.N) (j : Fin 4096),
      (dat1 (F := Ideal) V c).after 8 t (ix3 (0 : Fin 1) (0 : Fin 1) j) = G ⟨t.val, N_1 ▸ t.isLt⟩ j) :
    (dat1 (F := Ideal) V c).arrAt 8 cfg1.N = colArr G := by
  refine (dat1 (F := Ideal) V c).arrAt_eq_of_cover 8 (colArr G) (fun t _ => ?_) (fun i => ?_)
  · show (cfg1.win 8).cut (grid1.coords t) ((dat1 (F := Ideal) V c).after 8 t) = _
    funext y
    show (dat1 (F := Ideal) V c).after 8 t ((cfg1.win 8).xinj (grid1.coords t) y)
      = colArr G (((cfg1.win 8).blk t).view.emb y)
    obtain ⟨e0, e1, e2⟩ := col_idx8 t
    have y0 : (y 0).val < 1 := (y 0).isLt
    have y1 : (y 1).val < 1 := (y 1).isLt
    have y2 : (y 2).val < 4096 := (y 2).isLt
    have hx : (cfg1.win 8).xinj (grid1.coords t) y = ix3 (0 : Fin 1) (0 : Fin 1) ⟨(y 2).val, y2⟩ := by
      funext a; apply Fin.ext
      match a with
      | ⟨0, _⟩ => show (y 0).val = 0; omega
      | ⟨1, _⟩ => show (y 1).val = 0; omega
      | ⟨2, _⟩ => rfl
    rw [hx, hG]
    unfold colArr
    congr 1
    · apply Fin.ext
      show t.val = win1_8.index t (0 : Fin 3) * 1 + 1 * (y 0).val
      omega
    · apply Fin.ext
      show (y 2).val = win1_8.index t (2 : Fin 3) * 4096 + 1 * (y 2).val
      omega
  · have i0 : (i 0).val < 16 := (i 0).isLt
    have i1 : (i 1).val < 1 := (i 1).isLt
    have i2 : (i 2).val < 4096 := (i 2).isLt
    have hN : (i 0).val < cfg1.N := by have := N_1; show (i 0).val < grid1.N; omega
    refine ⟨⟨(i 0).val, hN⟩, flush1_8 _, ?_⟩
    rw [col_mem_blk8]
    obtain ⟨e0', e1, e2⟩ := col_idx8 ⟨(i 0).val, hN⟩
    have e0 : win1_8.index ⟨(i 0).val, hN⟩ (0 : Fin 3) = (i 0).val := e0'
    intro a
    match a with
    | ⟨0, _⟩ =>
      show win1_8.index ⟨(i 0).val, hN⟩ (0 : Fin 3) * 1 ≤ (i 0).val
        ∧ (i 0).val < win1_8.index ⟨(i 0).val, hN⟩ (0 : Fin 3) * 1 + 1
      rw [e0]; omega
    | ⟨1, _⟩ =>
      show win1_8.index ⟨(i 0).val, hN⟩ (1 : Fin 3) * 1 ≤ (i 1).val
        ∧ (i 1).val < win1_8.index ⟨(i 0).val, hN⟩ (1 : Fin 3) * 1 + 1
      rw [e1]; omega
    | ⟨2, _⟩ =>
      show win1_8.index ⟨(i 0).val, hN⟩ (2 : Fin 3) * 4096 ≤ (i 2).val
        ∧ (i 2).val < win1_8.index ⟨(i 0).val, hN⟩ (2 : Fin 3) * 4096 + 4096
      rw [e2]; omega

/-! ## Output window 9 -/

/-- The printed index map of output window 9, decided over the grid: block (t, 0, 0). -/
theorem col_idx9 : ∀ t : Fin cfg1.N, win1_9.index t (0 : Fin 3) = t.val ∧ win1_9.index t (1 : Fin 3) = 0
    ∧ win1_9.index t (2 : Fin 3) = 0 :=
  (by decide +kernel : ∀ t : Fin grid1.N, _)

/-- An index of the array is in point `t`'s block iff each coordinate is in the block's range on its axis. -/
theorem col_mem_blk9 (t : Fin cfg1.N) (i : S16x1x4096.Idx) :
    i ∈ ((cfg1.win 9).blk t).view.set ↔ ∀ a : Fin 3, win1_9.index t a * S1x1x4096.size a ≤ (i a).val
      ∧ (i a).val < win1_9.index t a * S1x1x4096.size a + S1x1x4096.size a := by
  show i ∈ ((View.whole main_v8_4).slice (win1_9.rect t)).set ↔ _
  rw [View.set_slice_whole, Rect.mem_set_unit]
  exact Iff.rfl

/-- Output window 9's array after the run, from what each point leaves in its block: the block of point `t` is
    row `t` of the array, and the 16 blocks cover it. -/
theorem col_arrAt9_of (G : Fin 16 → Fin 4096 → EReal)
    (hG : ∀ (t : Fin cfg1.N) (j : Fin 4096),
      (dat1 (F := Ideal) V c).after 9 t (ix3 (0 : Fin 1) (0 : Fin 1) j) = G ⟨t.val, N_1 ▸ t.isLt⟩ j) :
    (dat1 (F := Ideal) V c).arrAt 9 cfg1.N = colArr G := by
  refine (dat1 (F := Ideal) V c).arrAt_eq_of_cover 9 (colArr G) (fun t _ => ?_) (fun i => ?_)
  · show (cfg1.win 9).cut (grid1.coords t) ((dat1 (F := Ideal) V c).after 9 t) = _
    funext y
    show (dat1 (F := Ideal) V c).after 9 t ((cfg1.win 9).xinj (grid1.coords t) y)
      = colArr G (((cfg1.win 9).blk t).view.emb y)
    obtain ⟨e0, e1, e2⟩ := col_idx9 t
    have y0 : (y 0).val < 1 := (y 0).isLt
    have y1 : (y 1).val < 1 := (y 1).isLt
    have y2 : (y 2).val < 4096 := (y 2).isLt
    have hx : (cfg1.win 9).xinj (grid1.coords t) y = ix3 (0 : Fin 1) (0 : Fin 1) ⟨(y 2).val, y2⟩ := by
      funext a; apply Fin.ext
      match a with
      | ⟨0, _⟩ => show (y 0).val = 0; omega
      | ⟨1, _⟩ => show (y 1).val = 0; omega
      | ⟨2, _⟩ => rfl
    rw [hx, hG]
    unfold colArr
    congr 1
    · apply Fin.ext
      show t.val = win1_9.index t (0 : Fin 3) * 1 + 1 * (y 0).val
      omega
    · apply Fin.ext
      show (y 2).val = win1_9.index t (2 : Fin 3) * 4096 + 1 * (y 2).val
      omega
  · have i0 : (i 0).val < 16 := (i 0).isLt
    have i1 : (i 1).val < 1 := (i 1).isLt
    have i2 : (i 2).val < 4096 := (i 2).isLt
    have hN : (i 0).val < cfg1.N := by have := N_1; show (i 0).val < grid1.N; omega
    refine ⟨⟨(i 0).val, hN⟩, flush1_9 _, ?_⟩
    rw [col_mem_blk9]
    obtain ⟨e0', e1, e2⟩ := col_idx9 ⟨(i 0).val, hN⟩
    have e0 : win1_9.index ⟨(i 0).val, hN⟩ (0 : Fin 3) = (i 0).val := e0'
    intro a
    match a with
    | ⟨0, _⟩ =>
      show win1_9.index ⟨(i 0).val, hN⟩ (0 : Fin 3) * 1 ≤ (i 0).val
        ∧ (i 0).val < win1_9.index ⟨(i 0).val, hN⟩ (0 : Fin 3) * 1 + 1
      rw [e0]; omega
    | ⟨1, _⟩ =>
      show win1_9.index ⟨(i 0).val, hN⟩ (1 : Fin 3) * 1 ≤ (i 1).val
        ∧ (i 1).val < win1_9.index ⟨(i 0).val, hN⟩ (1 : Fin 3) * 1 + 1
      rw [e1]; omega
    | ⟨2, _⟩ =>
      show win1_9.index ⟨(i 0).val, hN⟩ (2 : Fin 3) * 4096 ≤ (i 2).val
        ∧ (i 2).val < win1_9.index ⟨(i 0).val, hN⟩ (2 : Fin 3) * 4096 + 4096
      rw [e2]; omega

/-! ## Output window 10 -/

/-- The printed index map of output window 10, decided over the grid: block (t, 0, 0). -/
theorem col_idx10 : ∀ t : Fin cfg1.N, win1_10.index t (0 : Fin 3) = t.val ∧ win1_10.index t (1 : Fin 3) = 0
    ∧ win1_10.index t (2 : Fin 3) = 0 :=
  (by decide +kernel : ∀ t : Fin grid1.N, _)

/-- An index of the array is in point `t`'s block iff each coordinate is in the block's range on its axis. -/
theorem col_mem_blk10 (t : Fin cfg1.N) (i : S16x1x4096.Idx) :
    i ∈ ((cfg1.win 10).blk t).view.set ↔ ∀ a : Fin 3, win1_10.index t a * S1x1x4096.size a ≤ (i a).val
      ∧ (i a).val < win1_10.index t a * S1x1x4096.size a + S1x1x4096.size a := by
  show i ∈ ((View.whole main_v8_5).slice (win1_10.rect t)).set ↔ _
  rw [View.set_slice_whole, Rect.mem_set_unit]
  exact Iff.rfl

/-- Output window 10's array after the run, from what each point leaves in its block: the block of point `t` is
    row `t` of the array, and the 16 blocks cover it. -/
theorem col_arrAt10_of (G : Fin 16 → Fin 4096 → EReal)
    (hG : ∀ (t : Fin cfg1.N) (j : Fin 4096),
      (dat1 (F := Ideal) V c).after 10 t (ix3 (0 : Fin 1) (0 : Fin 1) j) = G ⟨t.val, N_1 ▸ t.isLt⟩ j) :
    (dat1 (F := Ideal) V c).arrAt 10 cfg1.N = colArr G := by
  refine (dat1 (F := Ideal) V c).arrAt_eq_of_cover 10 (colArr G) (fun t _ => ?_) (fun i => ?_)
  · show (cfg1.win 10).cut (grid1.coords t) ((dat1 (F := Ideal) V c).after 10 t) = _
    funext y
    show (dat1 (F := Ideal) V c).after 10 t ((cfg1.win 10).xinj (grid1.coords t) y)
      = colArr G (((cfg1.win 10).blk t).view.emb y)
    obtain ⟨e0, e1, e2⟩ := col_idx10 t
    have y0 : (y 0).val < 1 := (y 0).isLt
    have y1 : (y 1).val < 1 := (y 1).isLt
    have y2 : (y 2).val < 4096 := (y 2).isLt
    have hx : (cfg1.win 10).xinj (grid1.coords t) y = ix3 (0 : Fin 1) (0 : Fin 1) ⟨(y 2).val, y2⟩ := by
      funext a; apply Fin.ext
      match a with
      | ⟨0, _⟩ => show (y 0).val = 0; omega
      | ⟨1, _⟩ => show (y 1).val = 0; omega
      | ⟨2, _⟩ => rfl
    rw [hx, hG]
    unfold colArr
    congr 1
    · apply Fin.ext
      show t.val = win1_10.index t (0 : Fin 3) * 1 + 1 * (y 0).val
      omega
    · apply Fin.ext
      show (y 2).val = win1_10.index t (2 : Fin 3) * 4096 + 1 * (y 2).val
      omega
  · have i0 : (i 0).val < 16 := (i 0).isLt
    have i1 : (i 1).val < 1 := (i 1).isLt
    have i2 : (i 2).val < 4096 := (i 2).isLt
    have hN : (i 0).val < cfg1.N := by have := N_1; show (i 0).val < grid1.N; omega
    refine ⟨⟨(i 0).val, hN⟩, flush1_10 _, ?_⟩
    rw [col_mem_blk10]
    obtain ⟨e0', e1, e2⟩ := col_idx10 ⟨(i 0).val, hN⟩
    have e0 : win1_10.index ⟨(i 0).val, hN⟩ (0 : Fin 3) = (i 0).val := e0'
    intro a
    match a with
    | ⟨0, _⟩ =>
      show win1_10.index ⟨(i 0).val, hN⟩ (0 : Fin 3) * 1 ≤ (i 0).val
        ∧ (i 0).val < win1_10.index ⟨(i 0).val, hN⟩ (0 : Fin 3) * 1 + 1
      rw [e0]; omega
    | ⟨1, _⟩ =>
      show win1_10.index ⟨(i 0).val, hN⟩ (1 : Fin 3) * 1 ≤ (i 1).val
        ∧ (i 1).val < win1_10.index ⟨(i 0).val, hN⟩ (1 : Fin 3) * 1 + 1
      rw [e1]; omega
    | ⟨2, _⟩ =>
      show win1_10.index ⟨(i 0).val, hN⟩ (2 : Fin 3) * 4096 ≤ (i 2).val
        ∧ (i 2).val < win1_10.index ⟨(i 0).val, hN⟩ (2 : Fin 3) * 4096 + 4096
      rw [e2]; omega

end Cert.KernelIdeal.Reg1

end
-- ==== Proof.Reg1Col.lean ====
/-
  The four column statistics of the statistics pass, as arrays after the run: over each tile of 256 rows, the column
  maxima and the column sums of exponentials against them, of the scores against the positives and of the scores among
  the generated points. Point `t` of the grid leaves, at column `j` of its block, the statistic of tile `t`'s 256 scores
  in column `j`; the 16 blocks are the 16 rows of the array.
-/
import proofs.«125113_j88270167868072_2_alg».proof.Proof.Gen.KernelIdeal.Frame
import proofs.«125113_j88270167868072_2_alg».proof.Proof.DriftTile
import proofs.«125113_j88270167868072_2_alg».proof.Proof.Reg1Math
import proofs.«125113_j88270167868072_2_alg».proof.Proof.Reg1
import proofs.«125113_j88270167868072_2_alg».proof.Proof.Reg1ColFrame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.Reg1

open Cert.KernelIdeal Cert.KernelIdeal.Gen Cert.DriftSpec Cert.DriftTile

variable (V : (c : Dev nD) → (b : Ref sig .tc) → Buf (Elt Ideal) ((c : Thread nD τ).loc b)) (c : Dev nD)
variable (X Y : Fin 4096 → Fin 128 → EReal) (NC NXR NYR : Fin 4096 → EReal)

variable {V c X Y NC NXR NYR}

set_option maxHeartbeats 400000 in
/-- Window 7: the tiles' column maxima of the scores against the positives. -/
theorem colMaxPos (h : Reads V c X Y NC NXR NYR) :
    (dat1 (F := Ideal) V c).arrAt 7 cfg1.N
      = fun i => lmax (aposG X Y NC NYR) ⟨(i 0).val, (i 0).isLt⟩ ⟨(i 2).val, (i 2).isLt⟩ := by
  refine col_arrAt7_of V c (lmax (aposG X Y NC NYR)) fun t j => ?_
  rw [after1_7]
  unfold outsAt1
  dsimp only
  refine (congrFun (out7_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (iblk1 V c 0 t) (iblk1 V c 1 t) (iblk1 V c 2 t) (iblk1 V c 3 t) (iblk1 V c 4 t)) (ix3 (0 : Fin 1) (0 : Fin 1) j)).trans ?_
  exact colMax_tile (tileOf t) k1_pay3 pay3_apply _ _ (sPos_at h t) j

set_option maxHeartbeats 400000 in
/-- Window 8: the tiles' column sums of exponentials of the scores against the positives. -/
theorem colSumPos (h : Reads V c X Y NC NXR NYR) :
    (dat1 (F := Ideal) V c).arrAt 8 cfg1.N
      = fun i => lsum (aposG X Y NC NYR) ⟨(i 0).val, (i 0).isLt⟩ ⟨(i 2).val, (i 2).isLt⟩ := by
  refine col_arrAt8_of V c (lsum (aposG X Y NC NYR)) fun t j => ?_
  rw [after1_8]
  unfold outsAt1
  dsimp only
  refine (congrFun (out8_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (iblk1 V c 0 t) (iblk1 V c 1 t) (iblk1 V c 2 t) (iblk1 V c 3 t) (iblk1 V c 4 t)) (ix3 (0 : Fin 1) (0 : Fin 1) j)).trans ?_
  exact colSum_tile (tileOf t) k1_pay4 pay4_apply _ _ (sPos_at h t) j

set_option maxHeartbeats 400000 in
/-- Window 9: the tiles' column maxima of the scores among the generated points. -/
theorem colMaxNeg (h : Reads V c X Y NC NXR NYR) :
    (dat1 (F := Ideal) V c).arrAt 9 cfg1.N
      = fun i => lmax (anegG X NC NXR) ⟨(i 0).val, (i 0).isLt⟩ ⟨(i 2).val, (i 2).isLt⟩ := by
  refine col_arrAt9_of V c (lmax (anegG X NC NXR)) fun t j => ?_
  rw [after1_9]
  unfold outsAt1
  dsimp only
  refine (congrFun (out9_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (iblk1 V c 0 t) (iblk1 V c 1 t) (iblk1 V c 2 t) (iblk1 V c 3 t) (iblk1 V c 4 t)) (ix3 (0 : Fin 1) (0 : Fin 1) j)).trans ?_
  exact colMax_tile (tileOf t) k1_pay5 pay5_apply _ _ (sNeg_at h t) j

set_option maxHeartbeats 400000 in
/-- Window 10: the tiles' column sums of exponentials of the scores among the generated points. -/
theorem colSumNeg (h : Reads V c X Y NC NXR NYR) :
    (dat1 (F := Ideal) V c).arrAt 10 cfg1.N
      = fun i => lsum (anegG X NC NXR) ⟨(i 0).val, (i 0).isLt⟩ ⟨(i 2).val, (i 2).isLt⟩ := by
  refine col_arrAt10_of V c (lsum (anegG X NC NXR)) fun t j => ?_
  rw [after1_10]
  unfold outsAt1
  dsimp only
  refine (congrFun (out10_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (iblk1 V c 0 t) (iblk1 V c 1 t) (iblk1 V c 2 t) (iblk1 V c 3 t) (iblk1 V c 4 t)) (ix3 (0 : Fin 1) (0 : Fin 1) j)).trans ?_
  exact colSum_tile (tileOf t) k1_pay6 pay6_apply _ _ (sNeg_at h t) j

end Cert.KernelIdeal.Reg1

end
-- ==== Proof.Reg2Defs.lean ====
/-
  The arrays the aggregation pass reads, at coordinates, and what its result window ends holding as ONE function of
  them: entry (t, 0, 0) is tile t's sum of squares of the drifting field.
-/
import proofs.«125113_j88270167868072_2_alg».proof.KernelIdeal
import proofs.«125113_j88270167868072_2_alg».proof.Proof.DriftTile
import Idealize.ShloMosaic.Lib.ValueIdx

noncomputable section

namespace Cert.KernelIdeal.Reg2

open Idealize.ShloMosaic Idealize.ShloMosaic.ValueIdx Idealize.ShloMosaic.TcCoe
open Cert.KernelIdeal

variable (V : (c : Dev nD) → (b : Ref sig .tc) → Buf (Elt Ideal) ((c : Thread nD τ).loc b)) (c : Dev nD)

/-- The generated points and the positives, the squared norms (a column and two rows), the row statistics (columns)
    and the merged column statistics (rows), as the pass finds them. -/
def X (p : Fin 4096) (q : Fin 128) : EReal := (V c main_v0 : S4096x128.Idx → EReal) (ix2 p q)
def Y (p : Fin 4096) (q : Fin 128) : EReal := (V c main_arg0 : S4096x128.Idx → EReal) (ix2 p q)
def NC (p : Fin 4096) : EReal := (V c main_v5 : S4096x1.Idx → EReal) (ix2 p (0 : Fin 1))
def NXR (j : Fin 4096) : EReal := (V c main_v6 : S1x4096.Idx → EReal) (ix2 (0 : Fin 1) j)
def NYR (j : Fin 4096) : EReal := (V c main_v7 : S1x4096.Idx → EReal) (ix2 (0 : Fin 1) j)
def RM (p : Fin 4096) : EReal := (V c main_v8_0 : S4096x1.Idx → EReal) (ix2 p (0 : Fin 1))
def RS (p : Fin 4096) : EReal := (V c main_v8_1 : S4096x1.Idx → EReal) (ix2 p (0 : Fin 1))
def CMP (j : Fin 4096) : EReal := (V c main_v12 : S1x4096.Idx → EReal) (ix2 (0 : Fin 1) j)
def CSP (j : Fin 4096) : EReal := (V c main_v18 : S1x4096.Idx → EReal) (ix2 (0 : Fin 1) j)
def CMN (j : Fin 4096) : EReal := (V c main_v22 : S1x4096.Idx → EReal) (ix2 (0 : Fin 1) j)
def CSN (j : Fin 4096) : EReal := (V c main_v28 : S1x4096.Idx → EReal) (ix2 (0 : Fin 1) j)

/-- The scores against the positives and among the generated points, from the norm arrays the pass reads. -/
def aP : Fin 4096 → Fin 4096 → EReal := Cert.DriftTile.aposG (X V c) (Y V c) (NC V c) (NYR V c)
def aN : Fin 4096 → Fin 4096 → EReal := Cert.DriftTile.anegG (X V c) (NC V c) (NXR V c)

/-- What the result window's array ends holding: entry (t, 0, 0) is tile t's sum of squares of the drifting field. -/
def G : S16x1x1.Idx → EReal := fun i =>
  Cert.DriftTile.partialT (X V c) (Y V c) (aP V c) (aN V c) (RM V c) (RS V c) (CMP V c) (CSP V c) (CMN V c) (CSN V c)
    ⟨(i 0).val, (i 0).isLt⟩

end Cert.KernelIdeal.Reg2

end
-- ==== Proof.Reg2Frame.lean ====
/-
  The aggregation pass, frame side, first part: what the pass's body leaves in its result block as ONE composite of its
  payloads over the eleven input blocks, where each window's block sits at a point (decided over the sixteen points),
  and each input block read at coordinates as the array the pass finds: the whole arrays, the tile's blocks of the
  column arrays, the rows, and the tile's rows of the generated points read through the rectangle at the tile's offset.
-/
import proofs.«125113_j88270167868072_2_alg».proof.Proof.Gen.KernelIdeal.Frame
import proofs.«125113_j88270167868072_2_alg».proof.Proof.Reg2Defs
import Idealize.ShloMosaic.Lib.Pipeline.Value
import Idealize.ShloMosaic.Lib.ValueIdx
import Idealize.ShloMosaic.Lib.Tactic

noncomputable section

namespace Cert.KernelIdeal.Reg2

open Idealize.ShloMosaic Idealize.ShloMosaic.ValueIdx Idealize.ShloMosaic.TcCoe Idealize.SL.Sem
open Idealize.ShloMosaic.Pipeline (Dat)
open Cert.KernelIdeal Cert.KernelIdeal.Gen
open Cert.DriftSpec (row)
open scoped BigOperators

/-! ### The piece the aggregation pass leaves in its result block -/

section Piece

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

set_option maxHeartbeats 400000 in
/-- The body's one store is the composite of its payloads over the eleven input blocks; the tile's rows of the
    generated points are read from the first block through the rectangle at the tile's offset. -/
theorem out_piece (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S256x1 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x4096 .f32) (harg11 : arg11.IsWhole) (arg12 : Memref sig .tc .vmem S1x1x1 .f32) (harg12 : arg12.IsWhole)
    (x0 : Vec F S4096x128 .f32) (x1 : Vec F S4096x128 .f32) (x2 : Vec F S256x1 .f32) (x3 : Vec F S1x4096 .f32) (x4 : Vec F S1x4096 .f32) (x5 : Vec F S256x1 .f32) (x6 : Vec F S256x1 .f32) (x7 : Vec F S1x4096 .f32) (x8 : Vec F S1x4096 .f32) (x9 : Vec F S1x4096 .f32) (x10 : Vec F S1x4096 .f32) :
    out2_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10
      = k2_pay13 (k2_pay1 x0) x1
        (k2_pay7 (k2_pay4 x1 (View.ld x0 (Rect.unit (s := S4096x128) (k2_off1 i) S256x128.size (k2_off1_inb i))) x2 x4))
        (k2_pay8 (Scalar.muli (BitVec.ofNat 32 (i 0).val) 256#32) (k2_pay5 x2 x3)
          (k2_pay6 x0 (View.ld x0 (Rect.unit (s := S4096x128) (k2_off1 i) S256x128.size (k2_off1_inb i)))) (Scalar.ofBits .f32 0x40000000#32))
        (k2_pay9 x5) (k2_pay10 x6) (k2_pay11 x7) (k2_pay12 x8) x9 x10 := by
  unfold out2_A_11
  rw [View.read_writes_eq_canon _ _ _ (cover2_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10)]
  unfold kernelRun2_A
  dsimp only
  sl_unfold_words
  rw [View.canon_unit_zero hz3]
  simp only [View.readAt_eq_ld, harg1.read_unread, harg2.read_unread, harg3.read_unread, harg4.read_unread, harg5.read_unread,
    harg6.read_unread, harg7.read_unread, harg8.read_unread, harg9.read_unread, harg10.read_unread, harg11.read_unread,
    View.ld_unit_zero (S := S4096x128) hz2, View.ld_unit_zero (S := S256x1) hz2, View.ld_unit_zero (S := S1x4096) hz2]

end Piece

/-! ### The printed index maps, decided over the sixteen points -/

/-- Where each window's block sits at point `t`, the offset of the tile's rows, and the tile's first row as a word. -/
theorem idx_facts : ∀ t : Fin cfg2.N, win2_0.index t (0 : Fin 2) = 0
    ∧ win2_0.index t (1 : Fin 2) = 0
    ∧ win2_1.index t (0 : Fin 2) = 0
    ∧ win2_1.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = 0
    ∧ win2_10.index t (1 : Fin 2) = 0
    ∧ win2_2.index t (0 : Fin 2) = t.val
    ∧ win2_2.index t (1 : Fin 2) = 0
    ∧ win2_5.index t (0 : Fin 2) = t.val
    ∧ win2_5.index t (1 : Fin 2) = 0
    ∧ win2_6.index t (0 : Fin 2) = t.val
    ∧ win2_6.index t (1 : Fin 2) = 0
    ∧ win2_11.index t (0 : Fin 3) = t.val
    ∧ win2_11.index t (1 : Fin 3) = 0
    ∧ win2_11.index t (2 : Fin 3) = 0
    ∧ k2_off1 (grid2.coords t) (0 : Fin 2) = 256 * t.val
    ∧ k2_off1 (grid2.coords t) (1 : Fin 2) = 0
    ∧ (Scalar.muli (BitVec.ofNat 32 ((grid2.coords t) 0).val) 256#32).toNat = 256 * t.val :=
  (by decide +kernel : ∀ t : Fin grid2.N, _)

/-! ### The input blocks at a point, read at coordinates -/

variable (V : (c : Dev nD) → (b : Ref sig .tc) → Buf (Elt Ideal) ((c : Thread nD τ).loc b)) (c : Dev nD)

/-- The tile a point works on. -/
def tile (t : Fin cfg2.N) : Fin 16 := ⟨t.val, by have hN : cfg2.N = 16 := N_2; have := t.isLt; omega⟩

theorem blk0 (t : Fin cfg2.N) (j : Fin 4096) (q : Fin 128) :
    (iblk2 V c 0 t : Vec Ideal S4096x128 .f32) (ix2 j q) = X V c j q := by
  have hf := idx_facts t
  unfold iblk2 X
  rw [View.read_apply]
  refine congrArg (V c main_v0 : S4096x128.Idx → EReal) (funext fun a => Fin.ext ?_)
  match a with
  | ⟨0, _⟩ => show win2_0.index t (0 : Fin 2) * 4096 + 1 * j.val = j.val; omega
  | ⟨1, _⟩ => show win2_0.index t (1 : Fin 2) * 128 + 1 * q.val = q.val; omega

theorem blk1 (t : Fin cfg2.N) (j : Fin 4096) (q : Fin 128) :
    (iblk2 V c 1 t : Vec Ideal S4096x128 .f32) (ix2 j q) = Y V c j q := by
  have hf := idx_facts t
  unfold iblk2 Y
  rw [View.read_apply]
  refine congrArg (V c main_arg0 : S4096x128.Idx → EReal) (funext fun a => Fin.ext ?_)
  match a with
  | ⟨0, _⟩ => show win2_1.index t (0 : Fin 2) * 4096 + 1 * j.val = j.val; omega
  | ⟨1, _⟩ => show win2_1.index t (1 : Fin 2) * 128 + 1 * q.val = q.val; omega

theorem blk2 (t : Fin cfg2.N) (r : Fin 256) :
    (iblk2 V c 2 t : Vec Ideal S256x1 .f32) (ix2 r (0 : Fin 1)) = NC V c (row (tile t) r) := by
  have hf := idx_facts t
  unfold iblk2 NC
  rw [View.read_apply]
  refine congrArg (V c main_v5 : S4096x1.Idx → EReal) (funext fun a => Fin.ext ?_)
  match a with
  | ⟨0, _⟩ => show win2_2.index t (0 : Fin 2) * 256 + 1 * r.val = 256 * t.val + r.val; omega
  | ⟨1, _⟩ => show win2_2.index t (1 : Fin 2) * 1 + 1 * 0 = 0; omega

theorem blk3 (t : Fin cfg2.N) (j : Fin 4096) :
    (iblk2 V c 3 t : Vec Ideal S1x4096 .f32) (ix2 (0 : Fin 1) j) = NXR V c j := by
  have hf := idx_facts t
  unfold iblk2 NXR
  rw [View.read_apply]
  refine congrArg (V c main_v6 : S1x4096.Idx → EReal) (funext fun a => Fin.ext ?_)
  match a with
  | ⟨0, _⟩ => show win2_3.index t (0 : Fin 2) * 1 + 1 * 0 = 0; omega
  | ⟨1, _⟩ => show win2_3.index t (1 : Fin 2) * 4096 + 1 * j.val = j.val; omega

theorem blk4 (t : Fin cfg2.N) (j : Fin 4096) :
    (iblk2 V c 4 t : Vec Ideal S1x4096 .f32) (ix2 (0 : Fin 1) j) = NYR V c j := by
  have hf := idx_facts t
  unfold iblk2 NYR
  rw [View.read_apply]
  refine congrArg (V c main_v7 : S1x4096.Idx → EReal) (funext fun a => Fin.ext ?_)
  match a with
  | ⟨0, _⟩ => show win2_4.index t (0 : Fin 2) * 1 + 1 * 0 = 0; omega
  | ⟨1, _⟩ => show win2_4.index t (1 : Fin 2) * 4096 + 1 * j.val = j.val; omega

theorem blk5 (t : Fin cfg2.N) (r : Fin 256) :
    (iblk2 V c 5 t : Vec Ideal S256x1 .f32) (ix2 r (0 : Fin 1)) = RM V c (row (tile t) r) := by
  have hf := idx_facts t
  unfold iblk2 RM
  rw [View.read_apply]
  refine congrArg (V c main_v8_0 : S4096x1.Idx → EReal) (funext fun a => Fin.ext ?_)
  match a with
  | ⟨0, _⟩ => show win2_5.index t (0 : Fin 2) * 256 + 1 * r.val = 256 * t.val + r.val; omega
  | ⟨1, _⟩ => show win2_5.index t (1 : Fin 2) * 1 + 1 * 0 = 0; omega

theorem blk6 (t : Fin cfg2.N) (r : Fin 256) :
    (iblk2 V c 6 t : Vec Ideal S256x1 .f32) (ix2 r (0 : Fin 1)) = RS V c (row (tile t) r) := by
  have hf := idx_facts t
  unfold iblk2 RS
  rw [View.read_apply]
  refine congrArg (V c main_v8_1 : S4096x1.Idx → EReal) (funext fun a => Fin.ext ?_)
  match a with
  | ⟨0, _⟩ => show win2_6.index t (0 : Fin 2) * 256 + 1 * r.val = 256 * t.val + r.val; omega
  | ⟨1, _⟩ => show win2_6.index t (1 : Fin 2) * 1 + 1 * 0 = 0; omega

theorem blk7 (t : Fin cfg2.N) (j : Fin 4096) :
    (iblk2 V c 7 t : Vec Ideal S1x4096 .f32) (ix2 (0 : Fin 1) j) = CMP V c j := by
  have hf := idx_facts t
  unfold iblk2 CMP
  rw [View.read_apply]
  refine congrArg (V c main_v12 : S1x4096.Idx → EReal) (funext fun a => Fin.ext ?_)
  match a with
  | ⟨0, _⟩ => show win2_7.index t (0 : Fin 2) * 1 + 1 * 0 = 0; omega
  | ⟨1, _⟩ => show win2_7.index t (1 : Fin 2) * 4096 + 1 * j.val = j.val; omega

theorem blk8 (t : Fin cfg2.N) (j : Fin 4096) :
    (iblk2 V c 8 t : Vec Ideal S1x4096 .f32) (ix2 (0 : Fin 1) j) = CSP V c j := by
  have hf := idx_facts t
  unfold iblk2 CSP
  rw [View.read_apply]
  refine congrArg (V c main_v18 : S1x4096.Idx → EReal) (funext fun a => Fin.ext ?_)
  match a with
  | ⟨0, _⟩ => show win2_8.index t (0 : Fin 2) * 1 + 1 * 0 = 0; omega
  | ⟨1, _⟩ => show win2_8.index t (1 : Fin 2) * 4096 + 1 * j.val = j.val; omega

theorem blk9 (t : Fin cfg2.N) (j : Fin 4096) :
    (iblk2 V c 9 t : Vec Ideal S1x4096 .f32) (ix2 (0 : Fin 1) j) = CMN V c j := by
  have hf := idx_facts t
  unfold iblk2 CMN
  rw [View.read_apply]
  refine congrArg (V c main_v22 : S1x4096.Idx → EReal) (funext fun a => Fin.ext ?_)
  match a with
  | ⟨0, _⟩ => show win2_9.index t (0 : Fin 2) * 1 + 1 * 0 = 0; omega
  | ⟨1, _⟩ => show win2_9.index t (1 : Fin 2) * 4096 + 1 * j.val = j.val; omega

theorem blk10 (t : Fin cfg2.N) (j : Fin 4096) :
    (iblk2 V c 10 t : Vec Ideal S1x4096 .f32) (ix2 (0 : Fin 1) j) = CSN V c j := by
  have hf := idx_facts t
  unfold iblk2 CSN
  rw [View.read_apply]
  refine congrArg (V c main_v28 : S1x4096.Idx → EReal) (funext fun a => Fin.ext ?_)
  match a with
  | ⟨0, _⟩ => show win2_10.index t (0 : Fin 2) * 1 + 1 * 0 = 0; omega
  | ⟨1, _⟩ => show win2_10.index t (1 : Fin 2) * 4096 + 1 * j.val = j.val; omega

/-- The tile's rows of the generated points, read from the first block through the rectangle at the tile's offset. -/
theorem blk0rows (t : Fin cfg2.N) (r : Fin 256) (q : Fin 128) :
    View.ld (iblk2 V c 0 t : Vec Ideal S4096x128 .f32)
        (Rect.unit (s := S4096x128) (k2_off1 (grid2.coords t)) S256x128.size (k2_off1_inb (grid2.coords t))) (ix2 r q)
      = X V c (row (tile t) r) q := by
  have hf := idx_facts t
  unfold iblk2 X
  show (((cfg2.win 0).blk t).view.read (Elt Ideal) (V c (Pipeline.arrRef spec2 0)))
    ((Rect.unit (s := S4096x128) (k2_off1 (grid2.coords t)) S256x128.size (k2_off1_inb (grid2.coords t))).idx (ix2 r q)) = _
  rw [View.read_apply]
  refine congrArg (V c main_v0 : S4096x128.Idx → EReal) (funext fun a => Fin.ext ?_)
  match a with
  | ⟨0, _⟩ => show win2_0.index t (0 : Fin 2) * 4096 + 1 * (k2_off1 (grid2.coords t) (0 : Fin 2) + 1 * r.val) = 256 * t.val + r.val; omega
  | ⟨1, _⟩ => show win2_0.index t (1 : Fin 2) * 128 + 1 * (k2_off1 (grid2.coords t) (1 : Fin 2) + 1 * q.val) = q.val; omega

/-! ### The tile's first row as a word, and membership in the result window's block -/

/-- The tile's first row as a word, at every point. -/
theorem word_fact : ∀ t : Fin cfg2.N, (Scalar.muli (BitVec.ofNat 32 ((grid2.coords t) 0).val) 256#32).toNat = 256 * t.val :=
  (by decide +kernel : ∀ t : Fin grid2.N, _)

/-- An index of the result array is in point `t`'s block iff each coordinate is in the block's range on its axis. -/
theorem mem_blk (t : Fin cfg2.N) (i : S16x1x1.Idx) :
    i ∈ ((cfg2.win 11).blk t).view.set
      ↔ ∀ a : Fin 3, win2_11.index t a * S1x1x1.size a ≤ (i a).val ∧ (i a).val < win2_11.index t a * S1x1x1.size a + S1x1x1.size a := by
  show i ∈ ((View.whole main_v29).slice (win2_11.rect t)).set ↔ _
  rw [View.set_slice_whole, Rect.mem_set_unit]
  exact Iff.rfl

end Cert.KernelIdeal.Reg2

end
-- ==== Proof.Reg2Scores.lean ====
/-
  The aggregation pass's scores, read at coordinates on the extended reals.

  For a tile t of 256 rows the pass recomputes the scores of the tile's rows against all 4096 points: against the
  positives, aposG x y nc nyr (row t r) j, and among the generated points, anegG x nc nxr (row t r) j, from the tile's
  rows of x, the whole arrays x and y, the tile's block of the norm column and the norm rows.
-/
import proofs.«125113_j88270167868072_2_alg».proof.Proof.Gen.KernelIdeal.Skeleton
import proofs.«125113_j88270167868072_2_alg».proof.Proof.DriftTile
import proofs.«125113_j88270167868072_2_alg».proof.Proof.LibRowsDot
import proofs.«125113_j88270167868072_2_alg».proof.Proof.LibRowLanes
import proofs.«125113_j88270167868072_2_alg».proof.Proof.LibKeepdims
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Reg2

open Idealize.ShloMosaic Idealize.ShloMosaic.ValueIdx
open Cert.KernelIdeal Cert.KernelIdeal.Gen Cert.DriftSpec Cert.DriftTile
open scoped BigOperators

/-- A choice by a decided condition. -/
theorem select_ofBool {α : Type} (p : Bool) (a b : α) : Scalar.select (BitVec.ofBool p) a b = if p then a else b := by
  cases p
  · exact if_neg (by decide)
  · exact if_pos rfl

/-- The guarded square root of the pass is the square root that is 0 at 0 and below. -/
theorem dist_select (z : EReal) :
    Scalar.select (Ideal.cmp .ogt z (Ideal.ofBits .f32 0x00000000#32))
      (Ideal.sqrt (Scalar.select (Ideal.cmp .ogt z (Ideal.ofBits .f32 0x00000000#32)) z (Ideal.ofBits .f32 0x3F800000#32)))
      (Ideal.ofBits .f32 0x00000000#32) = DriftSpec.dist z := by
  rw [Ideal.ofBits_zero_f32]
  unfold DriftSpec.dist Ideal.cmp
  dsimp only
  rw [select_ofBool, select_ofBool]
  by_cases h : (0 : EReal) < z
  · simp only [h, decide_true, if_true]
  · simp only [h, decide_false, Bool.false_eq_true, if_false]

/-- The product of the tile's rows with a transposed whole array, into zeros, at (r, j): the inner product of row r of
    the tile with row j of the array. -/
theorem matmul_transposed_apply (a : FVec Ideal S256x128 .f32) (b : FVec Ideal S4096x128 .f32)
    (h : S4096x128.Transposes [1, 0] S128x4096) (prec : Option ContractPrecision) (r : Fin 256) (j : Fin 4096) :
    matmul dot_S256x128_S128x4096_S256x4096_1_0_0_1_n_n prec a (transpose S128x4096 [1, 0] b h)
        (constant S256x4096 .f32 0x00000000#32) (ix2 r j)
      = ∑ q : Fin 128, a (ix2 r q) * b (ix2 j q) := by
  refine (Cert.Sage.matmul_zero_rows (n := 256) (k := 128) (c := 4096) dot_S256x128_S128x4096_S256x4096_1_0_0_1_n_n rfl rfl
    (fun _ _ => rfl) (fun _ _ => rfl) (fun _ _ => rfl) (fun _ _ => rfl) prec a (transpose S128x4096 [1, 0] b h) r j).trans ?_
  unfold Cert.Sage.rowsMul
  refine Finset.sum_congr rfl fun q _ => ?_
  exact congrArg (a (ix2 r q) * ·) (transpose_ix2_apply b h q j)

/-- A column [256, 1] spread along the rows of [256, 4096] reads, at (r, j), the column at r. -/
theorem bc_col (v : FVec Ideal S256x1 .f32) (h : S256x1.Broadcasts S256x4096) (r : Fin 256) (j : Fin 4096) :
    broadcastTo S256x4096 v h (ix2 r j) = v (ix2 r (0 : Fin 1)) :=
  Cert.LibKeepdims.broadcastTo_a1_ab_apply v h r j

/-- A row [1, 4096] spread down the rows of [256, 4096] reads, at (r, j), the row at j. -/
theorem bc_row (v : FVec Ideal S1x4096 .f32) (h : S1x4096.Broadcasts S256x4096) (r : Fin 256) (j : Fin 4096) :
    broadcastTo S256x4096 v h (ix2 r j) = v (ix2 (0 : Fin 1) j) :=
  broadcastTo_1b_ab_apply v h r j

theorem sqrt_apply {s : Shape} {φ : FTy} (v : FVec Ideal s φ) (i : s.Idx) : sqrt v i = Ideal.sqrt (v i) := rfl
theorem rsqrt_apply {s : Shape} {φ : FTy} (v : FVec Ideal s φ) (i : s.Idx) : rsqrt v i = Ideal.rsqrt (v i) := rfl

/-- The clipped squared distance and its guarded root, as the pass computes them at (r, j) from a norm column, a norm
    row and the inner products. -/
theorem distBlock_apply (nb : FVec Ideal S256x4096 .f32) (mm : FVec Ideal S256x4096 .f32) (r : Fin 256) (j : Fin 4096) :
    select (cmpf .ogt (maximumf (subf nb (mulf (broadcast S256x4096 (Scalar.ofBits (F := Ideal) .f32 0x40000000#32)) mm))
          (broadcast S256x4096 (Scalar.ofBits (F := Ideal) .f32 0x00000000#32)))
        (broadcast S256x4096 (Scalar.ofBits (F := Ideal) .f32 0x00000000#32)))
      (sqrt (select (cmpf .ogt (maximumf (subf nb (mulf (broadcast S256x4096 (Scalar.ofBits (F := Ideal) .f32 0x40000000#32)) mm))
            (broadcast S256x4096 (Scalar.ofBits (F := Ideal) .f32 0x00000000#32)))
          (broadcast S256x4096 (Scalar.ofBits (F := Ideal) .f32 0x00000000#32)))
        (maximumf (subf nb (mulf (broadcast S256x4096 (Scalar.ofBits (F := Ideal) .f32 0x40000000#32)) mm))
          (broadcast S256x4096 (Scalar.ofBits (F := Ideal) .f32 0x00000000#32)))
        (broadcast S256x4096 (Scalar.ofBits (F := Ideal) .f32 0x3F800000#32))))
      (broadcast S256x4096 (Scalar.ofBits (F := Ideal) .f32 0x00000000#32)) (ix2 r j)
      = DriftSpec.dist (max (nb (ix2 r j) - cTwo * mm (ix2 r j)) 0) := by
  refine (dist_select (max (nb (ix2 r j) - cTwo * mm (ix2 r j)) (Ideal.ofBits .f32 0x00000000#32))).trans ?_
  rw [Ideal.ofBits_zero_f32]

/-- The scores against the positives, at (r, j) of tile t. -/
theorem aposBlock_apply (t : Fin 16) (x y : Fin 4096 → Fin 128 → EReal) (nc nyr : Fin 4096 → EReal)
    (v4 : Vec Ideal S4096x128 .f32) (v6 : Vec Ideal S256x128 .f32) (v8 : Vec Ideal S256x1 .f32) (v12 : Vec Ideal S1x4096 .f32)
    (h4 : ∀ j q, v4 (ix2 j q) = y j q) (h6 : ∀ r q, v6 (ix2 r q) = x (row t r) q)
    (h8 : ∀ r, v8 (ix2 r (0 : Fin 1)) = nc (row t r)) (h12 : ∀ j, v12 (ix2 (0 : Fin 1) j) = nyr j)
    (r : Fin 256) (j : Fin 4096) :
    k2_pay7 (k2_pay4 v4 v6 v8 v12) (ix2 r j) = aposG x y nc nyr (row t r) j := by
  unfold k2_pay7 k2_pay4 k2_pay3 k2_pay2
  dsimp only
  rw [divf_apply, subf_apply, distBlock_apply, addf_apply, shapeCast_self, shapeCast_self, shapeCast_self, bc_col, bc_row,
    matmul_transposed_apply]
  simp only [h4, h6, h8, h12]
  rw [broadcast_apply, broadcast_apply, Cert.LibKeepdims.scalar_ofBits, Cert.LibKeepdims.scalar_ofBits, Ideal.ofBits_zero_f32, zero_sub]
  rfl

theorem cmpi_apply {s : Shape} {w : Nat} (p : CmpIPredicate) (x y : IVec s w) (i : s.Idx) : cmpi p x y i = IntOp.cmpi p (x i) (y i) := rfl
theorem addi_apply {s : Shape} {w : Nat} (x y : IVec s w) (i : s.Idx) : addi x y i = IntOp.addi (x i) (y i) := rfl

/-- The diagonal test on 32-bit words: the tile's first row plus the row inside the tile equals the column exactly
    when row r of tile t is point j. -/
theorem diag_iff (t : Fin 16) (v1 : BitVec 32) (hv1 : v1.toNat = 256 * t.val) (r : Fin 256) (j : Fin 4096) :
    (v1 + BitVec.ofNat 32 r.val = BitVec.ofNat 32 j.val) ↔ row t r = j := by
  have ht := t.isLt; have hr := r.isLt; have hj := j.isLt
  rw [← BitVec.toNat_inj, BitVec.toNat_add, BitVec.toNat_ofNat, BitVec.toNat_ofNat, hv1]
  constructor
  · intro h; apply Fin.ext; show 256 * t.val + r.val = j.val; omega
  · intro h; have e : 256 * t.val + r.val = j.val := congrArg Fin.val h; omega

/-- A choice by the diagonal test, at (r, j) of tile t. -/
theorem diag_select (t : Fin 16) (v1 : BitVec 32) (hv1 : v1.toNat = 256 * t.val)
    (h0 : S256x4096.Iotas .tc 32 [0]) (h1 : S256x4096.Iotas .tc 32 [1]) (a b : FVec Ideal S256x4096 .f32)
    (r : Fin 256) (j : Fin 4096) :
    select (cmpi .eq (addi (broadcast S256x4096 v1) (iota .tc S256x4096 32 [0] h0)) (iota .tc S256x4096 32 [1] h1)) a b (ix2 r j)
      = if row t r = j then a (ix2 r j) else b (ix2 r j) := by
  rw [select_apply, cmpi_apply, addi_apply, broadcast_apply, iota_single_apply, iota_single_apply]
  show Scalar.select (BitVec.ofBool (v1 + BitVec.ofNat 32 r.val == BitVec.ofNat 32 j.val)) _ _ = _
  rw [select_ofBool]
  by_cases h : row t r = j
  · rw [if_pos h, if_pos (beq_iff_eq.mpr ((diag_iff t v1 hv1 r j).mpr h))]
  · rw [if_neg h, if_neg (fun hb => h ((diag_iff t v1 hv1 r j).mp (beq_iff_eq.mp hb)))]

/-- The scores among the generated points, at (r, j) of tile t. -/
theorem anegBlock_apply (t : Fin 16) (x : Fin 4096 → Fin 128 → EReal) (nc nxr : Fin 4096 → EReal)
    (v1 : BitVec 32) (hv1 : v1.toNat = 256 * t.val)
    (v2 : Vec Ideal S4096x128 .f32) (v6 : Vec Ideal S256x128 .f32) (v8 : Vec Ideal S256x1 .f32) (v10 : Vec Ideal S1x4096 .f32)
    (h2 : ∀ j q, v2 (ix2 j q) = x j q) (h6 : ∀ r q, v6 (ix2 r q) = x (row t r) q)
    (h8 : ∀ r, v8 (ix2 r (0 : Fin 1)) = nc (row t r)) (h10 : ∀ j, v10 (ix2 (0 : Fin 1) j) = nxr j)
    (r : Fin 256) (j : Fin 4096) :
    k2_pay8 v1 (k2_pay5 v8 v10) (k2_pay6 v2 v6) (Scalar.ofBits (F := Ideal) .f32 0x40000000#32) (ix2 r j)
      = anegG x nc nxr (row t r) j := by
  unfold k2_pay8 k2_pay5 k2_pay6 k2_pay3 k2_pay2 k2_pay1
  dsimp only
  rw [divf_apply, subf_apply, diag_select t v1 hv1, addf_apply, distBlock_apply, addf_apply, shapeCast_self, shapeCast_self,
    shapeCast_self, shapeCast_self, bc_col, bc_row, matmul_transposed_apply]
  simp only [h2, h6, h8, h10]
  rw [broadcast_apply, broadcast_apply, broadcast_apply, Cert.LibKeepdims.scalar_ofBits, Cert.LibKeepdims.scalar_ofBits,
    Cert.LibKeepdims.scalar_ofBits, Ideal.ofBits_zero_f32, zero_sub]
  rfl

end Cert.KernelIdeal.Reg2

end
-- ==== Proof.Reg2Pay.lean ====
/-
  The aggregation pass's body, read at its one result index on the extended reals.

  From the weights of the tile's rows (one exponential and two reciprocal square roots, spread from the row and column
  statistics), their row sums, the two products with the whole arrays, the difference and the total of its squares,
  the body's result is the tile's partial loss of the tiled arrangement.
-/
import proofs.«125113_j88270167868072_2_alg».proof.Proof.Reg2Scores

noncomputable section

namespace Cert.KernelIdeal.Reg2

open Idealize.ShloMosaic Idealize.ShloMosaic.ValueIdx
open Cert.KernelIdeal Cert.KernelIdeal.Gen Cert.DriftSpec Cert.DriftTile
open scoped BigOperators

/-- A plain product [256, 4096] x [4096, 128] into zeros, at (r, q): row r against column q. -/
theorem matmul_plain_apply (a : FVec Ideal S256x4096 .f32) (W : FVec Ideal S4096x128 .f32)
    (prec : Option ContractPrecision) (r : Fin 256) (q : Fin 128) :
    matmul dot_S256x4096_S4096x128_S256x128_1_0_0_1_n_n prec a W (constant S256x128 .f32 0x00000000#32) (ix2 r q)
      = ∑ j : Fin 4096, a (ix2 r j) * W (ix2 j q) :=
  Cert.Sage.matmul_zero_rows (n := 256) (k := 4096) (c := 128) dot_S256x4096_S4096x128_S256x128_1_0_0_1_n_n rfl rfl
    (fun _ _ => rfl) (fun _ _ => rfl) (fun _ _ => rfl) (fun _ _ => rfl) prec a W r q

/-- The indices of [1, a, b] are the pairs (r, q) … -/
def idxEquiv1ab {a b : ℕ} : (⟨3, ![1, a, b]⟩ : Shape).Idx ≃ Fin a × Fin b where
  toFun i := (i 1, i 2)
  invFun p := ix3 (0 : Fin 1) p.1 p.2
  left_inv i := funext fun ax => Fin.ext (by
    match ax with
    | ⟨0, _⟩ => have h : (i 0).val < 1 := (i 0).isLt; show 0 = (i 0).val; omega
    | ⟨1, _⟩ => rfl
    | ⟨2, _⟩ => rfl)
  right_inv _ := rfl

/-- … so a sum over them is the double sum over the two long coordinates. -/
theorem sum_idx1ab {M : Type*} [AddCommMonoid M] {a b : ℕ} (f : (⟨3, ![1, a, b]⟩ : Shape).Idx → M) :
    ∑ i, f i = ∑ r : Fin a, ∑ q : Fin b, f (ix3 (0 : Fin 1) r q) := by
  rw [← Equiv.sum_comp (idxEquiv1ab (a := a) (b := b)).symm f, Fintype.sum_prod_type]
  rfl

/-- A row sum kept as a column, at row r: the sum over the row. -/
theorem colsum_apply (w : FVec Ideal S256x4096 .f32) (hred : S256x4096.Reduces [1] S256)
    (hφ : FTy.f32 = FTy.f32 ∨ FTy.f32 = FTy.bf16) (hacc : (0x00000000#32 : BitVec 32) = 0x00000000#32)
    (hcast : S256.ShapeCasts S256x1) (r : Fin 256) :
    shapeCast S256x1 (multiReduction .add [1] S256 w 0x00000000#32 hred hφ hacc) hcast (ix2 r (0 : Fin 1))
      = ∑ j : Fin 4096, w (ix2 r j) :=
  (Cert.LibKeepdims.shapeCast_a_a1_apply _ hcast r (0 : Fin 1)).trans
    (Cert.LibRowLanes.sum_row_apply w 0x00000000#32 hred hφ hacc r)

/-- The tile's total, read at its one index: the sum over the tile's rows and the 128 coordinates of the squared field. -/
theorem pay13_apply (t : Fin 16) (x y : Fin 4096 → Fin 128 → EReal) (aP aN : Fin 4096 → Fin 4096 → EReal)
    (rm rs cmP csP cmN csN : Fin 4096 → EReal)
    (v3 : FVec Ideal S4096x128 .f32) (v4 : Vec Ideal S4096x128 .f32) (v63 v67 : FVec Ideal S256x4096 .f32)
    (v69 v72 : FVec Ideal S256x1 .f32) (v74 v77 : FVec Ideal S1x4096 .f32) (v78 v80 : Vec Ideal S1x4096 .f32)
    (h3 : ∀ j q, v3 (ix2 j q) = x j q) (h4 : ∀ j q, v4 (ix2 j q) = y j q)
    (h63 : ∀ r j, v63 (ix2 r j) = aP (row t r) j) (h67 : ∀ r j, v67 (ix2 r j) = aN (row t r) j)
    (h69 : ∀ r, v69 (ix2 r (0 : Fin 1)) = rm (row t r)) (h72 : ∀ r, v72 (ix2 r (0 : Fin 1)) = Ideal.rsqrt (rs (row t r)))
    (h74 : ∀ j, v74 (ix2 (0 : Fin 1) j) = cmP j) (h77 : ∀ j, v77 (ix2 (0 : Fin 1) j) = Ideal.rsqrt (csP j))
    (h78 : ∀ j, v78 (ix2 (0 : Fin 1) j) = cmN j) (h80 : ∀ j, v80 (ix2 (0 : Fin 1) j) = csN j)
    (i : S1x1x1.Idx) :
    k2_pay13 v3 v4 v63 v67 v69 v72 v74 v77 v78 v80 i = partialT x y aP aN rm rs cmP csP cmN csN t := by
  have ht : ∀ b, S1.size b = 1 := fun b => match b with | ⟨0, _⟩ => rfl
  unfold k2_pay13
  dsimp only
  rw [broadcast_apply]
  unfold extractAt
  refine (shapeCast_apply _ _ _ (ix1 (0 : Fin 1)) ?hk).trans ?_
  case hk => rw [Shape.rowMajor_val_three, Shape.rowMajor_val_one]; rfl
  refine (Ideal.multiReduction_add_total _ _ _ ht _ _ _).trans ?_
  refine (sum_idx1ab _).trans ?_
  unfold partialT fieldT DriftSpec.field softT
  refine Finset.sum_congr rfl fun r _ => Finset.sum_congr rfl fun q _ => ?_
  rw [shapeCast_ab_1ab_apply, mulf_apply, subf_apply, matmul_plain_apply, matmul_plain_apply]
  simp only [mulf_apply, bc_col, bc_row, colsum_apply, Cert.LibKeepdims.exp_apply, subf_apply, addf_apply, broadcast_apply,
    Cert.LibKeepdims.scalar_ofBits, shapeCast_self, rsqrt_apply, h3, h4, h63, h67, h69, h72, h74, h77, h78, h80]
  rw [colsum_apply, colsum_apply]
  simp only [mulf_apply, bc_col, bc_row, Cert.LibKeepdims.exp_apply, subf_apply, addf_apply, broadcast_apply,
    Cert.LibKeepdims.scalar_ofBits, shapeCast_self, rsqrt_apply, h63, h67, h69, h72, h74, h77, h78, h80]

/-- The recast loads and the reciprocal square roots of the statistics, read at an index. -/
theorem pay1_apply (v : Vec Ideal S4096x128 .f32) (i : S4096x128.Idx) : k2_pay1 v i = v i := by
  unfold k2_pay1; rw [shapeCast_self]
theorem pay9_apply (v : Vec Ideal S256x1 .f32) (i : S256x1.Idx) : k2_pay9 v i = v i := by
  unfold k2_pay9; rw [shapeCast_self]
theorem pay10_apply (v : Vec Ideal S256x1 .f32) (i : S256x1.Idx) : k2_pay10 v i = Ideal.rsqrt (v i) := by
  unfold k2_pay10; rw [rsqrt_apply, shapeCast_self]
theorem pay11_apply (v : Vec Ideal S1x4096 .f32) (i : S1x4096.Idx) : k2_pay11 v i = v i := by
  unfold k2_pay11; rw [shapeCast_self]
theorem pay12_apply (v : Vec Ideal S1x4096 .f32) (i : S1x4096.Idx) : k2_pay12 v i = Ideal.rsqrt (v i) := by
  unfold k2_pay12; rw [rsqrt_apply, shapeCast_self]

/-- THE TILE: the body's result at its one index, from the loads of the eleven windows read at coordinates, is the
    tile's sum of squares of the drifting field whose scores are recomputed from the norm arrays the pass reads. -/
theorem tile_apply (t : Fin 16) (x y : Fin 4096 → Fin 128 → EReal) (nc nxr nyr rm rs cmP csP cmN csN : Fin 4096 → EReal)
    (v1 : BitVec 32) (hv1 : v1.toNat = 256 * t.val)
    (x0 x1 : Vec Ideal S4096x128 .f32) (v6 : Vec Ideal S256x128 .f32) (x2 : Vec Ideal S256x1 .f32)
    (x3 x4 : Vec Ideal S1x4096 .f32) (x5 x6 : Vec Ideal S256x1 .f32) (x7 x8 x9 x10 : Vec Ideal S1x4096 .f32)
    (h0 : ∀ j q, x0 (ix2 j q) = x j q) (h1 : ∀ j q, x1 (ix2 j q) = y j q) (h6 : ∀ r q, v6 (ix2 r q) = x (row t r) q)
    (h2 : ∀ r, x2 (ix2 r (0 : Fin 1)) = nc (row t r)) (h3 : ∀ j, x3 (ix2 (0 : Fin 1) j) = nxr j)
    (h4 : ∀ j, x4 (ix2 (0 : Fin 1) j) = nyr j)
    (h5 : ∀ r, x5 (ix2 r (0 : Fin 1)) = rm (row t r)) (h6' : ∀ r, x6 (ix2 r (0 : Fin 1)) = rs (row t r))
    (h7 : ∀ j, x7 (ix2 (0 : Fin 1) j) = cmP j) (h8 : ∀ j, x8 (ix2 (0 : Fin 1) j) = csP j)
    (h9 : ∀ j, x9 (ix2 (0 : Fin 1) j) = cmN j) (h10 : ∀ j, x10 (ix2 (0 : Fin 1) j) = csN j)
    (i : S1x1x1.Idx) :
    k2_pay13 (k2_pay1 x0) x1 (k2_pay7 (k2_pay4 x1 v6 x2 x4))
        (k2_pay8 v1 (k2_pay5 x2 x3) (k2_pay6 x0 v6) (Scalar.ofBits (F := Ideal) .f32 0x40000000#32))
        (k2_pay9 x5) (k2_pay10 x6) (k2_pay11 x7) (k2_pay12 x8) x9 x10 i
      = partialT x y (aposG x y nc nyr) (anegG x nc nxr) rm rs cmP csP cmN csN t :=
  pay13_apply t x y (aposG x y nc nyr) (anegG x nc nxr) rm rs cmP csP cmN csN
    (k2_pay1 x0) x1 (k2_pay7 (k2_pay4 x1 v6 x2 x4))
    (k2_pay8 v1 (k2_pay5 x2 x3) (k2_pay6 x0 v6) (Scalar.ofBits (F := Ideal) .f32 0x40000000#32))
    (k2_pay9 x5) (k2_pay10 x6) (k2_pay11 x7) (k2_pay12 x8) x9 x10
    (fun j q => (pay1_apply x0 (ix2 j q)).trans (h0 j q))
    h1
    (fun r j => aposBlock_apply t x y nc nyr x1 v6 x2 x4 h1 h6 h2 h4 r j)
    (fun r j => anegBlock_apply t x nc nxr v1 hv1 x0 v6 x2 x3 h0 h6 h2 h3 r j)
    (fun r => (pay9_apply x5 (ix2 r (0 : Fin 1))).trans (h5 r))
    (fun r => (pay10_apply x6 (ix2 r (0 : Fin 1))).trans (congrArg Ideal.rsqrt (h6' r)))
    (fun j => (pay11_apply x7 (ix2 (0 : Fin 1) j)).trans (h7 j))
    (fun j => (pay12_apply x8 (ix2 (0 : Fin 1) j)).trans (congrArg Ideal.rsqrt (h8 j)))
    h9 h10 i

end Cert.KernelIdeal.Reg2

end
-- ==== Proof.Reg2.lean ====
/-
  The aggregation pass: its result array. Each point's body leaves, at the one index of its block, its tile's partial
  loss (the payload read at that index, over the input blocks read at coordinates); point t writes it back as block t;
  the sixteen blocks cover the [16, 1, 1] array, which therefore ends holding tile t's partial loss at entry (t, 0, 0).
-/
import proofs.«125113_j88270167868072_2_alg».proof.Proof.Reg2Frame
import proofs.«125113_j88270167868072_2_alg».proof.Proof.Reg2Pay
import Idealize.ShloMosaic.Lib.Pipeline.Value
import Idealize.ShloMosaic.Lib.ValueIdx
import Idealize.ShloMosaic.Lib.Tactic

noncomputable section

namespace Cert.KernelIdeal.Reg2

open Idealize.ShloMosaic Idealize.ShloMosaic.ValueIdx Idealize.ShloMosaic.TcCoe Idealize.SL.Sem
open Idealize.ShloMosaic.Pipeline (Dat)
open Cert.KernelIdeal Cert.KernelIdeal.Gen
open Cert.DriftSpec (row)
open scoped BigOperators

variable (V : (c : Dev nD) → (b : Ref sig .tc) → Buf (Elt Ideal) ((c : Thread nD τ).loc b)) (c : Dev nD)

/-- What a point leaves in the result block: its tile's partial loss, at the block's one index. -/
theorem outsAt_eq (t : Fin cfg2.N) :
    outsAt2 (F := Ideal) V c t = fun _ => Cert.DriftTile.partialT (X V c) (Y V c) (aP V c) (aN V c) (RM V c) (RS V c) (CMP V c) (CSP V c) (CMN V c) (CSN V c) (tile t) := by
  unfold outsAt2
  rw [out_piece c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)]
  funext i
  exact tile_apply (tile t) (X V c) (Y V c) (NC V c) (NXR V c) (NYR V c) (RM V c) (RS V c) (CMP V c) (CSP V c) (CMN V c) (CSN V c)
    (Scalar.muli (BitVec.ofNat 32 ((grid2.coords t) 0).val) 256#32) (word_fact t)
    (iblk2 V c 0 t) (iblk2 V c 1 t) (View.ld (iblk2 V c 0 t : Vec Ideal S4096x128 .f32) (Rect.unit (s := S4096x128) (k2_off1 (grid2.coords t)) S256x128.size (k2_off1_inb (grid2.coords t)))) (iblk2 V c 2 t) (iblk2 V c 3 t) (iblk2 V c 4 t) (iblk2 V c 5 t) (iblk2 V c 6 t)
    (iblk2 V c 7 t) (iblk2 V c 8 t) (iblk2 V c 9 t) (iblk2 V c 10 t)
    (blk0 V c t) (blk1 V c t) (blk0rows V c t) (blk2 V c t) (blk3 V c t) (blk4 V c t) (blk5 V c t) (blk6 V c t)
    (blk7 V c t) (blk8 V c t) (blk9 V c t) (blk10 V c t) i

/-- What point `t` writes back is block `t` of the function of the arrays the pass reads. -/
theorem flushed_eq (t : Fin cfg2.N) :
    (dat2 (F := Ideal) V c).flushed 11 t = ((cfg2.win 11).blk t).view.read (Elt Ideal) (G V c) := by
  have hf := idx_facts t
  show (cfg2.win 11).cut (grid2.coords t) ((dat2 (F := Ideal) V c).after 11 t) = _
  rw [after2_11, outsAt_eq]
  funext j
  rw [View.read_apply]
  show Cert.DriftTile.partialT (X V c) (Y V c) (aP V c) (aN V c) (RM V c) (RS V c) (CMP V c) (CSP V c) (CMN V c) (CSN V c) (tile t) = G V c (((cfg2.win 11).blk t).view.emb j)
  unfold G
  refine congrArg (Cert.DriftTile.partialT (X V c) (Y V c) (aP V c) (aN V c) (RM V c) (RS V c) (CMP V c) (CSP V c) (CMN V c) (CSN V c)) (Fin.ext ?_)
  show t.val = win2_11.index t (0 : Fin 3) * 1 + 1 * (j 0).val
  have hj : (j 0).val < 1 := (j 0).isLt
  omega

/-- The result array after the pass: entry (t, 0, 0) is tile `t`'s partial loss. -/
theorem arr11 : (dat2 (F := Ideal) V c).arrAt 11 cfg2.N = G V c :=
  (dat2 (F := Ideal) V c).arrAt_eq_of_cover 11 (G V c) (fun t _ => flushed_eq V c t) fun i => by
    have hN : cfg2.N = 16 := N_2
    have hi0 : (i 0).val < 16 := (i 0).isLt
    have hi1 : (i 1).val < 1 := (i 1).isLt
    have hi2 : (i 2).val < 1 := (i 2).isLt
    obtain ⟨t, ht⟩ : ∃ t : Fin cfg2.N, t.val = (i 0).val := ⟨⟨(i 0).val, by omega⟩, rfl⟩
    have hf := idx_facts t
    refine ⟨t, flush2_11 t, ?_⟩
    rw [mem_blk]
    intro a
    match a with
    | ⟨0, _⟩ => show win2_11.index t (0 : Fin 3) * 1 ≤ (i 0).val ∧ (i 0).val < win2_11.index t (0 : Fin 3) * 1 + 1; omega
    | ⟨1, _⟩ => show win2_11.index t (1 : Fin 3) * 1 ≤ (i 1).val ∧ (i 1).val < win2_11.index t (1 : Fin 3) * 1 + 1; omega
    | ⟨2, _⟩ => show win2_11.index t (2 : Fin 3) * 1 ≤ (i 2).val ∧ (i 2).val < win2_11.index t (2 : Fin 3) * 1 + 1; omega

end Cert.KernelIdeal.Reg2

end
-- ==== Proof.KernelValue.lean ====
/-
  The value of the idealized kernel: the scalar it returns is the tiled arrangement of the drifting-field loss
  (`Cert.DriftSpec.lossK`) of the generated points — the generator network of the launch arrays — and the positives.

  Region 0 leaves the generator network's output; the first stretch of host operations its rows' squared norms (and
  the positives'); with these region 1 writes the row statistics and the per-tile column statistics of the two score
  arrays; the second stretch merges the column statistics over the tiles; with all of these region 2 writes each
  tile's sum of the squared field; the last stretch sums the sixteen and divides by the count.
-/
import proofs.«125113_j88270167868072_2_alg».proof.Proof.KernelGlue
import proofs.«125113_j88270167868072_2_alg».proof.Proof.DriftTile
import proofs.«125113_j88270167868072_2_alg».proof.Proof.GenKernel
import proofs.«125113_j88270167868072_2_alg».proof.Proof.Reg1
import proofs.«125113_j88270167868072_2_alg».proof.Proof.Reg1Col
import proofs.«125113_j88270167868072_2_alg».proof.Proof.Reg2

set_option maxRecDepth 16384

noncomputable section

namespace Cert.KernelIdeal.Drift

open Cert.KernelIdeal Cert.KernelIdeal.Gen Cert.DriftSpec Cert.DriftTile
open Idealize.ShloMosaic Idealize.ShloMosaic.TcCoe Idealize.ShloMosaic.ValueIdx
open scoped BigOperators

variable (m : (ℓ : Loc nD τ sig) → Buf (Elt Ideal) ℓ) (ρ : Dev nD → PrngReg) (c : Dev nD)

/-- The generator network of the launch arrays. -/
def genOf : FVec Ideal S4096x128 .f32 :=
  Cert.DriftGen.gen (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7))

/-- The generated points and the positives at coordinates. -/
def xs (p : Fin 4096) (q : Fin 128) : EReal := genOf m c (ix2 p q)
def ys (p : Fin 4096) (q : Fin 128) : EReal := (m ((c : Thread nD τ).loc main_arg0) : S4096x128.Idx → EReal) (ix2 p q)

/-- Region 0 leaves the generator network of the launch arrays. -/
theorem genArr_eq : genArr (F := Ideal) m ρ c = genOf m c :=
  Cert.KernelIdeal.Reg0.arr_gen (V0 (F := Ideal) m ρ) c

/-- With the norms the squared norms of the rows, the parametrized scores are the scores. -/
theorem aposG_nrm (x y : Fin 4096 → Fin 128 → EReal) : aposG x y (nrm x) (nrm y) = apos x y := rfl
theorem anegG_nrm (x : Fin 4096 → Fin 128 → EReal) : anegG x (nrm x) (nrm x) = aneg x := rfl

/-! ## What region 1 reads -/

theorem ncol_W2 (p : Fin 4096) : (W2 (F := Ideal) m ρ c (Proc.devRef .tc main_v5) : S4096x1.Idx → EReal) (ix2 p (0 : Fin 1)) = nrm (xs m c) p := by
  rw [ncol_at_W2, x_at_W1, genArr_eq]
  refine (Cert.LibKeepdims.shapeCast_a_a1_apply _ shapeCasts_S4096_S4096x1 p 0).trans ?_
  exact sqNorms_apply (genOf m c) p

theorem nxrow_W2 (j : Fin 4096) : (W2 (F := Ideal) m ρ c (Proc.devRef .tc main_v6) : S1x4096.Idx → EReal) (ix2 (0 : Fin 1) j) = nrm (xs m c) j := by
  rw [nxrow_at_W2, x_at_W1, genArr_eq]
  refine (shapeCast_a_1a_apply _ shapeCasts_S4096_S1x4096 0 j).trans ?_
  exact sqNorms_apply (genOf m c) j

theorem nyrow_W2 (j : Fin 4096) : (W2 (F := Ideal) m ρ c (Proc.devRef .tc main_v7) : S1x4096.Idx → EReal) (ix2 (0 : Fin 1) j) = nrm (ys m c) j := by
  rw [nyrow_at_W2, y_at_W1]
  refine (shapeCast_a_1a_apply _ shapeCasts_S4096_S1x4096 0 j).trans ?_
  exact sqNorms_apply (m ((c : Thread nD τ).loc main_arg0)) j

theorem reads1 : Cert.KernelIdeal.Reg1.Reads (V2 (F := Ideal) m ρ) c (xs m c) (ys m c) (nrm (xs m c)) (nrm (xs m c)) (nrm (ys m c)) where
  hX p q := by
    show (W2 (F := Ideal) m ρ c (Proc.devRef .tc main_v0) : S4096x128.Idx → EReal) (ix2 p q) = _
    rw [x_at_W2, genArr_eq]; rfl
  hY p q := by
    show (W2 (F := Ideal) m ρ c (Proc.devRef .tc main_arg0) : S4096x128.Idx → EReal) (ix2 p q) = _
    rw [y_at_W2]; rfl
  hNC p := ncol_W2 m ρ c p
  hNXR j := nxrow_W2 m ρ c j
  hNYR j := nyrow_W2 m ρ c j

/-! ## What region 2 reads -/

theorem rowmax_W4 (p : Fin 4096) :
    (W4 (F := Ideal) m ρ c (Proc.devRef .tc main_v8_0) : S4096x1.Idx → EReal) (ix2 p (0 : Fin 1)) = rmax (xs m c) (ys m c) p := by
  rw [rowmax_at_W4, Cert.KernelIdeal.Reg1.rowMax (reads1 m ρ c), aposG_nrm, anegG_nrm]
  rfl

theorem rowsum_W4 (p : Fin 4096) :
    (W4 (F := Ideal) m ρ c (Proc.devRef .tc main_v8_1) : S4096x1.Idx → EReal) (ix2 p (0 : Fin 1)) = rsum (xs m c) (ys m c) p := by
  rw [rowsum_at_W4, Cert.KernelIdeal.Reg1.rowSum (reads1 m ρ c), aposG_nrm, anegG_nrm]
  rfl

theorem cmaxpos_W4 (j : Fin 4096) :
    (W4 (F := Ideal) m ρ c (Proc.devRef .tc main_v12) : S1x4096.Idx → EReal) (ix2 (0 : Fin 1) j) = cmaxK (apos (xs m c) (ys m c)) j := by
  rw [cmaxpos_at_W4, (lstat_at_W3 m ρ c).1, Cert.KernelIdeal.Reg1.colMaxPos (reads1 m ρ c), aposG_nrm]
  refine (broadcastInDim_row_apply _ bcast_S4096_S1x4096_1 0 j).trans ?_
  exact mergeMax_apply _ j

theorem cmaxneg_W4 (j : Fin 4096) :
    (W4 (F := Ideal) m ρ c (Proc.devRef .tc main_v22) : S1x4096.Idx → EReal) (ix2 (0 : Fin 1) j) = cmaxK (aneg (xs m c)) j := by
  rw [cmaxneg_at_W4, (lstat_at_W3 m ρ c).2.2.1, Cert.KernelIdeal.Reg1.colMaxNeg (reads1 m ρ c), anegG_nrm]
  refine (broadcastInDim_row_apply _ bcast_S4096_S1x4096_1 0 j).trans ?_
  exact mergeMax_apply _ j

theorem csumpos_W4 (j : Fin 4096) :
    (W4 (F := Ideal) m ρ c (Proc.devRef .tc main_v18) : S1x4096.Idx → EReal) (ix2 (0 : Fin 1) j) = csumK (apos (xs m c) (ys m c)) j := by
  rw [csumpos_at_W4, (lstat_at_W3 m ρ c).1, (lstat_at_W3 m ρ c).2.1, Cert.KernelIdeal.Reg1.colMaxPos (reads1 m ρ c),
    Cert.KernelIdeal.Reg1.colSumPos (reads1 m ρ c), aposG_nrm]
  refine (broadcastInDim_row_apply _ bcast_S4096_S1x4096_1 0 j).trans ?_
  refine (mergeSum_apply _ _ j).trans ?_
  rw [mergeMax_apply]
  rfl

theorem csumneg_W4 (j : Fin 4096) :
    (W4 (F := Ideal) m ρ c (Proc.devRef .tc main_v28) : S1x4096.Idx → EReal) (ix2 (0 : Fin 1) j) = csumK (aneg (xs m c)) j := by
  rw [csumneg_at_W4, (lstat_at_W3 m ρ c).2.2.1, (lstat_at_W3 m ρ c).2.2.2, Cert.KernelIdeal.Reg1.colMaxNeg (reads1 m ρ c),
    Cert.KernelIdeal.Reg1.colSumNeg (reads1 m ρ c), anegG_nrm]
  refine (broadcastInDim_row_apply _ bcast_S4096_S1x4096_1 0 j).trans ?_
  refine (mergeSum_apply _ _ j).trans ?_
  rw [mergeMax_apply]
  rfl

/-! ## Region 2 and the result -/

/-- The index set of the sixteen partial losses is the sixteen tiles. -/
def tileIdx : S16x1x1.Idx ≃ Fin 16 where
  toFun i := ⟨(i 0).val, (i 0).isLt⟩
  invFun t := ix3 t (0 : Fin 1) (0 : Fin 1)
  left_inv i := funext fun a => by
    match a with
    | ⟨0, _⟩ => rfl
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)
  right_inv t := rfl

theorem sum_tileIdx (f : Fin 16 → EReal) : ∑ i : S16x1x1.Idx, f ⟨(i 0).val, (i 0).isLt⟩ = ∑ t : Fin 16, f t :=
  Equiv.sum_comp tileIdx f

/-- Tile `t`'s sum of the squared field of the tiled arrangement. -/
def tileLoss (x y : Fin 4096 → Fin 128 → EReal) (t : Fin 16) : EReal :=
  ∑ r : Fin 256, ∑ q : Fin 128, fieldK x y (row t r) q * fieldK x y (row t r) q

theorem partialT_spec (x y : Fin 4096 → Fin 128 → EReal) (t : Fin 16) :
    partialT x y (apos x y) (aneg x) (rmax x y) (rsum x y) (cmaxK (apos x y)) (csumK (apos x y)) (cmaxK (aneg x)) (csumK (aneg x)) t
      = tileLoss x y t := rfl

theorem lossK_tiles (x y : Fin 4096 → Fin 128 → EReal) : lossK x y = Ideal.div (∑ t : Fin 16, tileLoss x y t) cCount := rfl

/-- Region 2 writes each tile's sum of the squared field. -/
theorem partials_value :
    (dat2 (F := Ideal) (V4 m ρ) c).arrAt 11 cfg2.N = fun i => tileLoss (xs m c) (ys m c) ⟨(i 0).val, (i 0).isLt⟩ := by
  have hX : Cert.KernelIdeal.Reg2.X (V4 (F := Ideal) m ρ) c = xs m c := funext fun p => funext fun q => by
    show (W4 (F := Ideal) m ρ c (Proc.devRef .tc main_v0) : S4096x128.Idx → EReal) (ix2 p q) = _
    rw [x_at_W4, genArr_eq]; rfl
  have hY : Cert.KernelIdeal.Reg2.Y (V4 (F := Ideal) m ρ) c = ys m c := funext fun p => funext fun q => by
    show (W4 (F := Ideal) m ρ c (Proc.devRef .tc main_arg0) : S4096x128.Idx → EReal) (ix2 p q) = _
    rw [y_at_W4]; rfl
  have hNC : Cert.KernelIdeal.Reg2.NC (V4 (F := Ideal) m ρ) c = nrm (xs m c) := funext fun p => by
    show (W4 (F := Ideal) m ρ c (Proc.devRef .tc main_v5) : S4096x1.Idx → EReal) (ix2 p (0 : Fin 1)) = _
    rw [ncol_at_W4]; exact ncol_W2 m ρ c p
  have hNXR : Cert.KernelIdeal.Reg2.NXR (V4 (F := Ideal) m ρ) c = nrm (xs m c) := funext fun j => by
    show (W4 (F := Ideal) m ρ c (Proc.devRef .tc main_v6) : S1x4096.Idx → EReal) (ix2 (0 : Fin 1) j) = _
    rw [nxrow_at_W4]; exact nxrow_W2 m ρ c j
  have hNYR : Cert.KernelIdeal.Reg2.NYR (V4 (F := Ideal) m ρ) c = nrm (ys m c) := funext fun j => by
    show (W4 (F := Ideal) m ρ c (Proc.devRef .tc main_v7) : S1x4096.Idx → EReal) (ix2 (0 : Fin 1) j) = _
    rw [nyrow_at_W4]; exact nyrow_W2 m ρ c j
  have hRM : Cert.KernelIdeal.Reg2.RM (V4 (F := Ideal) m ρ) c = rmax (xs m c) (ys m c) := funext fun p => rowmax_W4 m ρ c p
  have hRS : Cert.KernelIdeal.Reg2.RS (V4 (F := Ideal) m ρ) c = rsum (xs m c) (ys m c) := funext fun p => rowsum_W4 m ρ c p
  have hCMP : Cert.KernelIdeal.Reg2.CMP (V4 (F := Ideal) m ρ) c = cmaxK (apos (xs m c) (ys m c)) := funext fun j => cmaxpos_W4 m ρ c j
  have hCSP : Cert.KernelIdeal.Reg2.CSP (V4 (F := Ideal) m ρ) c = csumK (apos (xs m c) (ys m c)) := funext fun j => csumpos_W4 m ρ c j
  have hCMN : Cert.KernelIdeal.Reg2.CMN (V4 (F := Ideal) m ρ) c = cmaxK (aneg (xs m c)) := funext fun j => cmaxneg_W4 m ρ c j
  have hCSN : Cert.KernelIdeal.Reg2.CSN (V4 (F := Ideal) m ρ) c = csumK (aneg (xs m c)) := funext fun j => csumneg_W4 m ρ c j
  rw [Cert.KernelIdeal.Reg2.arr11]
  unfold Cert.KernelIdeal.Reg2.G Cert.KernelIdeal.Reg2.aP Cert.KernelIdeal.Reg2.aN
  rw [hX, hY, hNC, hNXR, hNYR, hRM, hRS, hCMP, hCSP, hCMN, hCSN, aposG_nrm, anegG_nrm]
  funext i
  exact partialT_spec (xs m c) (ys m c) _

/-- THE KERNEL'S VALUE: the tiled loss of the generated points and the positives. -/
theorem value : (W6 (F := Ideal) m ρ c (Proc.devRef .tc main_v31) : S_.Idx → EReal) = fun _ => lossK (xs m c) (ys m c) := by
  rw [result_eq, partials_eq, partials_value]
  funext i
  show Ideal.div (Host.reduceAdd (F := Ideal) (fun i : S16x1x1.Idx => tileLoss (xs m c) (ys m c) ⟨(i 0).val, (i 0).isLt⟩)
      (constant S_ .f32 0x00000000#32) reducesTo_S16x1x1_S_d0_1_2 h_S_ i) (Ideal.ofBits .f32 0x49000000#32) = _
  have hs : Host.reduceAdd (F := Ideal) (fun i : S16x1x1.Idx => tileLoss (xs m c) (ys m c) ⟨(i 0).val, (i 0).isLt⟩)
      (constant S_ .f32 0x00000000#32) reducesTo_S16x1x1_S_d0_1_2 h_S_ i = ∑ t : Fin 16, tileLoss (xs m c) (ys m c) t := by
    simp only [Host.reduceAdd, Ideal.hostReduceAdd_def]
    refine (Ideal.hostReduceAdd_total reducesTo_S16x1x1_S_d0_1_2 (fun b => b.elim0) _ _ i).trans ?_
    show Ideal.ofBits .f32 0x00000000#32 + _ = _
    rw [Ideal.ofBits_zero_f32, zero_add]
    exact sum_tileIdx _
  rw [hs, lossK_tiles]

end Cert.KernelIdeal.Drift

end
-- ==== Proof.LibFinite.lean ====
/-
  Real-valued extended reals.

  The extended reals `EReal = ℝ ∪ {⊥, ⊤}` are not a ring: distributivity fails at the
  infinities.  An algebraic identity between two extended-real expressions is therefore
  proved by first showing that every leaf is (the coercion of) a real number, and then
  computing in `ℝ`.  This file provides the predicate and its closure properties:

  * `IsReal x`   : `x` is the coercion of a real number (`isReal_iff`: equivalently
                    `x ≠ ⊤ ∧ x ≠ ⊥`); `AllReal v` : every entry of the family `v` is real
                    (`allReal_iff_exists`: `v` is the coercion of a real family).
  * `IsPosReal x`: `x` is the coercion of a positive real.
  * closure of `IsReal` under `0`, `1`, `+`, `-`, unary `-`, `*`, `max`, `min`,
    finite sums (`coe_finset_sum`: the coercion commutes with a finite sum), division by a
    nonzero real (`Ideal.div`), the reciprocal square root of a positive real
    (`Ideal.rsqrt`), and the pointwise versions for families (`AllReal`).
  * a sum of squares of reals is nonnegative; nonnegative + positive is positive.
-/
import Idealize.ShloMosaic.PureOps.Ideal

noncomputable section

namespace Cert.LibFinite

open Idealize.ShloMosaic
open scoped BigOperators

/-- An extended real is REAL when it is the coercion of a real number. -/
def IsReal (x : EReal) : Prop := ∃ r : ℝ, x = (r : EReal)

/-- An extended real is a POSITIVE REAL when it is the coercion of a positive real number. -/
def IsPosReal (x : EReal) : Prop := ∃ r : ℝ, 0 < r ∧ x = (r : EReal)

/-- Every entry of the family `v` is real. -/
def AllReal {ι : Sort*} (v : ι → EReal) : Prop := ∀ i, IsReal (v i)

/-- Every entry of the family `v` is a positive real. -/
def AllPosReal {ι : Sort*} (v : ι → EReal) : Prop := ∀ i, IsPosReal (v i)

/-! ### The predicate -/

/-- Real means: neither infinity. -/
theorem isReal_iff (x : EReal) : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := ((isReal_iff x).mp h).1
theorem IsReal.ne_bot {x : EReal} (h : IsReal x) : x ≠ ⊥ := ((isReal_iff x).mp h).2

/-- A real extended real is the coercion of its own real part. -/
theorem IsReal.coe_toReal {x : EReal} (h : IsReal x) : ((x.toReal : ℝ) : EReal) = x :=
  EReal.coe_toReal h.ne_top h.ne_bot

theorem isReal_coe (r : ℝ) : IsReal (r : EReal) := ⟨r, rfl⟩
theorem isReal_zero : IsReal 0 := ⟨0, rfl⟩
theorem isReal_one : IsReal 1 := ⟨1, rfl⟩

theorem IsPosReal.isReal {x : EReal} (h : IsPosReal x) : IsReal x := let ⟨r, _, e⟩ := h; ⟨r, e⟩
theorem IsPosReal.pos {x : EReal} (h : IsPosReal x) : 0 < x := by
  obtain ⟨r, hr, rfl⟩ := h; exact EReal.coe_pos.mpr hr
theorem IsPosReal.ne_zero {x : EReal} (h : IsPosReal x) : x ≠ 0 := h.pos.ne'
theorem isPosReal_coe {r : ℝ} (h : 0 < r) : IsPosReal (r : EReal) := ⟨r, h, rfl⟩
/-- A real that is positive as an extended real is a positive real. -/
theorem IsReal.isPosReal {x : EReal} (h : IsReal x) (hp : 0 < x) : IsPosReal x := by
  obtain ⟨r, rfl⟩ := h; exact ⟨r, EReal.coe_pos.mp hp, rfl⟩

theorem AllPosReal.allReal {ι : Sort*} {v : ι → EReal} (h : AllPosReal v) : AllReal v := fun i => (h i).isReal

/-- A family is real exactly when it is the coercion of a family of reals. -/
theorem allReal_iff_exists {ι : Sort*} (v : ι → EReal) : AllReal v ↔ ∃ f : ι → ℝ, v = fun i => (f i : EReal) := by
  constructor
  · intro h; exact ⟨fun i => (v i).toReal, funext fun i => ((h i).coe_toReal).symm⟩
  · rintro ⟨f, rfl⟩ i; exact ⟨f i, rfl⟩

theorem allReal_coe {ι : Sort*} (f : ι → ℝ) : AllReal (fun i => (f i : EReal)) := fun i => ⟨f i, rfl⟩
theorem allReal_const {ι : Sort*} {c : EReal} (h : IsReal c) : AllReal (fun _ : ι => c) := fun _ => h
/-- Every entry of a reindexed family is an entry of the family. -/
theorem AllReal.comp {ι κ : Sort*} {v : ι → EReal} (h : AllReal v) (f : κ → ι) : AllReal (fun k => v (f k)) :=
  fun k => h (f k)

/-! ### Pointwise closure -/

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.neg {x : EReal} (hx : IsReal x) : IsReal (-x) := by
  obtain ⟨a, rfl⟩ := hx; exact ⟨-a, (EReal.coe_neg a).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion commutes with `max` (it is monotone). -/
theorem coe_max (a b : ℝ) : ((max a b : ℝ) : EReal) = max (a : EReal) (b : EReal) :=
  (EReal.coe_strictMono.monotone).map_max
/-- The coercion commutes with `min`. -/
theorem coe_min (a b : ℝ) : ((min a b : ℝ) : EReal) = min (a : EReal) (b : EReal) :=
  (EReal.coe_strictMono.monotone).map_min

theorem IsReal.max {x y : EReal} (hx : IsReal x) (hy : IsReal y) : IsReal (max x y) := by
  obtain ⟨a, rfl⟩ := hx; obtain ⟨b, rfl⟩ := hy; exact ⟨Max.max a b, (coe_max a b).symm⟩
theorem IsReal.min {x y : EReal} (hx : IsReal x) (hy : IsReal y) : IsReal (min x y) := by
  obtain ⟨a, rfl⟩ := hx; obtain ⟨b, rfl⟩ := hy; exact ⟨Min.min a b, (coe_min a b).symm⟩

theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩
theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩
/-- A nonnegative real plus a positive real is a positive real. -/
theorem IsPosReal.nonneg_add {x y : EReal} (hx : IsReal x) (hx0 : 0 ≤ x) (hy : IsPosReal y) : IsPosReal (x + y) := by
  obtain ⟨a, rfl⟩ := hx; obtain ⟨b, hb, rfl⟩ := hy
  exact ⟨a + b, add_pos_of_nonneg_of_pos (EReal.coe_nonneg.mp hx0) hb, (EReal.coe_add a b).symm⟩
/-- The maximum of a real and a positive real is a positive real. -/
theorem IsPosReal.max_right {x y : EReal} (hx : IsReal x) (hy : IsPosReal y) : IsPosReal (max x y) :=
  (hx.max hy.isReal).isPosReal (lt_of_lt_of_le hy.pos (le_max_right x y))
theorem IsPosReal.max_left {x y : EReal} (hx : IsPosReal x) (hy : IsReal y) : IsPosReal (max x y) :=
  (hx.isReal.max hy).isPosReal (lt_of_lt_of_le hx.pos (le_max_left x y))

/-- The square of a real extended real is nonnegative. -/
theorem IsReal.mul_self_nonneg {x : EReal} (hx : IsReal x) : 0 ≤ x * x := by
  obtain ⟨a, rfl⟩ := hx; rw [← EReal.coe_mul]; exact EReal.coe_nonneg.mpr (_root_.mul_self_nonneg a)

/-! ### Finite sums -/

/-- The coercion `ℝ → EReal` commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real extended reals is real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A finite sum over a real family is real. -/
theorem AllReal.sum {ι : Type*} {f : ι → EReal} (h : AllReal f) (s : Finset ι) : IsReal (∑ i ∈ s, f i) :=
  IsReal.sum s f fun i _ => h i

/-- A finite sum of products of two real families is real (a dot product). -/
theorem AllReal.sum_mul {ι : Type*} {f g : ι → EReal} (hf : AllReal f) (hg : AllReal g) (s : Finset ι) :
    IsReal (∑ i ∈ s, f i * g i) :=
  IsReal.sum s _ fun i _ => (hf i).mul (hg i)

/-- A finite sum of nonnegative extended reals is nonnegative. -/
theorem sum_nonneg {ι : Type*} (s : Finset ι) (f : ι → EReal) (h : ∀ i ∈ s, 0 ≤ f i) : 0 ≤ ∑ i ∈ s, f i :=
  Finset.sum_nonneg h

/-- A finite sum of squares of real extended reals is nonnegative. -/
theorem sum_mul_self_nonneg {ι : Type*} (s : Finset ι) {f : ι → EReal} (h : ∀ i ∈ s, IsReal (f i)) :
    0 ≤ ∑ i ∈ s, f i * f i :=
  Finset.sum_nonneg fun i hi => (h i hi).mul_self_nonneg

/-! ### Division and the reciprocal square root -/

/-- A real divided by a NONZERO real is real: `x / y = x * y⁻¹`. -/
theorem IsReal.div {x y : EReal} (hx : IsReal x) (hy : IsReal y) (hy0 : y ≠ 0) : IsReal (Ideal.div x y) := by
  obtain ⟨a, rfl⟩ := hx; obtain ⟨b, rfl⟩ := hy
  have hb : b ≠ 0 := fun h => hy0 (by rw [h]; rfl)
  rw [Ideal.div_coe hb]
  exact (isReal_coe a).mul (isReal_coe _)

/-- The quotient of two reals, the divisor nonzero, is the coercion of the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A positive real divided by a positive real is a positive real. -/
theorem IsPosReal.div {x y : EReal} (hx : IsPosReal x) (hy : IsPosReal y) : IsPosReal (Ideal.div x y) := by
  obtain ⟨a, ha, rfl⟩ := hx; obtain ⟨b, hb, rfl⟩ := hy
  rw [div_coe_coe a hb.ne']
  exact ⟨a / b, div_pos ha hb, rfl⟩

/-- The reciprocal square root of a positive real is `(√r)⁻¹`. -/
theorem rsqrt_coe_of_pos {r : ℝ} (h : 0 < r) : Ideal.rsqrt (r : EReal) = (((Real.sqrt r)⁻¹ : ℝ) : EReal) := by
  rw [Ideal.rsqrt_coe, if_neg (not_lt.mpr h.le), if_neg h.ne']

/-- The reciprocal square root of a positive real is a positive real. -/
theorem IsPosReal.rsqrt {x : EReal} (hx : IsPosReal x) : IsPosReal (Ideal.rsqrt x) := by
  obtain ⟨r, hr, rfl⟩ := hx
  rw [rsqrt_coe_of_pos hr]
  exact ⟨_, inv_pos.mpr (Real.sqrt_pos.mpr hr), rfl⟩

/-! ### Families, pointwise -/

section Families
variable {ι : Sort*} {v w : ι → EReal}

theorem AllReal.add (hv : AllReal v) (hw : AllReal w) : AllReal (fun i => v i + w i) := fun i => (hv i).add (hw i)
theorem AllReal.sub (hv : AllReal v) (hw : AllReal w) : AllReal (fun i => v i - w i) := fun i => (hv i).sub (hw i)
theorem AllReal.mul (hv : AllReal v) (hw : AllReal w) : AllReal (fun i => v i * w i) := fun i => (hv i).mul (hw i)
theorem AllReal.neg (hv : AllReal v) : AllReal (fun i => -v i) := fun i => (hv i).neg
theorem AllReal.max (hv : AllReal v) (hw : AllReal w) : AllReal (fun i => Max.max (v i) (w i)) :=
  fun i => (hv i).max (hw i)
theorem AllReal.min (hv : AllReal v) (hw : AllReal w) : AllReal (fun i => Min.min (v i) (w i)) :=
  fun i => (hv i).min (hw i)
theorem AllReal.div (hv : AllReal v) (hw : AllReal w) (hw0 : ∀ i, w i ≠ 0) :
    AllReal (fun i => Ideal.div (v i) (w i)) := fun i => (hv i).div (hw i) (hw0 i)
theorem AllPosReal.rsqrt (hv : AllPosReal v) : AllPosReal (fun i => Ideal.rsqrt (v i)) := fun i => (hv i).rsqrt

end Families

end Cert.LibFinite

end
-- ==== Proof.LibLaws.lean ====
/-
  Algebraic laws between extended-real expressions whose leaves are real.

  The extended reals are not a ring (distributivity fails at `±∞`), so each law below
  assumes its leaves are real (`Cert.LibFinite.IsReal`), moves to `ℝ` through the coercion
  and computes there.

  * `batchnorm_law`      : `(x - m) * r * g + b = x * (g * r) + (b - m * (g * r))`
                            (normalise-then-scale against a folded scale and shift).
  * `batchnorm_law_fun`  : the same for families, pointwise.
  * `sum_mul_mul_eq`     : `∑ k ∈ s, (t * z k) * c k = t * ∑ k ∈ s, z k * c k`.
  * `sum_mul_left_eq`    : `∑ k ∈ s, t * f k = t * ∑ k ∈ s, f k`.
  * `mul_add_real`, `mul_sub_real`, `add_mul_real`, `sub_mul_real` : distributivity for reals.
  * `toReal_add`, `toReal_mul`, … and the `coe_*` lemmas: the coercion `ℝ → EReal`
    commutes with `+ - * max min ∑`, so that a goal between two extended-real expressions
    with real leaves is closed by: obtain real witnesses, `push_cast` / `norm_cast`, `ring`
    (the tactic `ereal_ring` below does the last two steps).
-/
import proofs.«125113_j88270167868072_2_alg».proof.Proof.LibFinite

noncomputable section

namespace Cert.LibLaws

open Cert.LibFinite
open scoped BigOperators

/-- Closes an equation between extended reals all of whose leaves are coercions of reals:
    pull the coercion outward, then compute in `ℝ`. -/
macro "ereal_ring" : tactic =>
  `(tactic| (simp only [← EReal.coe_add, ← EReal.coe_sub, ← EReal.coe_mul, ← EReal.coe_neg,
      ← Cert.LibFinite.coe_max, ← Cert.LibFinite.coe_min, ← EReal.coe_zero, ← EReal.coe_one,
      EReal.coe_eq_coe_iff]; try (first | ring1 | ring_nf)))

/-! ### Distributivity for reals -/

theorem mul_add_real {a b c : EReal} (ha : IsReal a) (hb : IsReal b) (hc : IsReal c) :
    a * (b + c) = a * b + a * c := by
  obtain ⟨a, rfl⟩ := ha; obtain ⟨b, rfl⟩ := hb; obtain ⟨c, rfl⟩ := hc; ereal_ring
theorem mul_sub_real {a b c : EReal} (ha : IsReal a) (hb : IsReal b) (hc : IsReal c) :
    a * (b - c) = a * b - a * c := by
  obtain ⟨a, rfl⟩ := ha; obtain ⟨b, rfl⟩ := hb; obtain ⟨c, rfl⟩ := hc; ereal_ring
theorem add_mul_real {a b c : EReal} (ha : IsReal a) (hb : IsReal b) (hc : IsReal c) :
    (a + b) * c = a * c + b * c := by
  obtain ⟨a, rfl⟩ := ha; obtain ⟨b, rfl⟩ := hb; obtain ⟨c, rfl⟩ := hc; ereal_ring
theorem sub_mul_real {a b c : EReal} (ha : IsReal a) (hb : IsReal b) (hc : IsReal c) :
    (a - b) * c = a * c - b * c := by
  obtain ⟨a, rfl⟩ := ha; obtain ⟨b, rfl⟩ := hb; obtain ⟨c, rfl⟩ := hc; ereal_ring

/-! ### The normalisation law -/

/-- Normalise, scale and shift, against the folded affine form: for real `x m r g b`,
    `(x - m) * r * g + b = x * (g * r) + (b - m * (g * r))`. -/
theorem batchnorm_law {x m r g b : EReal} (hx : IsReal x) (hm : IsReal m) (hr : IsReal r) (hg : IsReal g)
    (hb : IsReal b) : (x - m) * r * g + b = x * (g * r) + (b - m * (g * r)) := by
  obtain ⟨x, rfl⟩ := hx; obtain ⟨m, rfl⟩ := hm; obtain ⟨r, rfl⟩ := hr; obtain ⟨g, rfl⟩ := hg
  obtain ⟨b, rfl⟩ := hb
  ereal_ring

/-- The same with the folded side first. -/
theorem batchnorm_law_symm {x m r g b : EReal} (hx : IsReal x) (hm : IsReal m) (hr : IsReal r) (hg : IsReal g)
    (hb : IsReal b) : x * (g * r) + (b - m * (g * r)) = (x - m) * r * g + b :=
  (batchnorm_law hx hm hr hg hb).symm

/-- The normalisation law for families: rows `i`, features `j`; the statistics and the
    parameters depend on the feature only. -/
theorem batchnorm_law_fun {ι κ : Sort*} {x : ι → κ → EReal} {m r g b : κ → EReal}
    (hx : ∀ i j, IsReal (x i j)) (hm : AllReal m) (hr : AllReal r) (hg : AllReal g) (hb : AllReal b) (i : ι) (j : κ) :
    (x i j - m j) * r j * g j + b j = x i j * (g j * r j) + (b j - m j * (g j * r j)) :=
  batchnorm_law (hx i j) (hm j) (hr j) (hg j) (hb j)

/-! ### Sums -/

/-- A real factor leaves a finite sum of reals. -/
theorem sum_mul_left_eq {ι : Type*} (s : Finset ι) {t : EReal} {f : ι → EReal} (ht : IsReal t)
    (hf : ∀ k ∈ s, IsReal (f k)) : ∑ k ∈ s, t * f k = t * ∑ k ∈ s, f k := by
  classical
  induction s using Finset.induction_on with
  | empty => simp
  | insert a s ha ih =>
    have hfa : IsReal (f a) := hf a (Finset.mem_insert_self a s)
    have hfs : ∀ k ∈ s, IsReal (f k) := fun k hk => hf k (Finset.mem_insert_of_mem hk)
    rw [Finset.sum_insert ha, Finset.sum_insert ha, ih hfs, mul_add_real ht hfa (IsReal.sum s f hfs)]

/-- A real factor leaves a dot product of reals: `∑ (t * z k) * c k = t * ∑ z k * c k`. -/
theorem sum_mul_mul_eq {ι : Type*} (s : Finset ι) {t : EReal} {z c : ι → EReal} (ht : IsReal t)
    (hz : ∀ k ∈ s, IsReal (z k)) (hc : ∀ k ∈ s, IsReal (c k)) :
    ∑ k ∈ s, (t * z k) * c k = t * ∑ k ∈ s, z k * c k := by
  rw [← sum_mul_left_eq s ht fun k hk => (hz k hk).mul (hc k hk)]
  exact Finset.sum_congr rfl fun k _ => mul_assoc _ _ _

/-- The same over a whole finite index type, for real families. -/
theorem sum_univ_mul_mul_eq {ι : Type*} [Fintype ι] {t : EReal} {z c : ι → EReal} (ht : IsReal t)
    (hz : AllReal z) (hc : AllReal c) : ∑ k, (t * z k) * c k = t * ∑ k, z k * c k :=
  sum_mul_mul_eq Finset.univ ht (fun k _ => hz k) (fun k _ => hc k)

/-- The factor on the other side: `∑ z k * (t * c k) = t * ∑ z k * c k`. -/
theorem sum_mul_mul_eq' {ι : Type*} (s : Finset ι) {t : EReal} {z c : ι → EReal} (ht : IsReal t)
    (hz : ∀ k ∈ s, IsReal (z k)) (hc : ∀ k ∈ s, IsReal (c k)) :
    ∑ k ∈ s, z k * (t * c k) = t * ∑ k ∈ s, z k * c k := by
  rw [← sum_mul_left_eq s ht fun k hk => (hz k hk).mul (hc k hk)]
  exact Finset.sum_congr rfl fun k _ => mul_left_comm _ _ _

/-! ### The real part -/

theorem toReal_add {x y : EReal} (hx : IsReal x) (hy : IsReal y) : (x + y).toReal = x.toReal + y.toReal := by
  obtain ⟨a, rfl⟩ := hx; obtain ⟨b, rfl⟩ := hy; rw [← EReal.coe_add]; rfl
theorem toReal_sub {x y : EReal} (hx : IsReal x) (hy : IsReal y) : (x - y).toReal = x.toReal - y.toReal := by
  obtain ⟨a, rfl⟩ := hx; obtain ⟨b, rfl⟩ := hy; rw [← EReal.coe_sub]; rfl
theorem toReal_mul {x y : EReal} (hx : IsReal x) (hy : IsReal y) : (x * y).toReal = x.toReal * y.toReal := by
  obtain ⟨a, rfl⟩ := hx; obtain ⟨b, rfl⟩ := hy; rw [← EReal.coe_mul]; rfl
theorem toReal_max {x y : EReal} (hx : IsReal x) (hy : IsReal y) : (max x y).toReal = max x.toReal y.toReal := by
  obtain ⟨a, rfl⟩ := hx; obtain ⟨b, rfl⟩ := hy; rw [← coe_max]; rfl

/-- Two real extended reals with the same real part are equal. -/
theorem eq_of_toReal_eq {x y : EReal} (hx : IsReal x) (hy : IsReal y) (h : x.toReal = y.toReal) : x = y := by
  rw [← hx.coe_toReal, ← hy.coe_toReal, h]

example (a b c : ℝ) : max ((a : EReal) * b + c) 0 - 1 = max ((b : EReal) * a + c) 0 - 1 := by ereal_ring

end Cert.LibLaws

end
-- ==== Proof.LibFinitePos.lean ====
/-
  Positivity of real-valued extended reals through sums, quotients and reductions.

  A Student-t style normalisation `q = (1 / (1 + max d 0)) / ∑ (1 / (1 + max d 0))` stays inside the
  positive reals, provided `d` is real: `1 + max d 0` is a positive real, the quotient of positive
  reals is a positive real, and a sum of positive reals over a NONEMPTY index set is a positive real
  (so the normaliser is not zero).

  * `IsPosReal.sum`                         : a nonempty finite sum of positive reals is a positive real;
  * `IsPosReal.add_nonneg`, `isPosReal_one_add_max_zero`;
  * `allPosReal_divf`                       : positive / positive, a kernel's `arith.divf`;
  * `allPosReal_multiReduction_add_single`  : a kernel's sum over one axis of positive size;
  * `allPosReal_hostReduceAdd_single`       : the host's sum over one axis of positive size, from a
                                              nonnegative real initial value;
  * `allReal_hostReduceAdd_single_apply` etc.: the two sums read at an index.
-/
import Idealize.ShloMosaic.PureOps.Ideal.Laws
import proofs.«125113_j88270167868072_2_alg».proof.Proof.LibFinite

noncomputable section

namespace Cert.LibFinite

open Idealize.ShloMosaic
open scoped BigOperators

/-- A positive real plus a nonnegative real is a positive real. -/
theorem IsPosReal.add_nonneg {x y : EReal} (hx : IsPosReal x) (hy : IsReal y) (hy0 : 0 ≤ y) : IsPosReal (x + y) := by
  rw [add_comm]; exact IsPosReal.nonneg_add hy hy0 hx

/-- `1 + max d 0` is a positive real when `d` is real. -/
theorem isPosReal_one_add_max_zero {d : EReal} (hd : IsReal d) : IsPosReal (1 + max d 0) :=
  IsPosReal.add_nonneg ⟨1, one_pos, rfl⟩ (hd.max isReal_zero) (le_max_right d 0)

/-- `c + max d z` is a positive real when `c` is a positive real, `d` is real and `z` is `0`. -/
theorem isPosReal_add_max {c d z : EReal} (hc : IsPosReal c) (hd : IsReal d) (hz : z = 0) : IsPosReal (c + max d z) := by
  subst hz; exact IsPosReal.add_nonneg hc (hd.max isReal_zero) (le_max_right d 0)

/-- A finite sum of positive reals over a nonempty set is a positive real. -/
theorem IsPosReal.sum {ι : Type*} (s : Finset ι) (hs : s.Nonempty) (f : ι → EReal) (h : ∀ i ∈ s, IsPosReal (f i)) :
    IsPosReal (∑ i ∈ s, f i) := by
  have e : ∑ i ∈ s, f i = ((∑ i ∈ s, (f i).toReal : ℝ) : EReal) := by
    rw [coe_finset_sum]
    exact Finset.sum_congr rfl fun i hi => ((h i hi).isReal.coe_toReal).symm
  rw [e]
  refine ⟨_, Finset.sum_pos (fun i hi => ?_) hs, rfl⟩
  obtain ⟨r, hr, hri⟩ := h i hi
  rw [hri, EReal.toReal_coe]; exact hr

/-- A sum of positive reals over `Fin n`, `n > 0`, is a positive real. -/
theorem IsPosReal.sum_fin {n : Nat} (hn : 0 < n) (f : Fin n → EReal) (h : ∀ k, IsPosReal (f k)) :
    IsPosReal (∑ k, f k) :=
  IsPosReal.sum Finset.univ ⟨⟨0, hn⟩, Finset.mem_univ _⟩ f fun k _ => h k

section Ops
variable {s t u : Shape} {φ : FTy}

/-- Positive reals divided by positive reals (a kernel's `arith.divf`). -/
theorem allPosReal_divf {x y : FVec Ideal s φ} (hx : AllPosReal x) (hy : AllPosReal y) : AllPosReal (divf x y) :=
  fun i => (hx i).div (hy i)
theorem allReal_divf_of_pos {x y : FVec Ideal s φ} (hx : AllReal x) (hy : AllPosReal y) : AllReal (divf x y) :=
  fun i => (hx i).div (hy i).isReal (hy i).ne_zero

/-- A kernel's sum over one axis, read at an index. -/
theorem multiReduction_add_single_apply {a : Fin s.rank} (src : FVec Ideal s φ) (acc : BitVec φ.bits)
    (h : s.Reduces [a] t) (hφ : FKind.Formats φ) (hacc : acc = FKind.add.neutral φ hφ) (j : t.Idx) :
    multiReduction .add [a] t src acc h hφ hacc j = ∑ k : Fin (s.size a), src (h.lift j k) :=
  Ideal.multiReduction_add_single src acc h hφ hacc j

/-- A kernel's sum over one axis of positive size of positive reals: positive reals. -/
theorem allPosReal_multiReduction_add_single {a : Fin s.rank} {src : FVec Ideal s φ} {acc : BitVec φ.bits}
    (h : s.Reduces [a] t) (hφ : FKind.Formats φ) (hacc : acc = FKind.add.neutral φ hφ) (hsz : 0 < s.size a)
    (hx : AllPosReal src) : AllPosReal (multiReduction .add [a] t src acc h hφ hacc) := by
  intro j
  rw [Ideal.multiReduction_add_single]
  exact IsPosReal.sum_fin hsz _ fun k => hx _

/-- The host's sum over one axis, read at an index. -/
theorem hostReduceAdd_single_apply {a : Fin s.rank} (x : FVec Ideal s φ) (init : u.Idx → Ideal φ)
    (h' : s.ReducesTo [a] t) (h : s.Reduces [a] t) (hu : 0 < u.numel) (j : t.Idx) :
    Host.reduceAdd x init h' hu j = init (Shape.Idx.first hu) + ∑ k : Fin (s.size a), x (h.lift j k) :=
  Ideal.hostReduceAdd_single h' h x _ j

/-- The host's sum over one axis of positive size of positive reals, from a nonnegative real initial
    value: positive reals. -/
theorem allPosReal_hostReduceAdd_single {a : Fin s.rank} {x : FVec Ideal s φ} {init : u.Idx → Ideal φ}
    (h' : s.ReducesTo [a] t) (h : s.Reduces [a] t) (hu : 0 < u.numel) (hsz : 0 < s.size a) (hx : AllPosReal x)
    (hi : AllReal init) (hi0 : ∀ i, 0 ≤ init i) : AllPosReal (Host.reduceAdd x init h' hu) := by
  intro j
  rw [hostReduceAdd_single_apply x init h' h hu j]
  exact IsPosReal.nonneg_add (hi _) (hi0 _) (IsPosReal.sum_fin hsz _ fun k => hx _)

end Ops

end Cert.LibFinite

end
-- ==== Proof.LibDualSoftmax.lean ====
/-
  Two softmaxes of one score array, computed whole or in tiles.

  A score array `a` has, along each axis, a maximum `m` and an exponential sum
  `s = ∑ exp (a - m)`; its softmax is `exp (a - m) / s`.  This file holds the facts that let a
  tiled computation of these be replaced by the whole-array one, on the extended reals with
  real leaves:

  * `isReal_sup_univ`      : the maximum of a nonempty finite family of reals is real
                             (it is one of the entries);
  * `sup_tiles`            : the maximum over the tiles of each tile's maximum is the maximum
                             over all entries (a lattice fact: no reals needed);
  * `isPosReal_exp`, `isPosReal_sum_exp` : an exponential of a real is a positive real, and so
                             is a nonempty finite sum of them;
  * `sum_exp_merge`        : the online-softmax merge,
                             `∑_t (∑_r exp (a (t,r) - m t)) · exp (m t - M) = ∑_p exp (a p - M)`,
                             for ANY real `m t`, `M`;
  * `fused_geomean`        : `exp (a - ½ (R + C)) · S^{-1/2} · T^{-1/2}
                               = √(exp (a - R) / S · (exp (a - C) / T))` for real `a R C` and
                             positive real `S T`;
  * `sum_tiles`            : a sum over all entries is the sum over the tiles of each tile's sum;
  * `sub_add_self_sq`      : `(x - (x + v)) · (x - (x + v)) = v · v` for real `x v`.
-/
import Idealize.ShloMosaic.PureOps.Ideal
import proofs.«125113_j88270167868072_2_alg».proof.Proof.LibFinite
import proofs.«125113_j88270167868072_2_alg».proof.Proof.LibFinitePos
import proofs.«125113_j88270167868072_2_alg».proof.Proof.LibLaws

noncomputable section

namespace Cert.LibDualSoftmax

open Idealize.ShloMosaic
open Cert.LibFinite Cert.LibLaws
open scoped BigOperators

/-! ### Maxima -/

/-- The maximum of a nonempty finite family of reals is real: it is one of the entries. -/
theorem isReal_sup {ι : Type*} (s : Finset ι) (hs : s.Nonempty) (f : ι → EReal) (hf : ∀ i ∈ s, IsReal (f i)) :
    IsReal (s.sup f) := by
  obtain ⟨i, hi, e⟩ := Finset.exists_mem_eq_sup s hs f
  rw [e]; exact hf i hi

/-- The same over a whole nonempty finite index type. -/
theorem isReal_sup_univ {ι : Type*} [Fintype ι] [Nonempty ι] (f : ι → EReal) (hf : AllReal f) :
    IsReal (Finset.univ.sup f) :=
  isReal_sup Finset.univ Finset.univ_nonempty f fun i _ => hf i

/-- The maximum over the tiles of each tile's maximum is the maximum over all entries, when every
    entry lies in some tile (`e` names entry `(t, r)` of the tiling). In any lattice with a least element. -/
theorem sup_tiles {α ι τ ρ : Type*} [SemilatticeSup α] [OrderBot α] [Fintype ι] [Fintype τ] [Fintype ρ]
    (e : τ × ρ ≃ ι) (f : ι → α) :
    (Finset.univ.sup fun t : τ => Finset.univ.sup fun r : ρ => f (e (t, r))) = Finset.univ.sup f := by
  apply le_antisymm
  · exact Finset.sup_le fun t _ => Finset.sup_le fun r _ => Finset.le_sup (Finset.mem_univ _)
  · refine Finset.sup_le fun p _ => ?_
    have hp : e ((e.symm p).1, (e.symm p).2) = p := by simp
    calc f p = f (e ((e.symm p).1, (e.symm p).2)) := by rw [hp]
      _ ≤ Finset.univ.sup fun r : ρ => f (e ((e.symm p).1, r)) :=
          Finset.le_sup (f := fun r : ρ => f (e ((e.symm p).1, r))) (Finset.mem_univ _)
      _ ≤ _ := Finset.le_sup (f := fun t : τ => Finset.univ.sup fun r : ρ => f (e (t, r))) (Finset.mem_univ _)

/-! ### Exponentials and their sums -/

/-- The exponential of a real is a positive real. -/
theorem isPosReal_exp {z : EReal} (hz : IsReal z) : IsPosReal (Ideal.exp z) := by
  obtain ⟨r, rfl⟩ := hz
  exact ⟨Real.exp r, Real.exp_pos r, rfl⟩

/-- The exponential of a difference of reals is a positive real. -/
theorem isPosReal_exp_sub {a m : EReal} (ha : IsReal a) (hm : IsReal m) : IsPosReal (Ideal.exp (a - m)) :=
  isPosReal_exp (ha.sub hm)

/-- A nonempty finite sum of exponentials of reals is a positive real. -/
theorem isPosReal_sum_exp {ι : Type*} [Fintype ι] [Nonempty ι] (a : ι → EReal) (ha : AllReal a) {m : EReal}
    (hm : IsReal m) : IsPosReal (∑ i, Ideal.exp (a i - m)) :=
  IsPosReal.sum Finset.univ Finset.univ_nonempty _ fun i _ => isPosReal_exp_sub (ha i) hm

/-- The online-softmax merge: a tile's exponential sum taken against the tile's own reference `m t`,
    rescaled by `exp (m t - M)`, is the tile's exponential sum against the common reference `M`; summed
    over the tiles it is the whole exponential sum. Any real references do (no maxima needed). -/
theorem sum_exp_merge {ι τ ρ : Type*} [Fintype ι] [Fintype τ] [Fintype ρ] (e : τ × ρ ≃ ι)
    (a : ι → EReal) (ha : AllReal a) (m : τ → EReal) (hm : AllReal m) {M : EReal} (hM : IsReal M) :
    (∑ t, (∑ r, Ideal.exp (a (e (t, r)) - m t)) * Ideal.exp (m t - M)) = ∑ p, Ideal.exp (a p - M) := by
  obtain ⟨b, rfl⟩ := (allReal_iff_exists a).mp ha
  obtain ⟨n, rfl⟩ := (allReal_iff_exists m).mp hm
  obtain ⟨N, rfl⟩ := hM
  simp only [← EReal.coe_sub, Ideal.exp_coe, ← coe_finset_sum, ← EReal.coe_mul]
  rw [EReal.coe_eq_coe_iff, ← e.sum_comp, Fintype.sum_prod_type]
  refine Finset.sum_congr rfl fun t _ => ?_
  rw [Finset.sum_mul]
  refine Finset.sum_congr rfl fun r _ => ?_
  rw [← Real.exp_add]; congr 1; ring

/-! ### The fused geometric mean -/

/-- On the reals: `e^{a - (R + C)/2} (√S)⁻¹ (√T)⁻¹ = √(e^{a-R}/S · (e^{a-C}/T))` for `S, T > 0`:
    the left side is nonnegative and its square is the radicand. -/
theorem real_fused_geomean (a R C : ℝ) {S T : ℝ} (hS : 0 < S) (hT : 0 < T) :
    Real.exp (a - 1 / 2 * (R + C)) * (Real.sqrt S)⁻¹ * (Real.sqrt T)⁻¹
      = Real.sqrt (Real.exp (a - R) / S * (Real.exp (a - C) / T)) := by
  have h0 : 0 ≤ Real.exp (a - 1 / 2 * (R + C)) * (Real.sqrt S)⁻¹ * (Real.sqrt T)⁻¹ := by positivity
  rw [← Real.sqrt_sq h0]
  congr 1
  have e2 : Real.exp (a - 1 / 2 * (R + C)) ^ 2 = Real.exp (a - R) * Real.exp (a - C) := by
    rw [sq, ← Real.exp_add, ← Real.exp_add]; congr 1; ring
  rw [mul_pow, mul_pow, inv_pow, inv_pow, Real.sq_sqrt hS.le, Real.sq_sqrt hT.le, e2]
  field_simp

/-- The fused weight is the literal one: for real `a R C` and positive real `S T`,
    `exp (a - ½ (R + C)) · rsqrt S · rsqrt T = √(exp (a - R) / S · (exp (a - C) / T))`. -/
theorem fused_geomean {a R C S T : EReal} (ha : IsReal a) (hR : IsReal R) (hC : IsReal C) (hS : IsPosReal S)
    (hT : IsPosReal T) :
    Ideal.exp (a - ((1 / 2 : ℝ) : EReal) * (R + C)) * Ideal.rsqrt S * Ideal.rsqrt T
      = Ideal.sqrt (Ideal.div (Ideal.exp (a - R)) S * Ideal.div (Ideal.exp (a - C)) T) := by
  obtain ⟨a, rfl⟩ := ha; obtain ⟨R, rfl⟩ := hR; obtain ⟨C, rfl⟩ := hC
  obtain ⟨S, hS, rfl⟩ := hS; obtain ⟨T, hT, rfl⟩ := hT
  have hrad : ¬ Real.exp (a - R) / S * (Real.exp (a - C) / T) < 0 := not_lt.mpr (by positivity)
  rw [rsqrt_coe_of_pos hS, rsqrt_coe_of_pos hT]
  simp only [← EReal.coe_add, ← EReal.coe_sub, ← EReal.coe_mul, Ideal.exp_coe, div_coe_coe _ hS.ne',
    div_coe_coe _ hT.ne']
  rw [Ideal.sqrt_coe, if_neg hrad, EReal.coe_eq_coe_iff]
  exact real_fused_geomean a R C hS hT

/-- The fused weight is a positive real. -/
theorem isPosReal_fused {a h R C S T : EReal} (ha : IsReal a) (hh : IsReal h) (hR : IsReal R) (hC : IsReal C)
    (hS : IsPosReal S) (hT : IsPosReal T) :
    IsPosReal (Ideal.exp (a - h * (R + C)) * Ideal.rsqrt S * Ideal.rsqrt T) :=
  ((isPosReal_exp (ha.sub (hh.mul (hR.add hC)))).mul hS.rsqrt).mul hT.rsqrt

/-! ### Sums -/

/-- A sum over all entries is the sum over the tiles of each tile's sum. In any commutative monoid. -/
theorem sum_tiles {β ι τ ρ : Type*} [AddCommMonoid β] [Fintype ι] [Fintype τ] [Fintype ρ] (e : τ × ρ ≃ ι)
    (f : ι → β) : (∑ t, ∑ r, f (e (t, r))) = ∑ p, f p := by
  rw [← e.sum_comp, Fintype.sum_prod_type]

/-- `(x - (x + v))² = v²` for real `x`, `v`. -/
theorem sub_add_self_sq {x v : EReal} (hx : IsReal x) (hv : IsReal v) :
    (x - (x + v)) * (x - (x + v)) = v * v := by
  obtain ⟨x, rfl⟩ := hx; obtain ⟨v, rfl⟩ := hv
  ereal_ring

end Cert.LibDualSoftmax

end
-- ==== Proof.LibFiniteLits.lean ====
/-
  The binary32 literals of a graph-network / normalisation pipeline, read as extended reals:
  each denotes a real number, and the two small ones a POSITIVE real.

  * `0x00000000` is `0`, `0x3F800000` is `1`, `0x40000000` is `2`, `0x47C35000` is `100000`;
  * `0x2B8CBCCC` is `9223372 · 2⁻⁶³` (the binary32 nearest `10⁻¹²`), positive;
  * `0x3727C5AC` is `10995116 · 2⁻⁴⁰` (the binary32 nearest `10⁻⁵`), positive;
  * `0x7FC00000` (a NaN pattern) is `⊥`: NOT real.
-/
import proofs.«125113_j88270167868072_2_alg».proof.Proof.LibFinite

noncomputable section

namespace Cert.LibFinite

open Idealize.ShloMosaic

theorem ofBits_f32_zero : Ideal.ofBits .f32 0x00000000#32 = 0 := by simp [Ideal.ofBits, Ideal.ieee]
theorem ofBits_f32_one : Ideal.ofBits .f32 0x3F800000#32 = 1 := by
  simp [Ideal.ofBits, Ideal.ieee, -EReal.coe_mul]; norm_num
theorem ofBits_f32_two : Ideal.ofBits .f32 0x40000000#32 = ((2 : ℝ) : EReal) := by
  simp [Ideal.ofBits, Ideal.ieee, -EReal.coe_mul]; norm_num
theorem ofBits_f32_1e5 : Ideal.ofBits .f32 0x47C35000#32 = ((100000 : ℝ) : EReal) := by
  simp [Ideal.ofBits, Ideal.ieee, -EReal.coe_mul]; norm_num
theorem ofBits_f32_1em12 : Ideal.ofBits .f32 0x2B8CBCCC#32 = ((9223372 * (2 : ℝ) ^ (-63 : ℤ) : ℝ) : EReal) := by
  simp [Ideal.ofBits, Ideal.ieee, -EReal.coe_mul]
theorem ofBits_f32_1em5 : Ideal.ofBits .f32 0x3727C5AC#32 = ((10995116 * (2 : ℝ) ^ (-40 : ℤ) : ℝ) : EReal) := by
  simp [Ideal.ofBits, Ideal.ieee, -EReal.coe_mul]
theorem ofBits_f32_nan : Ideal.ofBits .f32 0x7FC00000#32 = ⊥ := by simp [Ideal.ofBits, Ideal.ieee]

theorem isReal_ofBits_zero : IsReal (Ideal.ofBits .f32 0x00000000#32) := ofBits_f32_zero ▸ isReal_zero
theorem isReal_ofBits_one : IsReal (Ideal.ofBits .f32 0x3F800000#32) := ofBits_f32_one ▸ isReal_one
theorem isPosReal_ofBits_one : IsPosReal (Ideal.ofBits .f32 0x3F800000#32) := ⟨1, one_pos, ofBits_f32_one⟩
theorem isPosReal_ofBits_two : IsPosReal (Ideal.ofBits .f32 0x40000000#32) := ⟨2, two_pos, ofBits_f32_two⟩
theorem isPosReal_ofBits_1e5 : IsPosReal (Ideal.ofBits .f32 0x47C35000#32) := ⟨100000, by norm_num, ofBits_f32_1e5⟩
theorem isPosReal_ofBits_1em12 : IsPosReal (Ideal.ofBits .f32 0x2B8CBCCC#32) := ⟨_, by positivity, ofBits_f32_1em12⟩
theorem isPosReal_ofBits_1em5 : IsPosReal (Ideal.ofBits .f32 0x3727C5AC#32) := ⟨_, by positivity, ofBits_f32_1em5⟩
theorem isReal_ofBits_two : IsReal (Ideal.ofBits .f32 0x40000000#32) := isPosReal_ofBits_two.isReal
theorem isReal_ofBits_1e5 : IsReal (Ideal.ofBits .f32 0x47C35000#32) := isPosReal_ofBits_1e5.isReal
theorem isReal_ofBits_1em12 : IsReal (Ideal.ofBits .f32 0x2B8CBCCC#32) := isPosReal_ofBits_1em12.isReal
theorem isReal_ofBits_1em5 : IsReal (Ideal.ofBits .f32 0x3727C5AC#32) := isPosReal_ofBits_1em5.isReal
theorem ofBits_1e5_ne_zero : Ideal.ofBits .f32 0x47C35000#32 ≠ 0 := isPosReal_ofBits_1e5.ne_zero

end Cert.LibFinite

end
-- ==== Proof.DriftMathA.lean ====
/-
  The two arrangements of the drifting field agree on real inputs (the loss itself is in the next module).

  Every intermediate quantity is real: squared norms, inner products, clipped squared distances and their
  square roots, the scores (a real divided by the nonzero real 0.2), the row and column maxima (a maximum of
  finitely many reals is one of them) and the exponential sums (positive reals). Then

  * the maximum over the 16 tiles of each tile's column maximum is the column maximum;
  * the merged exponential sum `∑_t lsum t · exp (lmax t - cmax)` is the column's exponential sum;
  * the fused weight `exp (a - ½ (rmax + cmax)) · rsum^{-1/2} · csum^{-1/2}` is the geometric mean
    `√(exp (a - rmax) / rsum · (exp (a - cmax) / csum))` of the two softmaxes;

  so the two drifting fields are the same real array `V`, `(x - (x + V))² = V²` entry by entry, and the
  sum over 16 tiles of 256 rows is the sum over the 4096 rows.
-/
import Idealize.ShloMosaic.PureOps.Ideal
import proofs.«125113_j88270167868072_2_alg».proof.Proof.DriftSpec
import proofs.«125113_j88270167868072_2_alg».proof.Proof.LibFinite
import proofs.«125113_j88270167868072_2_alg».proof.Proof.LibFinitePos
import proofs.«125113_j88270167868072_2_alg».proof.Proof.LibLaws
import proofs.«125113_j88270167868072_2_alg».proof.Proof.LibFiniteLits
import proofs.«125113_j88270167868072_2_alg».proof.Proof.LibDualSoftmax

noncomputable section

namespace Cert.DriftMath

open Idealize.ShloMosaic
open Cert.LibFinite Cert.LibLaws Cert.LibDualSoftmax
open scoped BigOperators

/-! ### The literals -/

/-- `0x3E4CCCCD` is `13421773 · 2⁻²⁶`, the binary32 nearest `0.2`. -/
theorem cFifth_eq : DriftSpec.cFifth = ((13421773 * (2 : ℝ) ^ (-26 : ℤ) : ℝ) : EReal) := by
  simp [Ideal.ofBits, Ideal.ieee, -EReal.coe_mul]
/-- `0x49742400` is `10⁶`. -/
theorem cBig_eq : DriftSpec.cBig = ((1000000 : ℝ) : EReal) := by
  simp [Ideal.ofBits, Ideal.ieee, -EReal.coe_mul]; norm_num
/-- `0x3F000000` is `1/2`. -/
theorem cHalf_eq : DriftSpec.cHalf = ((1 / 2 : ℝ) : EReal) := by
  simp [Ideal.ofBits, Ideal.ieee, -EReal.coe_mul]; norm_num

theorem isReal_cTwo : IsReal DriftSpec.cTwo := isReal_ofBits_two
theorem isPosReal_cFifth : IsPosReal DriftSpec.cFifth := ⟨_, by positivity, cFifth_eq⟩
theorem isReal_cBig : IsReal DriftSpec.cBig := ⟨_, cBig_eq⟩
theorem isReal_cHalf : IsReal DriftSpec.cHalf := ⟨_, cHalf_eq⟩

/-! ### The tiling of the rows -/

/-- The 4096 rows are the 16 tiles of 256 rows: row `256 t + r` is row `r` of tile `t`. -/
def rowEquiv : Fin 16 × Fin 256 ≃ Fin 4096 where
  toFun tr := DriftSpec.row tr.1 tr.2
  invFun p := (⟨p.val / 256, by omega⟩, ⟨p.val % 256, by omega⟩)
  left_inv := by
    rintro ⟨t, r⟩
    apply Prod.ext <;> apply Fin.ext <;> simp only [DriftSpec.row] <;> omega
  right_inv := by
    intro p
    apply Fin.ext; simp only [DriftSpec.row]; omega

theorem rowEquiv_apply (t : Fin 16) (r : Fin 256) : rowEquiv (t, r) = DriftSpec.row t r := rfl

/-- The folded maximum is the finite supremum. -/
theorem supF_eq_sup {n : ℕ} (f : Fin n → EReal) : DriftSpec.supF f = Finset.univ.sup f := rfl

/-- The maximum of a nonempty finite family of reals is real. -/
theorem isReal_supF {n : ℕ} [NeZero n] (f : Fin n → EReal) (hf : AllReal f) : IsReal (DriftSpec.supF f) := by
  rw [supF_eq_sup]; exact isReal_sup_univ f hf

/-! ### Everything is real -/

section Real

variable {u v : Fin 4096 → Fin 128 → EReal}

theorem isReal_nrm (hu : ∀ p q, IsReal (u p q)) (p : Fin 4096) : IsReal (DriftSpec.nrm u p) :=
  IsReal.sum _ _ fun q _ => (hu p q).mul (hu p q)

theorem isReal_dot (hu : ∀ p q, IsReal (u p q)) (hv : ∀ p q, IsReal (v p q)) (p j : Fin 4096) :
    IsReal (DriftSpec.dot u v p j) :=
  IsReal.sum _ _ fun q _ => (hu p q).mul (hv j q)

theorem isReal_d2 (hu : ∀ p q, IsReal (u p q)) (hv : ∀ p q, IsReal (v p q)) (p j : Fin 4096) :
    IsReal (DriftSpec.d2 u v p j) :=
  (((isReal_nrm hu p).add (isReal_nrm hv j)).sub (isReal_cTwo.mul (isReal_dot hu hv p j))).max isReal_zero

/-- The square root of a positive real is real; elsewhere the distance is `0`. -/
theorem isReal_dist {z : EReal} (hz : IsReal z) : IsReal (DriftSpec.dist z) := by
  obtain ⟨r, rfl⟩ := hz
  unfold DriftSpec.dist
  split_ifs with h
  · have hr : 0 < r := EReal.coe_pos.mp h
    rw [Ideal.sqrt_coe, if_neg (not_lt.mpr hr.le)]; exact isReal_coe _
  · exact isReal_zero

end Real

section Scores

variable {x y : Fin 4096 → Fin 128 → EReal}

theorem isReal_dpos (hx : ∀ p q, IsReal (x p q)) (hy : ∀ p q, IsReal (y p q)) (p j : Fin 4096) :
    IsReal (DriftSpec.dpos x y p j) := isReal_dist (isReal_d2 hx hy p j)

theorem isReal_dneg (hx : ∀ p q, IsReal (x p q)) (p j : Fin 4096) : IsReal (DriftSpec.dneg x p j) := by
  have h : IsReal (DriftSpec.dnegRaw x p j) := isReal_dist (isReal_d2 hx hx p j)
  unfold DriftSpec.dneg
  split_ifs
  · exact h.add isReal_cBig
  · exact h

theorem isReal_apos (hx : ∀ p q, IsReal (x p q)) (hy : ∀ p q, IsReal (y p q)) (p j : Fin 4096) :
    IsReal (DriftSpec.apos x y p j) :=
  (isReal_dpos hx hy p j).neg.div isPosReal_cFifth.isReal isPosReal_cFifth.ne_zero

theorem isReal_aneg (hx : ∀ p q, IsReal (x p q)) (p j : Fin 4096) : IsReal (DriftSpec.aneg x p j) :=
  (isReal_dneg hx p j).neg.div isPosReal_cFifth.isReal isPosReal_cFifth.ne_zero

theorem isReal_rmax (hx : ∀ p q, IsReal (x p q)) (hy : ∀ p q, IsReal (y p q)) (p : Fin 4096) :
    IsReal (DriftSpec.rmax x y p) :=
  (isReal_supF _ fun j => isReal_apos hx hy p j).max (isReal_supF _ fun j => isReal_aneg hx p j)

theorem isPosReal_rsum (hx : ∀ p q, IsReal (x p q)) (hy : ∀ p q, IsReal (y p q)) (p : Fin 4096) :
    IsPosReal (DriftSpec.rsum x y p) :=
  (isPosReal_sum_exp _ (fun j => isReal_apos hx hy p j) (isReal_rmax hx hy p)).add
    (isPosReal_sum_exp _ (fun j => isReal_aneg hx p j) (isReal_rmax hx hy p))

end Scores

/-! ### A column's maximum and exponential sum, whole and tiled -/

section Columns

variable {a : Fin 4096 → Fin 4096 → EReal}

theorem isReal_cmax (ha : ∀ p j, IsReal (a p j)) (j : Fin 4096) : IsReal (DriftSpec.cmax a j) :=
  isReal_supF _ fun p => ha p j

theorem isReal_lmax (ha : ∀ p j, IsReal (a p j)) (t : Fin 16) (j : Fin 4096) : IsReal (DriftSpec.lmax a t j) :=
  isReal_supF _ fun r => ha (DriftSpec.row t r) j

/-- The maximum over the tiles of the tiles' maxima is the column's maximum. -/
theorem cmaxK_eq (a : Fin 4096 → Fin 4096 → EReal) (j : Fin 4096) : DriftSpec.cmaxK a j = DriftSpec.cmax a j :=
  sup_tiles rowEquiv fun p => a p j

theorem isPosReal_csum (ha : ∀ p j, IsReal (a p j)) (j : Fin 4096) : IsPosReal (DriftSpec.csum a j) :=
  isPosReal_sum_exp _ (fun p => ha p j) (isReal_cmax ha j)

/-- The merged exponential sum is the column's exponential sum. -/
theorem csumK_eq (ha : ∀ p j, IsReal (a p j)) (j : Fin 4096) : DriftSpec.csumK a j = DriftSpec.csum a j := by
  unfold DriftSpec.csumK DriftSpec.lsum DriftSpec.csum
  rw [cmaxK_eq]
  exact sum_exp_merge rowEquiv (fun p => a p j) (fun p => ha p j) (fun t => DriftSpec.lmax a t j)
    (fun t => isReal_lmax ha t j) (isReal_cmax ha j)

end Columns

/-! ### The weights and the field -/

section Field

variable {x y : Fin 4096 → Fin 128 → EReal} {a : Fin 4096 → Fin 4096 → EReal}

/-- The tiled weight is the whole-array weight. -/
theorem softK_eq (hx : ∀ p q, IsReal (x p q)) (hy : ∀ p q, IsReal (y p q)) (ha : ∀ p j, IsReal (a p j))
    (p j : Fin 4096) : DriftSpec.softK x y a p j = DriftSpec.softR x y a p j := by
  unfold DriftSpec.softK DriftSpec.softR
  rw [cmaxK_eq, csumK_eq ha, cHalf_eq]
  exact fused_geomean (ha p j) (isReal_rmax hx hy p) (isReal_cmax ha j) (isPosReal_rsum hx hy p)
    (isPosReal_csum ha j)

/-- The whole-array weight is real. -/
theorem isReal_softR (hx : ∀ p q, IsReal (x p q)) (hy : ∀ p q, IsReal (y p q)) (ha : ∀ p j, IsReal (a p j))
    (p j : Fin 4096) : IsReal (DriftSpec.softR x y a p j) := by
  rw [← softK_eq hx hy ha]
  unfold DriftSpec.softK
  rw [cmaxK_eq, csumK_eq ha]
  exact (isPosReal_fused (ha p j) isReal_cHalf (isReal_rmax hx hy p) (isReal_cmax ha j) (isPosReal_rsum hx hy p)
    (isPosReal_csum ha j)).isReal

/-- The field of two real weight arrays is real. -/
theorem isReal_field {sp sn : Fin 4096 → Fin 4096 → EReal} (hx : ∀ p q, IsReal (x p q))
    (hy : ∀ p q, IsReal (y p q)) (hsp : ∀ p j, IsReal (sp p j)) (hsn : ∀ p j, IsReal (sn p j))
    (p : Fin 4096) (q : Fin 128) : IsReal (DriftSpec.field x y sp sn p q) := by
  have hSp : IsReal (∑ k : Fin 4096, sp p k) := IsReal.sum _ _ fun k _ => hsp p k
  have hSn : IsReal (∑ k : Fin 4096, sn p k) := IsReal.sum _ _ fun k _ => hsn p k
  exact (IsReal.sum _ _ fun j _ => ((hsp p j).mul hSn).mul (hy j q)).sub
    (IsReal.sum _ _ fun j _ => ((hsn p j).mul (hSp.mul hSn)).mul (hx j q))

/-- The two fields are the same array. -/
theorem fieldK_eq (hx : ∀ p q, IsReal (x p q)) (hy : ∀ p q, IsReal (y p q)) :
    DriftSpec.fieldK x y = DriftSpec.fieldR x y := by
  have hp : DriftSpec.softK x y (DriftSpec.apos x y) = DriftSpec.softR x y (DriftSpec.apos x y) :=
    funext fun p => funext fun j => softK_eq hx hy (isReal_apos hx hy) p j
  have hn : DriftSpec.softK x y (DriftSpec.aneg x) = DriftSpec.softR x y (DriftSpec.aneg x) :=
    funext fun p => funext fun j => softK_eq hx hy (isReal_aneg hx) p j
  unfold DriftSpec.fieldK DriftSpec.fieldR
  rw [hp, hn]

theorem isReal_fieldR (hx : ∀ p q, IsReal (x p q)) (hy : ∀ p q, IsReal (y p q)) (p : Fin 4096) (q : Fin 128) :
    IsReal (DriftSpec.fieldR x y p q) :=
  isReal_field hx hy (isReal_softR hx hy (isReal_apos hx hy)) (isReal_softR hx hy (isReal_aneg hx)) p q

end Field

end Cert.DriftMath

end
-- ==== Proof.DriftMath.lean ====
/-
  The two arrangements of the drifting-field loss agree on real inputs.

  The two drifting fields are the same real array `V` (previous module); entry by entry
  `(x - (x + V))² = V²`, and the sum over 16 tiles of 256 rows is the sum over the 4096 rows.
-/
import Idealize.ShloMosaic.PureOps.Ideal
import proofs.«125113_j88270167868072_2_alg».proof.Proof.DriftSpec
import proofs.«125113_j88270167868072_2_alg».proof.Proof.LibFinite
import proofs.«125113_j88270167868072_2_alg».proof.Proof.LibLaws
import proofs.«125113_j88270167868072_2_alg».proof.Proof.LibDualSoftmax
import proofs.«125113_j88270167868072_2_alg».proof.Proof.DriftMathA

noncomputable section

namespace Cert.DriftMath

open Idealize.ShloMosaic
open Cert.LibFinite Cert.LibLaws Cert.LibDualSoftmax
open scoped BigOperators

/-- The sum of the squares of an array, tile by tile, is the sum over all rows. -/
theorem sum_sq_tiles (F : Fin 4096 → Fin 128 → EReal) :
    (∑ t : Fin 16, ∑ r : Fin 256, ∑ q : Fin 128, F (DriftSpec.row t r) q * F (DriftSpec.row t r) q)
      = ∑ p : Fin 4096, ∑ q : Fin 128, F p q * F p q :=
  sum_tiles rowEquiv fun p => ∑ q : Fin 128, F p q * F p q

/-- For real `x` and `V` the sum of `(x - (x + V))²` is the sum of `V²`. -/
theorem sum_sq_shift {x V : Fin 4096 → Fin 128 → EReal} (hx : ∀ p q, IsReal (x p q)) (hV : ∀ p q, IsReal (V p q)) :
    (∑ p : Fin 4096, ∑ q : Fin 128, (x p q - (x p q + V p q)) * (x p q - (x p q + V p q)))
      = ∑ p : Fin 4096, ∑ q : Fin 128, V p q * V p q :=
  Finset.sum_congr rfl fun p _ => Finset.sum_congr rfl fun q _ => sub_add_self_sq (hx p q) (hV p q)

/-- On real inputs the tiled arrangement of the loss equals the whole-array arrangement. -/
theorem lossK_eq_lossR (x y : Fin 4096 → Fin 128 → EReal)
    (hx : ∀ p q, Cert.LibFinite.IsReal (x p q)) (hy : ∀ p q, Cert.LibFinite.IsReal (y p q)) :
    Cert.DriftSpec.lossK x y = Cert.DriftSpec.lossR x y := by
  have hV : ∀ p q, IsReal (DriftSpec.fieldR x y p q) := isReal_fieldR hx hy
  have hsum : (∑ t : Fin 16, ∑ r : Fin 256, ∑ q : Fin 128,
        DriftSpec.fieldK x y (DriftSpec.row t r) q * DriftSpec.fieldK x y (DriftSpec.row t r) q)
      = ∑ p : Fin 4096, ∑ q : Fin 128,
          (x p q - (x p q + DriftSpec.fieldR x y p q)) * (x p q - (x p q + DriftSpec.fieldR x y p q)) := by
    rw [fieldK_eq hx hy, sum_sq_tiles, sum_sq_shift hx hV]
  exact congrArg (fun z => Ideal.div z DriftSpec.cCount) hsum

end Cert.DriftMath

end
-- ==== Proof.FinitePre.lean ====
/-
  From the precondition "every float input is finite" to "every entry of every argument array is real".

  The precondition is the conjunction, over the eight argument arrays, of "all entries satisfy `|x| < +∞`", stated
  as: the `and` over all entries of the comparison of `max x (-x)` with the word `0x7F800000` is `1`. That word
  denotes `⊤`; an `and` that is `1` met only `1`s; and `max x (-x) < ⊤` excludes both `x = ⊤` and `x = ⊥`.
-/
import Idealize.ShloMosaic.PureOps.Ideal
import Idealize.ShloMosaic.Lib.ReduceAll
import Idealize.ShloMosaic.Lib.ValueIdx
import proofs.«125113_j88270167868072_2_alg».proof.Defs
import proofs.«125113_j88270167868072_2_alg».proof.Proof.Gen.Pre_finite_inputs
import proofs.«125113_j88270167868072_2_alg».proof.Proof.LibFinite

noncomputable section

namespace Cert.DriftFinite

open Idealize.ShloMosaic Idealize.ShloMosaic.ValueIdx Idealize.SL.Sem
open Cert.LibFinite Cert.Pre_finite_inputs

/-- A rank-0 shape has one index. -/
instance subsingleton_S_Idx : Subsingleton S_.Idx := ⟨fun a b => funext fun d => d.elim0⟩

/-- `0x7F800000` is `+∞`. -/
theorem ofBits_f32_inf : Ideal.ofBits .f32 0x7F800000#32 = ⊤ := by simp [Ideal.ofBits, Ideal.ieee]

/-- `|x| < +∞` makes `x` real: `x ≤ max x (-x) < ⊤` and `-x ≤ max x (-x) < ⊤`. -/
theorem isReal_of_abs_lt_top {x : EReal} (h : max x (-x) < ⊤) : IsReal x :=
  (isReal_iff x).mpr ⟨ne_of_lt (lt_of_le_of_lt (le_max_left _ _) h), fun hb => by
    have h2 : -x < ⊤ := lt_of_le_of_lt (le_max_right _ _) h
    rw [hb, EReal.neg_bot] at h2
    exact lt_irrefl _ h2⟩

/-- An entry whose comparison `|x| < +∞` came out `1` is real. -/
theorem isReal_of_cmp_abs_inf {s : Shape} {dims : Fin S_.rank → Fin s.rank} (bc : S_.BroadcastsInDim s dims)
    (x : FVec Ideal s .f32) (i : s.Idx)
    (h : cmpf .olt (Host.absf x) (broadcastInDim s dims bc (constant S_ .f32 0x7F800000#32)) i = 1#1) :
    IsReal (x i) := by
  change BitVec.ofBool (decide (max (x i) (-(x i)) < Ideal.ofBits .f32 0x7F800000#32)) = 1#1 at h
  rw [ofBits_f32_inf] at h
  apply isReal_of_abs_lt_top
  by_contra hn
  rw [decide_eq_false hn] at h
  exact absurd h (by decide)

/-- An array whose `and` over all entries of `|x| < +∞` came out `1` is real. -/
theorem allReal_of_all_finite {s : Shape} {dims : Fin S_.rank → Fin s.rank} {axes : List (Fin s.rank)}
    (bc : S_.BroadcastsInDim s dims) (red : s.ReducesTo axes S_) (hS : 0 < S_.numel) (x : FVec Ideal s .f32)
    (h : Host.reduce IntOp.andi (cmpf .olt (Host.absf x) (broadcastInDim s dims bc (constant S_ .f32 0x7F800000#32)))
      (constantI S_ 1 1#1) red hS ix0 = 1#1) : AllReal x :=
  fun i => isReal_of_cmp_abs_inf bc x i (Host.reduce_andi_all _ _ red hS ix0 h i)

/-- The precondition's function at the extended reals: all ones means all eight arrays are real. -/
theorem fn_real [Facts] (a0 a1 : FVec Ideal S4096x128 .f32) (a2 : FVec Ideal S512x128 .f32) (a3 : FVec Ideal S512 .f32)
    (a4 : FVec Ideal S4x512x512 .f32) (a5 : FVec Ideal S4x512 .f32) (a6 : FVec Ideal S128x512 .f32)
    (a7 : FVec Ideal S128 .f32)
    (h : Cert.Pre_finite_inputs.fn (F := Ideal) a0 a1 a2 a3 a4 a5 a6 a7 = fun _ => 1#1) :
    AllReal a0 ∧ AllReal a1 ∧ AllReal a2 ∧ AllReal a3 ∧ AllReal a4 ∧ AllReal a5 ∧ AllReal a6 ∧ AllReal a7 := by
  have h0 := congrFun h ix0
  dsimp only [Cert.Pre_finite_inputs.fn, Cert.Pre_finite_inputs.fn_part1, Cert.Pre_finite_inputs.fn_part2] at h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨allReal_of_all_finite _ _ _ a0 h0, allReal_of_all_finite _ _ _ a1 h1, allReal_of_all_finite _ _ _ a2 h2,
    allReal_of_all_finite _ _ _ a3 h3, allReal_of_all_finite _ _ _ a4 h4, allReal_of_all_finite _ _ _ a5 h5,
    allReal_of_all_finite _ _ _ a6 h6, allReal_of_all_finite _ _ _ a7 h7⟩

/-- Under the certificate's precondition every entry of every argument array is real, on every device. -/
theorem args_real (m : (ℓ : Loc Cert.KernelIdeal.nD Cert.KernelIdeal.τ Cert.KernelIdeal.sig) → Buf (Elt Ideal) ℓ)
    (hpre : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg1))
    ∧ AllReal (m ((c.tc : Thread Cert.KernelIdeal.nD Cert.KernelIdeal.τ).loc Cert.KernelIdeal.main_arg2))
    ∧ AllReal (m ((c.tc : Thread Cert.KernelIdeal.nD Cert.KernelIdeal.τ).loc Cert.KernelIdeal.main_arg3))
    ∧ AllReal (m ((c.tc : Thread Cert.KernelIdeal.nD Cert.KernelIdeal.τ).loc Cert.KernelIdeal.main_arg4))
    ∧ AllReal (m ((c.tc : Thread Cert.KernelIdeal.nD Cert.KernelIdeal.τ).loc Cert.KernelIdeal.main_arg5))
    ∧ AllReal (m ((c.tc : Thread Cert.KernelIdeal.nD Cert.KernelIdeal.τ).loc Cert.KernelIdeal.main_arg6))
    ∧ AllReal (m ((c.tc : Thread Cert.KernelIdeal.nD Cert.KernelIdeal.τ).loc Cert.KernelIdeal.main_arg7)) :=
  fn_real _ _ _ _ _ _ _ _ (hpre c)

end Cert.DriftFinite

end
-- ==== Proof.GenReal.lean ====
/-
  The generator network of real inputs is real.

  Every entry of a product of rows against columns is a finite sum of products of reals; a bias added, a maximum
  with the real `0` taken, a residual added: all stay real. Transposing, taking one matrix of a stack or one row of
  a matrix only re-indexes.
-/
import Idealize.ShloMosaic.PureOps.Ideal
import proofs.«125113_j88270167868072_2_alg».proof.Proof.GenSpec
import proofs.«125113_j88270167868072_2_alg».proof.Proof.LibFinite
import proofs.«125113_j88270167868072_2_alg».proof.Proof.LibFiniteLits

noncomputable section

namespace Cert.DriftFinite

open Idealize.ShloMosaic Idealize.ShloMosaic.ValueIdx
open Cert.LibFinite Cert.Sage Cert.DriftGen
open scoped BigOperators

variable {n k c : Nat}

/-- The float zero is the real `0`. -/
theorem isReal_zeroF : IsReal zeroF := isReal_ofBits_zero

/-- Rows against columns of real matrices: every entry is a finite sum of products of reals. -/
theorem allReal_rowsMul {a : Arr2 n k} {W : Arr2 k c} (ha : AllReal a) (hW : AllReal W) : AllReal (rowsMul a W) := by
  intro i
  unfold rowsMul
  exact IsReal.sum _ _ fun q _ => (ha _).mul (hW _)

/-- A linear head of real arrays is real. -/
theorem allReal_head {h : Arr2 n k} {W : Arr2 k c} {b : Arr1 c} (hh : AllReal h) (hW : AllReal W) (hb : AllReal b) :
    AllReal (head h W b) := by
  intro i
  unfold head
  exact (allReal_rowsMul hh hW i).add (hb _)

/-- The transpose re-indexes. -/
theorem allReal_tr {W : Arr2 c k} (hW : AllReal W) : AllReal (tr W) := fun _ => hW _

/-- One matrix of a stack re-indexes. -/
theorem allReal_slab {a b d : Nat} (l : Fin a) {W : Arr3 a b d} (hW : AllReal W) : AllReal (slab l W) := fun _ => hW _

/-- One row of a matrix re-indexes. -/
theorem allReal_vrow {a b : Nat} (l : Fin a) {B : Arr2 a b} (hB : AllReal B) : AllReal (vrow l B) := fun _ => hB _

/-- A residual block `h + max (h·W + b) 0` of real arrays is real. -/
theorem allReal_resid {h : Arr2 n k} {W : Arr2 k k} {b : Arr1 k} (hh : AllReal h) (hW : AllReal W) (hb : AllReal b) :
    AllReal (resid h W b) := by
  intro i
  unfold resid
  exact (hh i).add (((allReal_rowsMul hh hW i).add (hb _)).max isReal_zeroF)

/-- The generator network of real inputs and real parameters is real. -/
theorem gen_real {n : Nat} (eps : Arr2 n 128) (Win : Arr2 512 128) (bin : Arr1 512) (Wblk : Arr3 4 512 512)
    (bblk : Arr2 4 512) (Wout : Arr2 128 512) (bout : Arr1 128) (heps : AllReal eps) (hWin : AllReal Win)
    (hbin : AllReal bin) (hWblk : AllReal Wblk) (hbblk : AllReal bblk) (hWout : AllReal Wout) (hbout : AllReal bout) :
    AllReal (Cert.DriftGen.gen eps Win bin Wblk bblk Wout bout) := by
  unfold Cert.DriftGen.gen
  have h0 := allReal_head heps (allReal_tr hWin) hbin
  have h1 := allReal_resid h0 (allReal_tr (allReal_slab 0 hWblk)) (allReal_vrow 0 hbblk)
  have h2 := allReal_resid h1 (allReal_tr (allReal_slab 1 hWblk)) (allReal_vrow 1 hbblk)
  have h3 := allReal_resid h2 (allReal_tr (allReal_slab 2 hWblk)) (allReal_vrow 2 hbblk)
  have h4 := allReal_resid h3 (allReal_tr (allReal_slab 3 hWblk)) (allReal_vrow 3 hbblk)
  exact allReal_head h4 (allReal_tr hWout) hbout

end Cert.DriftFinite

end
-- ==== Proof.Algebraic.lean ====
/-
  The value conjunct. Both programs run (the kernel's run names its result as the last boundary's contents at the
  result buffer; the reference's generated run names its result's term); what is left is ONE equation between two
  scalars: the kernel's tiled loss of the launch arrays equals the reference's whole-array loss of the same arrays.
-/
import proofs.«125113_j88270167868072_2_alg».proof.Defs
import proofs.«125113_j88270167868072_2_alg».proof.Proof.KernelRun
import proofs.«125113_j88270167868072_2_alg».proof.Proof.Gen.KernelIdeal
import proofs.«125113_j88270167868072_2_alg».proof.Proof.Gen.ReferenceIdeal
import proofs.«125113_j88270167868072_2_alg».proof.Proof.Gen.Pre_finite_inputs
import proofs.«125113_j88270167868072_2_alg».proof.Proof.RefRun
import proofs.«125113_j88270167868072_2_alg».proof.Proof.RefFold
import proofs.«125113_j88270167868072_2_alg».proof.Proof.RefTail
import proofs.«125113_j88270167868072_2_alg».proof.Proof.GenRef
import proofs.«125113_j88270167868072_2_alg».proof.Proof.KernelValue
import proofs.«125113_j88270167868072_2_alg».proof.Proof.DriftMath
import proofs.«125113_j88270167868072_2_alg».proof.Proof.FinitePre
import proofs.«125113_j88270167868072_2_alg».proof.Proof.GenReal

noncomputable section

namespace Cert.Drift

open Idealize.ShloMosaic Idealize.ShloMosaic.TcCoe Idealize.SL.Sem

/-- The two results are one extended real: the tiled loss the kernel's segments compute from the launch arrays is the
    whole-array loss the reference's operations compute from the same arrays, when every input entry is real. -/
theorem result_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.ValueP.res_main_v158 (F := Ideal) m' c
      = Cert.KernelIdeal.Gen.W6 (F := Ideal) m ρ c (Proc.devRef .tc Cert.KernelIdeal.main_v31) := by
  obtain ⟨r0, r1, r2, r3, r4, r5, r6, r7⟩ := Cert.DriftFinite.args_real m hpre c
  have hx : ∀ p q, Cert.LibFinite.IsReal (Cert.KernelIdeal.Drift.xs m c p q) := fun p q =>
    Cert.DriftFinite.gen_real _ _ _ _ _ _ _ r1 r2 r3 r4 r5 r6 r7 (Idealize.ShloMosaic.ValueIdx.ix2 p q)
  have hy : ∀ p q, Cert.LibFinite.IsReal (Cert.KernelIdeal.Drift.ys m c p q) := fun p q =>
    r0 (Idealize.ShloMosaic.ValueIdx.ix2 p q)
  rw [Cert.ReferenceIdeal.ReadP.val_main_v158_eq m' c, h0, h1, h2, h3, h4, h5, h6, h7, Cert.KernelIdeal.Drift.value m ρ c]
  funext i
  rw [Cert.ReferenceIdeal.RefTail.val_main_v158_eq_lossR, Cert.ReferenceIdeal.GenRef.v53_gen]
  exact (Cert.DriftMath.lossK_eq_lossR (Cert.KernelIdeal.Drift.xs m c) (Cert.KernelIdeal.Drift.ys m c) hx hy).symm

theorem algebraic : Cert.algebraic_KernelIdeal_ReferenceIdeal := by
  intro m ρ m' ρ' hpre hagree
  refine ⟨fun c => Cert.KernelIdeal.Gen.W6 (F := Ideal) m ρ c (Proc.devRef .tc Cert.KernelIdeal.main_v31),
    Cert.KernelIdeal.Drift.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  exact result_eq m ρ m' hpre c h0 h1 h2 h3 h4 h5 h6 h7

end Cert.Drift

end
-- ==== Proof.lean ====
/-
  The certificate of the drifting-field loss: a kernel in three passes — a generator network, per-tile softmax
  statistics, and per-tile aggregation with the two softmaxes fused into one exponential — against the whole-array
  jnp computation. On the extended reals, for real inputs, both compute the mean over all 4096·128 entries of the
  squared drifting field: the tiled pass merges per-tile column maxima and exponential sums into the whole column's
  (max of maxima; Σ_tiles lsum·exp(lmax − cmax)), replaces √(rowsoftmax·colsoftmax) by
  exp(a − ½(rmax + cmax))·rsum^{-1/2}·csum^{-1/2}, and sums V² tile by tile where the whole-array side takes
  the mean of (x − (x + V))².

  The three frames are the generated ones (the reference's is its run with the result dropped); the
  idealization rewrote nothing, so that conjunct is trivial; the value conjunct is `Cert.Drift.algebraic`.
-/
import proofs.«125113_j88270167868072_2_alg».proof.Defs
import proofs.«125113_j88270167868072_2_alg».proof.Proof.Gen.Kernel
import proofs.«125113_j88270167868072_2_alg».proof.Proof.Gen.Kernel.Skeleton
import proofs.«125113_j88270167868072_2_alg».proof.Proof.Gen.Kernel.Launch
import proofs.«125113_j88270167868072_2_alg».proof.Proof.Gen.Kernel.Points
import proofs.«125113_j88270167868072_2_alg».proof.Proof.Gen.Kernel.Frame
import proofs.«125113_j88270167868072_2_alg».proof.Proof.Gen.KernelIdeal
import proofs.«125113_j88270167868072_2_alg».proof.Proof.Gen.KernelIdeal.Skeleton
import proofs.«125113_j88270167868072_2_alg».proof.Proof.Gen.KernelIdeal.Launch
import proofs.«125113_j88270167868072_2_alg».proof.Proof.Gen.KernelIdeal.Points
import proofs.«125113_j88270167868072_2_alg».proof.Proof.Gen.KernelIdeal.Frame
import proofs.«125113_j88270167868072_2_alg».proof.Proof.Gen.ReferenceIdeal
import proofs.«125113_j88270167868072_2_alg».proof.Proof.Gen.Pre_finite_inputs
import proofs.«125113_j88270167868072_2_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  Cert.Drift.algebraic⟩

end Cert.Proof

end
